-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v100)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v109)) (v3 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v109) = v2 c
          ∧ r.2.mem ((c.tc : Thread Cert.KernelIdeal.nD Cert.KernelIdeal.τ).loc Cert.KernelIdeal.main_v112) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel

variable [Facts]

def fn {F : FTy → Type} [FloatOps F] (main_arg0 : FVec F S4000000x4 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  main_v3
-- ==== Kernel.lean ====
abbrev S4000000x4 : Shape := ⟨2, ![4000000, 4]⟩
abbrev S4x4000000 : Shape := ⟨2, ![4, 4000000]⟩
abbrev S1x4000000 : Shape := ⟨2, ![1, 4000000]⟩
abbrev S4x160000 : Shape := ⟨2, ![4, 160000]⟩
abbrev S1x160000 : Shape := ⟨2, ![1, 160000]⟩
abbrev S4000000 : Shape := ⟨1, ![4000000]⟩
abbrev S_ : Shape := ⟨0, ![]⟩
abbrev S4000000x1 : Shape := ⟨2, ![4000000, 1]⟩
abbrev S1 : Shape := ⟨1, ![1]⟩
abbrev S3999999 : Shape := ⟨1, ![3999999]⟩
abbrev S4000000x3 : Shape := ⟨2, ![4000000, 3]⟩
abbrev S20000x3 : Shape := ⟨2, ![20000, 3]⟩
abbrev S20000x5 : Shape := ⟨2, ![20000, 5]⟩
abbrev S4000000x2 : Shape := ⟨2, ![4000000, 2]⟩
abbrev S20000x5x1 : Shape := ⟨3, ![20000, 5, 1]⟩
abbrev S20000x5x4 : Shape := ⟨3, ![20000, 5, 4]⟩
abbrev S20000 : Shape := ⟨1, ![20000]⟩

abbrev nBuf : Space → Nat
  | .hbm => 197
  | .vmem => 4
  | .smem => 0
  | _ => 0

abbrev hbmTy0_0 (i : Nat) : BufTy := match i % 128 with
  | 0 => ⟨S4000000x4, .f32⟩
  | 1 => ⟨S4x4000000, .f32⟩
  | 2 => ⟨S1x4000000, .i32⟩
  | 3 => ⟨S4000000, .i32⟩
  | 4 => ⟨S4000000, .i32⟩
  | 5 => ⟨S4000000, .i32⟩
  | 6 => ⟨S4000000, .i32⟩
  | 7 => ⟨S_, .i32⟩
  | 8 => ⟨S4000000, .i32⟩
  | 9 => ⟨S4000000, .i1⟩
  | 10 => ⟨S_, .i32⟩
  | 11 => ⟨S4000000, .i32⟩
  | 12 => ⟨S4000000, .i32⟩
  | 13 => ⟨S4000000, .i32⟩
  | 14 => ⟨S4000000x1, .i32⟩
  | 15 => ⟨S4000000, .i32⟩
  | 16 => ⟨S_, .i32⟩
  | 17 => ⟨S4000000, .i32⟩
  | 18 => ⟨S4000000, .i1⟩
  | 19 => ⟨S_, .i1⟩
  | 20 => ⟨S1, .i1⟩
  | 21 => ⟨S3999999, .i32⟩
  | 22 => ⟨S3999999, .i32⟩
  | 23 => ⟨S3999999, .i1⟩
  | 24 => ⟨S4000000, .i1⟩
  | 25 => ⟨S4000000, .i1⟩
  | 26 => ⟨S4000000, .i32⟩
  | 27 => ⟨S_, .i32⟩
  | 28 => ⟨S_, .i32⟩
  | 29 => ⟨S4000000, .i32⟩
  | 30 => ⟨S_, .i32⟩
  | 31 => ⟨S4000000, .i32⟩
  | 32 => ⟨S4000000, .i32⟩
  | 33 => ⟨S4000000, .i32⟩
  | 34 => ⟨S_, .i32⟩
  | 35 => ⟨S_, .i32⟩
  | 36 => ⟨S4000000, .i32⟩
  | 37 => ⟨S4000000, .i32⟩
  | 38 => ⟨S_, .i32⟩
  | 39 => ⟨S_, .i32⟩
  | 40 => ⟨S4000000, .i32⟩
  | 41 => ⟨S4000000, .i32⟩
  | 42 => ⟨S_, .i32⟩
  | 43 => ⟨S4000000, .i32⟩
  | 44 => ⟨S4000000, .i1⟩
  | 45 => ⟨S4000000, .i1⟩
  | 46 => ⟨S_, .i32⟩
  | 47 => ⟨S4000000, .i32⟩
  | 48 => ⟨S4000000, .i1⟩
  | 49 => ⟨S4000000, .i1⟩
  | 50 => ⟨S_, .i32⟩
  | 51 => ⟨S_, .i32⟩
  | 52 => ⟨S4000000, .i32⟩
  | 53 => ⟨S4000000, .i32⟩
  | 54 => ⟨S_, .i32⟩
  | 55 => ⟨S_, .i32⟩
  | 56 => ⟨S4000000, .i32⟩
  | 57 => ⟨S4000000, .i32⟩
  | 58 => ⟨S_, .i32⟩
  | 59 => ⟨S_, .i32⟩
  | 60 => ⟨S4000000, .i32⟩
  | 61 => ⟨S4000000, .i32⟩
  | 62 => ⟨S4000000, .i32⟩
  | 63 => ⟨S_, .i32⟩
  | 64 => ⟨S4000000, .i32⟩
  | 65 => ⟨S4000000, .i1⟩
  | 66 => ⟨S4000000, .i32⟩
  | 67 => ⟨S4000000, .i32⟩
  | 68 => ⟨S_, .i32⟩
  | 69 => ⟨S4000000, .i32⟩
  | 70 => ⟨S4000000, .i1⟩
  | 71 => ⟨S4000000, .i1⟩
  | 72 => ⟨S_, .i32⟩
  | 73 => ⟨S4000000, .i32⟩
  | 74 => ⟨S4000000, .i32⟩
  | 75 => ⟨S4000000, .i32⟩
  | 76 => ⟨S_, .i32⟩
  | 77 => ⟨S4000000, .i32⟩
  | 78 => ⟨S4000000, .i32⟩
  | 79 => ⟨S4000000, .i32⟩
  | 80 => ⟨S_, .i32⟩
  | 81 => ⟨S_, .i32⟩
  | 82 => ⟨S4000000, .i32⟩
  | 83 => ⟨S4000000, .i32⟩
  | 84 => ⟨S4000000, .i32⟩
  | 85 => ⟨S_, .i32⟩
  | 86 => ⟨S4000000, .i32⟩
  | 87 => ⟨S4000000, .i1⟩
  | 88 => ⟨S4000000, .i32⟩
  | 89 => ⟨S4000000, .i32⟩
  | 90 => ⟨S_, .i32⟩
  | 91 => ⟨S4000000, .i32⟩
  | 92 => ⟨S4000000, .i1⟩
  | 93 => ⟨S4000000, .i1⟩
  | 94 => ⟨S_, .i32⟩
  | 95 => ⟨S4000000, .i32⟩
  | 96 => ⟨S4000000, .i32⟩
  | 97 => ⟨S4000000, .i32⟩
  | 98 => ⟨S_, .i32⟩
  | 99 => ⟨S4000000, .i32⟩
  | 100 => ⟨S4000000, .i32⟩
  | 101 => ⟨S4000000, .i32⟩
  | 102 => ⟨S4000000x1, .i32⟩
  | 103 => ⟨S4000000x1, .i32⟩
  | 104 => ⟨S4000000x1, .i32⟩
  | 105 => ⟨S4000000x3, .i32⟩
  | 106 => ⟨S_, .i32⟩
  | 107 => ⟨S4000000, .i32⟩
  | 108 => ⟨S4000000, .i1⟩
  | 109 => ⟨S4000000, .i1⟩
  | 110 => ⟨S_, .i32⟩
  | 111 => ⟨S_, .i32⟩
  | 112 => ⟨S4000000, .i32⟩
  | 113 => ⟨S4000000, .i32⟩
  | 114 => ⟨S_, .i32⟩
  | 115 => ⟨S20000x3, .i32⟩
  | 116 => ⟨S_, .i32⟩
  | 117 => ⟨S4000000, .i32⟩
  | 118 => ⟨S4000000, .i1⟩
  | 119 => ⟨S_, .i32⟩
  | 120 => ⟨S4000000, .i32⟩
  | 121 => ⟨S4000000, .i32⟩
  | 122 => ⟨S4000000, .i32⟩
  | 123 => ⟨S4000000x1, .i32⟩
  | 124 => ⟨S20000x3, .i32⟩
  | 125 => ⟨S_, .i32⟩
  | 126 => ⟨S20000x5, .i32⟩
  | 127 => ⟨S_, .i32⟩
  | _ => ⟨S4000000x4, .f32⟩

abbrev hbmTy0_1 (i : Nat) : BufTy := match i % 128 with
  | 0 => ⟨S4000000, .i32⟩
  | 1 => ⟨S4000000, .i1⟩
  | 2 => ⟨S_, .i32⟩
  | 3 => ⟨S4000000, .i32⟩
  | 4 => ⟨S4000000, .i32⟩
  | 5 => ⟨S4000000, .i32⟩
  | 6 => ⟨S_, .i32⟩
  | 7 => ⟨S4000000, .i32⟩
  | 8 => ⟨S4000000, .i1⟩
  | 9 => ⟨S_, .i32⟩
  | 10 => ⟨S4000000, .i32⟩
  | 11 => ⟨S4000000, .i32⟩
  | 12 => ⟨S4000000, .i32⟩
  | 13 => ⟨S4000000x1, .i32⟩
  | 14 => ⟨S4000000x1, .i32⟩
  | 15 => ⟨S4000000x2, .i32⟩
  | 16 => ⟨S20000x5, .i32⟩
  | 17 => ⟨S_, .i1⟩
  | 18 => ⟨S20000x5, .i1⟩
  | 19 => ⟨S_, .i32⟩
  | 20 => ⟨S4000000, .i32⟩
  | 21 => ⟨S4000000, .i1⟩
  | 22 => ⟨S_, .i32⟩
  | 23 => ⟨S4000000, .i32⟩
  | 24 => ⟨S4000000, .i32⟩
  | 25 => ⟨S4000000, .i32⟩
  | 26 => ⟨S_, .i32⟩
  | 27 => ⟨S4000000, .i32⟩
  | 28 => ⟨S4000000, .i1⟩
  | 29 => ⟨S_, .i32⟩
  | 30 => ⟨S4000000, .i32⟩
  | 31 => ⟨S4000000, .i32⟩
  | 32 => ⟨S4000000, .i32⟩
  | 33 => ⟨S4000000x1, .i32⟩
  | 34 => ⟨S4000000x1, .i32⟩
  | 35 => ⟨S4000000x2, .i32⟩
  | 36 => ⟨S_, .i1⟩
  | 37 => ⟨S4000000, .i1⟩
  | 38 => ⟨S20000x5, .i1⟩
  | 39 => ⟨S_, .i32⟩
  | 40 => ⟨S20000x5, .i32⟩
  | 41 => ⟨S20000x5, .i1⟩
  | 42 => ⟨S_, .i32⟩
  | 43 => ⟨S20000x5, .i32⟩
  | 44 => ⟨S20000x5, .i32⟩
  | 45 => ⟨S20000x5, .i32⟩
  | 46 => ⟨S20000x5x1, .i32⟩
  | 47 => ⟨S20000x5x4, .f32⟩
  | 48 => ⟨S20000x5x1, .i1⟩
  | 49 => ⟨S20000x5x1, .f32⟩
  | 50 => ⟨S20000x5x4, .f32⟩
  | 51 => ⟨S20000x5x4, .f32⟩
  | 52 => ⟨S_, .i32⟩
  | 53 => ⟨S20000, .i32⟩
  | 54 => ⟨S4000000, .i32⟩
  | 55 => ⟨S_, .i32⟩
  | 56 => ⟨S4000000, .i32⟩
  | 57 => ⟨S4000000, .i1⟩
  | 58 => ⟨S_, .i32⟩
  | 59 => ⟨S4000000, .i32⟩
  | 60 => ⟨S4000000, .i32⟩
  | 61 => ⟨S4000000, .i32⟩
  | 62 => ⟨S4000000x1, .i32⟩
  | 63 => ⟨S20000, .i32⟩
  | 64 => ⟨S4000000, .i32⟩
  | 65 => ⟨S_, .i32⟩
  | 66 => ⟨S_, .i32⟩
  | 67 => ⟨S_, .i32⟩
  | 68 => ⟨S_, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | .local _ .vmem, ⟨0, _⟩ => ⟨S4x160000, .f32⟩
  | .local _ .vmem, ⟨1, _⟩ => ⟨S4x160000, .f32⟩
  | .local _ .vmem, ⟨2, _⟩ => ⟨S1x160000, .i32⟩
  | .local _ .vmem, ⟨3, _⟩ => ⟨S1x160000, .i32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1_0 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call1_call0_c : Ref sig .tc := ⟨.hbm, 27, rfl⟩
abbrev main_call1_call0_v0 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_call2_v0 : Ref sig .tc := ⟨.hbm, 35, rfl⟩
abbrev main_call2_v1 : Ref sig .tc := ⟨.hbm, 36, rfl⟩
abbrev main_v24 : Ref sig .tc := ⟨.hbm, 37, rfl⟩
abbrev main_call3_c : Ref sig .tc := ⟨.hbm, 38, rfl⟩
abbrev main_call3_v0 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_call4_v0 : Ref sig .tc := ⟨.hbm, 51, rfl⟩
abbrev main_call4_v1 : Ref sig .tc := ⟨.hbm, 52, rfl⟩
abbrev main_v33 : Ref sig .tc := ⟨.hbm, 53, rfl⟩
abbrev main_c_8 : Ref sig .tc := ⟨.hbm, 54, rfl⟩
abbrev main_call5_v0 : Ref sig .tc := ⟨.hbm, 55, rfl⟩
abbrev main_call5_v1 : Ref sig .tc := ⟨.hbm, 56, rfl⟩
abbrev main_v34 : Ref sig .tc := ⟨.hbm, 57, rfl⟩
abbrev main_c_9 : Ref sig .tc := ⟨.hbm, 58, rfl⟩
abbrev main_call6_v0 : Ref sig .tc := ⟨.hbm, 59, rfl⟩
abbrev main_call6_v1 : Ref sig .tc := ⟨.hbm, 60, rfl⟩
abbrev main_call6_v2 : Ref sig .tc := ⟨.hbm, 61, rfl⟩
abbrev main_call6_v3 : Ref sig .tc := ⟨.hbm, 62, rfl⟩
abbrev main_call6_v4 : Ref sig .tc := ⟨.hbm, 63, rfl⟩
abbrev main_call6_v5 : Ref sig .tc := ⟨.hbm, 64, rfl⟩
abbrev main_call6_v6 : Ref sig .tc := ⟨.hbm, 65, rfl⟩
abbrev main_call6_v7 : Ref sig .tc := ⟨.hbm, 66, rfl⟩
abbrev main_call6_v8 : Ref sig .tc := ⟨.hbm, 67, rfl⟩
abbrev main_call6_c : Ref sig .tc := ⟨.hbm, 68, rfl⟩
abbrev main_call6_v9 : Ref sig .tc := ⟨.hbm, 69, rfl⟩
abbrev main_call6_v10 : Ref sig .tc := ⟨.hbm, 70, rfl⟩
abbrev main_call6_v11 : Ref sig .tc := ⟨.hbm, 71, rfl⟩
abbrev main_call6_c_0 : Ref sig .tc := ⟨.hbm, 72, rfl⟩
abbrev main_call6_v12 : Ref sig .tc := ⟨.hbm, 73, rfl⟩
abbrev main_call6_v13 : Ref sig .tc := ⟨.hbm, 74, rfl⟩
abbrev main_v35 : Ref sig .tc := ⟨.hbm, 75, rfl⟩
abbrev main_c_10 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_c_11 : Ref sig .tc := ⟨.hbm, 80, rfl⟩
abbrev main_call7_v0 : Ref sig .tc := ⟨.hbm, 81, rfl⟩
abbrev main_call7_v1 : Ref sig .tc := ⟨.hbm, 82, rfl⟩
abbrev main_call7_v2 : Ref sig .tc := ⟨.hbm, 83, rfl⟩
abbrev main_call7_v3 : Ref sig .tc := ⟨.hbm, 84, rfl⟩
abbrev main_call7_v4 : Ref sig .tc := ⟨.hbm, 85, rfl⟩
abbrev main_call7_v5 : Ref sig .tc := ⟨.hbm, 86, rfl⟩
abbrev main_call7_v6 : Ref sig .tc := ⟨.hbm, 87, rfl⟩
abbrev main_call7_v7 : Ref sig .tc := ⟨.hbm, 88, rfl⟩
abbrev main_call7_v8 : Ref sig .tc := ⟨.hbm, 89, rfl⟩
abbrev main_call7_c : Ref sig .tc := ⟨.hbm, 90, rfl⟩
abbrev main_call7_v9 : Ref sig .tc := ⟨.hbm, 91, rfl⟩
abbrev main_call7_v10 : Ref sig .tc := ⟨.hbm, 92, rfl⟩
abbrev main_call7_v11 : Ref sig .tc := ⟨.hbm, 93, rfl⟩
abbrev main_call7_c_0 : Ref sig .tc := ⟨.hbm, 94, rfl⟩
abbrev main_call7_v12 : Ref sig .tc := ⟨.hbm, 95, rfl⟩
abbrev main_call7_v13 : Ref sig .tc := ⟨.hbm, 96, rfl⟩
abbrev main_v39 : Ref sig .tc := ⟨.hbm, 97, rfl⟩
abbrev main_c_12 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_c_13 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_c_14 : Ref sig .tc := ⟨.hbm, 110, rfl⟩
abbrev main_call8_v0 : Ref sig .tc := ⟨.hbm, 111, rfl⟩
abbrev main_call8_v1 : Ref sig .tc := ⟨.hbm, 112, rfl⟩
abbrev main_v50 : Ref sig .tc := ⟨.hbm, 113, rfl⟩
abbrev main_c_15 : Ref sig .tc := ⟨.hbm, 114, rfl⟩
abbrev main_v51 : Ref sig .tc := ⟨.hbm, 115, rfl⟩
abbrev main_c_16 : Ref sig .tc := ⟨.hbm, 116, rfl⟩
abbrev main_v52 : Ref sig .tc := ⟨.hbm, 117, rfl⟩
abbrev main_v53 : Ref sig .tc := ⟨.hbm, 118, rfl⟩
abbrev main_c_17 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_c_18 : Ref sig .tc := ⟨.hbm, 125, rfl⟩
abbrev main_v59 : Ref sig .tc := ⟨.hbm, 126, rfl⟩
abbrev main_c_19 : Ref sig .tc := ⟨.hbm, 127, rfl⟩
abbrev main_v60 : Ref sig .tc := ⟨.hbm, 128, rfl⟩
abbrev main_v61 : Ref sig .tc := ⟨.hbm, 129, rfl⟩
abbrev main_c_20 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_c_21 : Ref sig .tc := ⟨.hbm, 134, rfl⟩
abbrev main_v65 : Ref sig .tc := ⟨.hbm, 135, rfl⟩
abbrev main_v66 : Ref sig .tc := ⟨.hbm, 136, rfl⟩
abbrev main_c_22 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_c_23 : Ref sig .tc := ⟨.hbm, 145, rfl⟩
abbrev main_v74 : Ref sig .tc := ⟨.hbm, 146, rfl⟩
abbrev main_c_24 : Ref sig .tc := ⟨.hbm, 147, rfl⟩
abbrev main_v75 : Ref sig .tc := ⟨.hbm, 148, rfl⟩
abbrev main_v76 : Ref sig .tc := ⟨.hbm, 149, rfl⟩
abbrev main_c_25 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_c_26 : Ref sig .tc := ⟨.hbm, 154, rfl⟩
abbrev main_v80 : Ref sig .tc := ⟨.hbm, 155, rfl⟩
abbrev main_v81 : Ref sig .tc := ⟨.hbm, 156, rfl⟩
abbrev main_c_27 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_c_28 : Ref sig .tc := ⟨.hbm, 164, rfl⟩
abbrev main_v88 : Ref sig .tc := ⟨.hbm, 165, rfl⟩
abbrev main_v89 : Ref sig .tc := ⟨.hbm, 166, rfl⟩
abbrev main_c_29 : Ref sig .tc := ⟨.hbm, 167, rfl⟩
abbrev main_v90 : Ref sig .tc := ⟨.hbm, 168, rfl⟩
abbrev main_v91 : Ref sig .tc := ⟨.hbm, 169, rfl⟩
abbrev main_c_30 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_c_31 : Ref sig .tc := ⟨.hbm, 180, rfl⟩
abbrev main_v101 : Ref sig .tc := ⟨.hbm, 181, rfl⟩
abbrev main_v102 : Ref sig .tc := ⟨.hbm, 182, rfl⟩
abbrev main_c_32 : Ref sig .tc := ⟨.hbm, 183, rfl⟩
abbrev main_v103 : Ref sig .tc := ⟨.hbm, 184, rfl⟩
abbrev main_v104 : Ref sig .tc := ⟨.hbm, 185, rfl⟩
abbrev main_c_33 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_c_34 : Ref sig .tc := ⟨.hbm, 193, rfl⟩
abbrev main_v111 : Ref sig .tc := ⟨.hbm, 194, rfl⟩
abbrev main_c_35 : Ref sig .tc := ⟨.hbm, 195, rfl⟩
abbrev main_v112 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x160000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S4000000x4_S4x4000000_1_0 : S4000000x4.Transposes [1, 0] S4x4000000
  inb_S4x160000_S1x160000_0_0 : ∀ a, (![0, 0] : Fin 2 → Nat) a + S1x160000.size a ≤ S4x160000.size a
  h_S1x160000 : 0 < S1x160000.numel
  shapeCasts_S1x160000_S1x160000 : S1x160000.ShapeCasts S1x160000
  inb_S4x160000_S1x160000_1_0 : ∀ a, (![1, 0] : Fin 2 → Nat) a + S1x160000.size a ≤ S4x160000.size a
  inb_S4x160000_S1x160000_2_0 : ∀ a, (![2, 0] : Fin 2 → Nat) a + S1x160000.size a ≤ S4x160000.size a
  inb_S1x160000_S1x160000_0_0 : ∀ a, (![0, 0] : Fin 2 → Nat) a + S1x160000.size a ≤ S1x160000.size a
  shapeCasts_S1x4000000_S4000000 : S1x4000000.ShapeCasts S4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S1 : S_.BroadcastsInDim S1 (![] : Fin 0 → Fin S1.rank)
  slices_S4000000_S3999999_1 : S4000000.Slices ![1] S3999999
  slices_S4000000_S3999999_0 : S4000000.Slices ![0] S3999999
  concatenates_S1_S3999999_S4000000_d0 : Shape.Concatenates [S1, S3999999] S4000000 0
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  h_S_ : 0 < S_.numel
  concatenates_S4000000x1_S4000000x1_S4000000x1_S4000000x3_d1 : Shape.Concatenates [S4000000x1, S4000000x1, S4000000x1] S4000000x3 1
  bcast_S_S20000x3 : S_.BroadcastsInDim S20000x3 (![] : Fin 0 → Fin S20000x3.rank)
  bcast_S_S20000x5 : S_.BroadcastsInDim S20000x5 (![] : Fin 0 → Fin S20000x5.rank)
  concatenates_S4000000x1_S4000000x1_S4000000x2_d1 : Shape.Concatenates [S4000000x1, S4000000x1] S4000000x2 1
  bcast_S20000x5_S20000x5x1_0_1 : S20000x5.BroadcastsInDim S20000x5x1 (![0, 1] : Fin 2 → Fin S20000x5x1.rank)
  bcast_S20000x5x1_S20000x5x4_0_1_2 : S20000x5x1.BroadcastsInDim S20000x5x4 (![0, 1, 2] : Fin 3 → Fin S20000x5x4.rank)
  bcast_S_S20000 : S_.BroadcastsInDim S20000 (![] : Fin 0 → Fin S20000.rank)
  reducesTo_S4000000_S_d0 : S4000000.ReducesTo [0] S_
  gather_S4000000_S4000000x1_S4000000_n_0_n_n_0_1_1_wf : GatherDims.WF S4000000 S4000000x1 S4000000 [] [0] [] [0] [] 1 ![1]
  scatter_S20000x3_S4000000x1_S4000000x3_1_0_0_1_wf : ScatterDims.WF S20000x3 S4000000x1 S4000000x3 [1] [0] [0] 1
  scatter_S20000x5_S4000000x2_S4000000_n_01_01_1_wf : ScatterDims.WF S20000x5 S4000000x2 S4000000 [] [0, 1] [0, 1] 1
  gather_S4000000x4_S20000x5x1_S20000x5x4_2_0_n_n_0_2_14_wf : GatherDims.WF S4000000x4 S20000x5x1 S20000x5x4 [2] [0] [] [0] [] 2 ![1, 4]
  scatter_S20000_S4000000x1_S4000000_n_0_0_1_wf : ScatterDims.WF S20000 S4000000x1 S4000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x160000.size a ≤ S4x4000000.size a
  hwx0_0 : ∀ i : grid0.Coords, EltTy.bits .f32 = 32 ∨ (Rect.block (s := S4x4000000) S4x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x160000.size a ≤ S1x4000000.size a
  hwx0_1 : ∀ i : grid0.Coords, EltTy.bits .i32 = 32 ∨ (Rect.block (s := S1x4000000) S1x160000.size (cc0_transform_1 i) (hinb0_1 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def scatter_S20000x3_S4000000x1_S4000000x3_1_0_0_1 : ScatterDims S20000x3 S4000000x1 S4000000x3 where
  updateWindowDims := [1]
  insertedWindowDims := [0]
  scatterDimsToOperandDims := [0]
  indexVectorDim := 1
  wf := scatter_S20000x3_S4000000x1_S4000000x3_1_0_0_1_wf
def scatter_S20000x5_S4000000x2_S4000000_n_01_01_1 : ScatterDims S20000x5 S4000000x2 S4000000 where
  updateWindowDims := []
  insertedWindowDims := [0, 1]
  scatterDimsToOperandDims := [0, 1]
  indexVectorDim := 1
  wf := scatter_S20000x5_S4000000x2_S4000000_n_01_01_1_wf
def gather_S4000000x4_S20000x5x1_S20000x5x4_2_0_n_n_0_2_14 : GatherDims S4000000x4 S20000x5x1 S20000x5x4 where
  offsetDims := [2]
  collapsedSliceDims := [0]
  operandBatchingDims := []
  startIndicesBatchingDims := []
  startIndexMap := [0]
  indexVectorDim := 2
  sliceSizes := ![1, 4]
  wf := gather_S4000000x4_S20000x5x1_S20000x5x4_2_0_n_n_0_2_14_wf
def scatter_S20000_S4000000x1_S4000000_n_0_0_1 : ScatterDims S20000 S4000000x1 S4000000 where
  updateWindowDims := []
  insertedWindowDims := [0]
  scatterDimsToOperandDims := [0]
  indexVectorDim := 1
  wf := scatter_S20000_S4000000x1_S4000000_n_0_0_1_wf

abbrev win0_0 : Pipeline.Window sig grid0 :=
  Pipeline.Window.ofSpec (Memref.whole main_v0) S4x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x160000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S3 : Shape := ⟨1, ![3]⟩
abbrev S4000000x3 : Shape := ⟨2, ![4000000, 3]⟩
abbrev S1x3 : Shape := ⟨2, ![1, 3]⟩
abbrev S_ : Shape := ⟨0, ![]⟩
abbrev S4000000 : Shape := ⟨1, ![4000000]⟩
abbrev S4000000x1 : Shape := ⟨2, ![4000000, 1]⟩
abbrev S1 : Shape := ⟨1, ![1]⟩
abbrev S3999999 : Shape := ⟨1, ![3999999]⟩
abbrev S20000x5x4 : Shape := ⟨3, ![20000, 5, 4]⟩
abbrev S4000000x2 : Shape := ⟨2, ![4000000, 2]⟩
abbrev S20000 : Shape := ⟨1, ![20000]⟩
abbrev S20000x3 : Shape := ⟨2, ![20000, 3]⟩

abbrev nBuf : Space → Nat
  | .hbm => 182
  | .vmem => 0
  | .smem => 0
  | _ => 0

abbrev hbmTy0_0 (i : Nat) : BufTy := match i % 128 with
  | 0 => ⟨S4000000x4, .f32⟩
  | 1 => ⟨S3, .f32⟩
  | 2 => ⟨S3, .f32⟩
  | 3 => ⟨S3, .f32⟩
  | 4 => ⟨S3, .i32⟩
  | 5 => ⟨S4000000x3, .f32⟩
  | 6 => ⟨S1x3, .f32⟩
  | 7 => ⟨S4000000x3, .f32⟩
  | 8 => ⟨S4000000x3, .i1⟩
  | 9 => ⟨S4000000x3, .f32⟩
  | 10 => ⟨S1x3, .f32⟩
  | 11 => ⟨S4000000x3, .f32⟩
  | 12 => ⟨S4000000x3, .i1⟩
  | 13 => ⟨S4000000x3, .i1⟩
  | 14 => ⟨S_, .i1⟩
  | 15 => ⟨S4000000, .i1⟩
  | 16 => ⟨S4000000x3, .f32⟩
  | 17 => ⟨S1x3, .f32⟩
  | 18 => ⟨S4000000x3, .f32⟩
  | 19 => ⟨S4000000x3, .f32⟩
  | 20 => ⟨S1x3, .f32⟩
  | 21 => ⟨S4000000x3, .f32⟩
  | 22 => ⟨S4000000x3, .f32⟩
  | 23 => ⟨S4000000x3, .f32⟩
  | 24 => ⟨S4000000x3, .i32⟩
  | 25 => ⟨S_, .i32⟩
  | 26 => ⟨S3, .i32⟩
  | 27 => ⟨S3, .i32⟩
  | 28 => ⟨S_, .i32⟩
  | 29 => ⟨S_, .i32⟩
  | 30 => ⟨S4000000x3, .i32⟩
  | 31 => ⟨S4000000x3, .i32⟩
  | 32 => ⟨S1x3, .i32⟩
  | 33 => ⟨S4000000x3, .i32⟩
  | 34 => ⟨S4000000x3, .i32⟩
  | 35 => ⟨S4000000x1, .i32⟩
  | 36 => ⟨S4000000, .i32⟩
  | 37 => ⟨S1, .i32⟩
  | 38 => ⟨S_, .i32⟩
  | 39 => ⟨S4000000, .i32⟩
  | 40 => ⟨S4000000, .i32⟩
  | 41 => ⟨S4000000x1, .i32⟩
  | 42 => ⟨S4000000, .i32⟩
  | 43 => ⟨S4000000, .i32⟩
  | 44 => ⟨S1, .i32⟩
  | 45 => ⟨S_, .i32⟩
  | 46 => ⟨S4000000, .i32⟩
  | 47 => ⟨S4000000, .i32⟩
  | 48 => ⟨S4000000x1, .i32⟩
  | 49 => ⟨S4000000, .i32⟩
  | 50 => ⟨S4000000, .i32⟩
  | 51 => ⟨S_, .i32⟩
  | 52 => ⟨S4000000, .i32⟩
  | 53 => ⟨S4000000, .i32⟩
  | 54 => ⟨S4000000, .i32⟩
  | 55 => ⟨S4000000, .i32⟩
  | 56 => ⟨S4000000, .i32⟩
  | 57 => ⟨S_, .i32⟩
  | 58 => ⟨S4000000, .i32⟩
  | 59 => ⟨S4000000, .i1⟩
  | 60 => ⟨S_, .i32⟩
  | 61 => ⟨S4000000, .i32⟩
  | 62 => ⟨S4000000, .i32⟩
  | 63 => ⟨S4000000, .i32⟩
  | 64 => ⟨S4000000x1, .i32⟩
  | 65 => ⟨S4000000, .i32⟩
  | 66 => ⟨S_, .i32⟩
  | 67 => ⟨S4000000, .i32⟩
  | 68 => ⟨S4000000, .i1⟩
  | 69 => ⟨S_, .i32⟩
  | 70 => ⟨S4000000, .i32⟩
  | 71 => ⟨S4000000, .i32⟩
  | 72 => ⟨S4000000, .i32⟩
  | 73 => ⟨S4000000x1, .i32⟩
  | 74 => ⟨S4000000x4, .f32⟩
  | 75 => ⟨S_, .i32⟩
  | 76 => ⟨S4000000, .i32⟩
  | 77 => ⟨S4000000, .i1⟩
  | 78 => ⟨S_, .i32⟩
  | 79 => ⟨S4000000, .i32⟩
  | 80 => ⟨S4000000, .i32⟩
  | 81 => ⟨S4000000, .i32⟩
  | 82 => ⟨S4000000x1, .i32⟩
  | 83 => ⟨S4000000x3, .i32⟩
  | 84 => ⟨S_, .i32⟩
  | 85 => ⟨S4000000, .i32⟩
  | 86 => ⟨S4000000, .i1⟩
  | 87 => ⟨S_, .i1⟩
  | 88 => ⟨S1, .i1⟩
  | 89 => ⟨S3999999, .i32⟩
  | 90 => ⟨S3999999, .i32⟩
  | 91 => ⟨S3999999, .i1⟩
  | 92 => ⟨S4000000, .i1⟩
  | 93 => ⟨S4000000, .i1⟩
  | 94 => ⟨S4000000, .i32⟩
  | 95 => ⟨S_, .i32⟩
  | 96 => ⟨S_, .i32⟩
  | 97 => ⟨S4000000, .i32⟩
  | 98 => ⟨S_, .i32⟩
  | 99 => ⟨S4000000, .i32⟩
  | 100 => ⟨S4000000, .i32⟩
  | 101 => ⟨S4000000, .i32⟩
  | 102 => ⟨S_, .i32⟩
  | 103 => ⟨S_, .i32⟩
  | 104 => ⟨S4000000, .i32⟩
  | 105 => ⟨S4000000, .i32⟩
  | 106 => ⟨S_, .i32⟩
  | 107 => ⟨S_, .i32⟩
  | 108 => ⟨S4000000, .i32⟩
  | 109 => ⟨S4000000, .i32⟩
  | 110 => ⟨S_, .i32⟩
  | 111 => ⟨S4000000, .i32⟩
  | 112 => ⟨S4000000, .i1⟩
  | 113 => ⟨S4000000, .i1⟩
  | 114 => ⟨S_, .i32⟩
  | 115 => ⟨S4000000, .i32⟩
  | 116 => ⟨S4000000, .i1⟩
  | 117 => ⟨S4000000, .i1⟩
  | 118 => ⟨S_, .i32⟩
  | 119 => ⟨S_, .i32⟩
  | 120 => ⟨S4000000, .i32⟩
  | 121 => ⟨S4000000, .i32⟩
  | 122 => ⟨S_, .i32⟩
  | 123 => ⟨S_, .i32⟩
  | 124 => ⟨S4000000, .i32⟩
  | 125 => ⟨S4000000, .i32⟩
  | 126 => ⟨S_, .f32⟩
  | 127 => ⟨S20000x5x4, .f32⟩
  | _ => ⟨S4000000x4, .f32⟩

abbrev hbmTy0_1 (i : Nat) : BufTy := match i % 128 with
  | 0 => ⟨S_, .i32⟩
  | 1 => ⟨S4000000, .i32⟩
  | 2 => ⟨S4000000, .i1⟩
  | 3 => ⟨S_, .i32⟩
  | 4 => ⟨S4000000, .i32⟩
  | 5 => ⟨S4000000, .i32⟩
  | 6 => ⟨S4000000, .i32⟩
  | 7 => ⟨S_, .i32⟩
  | 8 => ⟨S4000000, .i32⟩
  | 9 => ⟨S4000000, .i1⟩
  | 10 => ⟨S_, .i32⟩
  | 11 => ⟨S4000000, .i32⟩
  | 12 => ⟨S4000000, .i32⟩
  | 13 => ⟨S4000000, .i32⟩
  | 14 => ⟨S4000000x1, .i32⟩
  | 15 => ⟨S4000000x1, .i32⟩
  | 16 => ⟨S4000000x2, .i32⟩
  | 17 => ⟨S20000x5x4, .f32⟩
  | 18 => ⟨S_, .i32⟩
  | 19 => ⟨S20000, .i32⟩
  | 20 => ⟨S4000000, .i32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S20000, .i32⟩
  | 30 => ⟨S_, .i32⟩
  | 31 => ⟨S4000000, .i32⟩
  | 32 => ⟨S4000000, .i1⟩
  | 33 => ⟨S4000000, .i1⟩
  | 34 => ⟨S_, .i32⟩
  | 35 => ⟨S_, .i32⟩
  | 36 => ⟨S4000000, .i32⟩
  | 37 => ⟨S4000000, .i32⟩
  | 38 => ⟨S_, .i32⟩
  | 39 => ⟨S20000x3, .i32⟩
  | 40 => ⟨S_, .i32⟩
  | 41 => ⟨S4000000, .i32⟩
  | 42 => ⟨S4000000, .i1⟩
  | 43 => ⟨S_, .i32⟩
  | 44 => ⟨S4000000, .i32⟩
  | 45 => ⟨S4000000, .i32⟩
  | 46 => ⟨S4000000, .i32⟩
  | 47 => ⟨S4000000x1, .i32⟩
  | 48 => ⟨S20000x3, .i32⟩
  | 49 => ⟨S4000000, .i32⟩
  | 50 => ⟨S_, .i32⟩
  | 51 => ⟨S_, .i32⟩
  | 52 => ⟨S_, .i32⟩
  | 53 => ⟨S_, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_v19 : Ref sig .tc := ⟨.hbm, 26, rfl⟩
abbrev main_v20 : Ref sig .tc := ⟨.hbm, 27, rfl⟩
abbrev main_c_4 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_call1_v0 : Ref sig .tc := ⟨.hbm, 52, rfl⟩
abbrev main_v38 : Ref sig .tc := ⟨.hbm, 53, rfl⟩
abbrev main_call2_v0 : Ref sig .tc := ⟨.hbm, 54, rfl⟩
abbrev main_call2_v1_0 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call3_call0_c : Ref sig .tc := ⟨.hbm, 95, rfl⟩
abbrev main_call3_call0_v0 : Ref sig .tc := ⟨.hbm, 96, rfl⟩
abbrev main_v70 : Ref sig .tc := ⟨.hbm, 97, rfl⟩
abbrev main_c_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_15 : Ref sig .tc := ⟨.hbm, 102, rfl⟩
abbrev main_call4_v0 : Ref sig .tc := ⟨.hbm, 103, rfl⟩
abbrev main_call4_v1 : Ref sig .tc := ⟨.hbm, 104, rfl⟩
abbrev main_v74 : Ref sig .tc := ⟨.hbm, 105, rfl⟩
abbrev main_call5_c : Ref sig .tc := ⟨.hbm, 106, rfl⟩
abbrev main_call5_v0 : Ref sig .tc := ⟨.hbm, 107, rfl⟩
abbrev main_v75 : Ref sig .tc := ⟨.hbm, 108, rfl⟩
abbrev main_v76 : Ref sig .tc := ⟨.hbm, 109, rfl⟩
abbrev main_c_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_18 : Ref sig .tc := ⟨.hbm, 118, rfl⟩
abbrev main_call6_v0 : Ref sig .tc := ⟨.hbm, 119, rfl⟩
abbrev main_call6_v1 : Ref sig .tc := ⟨.hbm, 120, rfl⟩
abbrev main_v83 : Ref sig .tc := ⟨.hbm, 121, rfl⟩
abbrev main_c_19 : Ref sig .tc := ⟨.hbm, 122, rfl⟩
abbrev main_call7_v0 : Ref sig .tc := ⟨.hbm, 123, rfl⟩
abbrev main_call7_v1 : Ref sig .tc := ⟨.hbm, 124, rfl⟩
abbrev main_v84 : Ref sig .tc := ⟨.hbm, 125, rfl⟩
abbrev main_cst_20 : Ref sig .tc := ⟨.hbm, 126, rfl⟩
abbrev main_v85 : Ref sig .tc := ⟨.hbm, 127, rfl⟩
abbrev main_c_21 : Ref sig .tc := ⟨.hbm, 128, rfl⟩
abbrev main_v86 : Ref sig .tc := ⟨.hbm, 129, rfl⟩
abbrev main_v87 : Ref sig .tc := ⟨.hbm, 130, rfl⟩
abbrev main_c_22 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_23 : Ref sig .tc := ⟨.hbm, 135, rfl⟩
abbrev main_v91 : Ref sig .tc := ⟨.hbm, 136, rfl⟩
abbrev main_v92 : Ref sig .tc := ⟨.hbm, 137, rfl⟩
abbrev main_c_24 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_c_25 : Ref sig .tc := ⟨.hbm, 146, rfl⟩
abbrev main_v100 : Ref sig .tc := ⟨.hbm, 147, rfl⟩
abbrev main_v101 : Ref sig .tc := ⟨.hbm, 148, rfl⟩
abbrev main_c_26 : Ref sig .tc := ⟨.hbm, 149, rfl⟩
abbrev main_v102 : Ref sig .tc := ⟨.hbm, 150, rfl⟩
abbrev main_v103 : Ref sig .tc := ⟨.hbm, 151, rfl⟩
abbrev main_c_27 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_c_28 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_c_29 : Ref sig .tc := ⟨.hbm, 162, rfl⟩
abbrev main_call8_v0 : Ref sig .tc := ⟨.hbm, 163, rfl⟩
abbrev main_call8_v1 : Ref sig .tc := ⟨.hbm, 164, rfl⟩
abbrev main_v112 : Ref sig .tc := ⟨.hbm, 165, rfl⟩
abbrev main_c_30 : Ref sig .tc := ⟨.hbm, 166, rfl⟩
abbrev main_v113 : Ref sig .tc := ⟨.hbm, 167, rfl⟩
abbrev main_c_31 : Ref sig .tc := ⟨.hbm, 168, rfl⟩
abbrev main_v114 : Ref sig .tc := ⟨.hbm, 169, rfl⟩
abbrev main_v115 : Ref sig .tc := ⟨.hbm, 170, rfl⟩
abbrev main_c_32 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_c_33 : Ref sig .tc := ⟨.hbm, 178, rfl⟩
abbrev main_v122 : Ref sig .tc := ⟨.hbm, 179, rfl⟩
abbrev main_c_34 : Ref sig .tc := ⟨.hbm, 180, rfl⟩
abbrev main_v123 : Ref sig .tc := ⟨.hbm, 181, rfl⟩

abbrev nD : Nat := 1
abbrev τ : Topo := Topo.v7x

variable {F : FTy → Type} [FloatOps F]

class Facts₀ : Prop where
  slices_S4000000x4_S4000000x3_0_0 : S4000000x4.Slices ![0, 0] S4000000x3
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  reducesTo_S4000000x3_S4000000_d1 : S4000000x3.ReducesTo [1] S4000000
  h_S_ : 0 < S_.numel
  bcast_S_S3 : S_.BroadcastsInDim S3 (![] : Fin 0 → Fin S3.rank)
  bcast_S_S4000000x3 : S_.BroadcastsInDim S4000000x3 (![] : Fin 0 → Fin S4000000x3.rank)
  slices_S4000000x3_S4000000x1_0_0 : S4000000x3.Slices ![0, 0] S4000000x1
  shapeCasts_S4000000x1_S4000000 : S4000000x1.ShapeCasts S4000000
  slices_S3_S1_1 : S3.Slices ![1] S1
  shapeCasts_S1_S_ : S1.ShapeCasts S_
  bcast_S_S4000000 : S_.BroadcastsInDim S4000000 (![] : Fin 0 → Fin S4000000.rank)
  slices_S4000000x3_S4000000x1_0_1 : S4000000x3.Slices ![0, 1] S4000000x1
  slices_S3_S1_2 : S3.Slices ![2] S1
  slices_S4000000x3_S4000000x1_0_2 : S4000000x3.Slices ![0, 2] S4000000x1
  bcast_S4000000_S4000000x1_0 : S4000000.BroadcastsInDim S4000000x1 (![0] : Fin 1 → Fin S4000000x1.rank)
  bcast_S_S1 : S_.BroadcastsInDim S1 (![] : Fin 0 → Fin S1.rank)
  slices_S4000000_S3999999_1 : S4000000.Slices ![1] S3999999
  slices_S4000000_S3999999_0 : S4000000.Slices ![0] S3999999
  concatenates_S1_S3999999_S4000000_d0 : Shape.Concatenates [S1, S3999999] S4000000 0
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  bcast_S_S20000x5x4 : S_.BroadcastsInDim S20000x5x4 (![] : Fin 0 → Fin S20000x5x4.rank)
  concatenates_S4000000x1_S4000000x1_S4000000x2_d1 : Shape.Concatenates [S4000000x1, S4000000x1] S4000000x2 1
  bcast_S_S20000 : S_.BroadcastsInDim S20000 (![] : Fin 0 → Fin S20000.rank)
  bcast_S_S20000x3 : S_.BroadcastsInDim S20000x3 (![] : Fin 0 → Fin S20000x3.rank)
  reducesTo_S4000000_S_d0 : S4000000.ReducesTo [0] S_
  gather_S4000000_S4000000x1_S4000000_n_0_n_n_0_1_1_wf : GatherDims.WF S4000000 S4000000x1 S4000000 [] [0] [] [0] [] 1 ![1]
  gather_S4000000x4_S4000000x1_S4000000x4_1_0_n_n_0_1_14_wf : GatherDims.WF S4000000x4 S4000000x1 S4000000x4 [1] [0] [] [0] [] 1 ![1, 4]
  gather_S4000000x3_S4000000x1_S4000000x3_1_0_n_n_0_1_13_wf : GatherDims.WF S4000000x3 S4000000x1 S4000000x3 [1] [0] [] [0] [] 1 ![1, 3]
  scatter_S20000x5x4_S4000000x2_S4000000x4_1_01_01_1_wf : ScatterDims.WF S20000x5x4 S4000000x2 S4000000x4 [1] [0, 1] [0, 1] 1
  scatter_S20000_S4000000x1_S4000000_n_0_0_1_wf : ScatterDims.WF S20000 S4000000x1 S4000000 [] [0] [0] 1
  scatter_S20000x3_S4000000x1_S4000000x3_1_0_0_1_wf : ScatterDims.WF S20000x3 S4000000x1 S4000000x3 [1] [0] [0] 1

variable [Facts₀]

def comparator_i32_i32_d0 : BitVec 32 × BitVec 32 → BitVec 32 × BitVec 32 → BitVec 1 :=
  fun l r =>
    let v2 := IntOp.cmpi .slt l.1 r.1
    v2
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def gather_S4000000x4_S4000000x1_S4000000x4_1_0_n_n_0_1_14 : GatherDims S4000000x4 S4000000x1 S4000000x4 where
  offsetDims := [1]
  collapsedSliceDims := [0]
  operandBatchingDims := []
  startIndicesBatchingDims := []
  startIndexMap := [0]
  indexVectorDim := 1
  sliceSizes := ![1, 4]
  wf := gather_S4000000x4_S4000000x1_S4000000x4_1_0_n_n_0_1_14_wf
def gather_S4000000x3_S4000000x1_S4000000x3_1_0_n_n_0_1_13 : GatherDims S4000000x3 S4000000x1 S4000000x3 where
  offsetDims := [1]
  collapsedSliceDims := [0]
  operandBatchingDims := []
  startIndicesBatchingDims := []
  startIndexMap := [0]
  indexVectorDim := 1
  sliceSizes := ![1, 3]
  wf := gather_S4000000x3_S4000000x1_S4000000x3_1_0_n_n_0_1_13_wf
def scatter_S20000x5x4_S4000000x2_S4000000x4_1_01_01_1 : ScatterDims S20000x5x4 S4000000x2 S4000000x4 where
  updateWindowDims := [1]
  insertedWindowDims := [0, 1]
  scatterDimsToOperandDims := [0, 1]
  indexVectorDim := 1
  wf := scatter_S20000x5x4_S4000000x2_S4000000x4_1_01_01_1_wf
def scatter_S20000_S4000000x1_S4000000_n_0_0_1 : ScatterDims S20000 S4000000x1 S4000000 where
  updateWindowDims := []
  insertedWindowDims := [0]
  scatterDimsToOperandDims := [0]
  indexVectorDim := 1
  wf := scatter_S20000_S4000000x1_S4000000_n_0_0_1_wf
def scatter_S20000x3_S4000000x1_S4000000x3_1_0_0_1 : ScatterDims S20000x3 S4000000x1 S4000000x3 where
  updateWindowDims := [1]
  insertedWindowDims := [0]
  scatterDimsToOperandDims := [0]
  indexVectorDim := 1
  wf := scatter_S20000x3_S4000000x1_S4000000x3_1_0_0_1_wf

class Facts : Prop extends Facts₀ where

variable [Facts]
-- ==== Proof.KDefs.lean ====
/- The definitions the frame of `Kernel`'s @main is stated over: the buffer contents when the region is
   entered (`V0`, `V`), each window's block at a grid point (`iblk`), the four rectangles the body reads and
   writes, what the body leaves in the output window's buffer as a function of the input block (`out0_1`), and
   the proof data of the one pipeline (`dats`) with its projections. Nothing here is proved beyond projections. -/
import proofs.«166804_j37915971289632_2_alg».proof.Proof.Gen.Kernel.Launch
import proofs.«166804_j37915971289632_2_alg».proof.Proof.Gen.Kernel.Skeleton
import proofs.«166804_j37915971289632_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The host stretches of @main after the region, in order: 194 operations in eighteen stretches. -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14, hostOps1_15, hostOps1_16, hostOps1_17]

variable (m : (ℓ : Loc nD τ sig) → Buf (Elt F) ℓ)

/-- Core `c`'s TensorCore buffer contents when the region is entered, as a valuation: the launched memory after the
    one host operation before the region (the transpose of the input). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Rows 0, 1 and 2 of the (4, 160000) input block: the three rectangles the body loads. -/
abbrev r0 : Rect S4x160000 := Rect.unit (s := S4x160000) ![0, 0] S1x160000.size inb_S4x160000_S1x160000_0_0
abbrev r1 : Rect S4x160000 := Rect.unit (s := S4x160000) ![1, 0] S1x160000.size inb_S4x160000_S1x160000_1_0
abbrev r2 : Rect S4x160000 := Rect.unit (s := S4x160000) ![2, 0] S1x160000.size inb_S4x160000_S1x160000_2_0
/-- The whole (1, 160000) output block: the rectangle the body loads once (unused) and stores once. -/
abbrev rs : Rect S1x160000 := Rect.unit (s := S1x160000) ![0, 0] S1x160000.size inb_S1x160000_S1x160000_0_0

/-- The output window's staging buffer after the body, from the input window's block `x0`: its one store, which
    covers the buffer, of the key computed from rows 0, 1, 2 of `x0` (the payloads are the skeleton's). -/
def out0_1 (x0 : Vec F S4x160000 .f32) : Vec F S1x160000 .i32 :=
  View.canon [⟨rs, k0_pay1 (k0_pay4 (View.ld x0 r2)) (k0_pay5 (View.ld x0 r0) (View.ld x0 r1) (View.ld x0 r2))
    (k0_pay6 (View.ld x0 r0)) (k0_pay7 (View.ld x0 r1)) 0#32 1599#32⟩]

/-- The proof data of the one pipeline on core `c`: the arrays as the region finds them (`V`); after the body at
    point `t` the input's buffer at its block and the output's at `out0_1` of the input block; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents (the definition projected). -/
theorem A_eq (c : Dev nD) (w : Fin cfg0.W) : (dats m 0 c).A w = V m c (Pipeline.arrRef spec0 w) := by
  dsimp only [dats]

/-- What the body leaves, window by window (the definition's `match` reduced). -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

end Cert.Kernel.HF

end
-- ==== Proof.KFrame.lean ====
/- The frame of `Kernel`'s @main, at any float instance: @main is one host operation (a transpose), one
   region on a grid of 25 points (window 0 the transposed input in blocks of (4, 160000), window 1 the key array in
   blocks of (1, 160000)), then 194 host operations in eighteen stretches. The stretches after the region touch only
   unscoped TensorCore buffers, allocate nothing and write neither an array of the pipeline nor @main's argument; the
   body at a point loads rows 0, 1, 2 of its input block and stores one covering rectangle of its output block. From
   these: the body obligation, the run around the region to the library's frame post, and the frame claim (the
   argument array ends as launched). -/
import proofs.«166804_j37915971289632_2_alg».proof.Proof.KDefs

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The one host operation before the region allocates nothing. -/
theorem hostOps0_fresh : (hostOps0 : List (HloOp τ sig (Elt F))).Forall fun op => op.fresh = ∅ := by
  simp only [List.Forall]; repeat' constructor

/-- @main around the region: the host line before it, the region, the eighteen host stretches after it: it reduces to
    the region CONTINUED BY the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- A property of every stretch after the region, from the property of each of the eighteen. -/
theorem tail_forall (Q : List (HloOp τ sig (Elt F)) → Prop)
    (h0 : Q hostOps1)
    (h1 : Q hostOps1_1)
    (h2 : Q hostOps1_2)
    (h3 : Q hostOps1_3)
    (h4 : Q hostOps1_4)
    (h5 : Q hostOps1_5)
    (h6 : Q hostOps1_6)
    (h7 : Q hostOps1_7)
    (h8 : Q hostOps1_8)
    (h9 : Q hostOps1_9)
    (h10 : Q hostOps1_10)
    (h11 : Q hostOps1_11)
    (h12 : Q hostOps1_12)
    (h13 : Q hostOps1_13)
    (h14 : Q hostOps1_14)
    (h15 : Q hostOps1_15)
    (h16 : Q hostOps1_16)
    (h17 : Q hostOps1_17) :
    ∀ ops ∈ (tailOps : List (List (HloOp τ sig (Elt F)))), Q ops := by
  intro ops hops
  simp only [tailOps, List.mem_cons, List.mem_nil_iff, or_false] at hops
  rcases hops with rfl | rfl | rfl | rfl | rfl | rfl | rfl | rfl | rfl | rfl | rfl | rfl | rfl | rfl | rfl | rfl | rfl | rfl
  all_goals assumption

/-- An operation that writes one buffer, which is neither @main's argument nor an array of the pipeline. -/
def Keeps (op : HloOp τ sig (Elt F)) : Prop :=
  ∃ y : Ref sig .tc, op.writes = {Proc.devRef .tc y} ∧ y ∉ [main_arg0, main_v0, main_v1]

/-- Each array of the pipeline is one of the two tensor values the region is called on. -/
theorem arrRef_cases : ∀ w, Pipeline.arrRef spec0 w ∈ [main_v0, main_v1] := by decide

/-- Such an operation writes no array of the pipeline, -/
theorem Keeps.arr {op : HloOp τ sig (Elt F)} (h : Keeps op) (w) : Proc.devRef .tc (Pipeline.arrRef spec0 w) ∉ op.writes := by
  obtain ⟨y, hw, hy⟩ := h
  rw [hw, Finset.mem_singleton]
  intro e
  have e' := Proc.devRef_injective _ e
  have := arrRef_cases w
  rw [e'] at this
  exact hy (List.mem_cons_of_mem _ this)

/-- nor @main's argument. -/
theorem Keeps.arg {op : HloOp τ sig (Elt F)} (h : Keeps op) : Proc.devRef .tc main_arg0 ∉ op.writes := by
  obtain ⟨y, hw, hy⟩ := h
  rw [hw, Finset.mem_singleton]
  intro e
  exact hy (Proc.devRef_injective _ e ▸ List.mem_cons_self)

/-! ## The stretches after the region, one by one -/

theorem hostOps1_fresh : (hostOps1 : List (HloOp τ sig (Elt F))).Forall fun op => op.fresh = ∅ := by
  repeat' apply And.intro
  all_goals exact rfl
theorem hostOps1_keeps : (hostOps1 : List (HloOp τ sig (Elt F))).Forall Keeps := by
  repeat' apply And.intro
  all_goals exact ⟨_, rfl, by decide⟩
theorem hostOps1_1_fresh : (hostOps1_1 : List (HloOp τ sig (Elt F))).Forall fun op => op.fresh = ∅ := by
  repeat' apply And.intro
  all_goals exact rfl
theorem hostOps1_1_keeps : (hostOps1_1 : List (HloOp τ sig (Elt F))).Forall Keeps := by
  repeat' apply And.intro
  all_goals exact ⟨_, rfl, by decide⟩
theorem hostOps1_2_fresh : (hostOps1_2 : List (HloOp τ sig (Elt F))).Forall fun op => op.fresh = ∅ := by
  repeat' apply And.intro
  all_goals exact rfl
theorem hostOps1_2_keeps : (hostOps1_2 : List (HloOp τ sig (Elt F))).Forall Keeps := by
  repeat' apply And.intro
  all_goals exact ⟨_, rfl, by decide⟩
theorem hostOps1_3_fresh : (hostOps1_3 : List (HloOp τ sig (Elt F))).Forall fun op => op.fresh = ∅ := by
  repeat' apply And.intro
  all_goals exact rfl
theorem hostOps1_3_keeps : (hostOps1_3 : List (HloOp τ sig (Elt F))).Forall Keeps := by
  repeat' apply And.intro
  all_goals exact ⟨_, rfl, by decide⟩
theorem hostOps1_4_fresh : (hostOps1_4 : List (HloOp τ sig (Elt F))).Forall fun op => op.fresh = ∅ := by
  repeat' apply And.intro
  all_goals exact rfl
theorem hostOps1_4_keeps : (hostOps1_4 : List (HloOp τ sig (Elt F))).Forall Keeps := by
  repeat' apply And.intro
  all_goals exact ⟨_, rfl, by decide⟩
theorem hostOps1_5_fresh : (hostOps1_5 : List (HloOp τ sig (Elt F))).Forall fun op => op.fresh = ∅ := by
  repeat' apply And.intro
  all_goals exact rfl
theorem hostOps1_5_keeps : (hostOps1_5 : List (HloOp τ sig (Elt F))).Forall Keeps := by
  repeat' apply And.intro
  all_goals exact ⟨_, rfl, by decide⟩
theorem hostOps1_6_fresh : (hostOps1_6 : List (HloOp τ sig (Elt F))).Forall fun op => op.fresh = ∅ := by
  repeat' apply And.intro
  all_goals exact rfl
theorem hostOps1_6_keeps : (hostOps1_6 : List (HloOp τ sig (Elt F))).Forall Keeps := by
  repeat' apply And.intro
  all_goals exact ⟨_, rfl, by decide⟩
theorem hostOps1_7_fresh : (hostOps1_7 : List (HloOp τ sig (Elt F))).Forall fun op => op.fresh = ∅ := by
  repeat' apply And.intro
  all_goals exact rfl
theorem hostOps1_7_keeps : (hostOps1_7 : List (HloOp τ sig (Elt F))).Forall Keeps := by
  repeat' apply And.intro
  all_goals exact ⟨_, rfl, by decide⟩
theorem hostOps1_8_fresh : (hostOps1_8 : List (HloOp τ sig (Elt F))).Forall fun op => op.fresh = ∅ := by
  repeat' apply And.intro
  all_goals exact rfl
theorem hostOps1_8_keeps : (hostOps1_8 : List (HloOp τ sig (Elt F))).Forall Keeps := by
  repeat' apply And.intro
  all_goals exact ⟨_, rfl, by decide⟩
theorem hostOps1_9_fresh : (hostOps1_9 : List (HloOp τ sig (Elt F))).Forall fun op => op.fresh = ∅ := by
  repeat' apply And.intro
  all_goals exact rfl
theorem hostOps1_9_keeps : (hostOps1_9 : List (HloOp τ sig (Elt F))).Forall Keeps := by
  repeat' apply And.intro
  all_goals exact ⟨_, rfl, by decide⟩
theorem hostOps1_10_fresh : (hostOps1_10 : List (HloOp τ sig (Elt F))).Forall fun op => op.fresh = ∅ := by
  repeat' apply And.intro
  all_goals exact rfl
theorem hostOps1_10_keeps : (hostOps1_10 : List (HloOp τ sig (Elt F))).Forall Keeps := by
  repeat' apply And.intro
  all_goals exact ⟨_, rfl, by decide⟩
theorem hostOps1_11_fresh : (hostOps1_11 : List (HloOp τ sig (Elt F))).Forall fun op => op.fresh = ∅ := by
  repeat' apply And.intro
  all_goals exact rfl
theorem hostOps1_11_keeps : (hostOps1_11 : List (HloOp τ sig (Elt F))).Forall Keeps := by
  repeat' apply And.intro
  all_goals exact ⟨_, rfl, by decide⟩
theorem hostOps1_12_fresh : (hostOps1_12 : List (HloOp τ sig (Elt F))).Forall fun op => op.fresh = ∅ := by
  repeat' apply And.intro
  all_goals exact rfl
theorem hostOps1_12_keeps : (hostOps1_12 : List (HloOp τ sig (Elt F))).Forall Keeps := by
  repeat' apply And.intro
  all_goals exact ⟨_, rfl, by decide⟩
theorem hostOps1_13_fresh : (hostOps1_13 : List (HloOp τ sig (Elt F))).Forall fun op => op.fresh = ∅ := by
  repeat' apply And.intro
  all_goals exact rfl
theorem hostOps1_13_keeps : (hostOps1_13 : List (HloOp τ sig (Elt F))).Forall Keeps := by
  repeat' apply And.intro
  all_goals exact ⟨_, rfl, by decide⟩
theorem hostOps1_14_fresh : (hostOps1_14 : List (HloOp τ sig (Elt F))).Forall fun op => op.fresh = ∅ := by
  repeat' apply And.intro
  all_goals exact rfl
theorem hostOps1_14_keeps : (hostOps1_14 : List (HloOp τ sig (Elt F))).Forall Keeps := by
  repeat' apply And.intro
  all_goals exact ⟨_, rfl, by decide⟩
theorem hostOps1_15_fresh : (hostOps1_15 : List (HloOp τ sig (Elt F))).Forall fun op => op.fresh = ∅ := by
  repeat' apply And.intro
  all_goals exact rfl
theorem hostOps1_15_keeps : (hostOps1_15 : List (HloOp τ sig (Elt F))).Forall Keeps := by
  repeat' apply And.intro
  all_goals exact ⟨_, rfl, by decide⟩
theorem hostOps1_16_fresh : (hostOps1_16 : List (HloOp τ sig (Elt F))).Forall fun op => op.fresh = ∅ := by
  repeat' apply And.intro
  all_goals exact rfl
theorem hostOps1_16_keeps : (hostOps1_16 : List (HloOp τ sig (Elt F))).Forall Keeps := by
  repeat' apply And.intro
  all_goals exact ⟨_, rfl, by decide⟩
theorem hostOps1_17_fresh : (hostOps1_17 : List (HloOp τ sig (Elt F))).Forall fun op => op.fresh = ∅ := by
  repeat' apply And.intro
  all_goals exact rfl
theorem hostOps1_17_keeps : (hostOps1_17 : List (HloOp τ sig (Elt F))).Forall Keeps := by
  repeat' apply And.intro
  all_goals exact ⟨_, rfl, by decide⟩

/-! ## What the run around the region asks of the stretches after it -/

/-- Operations over TensorCore references touch the pipeline's arrays and the bypassing buffers only (each
    operation's buffers are unscoped TensorCore references, and with nothing prefetched every such reference is one or
    the other). -/
theorem sub_of (ops : List (HloOp τ sig (Elt F))) (h : ops.Forall fun op => op.bufs ⊆ StableHlo.tcRefs τ sig) :
    ∀ op ∈ ops, op.bufs ⊆ Pipeline.tailRefs sig Pipeline.Prefetch.none spec0 := by
  rw [Pipeline.tailRefs_none spec0 launch0.win.arr_unscoped]
  intro op hop
  exact Pipeline.sub_ucRefs op ((List.forall_iff_forall_mem.mp h) op hop)

/-- The stretches after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 :=
  tail_forall _ (sub_of _ hostOps1_sub) (sub_of _ hostOps1_1_sub) (sub_of _ hostOps1_2_sub) (sub_of _ hostOps1_3_sub) (sub_of _ hostOps1_4_sub) (sub_of _ hostOps1_5_sub) (sub_of _ hostOps1_6_sub) (sub_of _ hostOps1_7_sub) (sub_of _ hostOps1_8_sub) (sub_of _ hostOps1_9_sub) (sub_of _ hostOps1_10_sub) (sub_of _ hostOps1_11_sub) (sub_of _ hostOps1_12_sub) (sub_of _ hostOps1_13_sub) (sub_of _ hostOps1_14_sub) (sub_of _ hostOps1_15_sub) (sub_of _ hostOps1_16_sub) (sub_of _ hostOps1_17_sub)

/-- They allocate nothing. -/
theorem sfx_fresh : ∀ ops ∈ (tailOps : List (List (HloOp τ sig (Elt F)))), ∀ op ∈ ops, op.fresh = ∅ :=
  tail_forall _ (List.forall_iff_forall_mem.mp hostOps1_fresh) (List.forall_iff_forall_mem.mp hostOps1_1_fresh) (List.forall_iff_forall_mem.mp hostOps1_2_fresh) (List.forall_iff_forall_mem.mp hostOps1_3_fresh) (List.forall_iff_forall_mem.mp hostOps1_4_fresh) (List.forall_iff_forall_mem.mp hostOps1_5_fresh) (List.forall_iff_forall_mem.mp hostOps1_6_fresh) (List.forall_iff_forall_mem.mp hostOps1_7_fresh) (List.forall_iff_forall_mem.mp hostOps1_8_fresh) (List.forall_iff_forall_mem.mp hostOps1_9_fresh) (List.forall_iff_forall_mem.mp hostOps1_10_fresh) (List.forall_iff_forall_mem.mp hostOps1_11_fresh) (List.forall_iff_forall_mem.mp hostOps1_12_fresh) (List.forall_iff_forall_mem.mp hostOps1_13_fresh) (List.forall_iff_forall_mem.mp hostOps1_14_fresh) (List.forall_iff_forall_mem.mp hostOps1_15_fresh) (List.forall_iff_forall_mem.mp hostOps1_16_fresh) (List.forall_iff_forall_mem.mp hostOps1_17_fresh)

/-- Each writes one buffer, neither @main's argument nor an array of the pipeline. -/
theorem sfx_Keeps : ∀ ops ∈ (tailOps : List (List (HloOp τ sig (Elt F)))), ∀ op ∈ ops, Keeps op :=
  tail_forall _ (List.forall_iff_forall_mem.mp hostOps1_keeps) (List.forall_iff_forall_mem.mp hostOps1_1_keeps) (List.forall_iff_forall_mem.mp hostOps1_2_keeps) (List.forall_iff_forall_mem.mp hostOps1_3_keeps) (List.forall_iff_forall_mem.mp hostOps1_4_keeps) (List.forall_iff_forall_mem.mp hostOps1_5_keeps) (List.forall_iff_forall_mem.mp hostOps1_6_keeps) (List.forall_iff_forall_mem.mp hostOps1_7_keeps) (List.forall_iff_forall_mem.mp hostOps1_8_keeps) (List.forall_iff_forall_mem.mp hostOps1_9_keeps) (List.forall_iff_forall_mem.mp hostOps1_10_keeps) (List.forall_iff_forall_mem.mp hostOps1_11_keeps) (List.forall_iff_forall_mem.mp hostOps1_12_keeps) (List.forall_iff_forall_mem.mp hostOps1_13_keeps) (List.forall_iff_forall_mem.mp hostOps1_14_keeps) (List.forall_iff_forall_mem.mp hostOps1_15_keeps) (List.forall_iff_forall_mem.mp hostOps1_16_keeps) (List.forall_iff_forall_mem.mp hostOps1_17_keeps)

/-- So they write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => (sfx_Keeps ops hops op hop).arr w

/-- The host operation before the region (a transpose into the region's input array) does not write `main_arg0`:
    the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))

/-- No host operation after the region writes `main_arg0`: it ends as launched. -/
theorem W_main_arg0' (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact (sfx_Keeps ops hops op hop').arg),
    Pipeline.withArrays_of_ne _ c (V0 m c) _ main_arg0 (by exact (by decide : ∀ w, Pipeline.arrRef spec0 w ≠ main_arg0))]
  exact V_main_arg0 m c

theorem W_main_arg0 (c : Dev nD) :
    Pipeline.afterTail₀ cfgs (dats m) 0 (V0 m) tailOps c main_arg0 = m ((c : Thread nD τ).loc main_arg0) :=
  W_main_arg0' m (dats m) c

/-! ## The windows' blocks -/

/-- The input window's current staging buffer holds its block at every point, fetched there or not, for ANY proof
    data whose array is `V`'s (`hA`) and whose body leaves the block in place (`hafter`): unfetched, the index has not
    moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: a run to the library's frame post, read at @main's argument (an array no window
    stages: the post's second clause, then `W_main_arg0`), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0' m dats c))) h

/-! ## What the body leaves in the output window's buffer -/

/-- The one store is of the whole buffer (checked by evaluation), so it covers it. -/
theorem cover0_1 (p0 : Vec F S1x160000 .i32) (y : S1x160000.Idx) :
    ∃ pc ∈ ([⟨rs, p0⟩] : List (View.Piece (Elt F) S1x160000 .i32)), y ∈ pc.1.set :=
  View.cover_of_tiled [⟨rs, p0⟩] S1x160000.size (by rfl) y

/-! ## The body's triple -/

set_option maxHeartbeats 1000000 in
/-- The kernel body on whole staging memrefs, the input's at read contents `x0` and the output's at anything, runs to
    the continuation holding the input's as it was and the output's at `out0_1 x0`: the printed functions are their
    skeletons, which are run step by step through the part call: three loads of rows of the input, one load of the
    output (its value unused), one store covering the output. -/
theorem sound_kernel (c : Dev nD) (E : Set ℕ) (i : grid0.Coords) (arg1 : Memref sig .tc .vmem S4x160000 .f32) (harg1 : arg1.IsWhole) (arg2 : Memref sig .tc .vmem S1x160000 .i32) (harg2 : arg2.IsWhole)
    (x0 : Vec F S4x160000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__voxel_keys_kernel i arg1 harg1 arg2 harg2) K := by
  simp only [cc0__voxel_keys_kernel_eq_skeleton]; unfold cc0__voxel_keys_kernel_skel
  simp only [k0_part1_eq_skeleton]; unfold k0_part1_skel
  simp only [bind_assoc, pure_bind]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data at a point -/

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block (`before0_0`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: @main's argument ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.Kernel.HF

end
-- ==== Proof.KIDefs.lean ====
/- The definitions the frame of `KernelIdeal`'s @main is stated over: the buffer contents when the region is
   entered (`V0`, `V`), each window's block at a grid point (`iblk`), the four rectangles the body reads and
   writes, what the body leaves in the output window's buffer as a function of the input block (`out0_1`), and
   the proof data of the one pipeline (`dats`) with its projections. Nothing here is proved beyond projections. -/
import proofs.«166804_j37915971289632_2_alg».proof.Proof.Gen.KernelIdeal.Launch
import proofs.«166804_j37915971289632_2_alg».proof.Proof.Gen.KernelIdeal.Skeleton
import proofs.«166804_j37915971289632_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The host stretches of @main after the region, in order: 194 operations in eighteen stretches. -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14, hostOps1_15, hostOps1_16, hostOps1_17]

variable (m : (ℓ : Loc nD τ sig) → Buf (Elt F) ℓ)

/-- Core `c`'s TensorCore buffer contents when the region is entered, as a valuation: the launched memory after the
    one host operation before the region (the transpose of the input). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Rows 0, 1 and 2 of the (4, 160000) input block: the three rectangles the body loads. -/
abbrev r0 : Rect S4x160000 := Rect.unit (s := S4x160000) ![0, 0] S1x160000.size inb_S4x160000_S1x160000_0_0
abbrev r1 : Rect S4x160000 := Rect.unit (s := S4x160000) ![1, 0] S1x160000.size inb_S4x160000_S1x160000_1_0
abbrev r2 : Rect S4x160000 := Rect.unit (s := S4x160000) ![2, 0] S1x160000.size inb_S4x160000_S1x160000_2_0
/-- The whole (1, 160000) output block: the rectangle the body loads once (unused) and stores once. -/
abbrev rs : Rect S1x160000 := Rect.unit (s := S1x160000) ![0, 0] S1x160000.size inb_S1x160000_S1x160000_0_0

/-- The output window's staging buffer after the body, from the input window's block `x0`: its one store, which
    covers the buffer, of the key computed from rows 0, 1, 2 of `x0` (the payloads are the skeleton's). -/
def out0_1 (x0 : Vec F S4x160000 .f32) : Vec F S1x160000 .i32 :=
  View.canon [⟨rs, k0_pay1 (k0_pay4 (View.ld x0 r2)) (k0_pay5 (View.ld x0 r0) (View.ld x0 r1) (View.ld x0 r2))
    (k0_pay6 (View.ld x0 r0)) (k0_pay7 (View.ld x0 r1)) 0#32 1599#32⟩]

/-- The proof data of the one pipeline on core `c`: the arrays as the region finds them (`V`); after the body at
    point `t` the input's buffer at its block and the output's at `out0_1` of the input block; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents (the definition projected). -/
theorem A_eq (c : Dev nD) (w : Fin cfg0.W) : (dats m 0 c).A w = V m c (Pipeline.arrRef spec0 w) := by
  dsimp only [dats]

/-- What the body leaves, window by window (the definition's `match` reduced). -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

end Cert.KernelIdeal.HF

end
-- ==== Proof.KIFrame.lean ====
/- The frame of `KernelIdeal`'s @main, at any float instance: @main is one host operation (a transpose), one
   region on a grid of 25 points (window 0 the transposed input in blocks of (4, 160000), window 1 the key array in
   blocks of (1, 160000)), then 194 host operations in eighteen stretches. The stretches after the region touch only
   unscoped TensorCore buffers, allocate nothing and write neither an array of the pipeline nor @main's argument; the
   body at a point loads rows 0, 1, 2 of its input block and stores one covering rectangle of its output block. From
   these: the body obligation, the run around the region to the library's frame post, and the frame claim (the
   argument array ends as launched). -/
import proofs.«166804_j37915971289632_2_alg».proof.Proof.KIDefs

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The one host operation before the region allocates nothing. -/
theorem hostOps0_fresh : (hostOps0 : List (HloOp τ sig (Elt F))).Forall fun op => op.fresh = ∅ := by
  simp only [List.Forall]; repeat' constructor

/-- @main around the region: the host line before it, the region, the eighteen host stretches after it: it reduces to
    the region CONTINUED BY the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- A property of every stretch after the region, from the property of each of the eighteen. -/
theorem tail_forall (Q : List (HloOp τ sig (Elt F)) → Prop)
    (h0 : Q hostOps1)
    (h1 : Q hostOps1_1)
    (h2 : Q hostOps1_2)
    (h3 : Q hostOps1_3)
    (h4 : Q hostOps1_4)
    (h5 : Q hostOps1_5)
    (h6 : Q hostOps1_6)
    (h7 : Q hostOps1_7)
    (h8 : Q hostOps1_8)
    (h9 : Q hostOps1_9)
    (h10 : Q hostOps1_10)
    (h11 : Q hostOps1_11)
    (h12 : Q hostOps1_12)
    (h13 : Q hostOps1_13)
    (h14 : Q hostOps1_14)
    (h15 : Q hostOps1_15)
    (h16 : Q hostOps1_16)
    (h17 : Q hostOps1_17) :
    ∀ ops ∈ (tailOps : List (List (HloOp τ sig (Elt F)))), Q ops := by
  intro ops hops
  simp only [tailOps, List.mem_cons, List.mem_nil_iff, or_false] at hops
  rcases hops with rfl | rfl | rfl | rfl | rfl | rfl | rfl | rfl | rfl | rfl | rfl | rfl | rfl | rfl | rfl | rfl | rfl | rfl
  all_goals assumption

/-- An operation that writes one buffer, which is neither @main's argument nor an array of the pipeline. -/
def Keeps (op : HloOp τ sig (Elt F)) : Prop :=
  ∃ y : Ref sig .tc, op.writes = {Proc.devRef .tc y} ∧ y ∉ [main_arg0, main_v0, main_v1]

/-- Each array of the pipeline is one of the two tensor values the region is called on. -/
theorem arrRef_cases : ∀ w, Pipeline.arrRef spec0 w ∈ [main_v0, main_v1] := by decide

/-- Such an operation writes no array of the pipeline, -/
theorem Keeps.arr {op : HloOp τ sig (Elt F)} (h : Keeps op) (w) : Proc.devRef .tc (Pipeline.arrRef spec0 w) ∉ op.writes := by
  obtain ⟨y, hw, hy⟩ := h
  rw [hw, Finset.mem_singleton]
  intro e
  have e' := Proc.devRef_injective _ e
  have := arrRef_cases w
  rw [e'] at this
  exact hy (List.mem_cons_of_mem _ this)

/-- nor @main's argument. -/
theorem Keeps.arg {op : HloOp τ sig (Elt F)} (h : Keeps op) : Proc.devRef .tc main_arg0 ∉ op.writes := by
  obtain ⟨y, hw, hy⟩ := h
  rw [hw, Finset.mem_singleton]
  intro e
  exact hy (Proc.devRef_injective _ e ▸ List.mem_cons_self)

/-! ## The stretches after the region, one by one -/

theorem hostOps1_fresh : (hostOps1 : List (HloOp τ sig (Elt F))).Forall fun op => op.fresh = ∅ := by
  repeat' apply And.intro
  all_goals exact rfl
theorem hostOps1_keeps : (hostOps1 : List (HloOp τ sig (Elt F))).Forall Keeps := by
  repeat' apply And.intro
  all_goals exact ⟨_, rfl, by decide⟩
theorem hostOps1_1_fresh : (hostOps1_1 : List (HloOp τ sig (Elt F))).Forall fun op => op.fresh = ∅ := by
  repeat' apply And.intro
  all_goals exact rfl
theorem hostOps1_1_keeps : (hostOps1_1 : List (HloOp τ sig (Elt F))).Forall Keeps := by
  repeat' apply And.intro
  all_goals exact ⟨_, rfl, by decide⟩
theorem hostOps1_2_fresh : (hostOps1_2 : List (HloOp τ sig (Elt F))).Forall fun op => op.fresh = ∅ := by
  repeat' apply And.intro
  all_goals exact rfl
theorem hostOps1_2_keeps : (hostOps1_2 : List (HloOp τ sig (Elt F))).Forall Keeps := by
  repeat' apply And.intro
  all_goals exact ⟨_, rfl, by decide⟩
theorem hostOps1_3_fresh : (hostOps1_3 : List (HloOp τ sig (Elt F))).Forall fun op => op.fresh = ∅ := by
  repeat' apply And.intro
  all_goals exact rfl
theorem hostOps1_3_keeps : (hostOps1_3 : List (HloOp τ sig (Elt F))).Forall Keeps := by
  repeat' apply And.intro
  all_goals exact ⟨_, rfl, by decide⟩
theorem hostOps1_4_fresh : (hostOps1_4 : List (HloOp τ sig (Elt F))).Forall fun op => op.fresh = ∅ := by
  repeat' apply And.intro
  all_goals exact rfl
theorem hostOps1_4_keeps : (hostOps1_4 : List (HloOp τ sig (Elt F))).Forall Keeps := by
  repeat' apply And.intro
  all_goals exact ⟨_, rfl, by decide⟩
theorem hostOps1_5_fresh : (hostOps1_5 : List (HloOp τ sig (Elt F))).Forall fun op => op.fresh = ∅ := by
  repeat' apply And.intro
  all_goals exact rfl
theorem hostOps1_5_keeps : (hostOps1_5 : List (HloOp τ sig (Elt F))).Forall Keeps := by
  repeat' apply And.intro
  all_goals exact ⟨_, rfl, by decide⟩
theorem hostOps1_6_fresh : (hostOps1_6 : List (HloOp τ sig (Elt F))).Forall fun op => op.fresh = ∅ := by
  repeat' apply And.intro
  all_goals exact rfl
theorem hostOps1_6_keeps : (hostOps1_6 : List (HloOp τ sig (Elt F))).Forall Keeps := by
  repeat' apply And.intro
  all_goals exact ⟨_, rfl, by decide⟩
theorem hostOps1_7_fresh : (hostOps1_7 : List (HloOp τ sig (Elt F))).Forall fun op => op.fresh = ∅ := by
  repeat' apply And.intro
  all_goals exact rfl
theorem hostOps1_7_keeps : (hostOps1_7 : List (HloOp τ sig (Elt F))).Forall Keeps := by
  repeat' apply And.intro
  all_goals exact ⟨_, rfl, by decide⟩
theorem hostOps1_8_fresh : (hostOps1_8 : List (HloOp τ sig (Elt F))).Forall fun op => op.fresh = ∅ := by
  repeat' apply And.intro
  all_goals exact rfl
theorem hostOps1_8_keeps : (hostOps1_8 : List (HloOp τ sig (Elt F))).Forall Keeps := by
  repeat' apply And.intro
  all_goals exact ⟨_, rfl, by decide⟩
theorem hostOps1_9_fresh : (hostOps1_9 : List (HloOp τ sig (Elt F))).Forall fun op => op.fresh = ∅ := by
  repeat' apply And.intro
  all_goals exact rfl
theorem hostOps1_9_keeps : (hostOps1_9 : List (HloOp τ sig (Elt F))).Forall Keeps := by
  repeat' apply And.intro
  all_goals exact ⟨_, rfl, by decide⟩
theorem hostOps1_10_fresh : (hostOps1_10 : List (HloOp τ sig (Elt F))).Forall fun op => op.fresh = ∅ := by
  repeat' apply And.intro
  all_goals exact rfl
theorem hostOps1_10_keeps : (hostOps1_10 : List (HloOp τ sig (Elt F))).Forall Keeps := by
  repeat' apply And.intro
  all_goals exact ⟨_, rfl, by decide⟩
theorem hostOps1_11_fresh : (hostOps1_11 : List (HloOp τ sig (Elt F))).Forall fun op => op.fresh = ∅ := by
  repeat' apply And.intro
  all_goals exact rfl
theorem hostOps1_11_keeps : (hostOps1_11 : List (HloOp τ sig (Elt F))).Forall Keeps := by
  repeat' apply And.intro
  all_goals exact ⟨_, rfl, by decide⟩
theorem hostOps1_12_fresh : (hostOps1_12 : List (HloOp τ sig (Elt F))).Forall fun op => op.fresh = ∅ := by
  repeat' apply And.intro
  all_goals exact rfl
theorem hostOps1_12_keeps : (hostOps1_12 : List (HloOp τ sig (Elt F))).Forall Keeps := by
  repeat' apply And.intro
  all_goals exact ⟨_, rfl, by decide⟩
theorem hostOps1_13_fresh : (hostOps1_13 : List (HloOp τ sig (Elt F))).Forall fun op => op.fresh = ∅ := by
  repeat' apply And.intro
  all_goals exact rfl
theorem hostOps1_13_keeps : (hostOps1_13 : List (HloOp τ sig (Elt F))).Forall Keeps := by
  repeat' apply And.intro
  all_goals exact ⟨_, rfl, by decide⟩
theorem hostOps1_14_fresh : (hostOps1_14 : List (HloOp τ sig (Elt F))).Forall fun op => op.fresh = ∅ := by
  repeat' apply And.intro
  all_goals exact rfl
theorem hostOps1_14_keeps : (hostOps1_14 : List (HloOp τ sig (Elt F))).Forall Keeps := by
  repeat' apply And.intro
  all_goals exact ⟨_, rfl, by decide⟩
theorem hostOps1_15_fresh : (hostOps1_15 : List (HloOp τ sig (Elt F))).Forall fun op => op.fresh = ∅ := by
  repeat' apply And.intro
  all_goals exact rfl
theorem hostOps1_15_keeps : (hostOps1_15 : List (HloOp τ sig (Elt F))).Forall Keeps := by
  repeat' apply And.intro
  all_goals exact ⟨_, rfl, by decide⟩
theorem hostOps1_16_fresh : (hostOps1_16 : List (HloOp τ sig (Elt F))).Forall fun op => op.fresh = ∅ := by
  repeat' apply And.intro
  all_goals exact rfl
theorem hostOps1_16_keeps : (hostOps1_16 : List (HloOp τ sig (Elt F))).Forall Keeps := by
  repeat' apply And.intro
  all_goals exact ⟨_, rfl, by decide⟩
theorem hostOps1_17_fresh : (hostOps1_17 : List (HloOp τ sig (Elt F))).Forall fun op => op.fresh = ∅ := by
  repeat' apply And.intro
  all_goals exact rfl
theorem hostOps1_17_keeps : (hostOps1_17 : List (HloOp τ sig (Elt F))).Forall Keeps := by
  repeat' apply And.intro
  all_goals exact ⟨_, rfl, by decide⟩

/-! ## What the run around the region asks of the stretches after it -/

/-- Operations over TensorCore references touch the pipeline's arrays and the bypassing buffers only (each
    operation's buffers are unscoped TensorCore references, and with nothing prefetched every such reference is one or
    the other). -/
theorem sub_of (ops : List (HloOp τ sig (Elt F))) (h : ops.Forall fun op => op.bufs ⊆ StableHlo.tcRefs τ sig) :
    ∀ op ∈ ops, op.bufs ⊆ Pipeline.tailRefs sig Pipeline.Prefetch.none spec0 := by
  rw [Pipeline.tailRefs_none spec0 launch0.win.arr_unscoped]
  intro op hop
  exact Pipeline.sub_ucRefs op ((List.forall_iff_forall_mem.mp h) op hop)

/-- The stretches after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 :=
  tail_forall _ (sub_of _ hostOps1_sub) (sub_of _ hostOps1_1_sub) (sub_of _ hostOps1_2_sub) (sub_of _ hostOps1_3_sub) (sub_of _ hostOps1_4_sub) (sub_of _ hostOps1_5_sub) (sub_of _ hostOps1_6_sub) (sub_of _ hostOps1_7_sub) (sub_of _ hostOps1_8_sub) (sub_of _ hostOps1_9_sub) (sub_of _ hostOps1_10_sub) (sub_of _ hostOps1_11_sub) (sub_of _ hostOps1_12_sub) (sub_of _ hostOps1_13_sub) (sub_of _ hostOps1_14_sub) (sub_of _ hostOps1_15_sub) (sub_of _ hostOps1_16_sub) (sub_of _ hostOps1_17_sub)

/-- They allocate nothing. -/
theorem sfx_fresh : ∀ ops ∈ (tailOps : List (List (HloOp τ sig (Elt F)))), ∀ op ∈ ops, op.fresh = ∅ :=
  tail_forall _ (List.forall_iff_forall_mem.mp hostOps1_fresh) (List.forall_iff_forall_mem.mp hostOps1_1_fresh) (List.forall_iff_forall_mem.mp hostOps1_2_fresh) (List.forall_iff_forall_mem.mp hostOps1_3_fresh) (List.forall_iff_forall_mem.mp hostOps1_4_fresh) (List.forall_iff_forall_mem.mp hostOps1_5_fresh) (List.forall_iff_forall_mem.mp hostOps1_6_fresh) (List.forall_iff_forall_mem.mp hostOps1_7_fresh) (List.forall_iff_forall_mem.mp hostOps1_8_fresh) (List.forall_iff_forall_mem.mp hostOps1_9_fresh) (List.forall_iff_forall_mem.mp hostOps1_10_fresh) (List.forall_iff_forall_mem.mp hostOps1_11_fresh) (List.forall_iff_forall_mem.mp hostOps1_12_fresh) (List.forall_iff_forall_mem.mp hostOps1_13_fresh) (List.forall_iff_forall_mem.mp hostOps1_14_fresh) (List.forall_iff_forall_mem.mp hostOps1_15_fresh) (List.forall_iff_forall_mem.mp hostOps1_16_fresh) (List.forall_iff_forall_mem.mp hostOps1_17_fresh)

/-- Each writes one buffer, neither @main's argument nor an array of the pipeline. -/
theorem sfx_Keeps : ∀ ops ∈ (tailOps : List (List (HloOp τ sig (Elt F)))), ∀ op ∈ ops, Keeps op :=
  tail_forall _ (List.forall_iff_forall_mem.mp hostOps1_keeps) (List.forall_iff_forall_mem.mp hostOps1_1_keeps) (List.forall_iff_forall_mem.mp hostOps1_2_keeps) (List.forall_iff_forall_mem.mp hostOps1_3_keeps) (List.forall_iff_forall_mem.mp hostOps1_4_keeps) (List.forall_iff_forall_mem.mp hostOps1_5_keeps) (List.forall_iff_forall_mem.mp hostOps1_6_keeps) (List.forall_iff_forall_mem.mp hostOps1_7_keeps) (List.forall_iff_forall_mem.mp hostOps1_8_keeps) (List.forall_iff_forall_mem.mp hostOps1_9_keeps) (List.forall_iff_forall_mem.mp hostOps1_10_keeps) (List.forall_iff_forall_mem.mp hostOps1_11_keeps) (List.forall_iff_forall_mem.mp hostOps1_12_keeps) (List.forall_iff_forall_mem.mp hostOps1_13_keeps) (List.forall_iff_forall_mem.mp hostOps1_14_keeps) (List.forall_iff_forall_mem.mp hostOps1_15_keeps) (List.forall_iff_forall_mem.mp hostOps1_16_keeps) (List.forall_iff_forall_mem.mp hostOps1_17_keeps)

/-- So they write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => (sfx_Keeps ops hops op hop).arr w

/-- The host operation before the region (a transpose into the region's input array) does not write `main_arg0`:
    the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))

/-- No host operation after the region writes `main_arg0`: it ends as launched. -/
theorem W_main_arg0' (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (fun op hop => by
      obtain ⟨ops, hops, hop'⟩ := List.mem_flatten.mp hop
      exact (sfx_Keeps ops hops op hop').arg),
    Pipeline.withArrays_of_ne _ c (V0 m c) _ main_arg0 (by exact (by decide : ∀ w, Pipeline.arrRef spec0 w ≠ main_arg0))]
  exact V_main_arg0 m c

theorem W_main_arg0 (c : Dev nD) :
    Pipeline.afterTail₀ cfgs (dats m) 0 (V0 m) tailOps c main_arg0 = m ((c : Thread nD τ).loc main_arg0) :=
  W_main_arg0' m (dats m) c

/-! ## The windows' blocks -/

/-- The input window's current staging buffer holds its block at every point, fetched there or not, for ANY proof
    data whose array is `V`'s (`hA`) and whose body leaves the block in place (`hafter`): unfetched, the index has not
    moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: a run to the library's frame post, read at @main's argument (an array no window
    stages: the post's second clause, then `W_main_arg0`), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0' m dats c))) h

/-! ## What the body leaves in the output window's buffer -/

/-- The one store is of the whole buffer (checked by evaluation), so it covers it. -/
theorem cover0_1 (p0 : Vec F S1x160000 .i32) (y : S1x160000.Idx) :
    ∃ pc ∈ ([⟨rs, p0⟩] : List (View.Piece (Elt F) S1x160000 .i32)), y ∈ pc.1.set :=
  View.cover_of_tiled [⟨rs, p0⟩] S1x160000.size (by rfl) y

/-! ## The body's triple -/

set_option maxHeartbeats 1000000 in
/-- The kernel body on whole staging memrefs, the input's at read contents `x0` and the output's at anything, runs to
    the continuation holding the input's as it was and the output's at `out0_1 x0`: the printed functions are their
    skeletons, which are run step by step through the part call: three loads of rows of the input, one load of the
    output (its value unused), one store covering the output. -/
theorem sound_kernel (c : Dev nD) (E : Set ℕ) (i : grid0.Coords) (arg1 : Memref sig .tc .vmem S4x160000 .f32) (harg1 : arg1.IsWhole) (arg2 : Memref sig .tc .vmem S1x160000 .i32) (harg2 : arg2.IsWhole)
    (x0 : Vec F S4x160000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__voxel_keys_kernel i arg1 harg1 arg2 harg2) K := by
  simp only [cc0__voxel_keys_kernel_eq_skeleton]; unfold cc0__voxel_keys_kernel_skel
  simp only [k0_part1_eq_skeleton]; unfold k0_part1_skel
  simp only [bind_assoc, pure_bind]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data at a point -/

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block (`before0_0`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the stretches after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: @main's argument ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.KernelIdeal.HF

end
-- ==== Proof.KeySpec.lean ====
/-
  The specification of the voxel key, one point at a time, on the extended reals.

  A point (x, y, z, ·) lies in the box when each coordinate lies in its half-open range; its cell on an axis is
  floor((coordinate - lower end) / step) read as a signed 32-bit word and clipped to [0, top]; its key is the cell
  triple linearised row-major over the grid 1408 x 1600 x 40 when the point lies in the box, and the sentinel
  90112000 = 1408 * 1600 * 40 otherwise. The float literals are kept as their binary words.
-/
import Idealize.ShloMosaic.PureOps.Ideal
import Idealize.ShloMosaic.Lib.ValueIdx

noncomputable section

namespace Cert.Vox

open Idealize.ShloMosaic Idealize.ShloMosaic.ValueIdx

/-- The points: 4000000 rows (x, y, z, intensity). -/
abbrev SPts : Shape := ⟨2, ![4000000, 4]⟩
/-- One word per point. -/
abbrev SN : Shape := ⟨1, ![4000000]⟩
/-- One cell triple per point. -/
abbrev SN3 : Shape := ⟨2, ![4000000, 3]⟩

/-- A float literal by its word. -/
def lit (b : BitVec 32) : Ideal .f32 := FloatOps.ofBits (F := Ideal) .f32 b

/-- lo <= x and x < hi, as one bit. -/
def inRange (lo hi : BitVec 32) (x : Ideal .f32) : BitVec 1 :=
  IntOp.andi (FloatOps.cmpf (F := Ideal) .oge x (lit lo)) (FloatOps.cmpf (F := Ideal) .olt x (lit hi))

/-- floor((x - lo) / step) as a signed word, clipped to [0, top]. -/
def cell (lo step top : BitVec 32) (x : Ideal .f32) : BitVec 32 :=
  IntOp.minsi top (IntOp.maxsi 0#32
    (FloatOps.fptosi (F := Ideal) 32 (FloatOps.floor (F := Ideal) (FloatOps.divf (F := Ideal) (FloatOps.subf (F := Ideal) x (lit lo)) (lit step)))))

/-- The cell along x: range [0, 70.4), step 0.05, 1408 cells. -/
def cellX : Ideal .f32 → BitVec 32 := cell 0x00000000#32 0x3D4CCCCD#32 1407#32
/-- The cell along y: range [-40, 40), step 0.05, 1600 cells. -/
def cellY : Ideal .f32 → BitVec 32 := cell 0xC2200000#32 0x3D4CCCCD#32 1599#32
/-- The cell along z: range [-3, 1), step 0.1, 40 cells. -/
def cellZ : Ideal .f32 → BitVec 32 := cell 0xC0400000#32 0x3DCCCCCD#32 39#32

/-- The point lies in the box: the three range bits conjoined. -/
def inBox (x y z : Ideal .f32) : BitVec 1 :=
  IntOp.andi (IntOp.andi (inRange 0x00000000#32 0x428CCCCD#32 x) (inRange 0xC2200000#32 0x42200000#32 y))
    (inRange 0xC0400000#32 0x3F800000#32 z)

/-- (a * 1600 + b) * 40 + c on 32-bit words. -/
def encode (a b c : BitVec 32) : BitVec 32 := IntOp.addi (IntOp.muli (IntOp.addi (IntOp.muli a 1600#32) b) 40#32) c

/-- The key of a point outside the box: one more than the largest cell key. -/
def sentinel : BitVec 32 := 90112000#32

/-- The key of one point. -/
def keyOf (x y z : Ideal .f32) : BitVec 32 :=
  Scalar.select (inBox x y z) (encode (cellX x) (cellY y) (cellZ z)) sentinel

/-- The keys of all points. -/
def keys (pts : SPts.Idx → Ideal .f32) : SN.Idx → BitVec 32 :=
  fun i => keyOf (pts (ix2 (i 0) (0 : Fin 4))) (pts (ix2 (i 0) (1 : Fin 4))) (pts (ix2 (i 0) (2 : Fin 4)))

/-- The clipped cell triples of all points (meaningful where the point lies in the box). -/
def cells (pts : SPts.Idx → Ideal .f32) : SN3.Idx → BitVec 32 :=
  fun j => match j 1 with
    | ⟨0, _⟩ => cellX (pts (ix2 (j 0) (0 : Fin 4)))
    | ⟨1, _⟩ => cellY (pts (ix2 (j 0) (1 : Fin 4)))
    | ⟨2, _⟩ => cellZ (pts (ix2 (j 0) (2 : Fin 4)))

end Cert.Vox

end
-- ==== Proof.KIPayload.lean ====
/-
  The value the kernel body stores, read at one column.

  The body works on three rows (x, y, z) of 160000 floats and produces one row of 32-bit keys. Every
  operation in it is pointwise, so the stored row at column q depends only on the three floats at column
  q, and it is the specification's key of that point. The only difference in form is the order in which
  the six range bits are conjoined: the body folds them left to right, the specification pairs them axis
  by axis; conjunction on one-bit words is associative.
-/
import proofs.«166804_j37915971289632_2_alg».proof.Proof.Gen.KernelIdeal.Skeleton
import proofs.«166804_j37915971289632_2_alg».proof.Proof.KeySpec
import Idealize.ShloMosaic.Lib.ValueIdx
import Idealize.ShloMosaic.Lib.Pipeline.Value

noncomputable section

namespace Cert.KernelIdeal.HV

open Idealize.ShloMosaic Idealize.SL.Sem Cert.KernelIdeal Cert.KernelIdeal.Gen

/-- Six bits conjoined left to right are the same bits conjoined in three pairs. -/
theorem andi_fold6 (a b c d e f : BitVec 1) :
    IntOp.andi (IntOp.andi (IntOp.andi (IntOp.andi (IntOp.andi a b) c) d) e) f
      = IntOp.andi (IntOp.andi (IntOp.andi a b) (IntOp.andi c d)) (IntOp.andi e f) := by
  simp only [IntOp.andi, BitVec.and_assoc]

/-- The row the body stores, at a column: the key of the point in that column. -/
theorem pay_apply (vx vy vz : Vec Ideal S1x160000 .f32) (q : Fin 160000) :
    k0_pay1 (F := Ideal) (k0_pay4 vz) (k0_pay5 vx vy vz) (k0_pay6 vx) (k0_pay7 vy) 0#32 1599#32
        (ValueIdx.ix2 (0 : Fin 1) q)
      = Cert.Vox.keyOf (vx (ValueIdx.ix2 0 q)) (vy (ValueIdx.ix2 0 q)) (vz (ValueIdx.ix2 0 q)) := by
  generalize ValueIdx.ix2 (0 : Fin 1) q = j
  simp only [k0_pay1, k0_pay2, k0_pay3, k0_pay4, k0_pay5, k0_pay6, k0_pay7, shapeCast_self,
    Idealize.ShloMosaic.select, Idealize.ShloMosaic.cmpf, Idealize.ShloMosaic.andi,
    Idealize.ShloMosaic.subf, Idealize.ShloMosaic.divf, Idealize.ShloMosaic.floor,
    Idealize.ShloMosaic.fptosi, Idealize.ShloMosaic.maxsi, Idealize.ShloMosaic.minsi,
    Idealize.ShloMosaic.muli, Idealize.ShloMosaic.addi, Idealize.ShloMosaic.broadcast,
    Cert.Vox.keyOf, Cert.Vox.inBox, Cert.Vox.inRange, Cert.Vox.encode, Cert.Vox.cellX, Cert.Vox.cellY,
    Cert.Vox.cellZ, Cert.Vox.cell, Cert.Vox.lit, Cert.Vox.sentinel, andi_fold6]

end Cert.KernelIdeal.HV

end
-- ==== Proof.KIValue.lean ====
/-
  What the region writes, as one function of the argument array.

  The grid has 25 points. At point t the pipeline stages columns [160000 t, 160000 (t + 1)) of the
  transposed argument (a 4 x 4000000 array whose row k is coordinate k of every point), the body turns
  rows 0, 1, 2 of that block into one row of keys, and the pipeline writes that row back as columns
  [160000 t, 160000 (t + 1)) of the 1 x 4000000 output. Column n of the output is therefore the key of
  point n, whatever block it sits in, and the 25 blocks cover all 4000000 columns.
-/
import proofs.«166804_j37915971289632_2_alg».proof.Proof.KIDefs
import proofs.«166804_j37915971289632_2_alg».proof.Proof.KIPayload
import proofs.«166804_j37915971289632_2_alg».proof.Proof.KeySpec
import Idealize.ShloMosaic.Lib.Pipeline.Value

noncomputable section

namespace Cert.KernelIdeal.HV

open Idealize.ShloMosaic Idealize.ShloMosaic.TcCoe Idealize.SL.Sem Cert.KernelIdeal Cert.KernelIdeal.Gen
open Idealize.ShloMosaic.Pipeline (Dat)
open Idealize.ShloMosaic.ValueIdx

variable (m : (ℓ : Loc nD τ sig) → Buf (Elt Ideal) ℓ)

/-- The array the input window stages is the transpose of the argument: entry (k, n) is coordinate k of point n. -/
theorem V_main_v0 (c : Dev nD) :
    (HF.V (F := Ideal) m c main_v0 : S4x4000000.Idx → Ideal .f32)
      = fun j => m ((c : Thread nD τ).loc main_arg0) (ix2 (j 1) (j 0)) := by
  show StableHlo.after hostOps0 (fun b => m (c, b)) (Proc.devRef .tc main_v0) = _
  after_results
  funext j
  exact transpose_apply _ _ _ j _ (fun b => match b with | ⟨0, _⟩ => rfl | ⟨1, _⟩ => rfl)

/-- The zero offsets, however spelt. -/
theorem hz : (![0, 0] : Fin 2 → Nat) = fun _ => 0 := funext fun a => by fin_cases a <;> rfl

/-- Row 0 of a 4 x 160000 block, read at a column. -/
theorem ld_r0 (x0 : Vec Ideal S4x160000 .f32) (q : Fin 160000) :
    View.ld x0 HF.r0 (ix2 (0 : Fin 1) q) = x0 (ix2 (0 : Fin 4) q) := by
  show x0 _ = x0 _
  congr 1
  funext a; apply Fin.ext
  match a with
  | ⟨0, _⟩ => rfl
  | ⟨1, _⟩ => show 0 + 1 * q.val = q.val; omega

/-- Row 1 of a 4 x 160000 block, read at a column. -/
theorem ld_r1 (x0 : Vec Ideal S4x160000 .f32) (q : Fin 160000) :
    View.ld x0 HF.r1 (ix2 (0 : Fin 1) q) = x0 (ix2 (1 : Fin 4) q) := by
  show x0 _ = x0 _
  congr 1
  funext a; apply Fin.ext
  match a with
  | ⟨0, _⟩ => rfl
  | ⟨1, _⟩ => show 0 + 1 * q.val = q.val; omega

/-- Row 2 of a 4 x 160000 block, read at a column. -/
theorem ld_r2 (x0 : Vec Ideal S4x160000 .f32) (q : Fin 160000) :
    View.ld x0 HF.r2 (ix2 (0 : Fin 1) q) = x0 (ix2 (2 : Fin 4) q) := by
  show x0 _ = x0 _
  congr 1
  funext a; apply Fin.ext
  match a with
  | ⟨0, _⟩ => rfl
  | ⟨1, _⟩ => show 0 + 1 * q.val = q.val; omega

/-- What the body leaves in the output block, at a column: the key of the three floats the input block
    holds in that column. -/
theorem out0_1_apply (x0 : Vec Ideal S4x160000 .f32) (q : Fin 160000) :
    HF.out0_1 (F := Ideal) x0 (ix2 (0 : Fin 1) q)
      = Cert.Vox.keyOf (x0 (ix2 (0 : Fin 4) q)) (x0 (ix2 (1 : Fin 4) q)) (x0 (ix2 (2 : Fin 4) q)) := by
  unfold HF.out0_1
  rw [View.canon_unit_zero hz]
  refine (pay_apply (View.ld x0 HF.r0) (View.ld x0 HF.r1) (View.ld x0 HF.r2) q).trans ?_
  rw [ld_r0, ld_r1, ld_r2]

/-- The printed index maps over the grid: at point t both windows sit at block (0, t). -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- The input block at point t, entry (k, q): coordinate k of point 160000 t + q of the argument. -/
theorem iblk_apply (c : Dev nD) (t : Fin cfg0.N) (k : Fin 4) (q : Fin 160000) (n : Fin 4000000)
    (hn : n.val = 160000 * t.val + q.val) :
    (HF.iblk m c 0 t : Vec Ideal S4x160000 .f32) (ix2 k q) = m ((c : Thread nD τ).loc main_arg0) (ix2 n k) := by
  obtain ⟨e0, e1, -, -⟩ := idx_facts t
  unfold HF.iblk
  rw [View.read_apply]
  show HF.V m c main_v0 _ = _
  refine (congrFun (V_main_v0 m c) _).trans ?_
  show m _ _ = m _ _
  congr 1
  funext a; apply Fin.ext
  match a with
  | ⟨0, _⟩ => show win0_0.index t (1 : Fin 2) * 160000 + 1 * q.val = n.val; omega
  | ⟨1, _⟩ => show win0_0.index t (0 : Fin 2) * 4 + 1 * k.val = k.val; omega

/-- What the body leaves in the output block at point t, entry y: the key of point 160000 t + (y 1) of the
    argument. -/
theorem block_key (c : Dev nD) (t : Fin cfg0.N) (y : S1x160000.Idx) (n : Fin 4000000)
    (hn : n.val = 160000 * t.val + (y 1).val) :
    HF.out0_1 (F := Ideal) (HF.iblk m c 0 t) y
      = Cert.Vox.keyOf (m ((c : Thread nD τ).loc main_arg0) (ix2 n (0 : Fin 4)))
          (m ((c : Thread nD τ).loc main_arg0) (ix2 n (1 : Fin 4)))
          (m ((c : Thread nD τ).loc main_arg0) (ix2 n (2 : Fin 4))) := by
  obtain ⟨p, q, rfl⟩ : ∃ (p : Fin 1) (q : Fin 160000), y = ix2 p q := ⟨y 0, y 1, eq_ix2 y⟩
  obtain rfl : p = 0 := Subsingleton.elim _ _
  refine (out0_1_apply (HF.iblk m c 0 t) q).trans ?_
  rw [iblk_apply m c t 0 q n hn, iblk_apply m c t 1 q n hn, iblk_apply m c t 2 q n hn]

/-- What point t writes back is block t of the keys laid out as a 1 x 4000000 array. -/
theorem flushed_eq (c : Dev nD) (t : Fin cfg0.N) :
    (HF.dats (F := Ideal) m 0 c).flushed 1 t
      = ((cfg0.win 1).blk t).view.read (Elt Ideal)
          (fun j : S1x4000000.Idx => Cert.Vox.keys (m ((c : Thread nD τ).loc main_arg0)) (ix1 (j 1))) := by
  show (cfg0.win 1).cut (grid0.coords t) ((HF.dats m 0 c).after 1 t) = _
  rw [HF.after0_1]
  obtain ⟨-, -, e2, e3⟩ := idx_facts t
  funext y
  show HF.out0_1 (HF.iblk m c 0 t) y
      = Cert.Vox.keys (m ((c : Thread nD τ).loc main_arg0)) (ix1 ((((cfg0.win 1).blk t).view.emb y) 1))
  refine (block_key m c t y ((((cfg0.win 1).blk t).view.emb y) 1) ?_).trans rfl
  show win0_1.index t (1 : Fin 2) * 160000 + 1 * (y 1).val = _
  omega

/-- An index of the output array is in point t's block iff each coordinate is in the block's range on its axis. -/
theorem mem_blk (t : Fin cfg0.N) (i : S1x4000000.Idx) :
    i ∈ ((cfg0.win 1).blk t).view.set ↔ ∀ a : Fin 2, win0_1.index t a * S1x160000.size a ≤ (i a).val
      ∧ (i a).val < win0_1.index t a * S1x160000.size a + S1x160000.size a := by
  show i ∈ ((View.whole main_v1).slice (win0_1.rect t)).set ↔ _
  rw [View.set_slice_whole, Rect.mem_set_unit]
  exact Iff.rfl

/-- Column n of the output lies in the block of point n / 160000. -/
theorem cover (i : S1x4000000.Idx) :
    ∃ t : Fin cfg0.N, (cfg0.win 1).flush t = true ∧ i ∈ ((cfg0.win 1).blk t).view.set := by
  have hi0 : (i 0).val < 1 := (i 0).isLt
  have hi1 : (i 1).val < 4000000 := (i 1).isLt
  obtain ⟨t, ht⟩ : ∃ t : Fin cfg0.N, t.val = (i 1).val / 160000 :=
    ⟨⟨(i 1).val / 160000, by rw [show cfg0.N = 25 from N_0]; omega⟩, rfl⟩
  obtain ⟨-, -, e2, e3⟩ := idx_facts t
  refine ⟨t, flush0_1 t, ?_⟩
  rw [mem_blk]
  intro a
  match a with
  | ⟨0, _⟩ =>
    show win0_1.index t (0 : Fin 2) * 1 ≤ (i 0).val ∧ (i 0).val < win0_1.index t (0 : Fin 2) * 1 + 1
    omega
  | ⟨1, _⟩ =>
    show win0_1.index t (1 : Fin 2) * 160000 ≤ (i 1).val ∧ (i 1).val < win0_1.index t (1 : Fin 2) * 160000 + 160000
    omega

/-- The output array after the region: column n holds the key of point n of the argument. -/
theorem keys2d_final (c : Dev nD) :
    (HF.dats (F := Ideal) m 0 c).arrAt 1 cfg0.N
      = fun j : S1x4000000.Idx => Cert.Vox.keys (m ((c : Thread nD τ).loc main_arg0)) (ix1 (j 1)) :=
  (HF.dats (F := Ideal) m 0 c).arrAt_eq_of_cover 1 _ (fun t _ => flushed_eq m c t) cover

end Cert.KernelIdeal.HV

end
-- ==== Proof.KGlue.lean ====
/-
  The kernel program's host operations after the region, cut into the four stretches the value proof reads one
  after the other, and the first of them (a reshape of the region's one-row output into a flat array) read at an index.
-/
import proofs.«166804_j37915971289632_2_alg».proof.Proof.KIDefs
import Idealize.ShloMosaic.Lib.Pipeline.Value
import Idealize.ShloMosaic.Lib.ValueIdx

noncomputable section

namespace Cert.KernelIdeal.HA

open Idealize.ShloMosaic Idealize.ShloMosaic.TcCoe Idealize.SL.Sem Idealize.ShloMosaic.ValueIdx
open Cert.KernelIdeal Cert.KernelIdeal.Gen

/-- The stretch from the argsort to the place of each point within its voxel. -/
abbrev opsMid : List (HloOp τ sig (Elt Ideal)) :=
  hostOps1_1 ++ hostOps1_2 ++ hostOps1_3 ++ hostOps1_4 ++ hostOps1_5 ++ hostOps1_6 ++ hostOps1_7 ++ hostOps1_8 ++ hostOps1_9 ++ hostOps1_10
/-- The stretch that decodes the cell triples and scatters them. -/
abbrev opsCoors : List (HloOp τ sig (Elt Ideal)) :=
  hostOps1_11 ++ hostOps1_12 ++ hostOps1_13 ++ hostOps1_14 ++ hostOps1_15 ++ hostOps1_16 ++ (hostOps1_17 (F := Ideal)).take 11
/-- The last stretch: the point table, the counts, the number of voxels. -/
abbrev opsEnd : List (HloOp τ sig (Elt Ideal)) := (hostOps1_17 (F := Ideal)).drop 11

/-- The operations after the region are the reshape followed by the three stretches. -/
theorem flatten_tail : (HF.tailOps (F := Ideal)).flatten = hostOps1 ++ (opsMid ++ (opsCoors ++ opsEnd)) := by
  simp only [HF.tailOps, List.flatten_cons, List.flatten_nil, List.append_nil, List.append_assoc, List.take_append_drop]

/-- The flat key array is the region's one-row output read along its row. -/
theorem reshape_read (W : Valuation τ sig (Elt Ideal)) :
    (StableHlo.after (hostOps1 (F := Ideal)) W (Proc.devRef .tc main_v2) : S4000000.Idx → BitVec 32)
      = fun i => (W (Proc.devRef .tc main_v1) : S1x4000000.Idx → BitVec 32) (ix2 (0 : Fin 1) (i 0)) := by
  after_results
  funext (i : S4000000.Idx)
  refine shapeCast_apply (s := S1x4000000) (t := S4000000) _ _ i (ix2 (0 : Fin 1) (i 0)) ?_
  show (S1x4000000.rowMajor (ix2 (0 : Fin 1) (i 0))).val = (S4000000.rowMajor i).val
  rw [Shape.rowMajor_val_two, Shape.rowMajor_val_one]
  show 0 * 4000000 + (i 0).val = (i 0).val
  omega

/-- The reshape writes nothing but the flat key array. -/
theorem reshape_keep (W : Valuation τ sig (Elt Ideal)) :
    StableHlo.after (hostOps1 (F := Ideal)) W (Proc.devRef .tc main_arg0) = W (Proc.devRef .tc main_arg0) := by
  after_results

end Cert.KernelIdeal.HA

end
-- ==== Proof.Pipe.lean ====
/-
  The bookkeeping between the keys and the four results, as functions of the key array (and, for the two arrays
  that carry data, of the points and the cell triples), spelt with the host operations of the reference program.

  From the keys: the stable argsort `order`; the sorted keys `skeys`; `sv` (a sorted key below the sentinel);
  `newv` (a valid sorted position that starts a new voxel: the first one, or a key different from its left
  neighbour's); `vid` (the running count of voxel starts, minus one: the voxel's number); `rank` (the position
  minus the latest voxel start: the point's place within its voxel); `wm` (valid, voxel number below 20000, place
  below 5: the point is kept); the scatter indices `vi`, `ri`, `ci` (out of range where nothing is to be
  written), each wrapped once for negative values as array indexing does. The results: the per-voxel point table, the
  per-voxel cell triple, the per-voxel count, and the number of voxels capped at 20000.
-/
import proofs.«166804_j37915971289632_2_alg».proof.ReferenceIdeal
import proofs.«166804_j37915971289632_2_alg».proof.Proof.Gen.ReferenceIdeal
import Idealize.ShloMosaic.PureOps.Ideal

noncomputable section

namespace Cert.Vox.Pipe

open Idealize.ShloMosaic Cert.ReferenceIdeal Cert.ReferenceIdeal.Facts₀

/-- One 32-bit word per point. -/
abbrev KV : Type := IVec S4000000 32

/-- A word repeated for every point. -/
def kconst (k : BitVec 32) : KV := broadcastInDim S4000000 ![] bcast_S_S4000000 (constantI S_ 32 k)

/-- The positions 0, 1, 2, … -/
def iota : KV := iotaInDim S4000000 32 0

/-- A possibly negative index wrapped once by the extent `n`. -/
def wrap (x : KV) (n : BitVec 32) : KV := select (cmpi .slt x (kconst 0#32)) (addi x (kconst n)) x

/-- A word per point as a one-column array of indices. -/
def col (x : KV) : IVec S4000000x1 32 := broadcastInDim S4000000x1 ![0] bcast_S4000000_S4000000x1_0 x

/-- The stable argsort of the keys. -/
def order (keys : KV) : KV := (Host.sort2 S4000000 0 comparator_i32_i32_d0 keys (iotaInDim S4000000 32 0)).2

/-- The argsort as gather indices. -/
def ordN (keys : KV) : KV := wrap (order keys) 4000000#32

/-- The keys in sorted order. -/
def skeys (keys : KV) : KV := Host.gather gather_S4000000_S4000000x1_S4000000_n_0_n_n_0_1_1 keys (col (ordN keys))

/-- The sorted position holds a point of the box. -/
def sv (keys : KV) : IVec S4000000 1 := cmpi .slt (skeys keys) (kconst 90112000#32)

/-- The sorted position starts a new voxel. -/
def newv (keys : KV) : IVec S4000000 1 :=
  andi (sv keys)
    (concatenate S4000000 0
      [⟨S1, broadcastInDim S1 ![] bcast_S_S1 (constantI S_ 1 1#1)⟩,
       ⟨S3999999, cmpi .ne (extractStridedSlice S3999999 ![1] (skeys keys) slices_S4000000_S3999999_1)
          (extractStridedSlice S3999999 ![0] (skeys keys) slices_S4000000_S3999999_0)⟩]
      concatenates_S1_S3999999_S4000000_d0)

/-- The voxel's number: the running count of voxel starts, minus one. -/
def vid (keys : KV) : KV :=
  subi (Host.reduceWindow IntOp.addi ![4000000] ![1] ![3999999] ![0] (extui 32 (newv keys) natLt_1_32)
      (broadcastInDim S_ ![] bcast_S_S_ (constantI S_ 32 0#32)) reduceWindows_S4000000_S4000000_w4000000s1p3999999_0 h_S_)
    (kconst 1#32)

/-- The latest voxel start at or before the position. -/
def segStart (keys : KV) : KV :=
  Host.reduceWindow IntOp.maxsi ![4000000] ![1] ![3999999] ![0] (select (newv keys) iota (kconst 0#32))
    (broadcastInDim S_ ![] bcast_S_S_ (constantI S_ 32 2147483648#32)) reduceWindows_S4000000_S4000000_w4000000s1p3999999_0 h_S_

/-- The point's place within its voxel. -/
def rank (keys : KV) : KV := subi iota (segStart keys)

/-- The point is kept: valid, voxel number below 20000, place below 5. -/
def wm (keys : KV) : IVec S4000000 1 :=
  andi (andi (sv keys) (cmpi .slt (vid keys) (kconst 20000#32))) (cmpi .slt (rank keys) (kconst 5#32))

/-- The voxel index a kept point is written at (20000, out of range, otherwise). -/
def vi (keys : KV) : KV := select (wm keys) (vid keys) (kconst 20000#32)
/-- The place a kept point is written at. -/
def ri (keys : KV) : KV := select (wm keys) (rank keys) (kconst 0#32)
/-- The voxel index a voxel's first point writes its cell triple at (20000 otherwise). -/
def ci (keys : KV) : KV :=
  select (andi (newv keys) (cmpi .slt (vid keys) (kconst 20000#32))) (vid keys) (kconst 20000#32)

/-- The (voxel, place) scatter indices. -/
def idx2 (keys : KV) : IVec S4000000x2 32 :=
  concatenate S4000000x2 1 [⟨S4000000x1, col (wrap (vi keys) 20000#32)⟩, ⟨S4000000x1, col (wrap (ri keys) 5#32)⟩]
    concatenates_S4000000x1_S4000000x1_S4000000x2_d1
/-- The voxel scatter indices of the counts. -/
def idxv (keys : KV) : IVec S4000000x1 32 := col (wrap (vi keys) 20000#32)
/-- The voxel scatter indices of the cell triples. -/
def idxc (keys : KV) : IVec S4000000x1 32 := col (wrap (ci keys) 20000#32)

/-- The points of each voxel, in their original order, at most five, zero elsewhere: the sorted points scattered
    at (voxel, place). -/
def vox (pts : FVec Ideal S4000000x4 .f32) (keys : KV) : FVec Ideal S20000x5x4 .f32 :=
  Host.scatter scatter_S20000x5x4_S4000000x2_S4000000x4_1_01_01_1 (fun _ b => b)
    (broadcastInDim S20000x5x4 ![] bcast_S_S20000x5x4 (constant (F := Ideal) S_ .f32 0x00000000#32)) (idx2 keys)
    (Host.gather gather_S4000000x4_S4000000x1_S4000000x4_1_0_n_n_0_1_14 pts (col (ordN keys)))

/-- The cell triple of each voxel: the sorted cell triples scattered at the voxel of each voxel start. -/
def coors (cells : IVec S4000000x3 32) (keys : KV) : IVec S20000x3 32 :=
  Host.scatter scatter_S20000x3_S4000000x1_S4000000x3_1_0_0_1 (fun _ b => b)
    (broadcastInDim S20000x3 ![] bcast_S_S20000x3 (constantI S_ 32 0#32)) (idxc keys)
    (Host.gather gather_S4000000x3_S4000000x1_S4000000x3_1_0_n_n_0_1_13 cells (col (ordN keys)))

/-- The number of kept points of each voxel. -/
def num (keys : KV) : IVec S20000 32 :=
  Host.scatter scatter_S20000_S4000000x1_S4000000_n_0_0_1 IntOp.addi
    (broadcastInDim S20000 ![] bcast_S_S20000 (constantI S_ 32 0#32)) (idxv keys) (extui 32 (wm keys) natLt_1_32)

/-- The number of voxels, capped at 20000. -/
def vnum (keys : KV) : IVec S_ 32 :=
  minsi (Host.reduce IntOp.addi (extui 32 (newv keys) natLt_1_32) (constantI S_ 32 0#32) reducesTo_S4000000_S_d0 h_S_)
    (constantI S_ 32 20000#32)

end Cert.Vox.Pipe

end
-- ==== Proof.KPipe.lean ====
/-
  The kernel program's host stretch between the keys and the scatters, read against the shared bookkeeping.

  From the key array the stretch computes, in order: the stable argsort and the sorted keys; the validity bit and
  the voxel-start bit; the voxel numbers (a running sum) and the latest voxel start (a running maximum); the place
  within the voxel, the keep bit, and the two scatter coordinates. Each buffer is read as the corresponding
  function of the key array. The stretch is read in four consecutive pieces, each over an arbitrary valuation
  that satisfies what the pieces before it established; the points' buffer is not written.
-/
import proofs.«166804_j37915971289632_2_alg».proof.Proof.Gen.KernelIdeal.Launch
import proofs.«166804_j37915971289632_2_alg».proof.Proof.Pipe

set_option maxRecDepth 16384

noncomputable section

namespace Cert.KernelIdeal.HP

open Cert.KernelIdeal Cert.KernelIdeal.Gen Idealize.ShloMosaic Idealize.ShloMosaic.TcCoe Idealize.SL.Sem Idealize.ShloMosaic.StableHlo
open Cert.Vox

/-- Running two lines in a row is running their concatenation. -/
theorem after_app {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The second host stretch up to the comparison of neighbouring sorted keys (its first 17 operations). -/
abbrev h2a : List (HloOp τ sig (Elt Ideal)) :=
  [ StableHlo.nullary main_c (constantI S_ 32 0#32),
    StableHlo.unary main_c main_v4 (broadcastInDim S4000000 ![] bcast_S_S4000000 : (⟨S_, .i32⟩ : BufTy).Contents (Elt Ideal) → (⟨S4000000, .i32⟩ : BufTy).Contents (Elt Ideal)),
    StableHlo.binary main_v3 main_v4 main_v5 (cmpi .slt : (⟨S4000000, .i32⟩ : BufTy).Contents (Elt Ideal) → (⟨S4000000, .i32⟩ : BufTy).Contents (Elt Ideal) → (⟨S4000000, .i1⟩ : BufTy).Contents (Elt Ideal)),
    StableHlo.nullary main_c_0 (constantI S_ 32 4000000#32),
    StableHlo.unary main_c_0 main_v6 (broadcastInDim S4000000 ![] bcast_S_S4000000 : (⟨S_, .i32⟩ : BufTy).Contents (Elt Ideal) → (⟨S4000000, .i32⟩ : BufTy).Contents (Elt Ideal)),
    StableHlo.binary main_v3 main_v6 main_v7 (addi : (⟨S4000000, .i32⟩ : BufTy).Contents (Elt Ideal) → (⟨S4000000, .i32⟩ : BufTy).Contents (Elt Ideal) → (⟨S4000000, .i32⟩ : BufTy).Contents (Elt Ideal)),
    StableHlo.ternary main_v5 main_v7 main_v3 main_v8 (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)),
    StableHlo.unary main_v8 main_v9 (broadcastInDim S4000000x1 ![0] bcast_S4000000_S4000000x1_0 : (⟨S4000000, .i32⟩ : BufTy).Contents (Elt Ideal) → (⟨S4000000x1, .i32⟩ : BufTy).Contents (Elt Ideal)),
    StableHlo.binary main_v2 main_v9 main_v10 ((fun x i => Host.gather gather_S4000000_S4000000x1_S4000000_n_0_n_n_0_1_1 x i) : (⟨S4000000, .i32⟩ : BufTy).Contents (Elt Ideal) → (⟨S4000000x1, .i32⟩ : BufTy).Contents (Elt Ideal) → (⟨S4000000, .i32⟩ : BufTy).Contents (Elt Ideal)),
    StableHlo.nullary main_c_1 (constantI S_ 32 90112000#32),
    StableHlo.unary main_c_1 main_v11 (broadcastInDim S4000000 ![] bcast_S_S4000000 : (⟨S_, .i32⟩ : BufTy).Contents (Elt Ideal) → (⟨S4000000, .i32⟩ : BufTy).Contents (Elt Ideal)),
    StableHlo.binary main_v10 main_v11 main_v12 (cmpi .slt : (⟨S4000000, .i32⟩ : BufTy).Contents (Elt Ideal) → (⟨S4000000, .i32⟩ : BufTy).Contents (Elt Ideal) → (⟨S4000000, .i1⟩ : BufTy).Contents (Elt Ideal)),
    StableHlo.nullary main_c_2 (constantI S_ 1 1#1),
    StableHlo.unary main_c_2 main_v13 (broadcastInDim S1 ![] bcast_S_S1 : (⟨S_, .i1⟩ : BufTy).Contents (Elt Ideal) → (⟨S1, .i1⟩ : BufTy).Contents (Elt Ideal)),
    StableHlo.unary main_v10 main_v14 ((extractStridedSlice S3999999 ![1] · slices_S4000000_S3999999_1) : (⟨S4000000, .i32⟩ : BufTy).Contents (Elt Ideal) → (⟨S3999999, .i32⟩ : BufTy).Contents (Elt Ideal)),
    StableHlo.unary main_v10 main_v15 ((extractStridedSlice S3999999 ![0] · slices_S4000000_S3999999_0) : (⟨S4000000, .i32⟩ : BufTy).Contents (Elt Ideal) → (⟨S3999999, .i32⟩ : BufTy).Contents (Elt Ideal)),
    StableHlo.binary main_v14 main_v15 main_v16 (cmpi .ne : (⟨S3999999, .i32⟩ : BufTy).Contents (Elt Ideal) → (⟨S3999999, .i32⟩ : BufTy).Contents (Elt Ideal) → (⟨S3999999, .i1⟩ : BufTy).Contents (Elt Ideal)) ]

/-- The rest of the second host stretch: the concatenation with the leading one, the conjunction with the validity
    bit, and its conversion to a word. -/
abbrev h2b : List (HloOp τ sig (Elt Ideal)) :=
  [ StableHlo.binary main_v13 main_v16 main_v17 ((fun a b => concatenate S4000000 0 [⟨S1, a⟩, ⟨S3999999, b⟩] concatenates_S1_S3999999_S4000000_d0) : (⟨S1, .i1⟩ : BufTy).Contents (Elt Ideal) → (⟨S3999999, .i1⟩ : BufTy).Contents (Elt Ideal) → (⟨S4000000, .i1⟩ : BufTy).Contents (Elt Ideal)),
    StableHlo.binary main_v12 main_v17 main_v18 (andi : (⟨S4000000, .i1⟩ : BufTy).Contents (Elt Ideal) → (⟨S4000000, .i1⟩ : BufTy).Contents (Elt Ideal) → (⟨S4000000, .i1⟩ : BufTy).Contents (Elt Ideal)),
    StableHlo.unary main_v18 main_v19 ((extui 32 · natLt_1_32) : (⟨S4000000, .i1⟩ : BufTy).Contents (Elt Ideal) → (⟨S4000000, .i32⟩ : BufTy).Contents (Elt Ideal)) ]

theorem h2_split : (hostOps1_2 : List (HloOp τ sig (Elt Ideal))) = h2a ++ h2b := rfl

/-- The sort and the sorted keys. -/
abbrev GA : List (HloOp τ sig (Elt Ideal)) := hostOps1_1 ++ h2a
/-- The voxel numbers and the latest voxel starts. -/
abbrev G2 : List (HloOp τ sig (Elt Ideal)) := hostOps1_3 ++ (hostOps1_4 ++ (hostOps1_5 ++ hostOps1_6))
/-- The places, the keep bit and the two scatter coordinates. -/
abbrev G3 : List (HloOp τ sig (Elt Ideal)) := hostOps1_7 ++ (hostOps1_8 ++ (hostOps1_9 ++ hostOps1_10))

/-- The host operations between the keys and the scatters: the sort through the two scatter coordinates. -/
abbrev opsMid : List (HloOp τ sig (Elt Ideal)) :=
  hostOps1_1 ++ hostOps1_2 ++ hostOps1_3 ++ hostOps1_4 ++ hostOps1_5 ++ hostOps1_6 ++ hostOps1_7 ++ hostOps1_8 ++ hostOps1_9 ++ hostOps1_10

theorem opsMid_eq : opsMid = GA ++ (h2b ++ (G2 ++ G3)) := rfl

theorem after_mid (W : Valuation τ sig (Elt Ideal)) :
    StableHlo.after opsMid W = StableHlo.after G3 (StableHlo.after G2 (StableHlo.after h2b (StableHlo.after GA W))) := by
  rw [opsMid_eq, after_app, after_app, after_app]

/-! ## The sort and the sorted keys -/

/-- What the buffers hold once the keys are sorted and neighbours compared. -/
structure StA (W : Valuation τ sig (Elt Ideal)) (keys : Pipe.KV) : Prop where
  hk : W (Proc.devRef .tc main_v2) = keys
  order : W (Proc.devRef .tc main_v3) = Pipe.order keys
  skeys : W (Proc.devRef .tc main_v10) = Pipe.skeys keys
  sv : W (Proc.devRef .tc main_v12) = Pipe.sv keys
  one : W (Proc.devRef .tc main_v13) = broadcastInDim S1 ![] bcast_S_S1 (constantI S_ 1 1#1)
  ne : W (Proc.devRef .tc main_v16) = cmpi .ne (extractStridedSlice S3999999 ![1] (Pipe.skeys keys) slices_S4000000_S3999999_1)
      (extractStridedSlice S3999999 ![0] (Pipe.skeys keys) slices_S4000000_S3999999_0)

theorem gA (W : Valuation τ sig (Elt Ideal)) : StA (StableHlo.after GA W) (W (Proc.devRef .tc main_v2)) where
  hk := by simp only [GA, after_app]; after_results_simp <;> rfl
  order := by simp only [GA, after_app]; after_results_simp <;> rfl
  skeys := by simp only [GA, after_app]; after_results_simp <;> rfl
  sv := by simp only [GA, after_app]; after_results_simp <;> rfl
  one := by simp only [GA, after_app]; after_results_simp <;> rfl
  ne := by simp only [GA, after_app]; after_results_simp <;> rfl

theorem gA_arg0 (W : Valuation τ sig (Elt Ideal)) :
    StableHlo.after GA W (Proc.devRef .tc main_arg0) = W (Proc.devRef .tc main_arg0) := by
  simp only [GA, after_app]; after_results_simp

/-! ## The voxel starts -/

/-- What the buffers hold once the voxel starts are marked. -/
structure StB (W : Valuation τ sig (Elt Ideal)) (keys : Pipe.KV) : Prop where
  hk : W (Proc.devRef .tc main_v2) = keys
  order : W (Proc.devRef .tc main_v3) = Pipe.order keys
  skeys : W (Proc.devRef .tc main_v10) = Pipe.skeys keys
  sv : W (Proc.devRef .tc main_v12) = Pipe.sv keys
  newv : W (Proc.devRef .tc main_v18) = Pipe.newv keys
  newvw : W (Proc.devRef .tc main_v19) = extui 32 (Pipe.newv keys) (by decide)

theorem gB (W : Valuation τ sig (Elt Ideal)) (keys : Pipe.KV) (h : StA W keys) : StB (StableHlo.after h2b W) keys where
  hk := by after_results_simp; exact h.hk
  order := by after_results_simp; exact h.order
  skeys := by after_results_simp; exact h.skeys
  sv := by after_results_simp; exact h.sv
  newv := by after_results_simp; rw [h.sv, h.one, h.ne]; rfl
  newvw := by after_results_simp; rw [h.sv, h.one, h.ne]; rfl

theorem gB_arg0 (W : Valuation τ sig (Elt Ideal)) :
    StableHlo.after h2b W (Proc.devRef .tc main_arg0) = W (Proc.devRef .tc main_arg0) := by
  after_results_simp

/-! ## The voxel numbers and the latest voxel starts -/

/-- What the buffers hold once the voxels are numbered and each position knows its voxel's start. -/
structure St2 (W : Valuation τ sig (Elt Ideal)) (keys : Pipe.KV) : Prop where
  hk : W (Proc.devRef .tc main_v2) = keys
  order : W (Proc.devRef .tc main_v3) = Pipe.order keys
  skeys : W (Proc.devRef .tc main_v10) = Pipe.skeys keys
  sv : W (Proc.devRef .tc main_v12) = Pipe.sv keys
  newv : W (Proc.devRef .tc main_v18) = Pipe.newv keys
  vid : W (Proc.devRef .tc main_v22) = Pipe.vid keys
  iota : W (Proc.devRef .tc main_v23) = Pipe.iota
  seg : W (Proc.devRef .tc main_v25) = Pipe.segStart keys

theorem g2 (W : Valuation τ sig (Elt Ideal)) (keys : Pipe.KV) (h : StB W keys) : St2 (StableHlo.after G2 W) keys where
  hk := by simp only [G2, after_app]; after_results_simp; exact h.hk
  order := by simp only [G2, after_app]; after_results_simp; exact h.order
  skeys := by simp only [G2, after_app]; after_results_simp; exact h.skeys
  sv := by simp only [G2, after_app]; after_results_simp; exact h.sv
  newv := by simp only [G2, after_app]; after_results_simp; exact h.newv
  vid := by simp only [G2, after_app]; after_results_simp; rw [h.newvw]; simp only [TRef.toBuf, TRef.ofBuf, cast_eq]; rfl
  iota := by simp only [G2, after_app]; after_results_simp <;> rfl
  seg := by simp only [G2, after_app]; after_results_simp; rw [h.newv]; simp only [TRef.toBuf, TRef.ofBuf, cast_eq, id]; rfl

theorem g2_arg0 (W : Valuation τ sig (Elt Ideal)) :
    StableHlo.after G2 W (Proc.devRef .tc main_arg0) = W (Proc.devRef .tc main_arg0) := by
  simp only [G2, after_app]; after_results_simp

/-! ## The places, the keep bit and the scatter coordinates -/

/-- What the buffers hold before the scatters. -/
structure St3 (W : Valuation τ sig (Elt Ideal)) (keys : Pipe.KV) : Prop where
  hk : W (Proc.devRef .tc main_v2) = keys
  order : W (Proc.devRef .tc main_v3) = Pipe.order keys
  skeys : W (Proc.devRef .tc main_v10) = Pipe.skeys keys
  newv : W (Proc.devRef .tc main_v18) = Pipe.newv keys
  vid : W (Proc.devRef .tc main_v22) = Pipe.vid keys
  wm : W (Proc.devRef .tc main_v32) = Pipe.wm keys
  vi : W (Proc.devRef .tc main_v33) = Pipe.vi keys
  ri : W (Proc.devRef .tc main_v34) = Pipe.ri keys

theorem g3 (W : Valuation τ sig (Elt Ideal)) (keys : Pipe.KV) (h : St2 W keys) : St3 (StableHlo.after G3 W) keys where
  hk := by simp only [G3, after_app]; after_results_simp; exact h.hk
  order := by simp only [G3, after_app]; after_results_simp; exact h.order
  skeys := by simp only [G3, after_app]; after_results_simp; exact h.skeys
  newv := by simp only [G3, after_app]; after_results_simp; exact h.newv
  vid := by simp only [G3, after_app]; after_results_simp; exact h.vid
  wm := by simp only [G3, after_app]; after_results_simp; rw [h.sv, h.vid, h.iota, h.seg]; rfl
  vi := by simp only [G3, after_app]; after_results_simp; rw [h.sv, h.vid, h.iota, h.seg]; rfl
  ri := by simp only [G3, after_app]; after_results_simp; rw [h.sv, h.vid, h.iota, h.seg]; rfl

theorem g3_arg0 (W : Valuation τ sig (Elt Ideal)) :
    StableHlo.after G3 W (Proc.devRef .tc main_arg0) = W (Proc.devRef .tc main_arg0) := by
  simp only [G3, after_app]; after_results_simp

/-! ## The whole stretch -/

theorem mid (W : Valuation τ sig (Elt Ideal)) : St3 (StableHlo.after opsMid W) (W (Proc.devRef .tc main_v2)) := by
  rw [after_mid]
  exact g3 _ _ (g2 _ _ (gB _ _ (gA W)))

theorem order_read (W : Valuation τ sig (Elt Ideal)) :
    StableHlo.after opsMid W (Proc.devRef .tc main_v3) = Cert.Vox.Pipe.order (W (Proc.devRef .tc main_v2)) := (mid W).order
theorem skeys_read (W : Valuation τ sig (Elt Ideal)) :
    StableHlo.after opsMid W (Proc.devRef .tc main_v10) = Cert.Vox.Pipe.skeys (W (Proc.devRef .tc main_v2)) := (mid W).skeys
theorem newv_read (W : Valuation τ sig (Elt Ideal)) :
    StableHlo.after opsMid W (Proc.devRef .tc main_v18) = Cert.Vox.Pipe.newv (W (Proc.devRef .tc main_v2)) := (mid W).newv
theorem vid_read (W : Valuation τ sig (Elt Ideal)) :
    StableHlo.after opsMid W (Proc.devRef .tc main_v22) = Cert.Vox.Pipe.vid (W (Proc.devRef .tc main_v2)) := (mid W).vid
theorem wm_read (W : Valuation τ sig (Elt Ideal)) :
    StableHlo.after opsMid W (Proc.devRef .tc main_v32) = Cert.Vox.Pipe.wm (W (Proc.devRef .tc main_v2)) := (mid W).wm
theorem vi_read (W : Valuation τ sig (Elt Ideal)) :
    StableHlo.after opsMid W (Proc.devRef .tc main_v33) = Cert.Vox.Pipe.vi (W (Proc.devRef .tc main_v2)) := (mid W).vi
theorem ri_read (W : Valuation τ sig (Elt Ideal)) :
    StableHlo.after opsMid W (Proc.devRef .tc main_v34) = Cert.Vox.Pipe.ri (W (Proc.devRef .tc main_v2)) := (mid W).ri
theorem arg0_mid (W : Valuation τ sig (Elt Ideal)) :
    StableHlo.after opsMid W (Proc.devRef .tc main_arg0) = W (Proc.devRef .tc main_arg0) := by
  rw [after_mid, g3_arg0, g2_arg0, gB_arg0, gA_arg0]

end Cert.KernelIdeal.HP

end
-- ==== Proof.KeyFacts.lean ====
/-
  Facts about one point's voxel key that do not depend on any program.

  A cell is a signed clip into [0, top], so as a natural number it is at most top. A key that is (signed) below the
  sentinel cannot be the sentinel itself, so it is the encoded cell triple. With the cells inside the grid
  1408 x 1600 x 40 the encoding (a * 1600 + b) * 40 + c does not wrap: it is below 90112000 < 2^32.
-/
import proofs.«166804_j37915971289632_2_alg».proof.Proof.KeySpec

noncomputable section

namespace Cert.Vox

open Idealize.ShloMosaic

/-- A word whose signed value is not negative reads the same signed and unsigned. -/
theorem toInt_eq_toNat_of_not_slt_zero (v : BitVec 32) (h : v.slt 0#32 = false) : v.toInt = (v.toNat : Int) := by
  have h' : ¬ v.toInt < (0#32 : BitVec 32).toInt := by
    intro hlt
    have : v.slt 0#32 = true := by rw [BitVec.slt_eq_decide]; exact decide_eq_true hlt
    rw [h] at this; exact Bool.false_ne_true this
  have h0 : (0#32 : BitVec 32).toInt = 0 := by decide
  rw [h0] at h'
  rw [BitVec.toInt_eq_toNat_cond] at h' ⊢
  have := v.isLt
  split at h' <;> split <;> omega

/-- A word below 2^31 reads the same signed and unsigned. -/
theorem toInt_eq_toNat_of_lt (t : BitVec 32) (h : t.toNat < 2 ^ 31) : t.toInt = (t.toNat : Int) := by
  rw [BitVec.toInt_eq_toNat_cond]
  split <;> omega

/-- The clip's result, read unsigned, is at most the upper end. -/
theorem cell_bounds (lo step top : BitVec 32) (htop : top.toNat < 2 ^ 31) (x : Ideal .f32) :
    (cell lo step top x).toNat ≤ top.toNat := by
  unfold cell
  generalize FloatOps.fptosi (F := Ideal) 32 (FloatOps.floor (F := Ideal)
    (FloatOps.divf (F := Ideal) (FloatOps.subf (F := Ideal) x (lit lo)) (lit step))) = v
  unfold IntOp.minsi
  split
  · exact Nat.le_refl _
  · rename_i hts
    unfold IntOp.maxsi at hts ⊢
    split
    · show (0#32 : BitVec 32).toNat ≤ top.toNat
      exact Nat.zero_le _
    · rename_i hv
      rw [if_neg hv] at hts
      have hv' : v.slt 0#32 = false := by simpa using hv
      have e1 := toInt_eq_toNat_of_not_slt_zero v hv'
      have e2 := toInt_eq_toNat_of_lt top htop
      have hle : ¬ top.toInt < v.toInt := by
        intro hlt
        exact hts (by rw [BitVec.slt_eq_decide]; exact decide_eq_true hlt)
      rw [e1, e2] at hle
      omega

/-- A key below the sentinel is the encoded cell triple: otherwise the key is the sentinel, which is not below itself. -/
theorem key_valid_of_lt (x y z : Ideal .f32) (h : (keyOf x y z).slt sentinel = true) :
    keyOf x y z = encode (cellX x) (cellY y) (cellZ z) := by
  unfold keyOf Scalar.select at h ⊢
  split
  · rfl
  · rename_i hb
    rw [if_neg hb] at h
    have : sentinel.slt sentinel = false := by decide
    rw [this] at h
    exact absurd h Bool.false_ne_true

/-- Inside the grid the encoding does not wrap. -/
theorem encode_toNat (a b c : BitVec 32) (ha : a.toNat ≤ 1407) (hb : b.toNat ≤ 1599) (hc : c.toNat ≤ 39) :
    (encode a b c).toNat = (a.toNat * 1600 + b.toNat) * 40 + c.toNat := by
  unfold encode IntOp.addi IntOp.muli
  rw [BitVec.toNat_add, BitVec.toNat_mul, BitVec.toNat_add, BitVec.toNat_mul]
  show ((a.toNat * 1600 % 2 ^ 32 + b.toNat) % 2 ^ 32 * 40 % 2 ^ 32 + c.toNat) % 2 ^ 32 = _
  omega

end Cert.Vox

end
-- ==== Proof.LibScatterSet.lean ====
import Idealize.ShloMosaic.PureOps.ShapeOps
import Mathlib.Data.List.Sort
import Mathlib.Data.List.FinRange
import Mathlib.Data.Finset.Max

/-!
# The host scatter whose body returns the update

`Host.scatter d (fun _ b => b) x idx upd` is the left fold, over the update positions in
row-major order, of the step "if the position lands inside the operand, overwrite the element
it lands on with the update's value there".  Read at one element `i` of the result, such a fold
only remembers the LAST position that landed on `i`:

* if no position lands on `i`, the element is the operand's (`scatter_set_miss`);
* otherwise it is the update at the last position (in row-major order) landing on `i`
  (`scatter_set_hit`), and one of the two cases always holds (`scatter_set_cases`);
* hence the values of the update at positions that land nowhere are irrelevant
  (`scatter_set_congr`).

The lemmas are first proved for the fold over an ARBITRARY list of positions (by induction on
the list), and then specialised to `List.finRange`, which is strictly increasing, so "later in
the list" is "larger".
-/

noncomputable section

namespace Cert.Lib.ScatterSet

open Idealize.ShloMosaic

variable {α : Type} {s si u : Shape} {w : Nat}

/-- One step of the fold: position `n` of the update overwrites the element it lands on, when
    it lands inside the operand, and changes nothing when it does not. -/
def step (d : ScatterDims s si u) (idx : IVec si w) (upd : u.Idx → α) (r : s.Idx → α)
    (n : Fin u.numel) : s.Idx → α :=
  match d.resultIdx? (u.rowMajor.symm n) idx with
  | some i => fun i' => if i' = i then upd (u.rowMajor.symm n) else r i'
  | none => r

/-- The scatter with the body "return the update" is the fold of `step` over all positions in
    row-major order. -/
theorem scatter_eq_foldl (d : ScatterDims s si u) (x : s.Idx → α) (idx : IVec si w)
    (upd : u.Idx → α) :
    Host.scatter d (fun _ b => b) x idx upd = (List.finRange u.numel).foldl (step d idx upd) x :=
  rfl

/-- One step read at an element `i`: the update's value if the position lands on `i`, the
    previous value otherwise. -/
theorem step_apply (d : ScatterDims s si u) (idx : IVec si w) (upd : u.Idx → α) (r : s.Idx → α)
    (n : Fin u.numel) (i : s.Idx) :
    step d idx upd r n i =
      if d.resultIdx? (u.rowMajor.symm n) idx = some i then upd (u.rowMajor.symm n) else r i := by
  unfold step
  generalize d.resultIdx? (u.rowMajor.symm n) idx = o
  cases o with
  | none => simp
  | some i0 =>
    by_cases hi : i = i0
    · subst hi; simp
    · have hne : ¬ (some i0 = some i) := fun h' => hi (Option.some.inj h').symm
      simp [hi, hne]

/-- Over any list of positions none of which lands on `i`, the fold leaves element `i` alone. -/
theorem foldl_miss (d : ScatterDims s si u) (idx : IVec si w) (upd : u.Idx → α)
    (l : List (Fin u.numel)) (x : s.Idx → α) (i : s.Idx)
    (h : ∀ n ∈ l, d.resultIdx? (u.rowMajor.symm n) idx ≠ some i) :
    l.foldl (step d idx upd) x i = x i := by
  induction l generalizing x with
  | nil => rfl
  | cons n l ih =>
    rw [List.foldl_cons, ih _ (fun n' hn' => h n' (List.mem_cons_of_mem _ hn')), step_apply,
      if_neg (h n List.mem_cons_self)]

/-- Over a strictly increasing list of positions, if position `n` of the list lands on `i` and no
    larger position of the list does, element `i` of the fold is the update at `n`. -/
theorem foldl_hit (d : ScatterDims s si u) (idx : IVec si w) (upd : u.Idx → α)
    (l : List (Fin u.numel)) (hl : l.Pairwise (· < ·)) (x : s.Idx → α) (i : s.Idx)
    (n : Fin u.numel) (hmem : n ∈ l) (hn : d.resultIdx? (u.rowMajor.symm n) idx = some i)
    (hlast : ∀ n' ∈ l, n < n' → d.resultIdx? (u.rowMajor.symm n') idx ≠ some i) :
    l.foldl (step d idx upd) x i = upd (u.rowMajor.symm n) := by
  induction l generalizing x with
  | nil => cases hmem
  | cons a l ih =>
    rw [List.pairwise_cons] at hl
    rw [List.foldl_cons]
    rcases List.mem_cons.1 hmem with rfl | hmem'
    · rw [foldl_miss d idx upd l _ i
        (fun n' hn' => hlast n' (List.mem_cons_of_mem _ hn') (hl.1 n' hn')), step_apply, if_pos hn]
    · exact ih hl.2 _ hmem' (fun n' hn' => hlast n' (List.mem_cons_of_mem _ hn'))

/-- Two updates that agree at every position of the list that lands inside the operand give the
    same fold. -/
theorem foldl_congr (d : ScatterDims s si u) (idx : IVec si w) (upd upd' : u.Idx → α)
    (l : List (Fin u.numel)) (x : s.Idx → α)
    (h : ∀ n ∈ l, ∀ i : s.Idx, d.resultIdx? (u.rowMajor.symm n) idx = some i →
      upd (u.rowMajor.symm n) = upd' (u.rowMajor.symm n)) :
    l.foldl (step d idx upd) x = l.foldl (step d idx upd') x := by
  induction l generalizing x with
  | nil => rfl
  | cons n l ih =>
    have hstep : step d idx upd x n = step d idx upd' x n := by
      funext i
      rw [step_apply, step_apply]
      by_cases hi : d.resultIdx? (u.rowMajor.symm n) idx = some i
      · rw [if_pos hi, if_pos hi]; exact h n List.mem_cons_self i hi
      · rw [if_neg hi, if_neg hi]
    rw [List.foldl_cons, List.foldl_cons, hstep]
    exact ih _ (fun n' hn' => h n' (List.mem_cons_of_mem _ hn'))

/-- The updates matter only where they land. -/
theorem scatter_set_congr (d : ScatterDims s si u) (x : s.Idx → α) (idx : IVec si w)
    (upd upd' : u.Idx → α)
    (h : ∀ (j : u.Idx) (i : s.Idx), d.resultIdx? j idx = some i → upd j = upd' j) :
    Host.scatter d (fun _ b => b) x idx upd = Host.scatter d (fun _ b => b) x idx upd' := by
  rw [scatter_eq_foldl, scatter_eq_foldl]
  exact foldl_congr d idx upd upd' _ x (fun n _ i hi => h _ i hi)

/-- An element no update lands on keeps the operand's value. -/
theorem scatter_set_miss (d : ScatterDims s si u) (x : s.Idx → α) (idx : IVec si w)
    (upd : u.Idx → α) (i : s.Idx) (h : ∀ j : u.Idx, d.resultIdx? j idx ≠ some i) :
    Host.scatter d (fun _ b => b) x idx upd i = x i := by
  rw [scatter_eq_foldl]
  exact foldl_miss d idx upd _ x i (fun n _ => h _)

/-- An element some update lands on holds the update of the LAST such position in row-major
    order. -/
theorem scatter_set_hit (d : ScatterDims s si u) (x : s.Idx → α) (idx : IVec si w)
    (upd : u.Idx → α) (i : s.Idx) (n : Fin u.numel)
    (hn : d.resultIdx? (u.rowMajor.symm n) idx = some i)
    (hlast : ∀ n' : Fin u.numel, n < n' → d.resultIdx? (u.rowMajor.symm n') idx ≠ some i) :
    Host.scatter d (fun _ b => b) x idx upd i = upd (u.rowMajor.symm n) := by
  rw [scatter_eq_foldl]
  exact foldl_hit d idx upd _ (List.sortedLT_finRange u.numel).pairwise x i n
    (List.mem_finRange n) hn (fun n' _ hlt => hlast n' hlt)

/-- Either case holds (classically): the element is missed by all, or there is a last position
    landing on it. -/
theorem scatter_set_cases (d : ScatterDims s si u) (idx : IVec si w) (i : s.Idx) :
    (∀ j : u.Idx, d.resultIdx? j idx ≠ some i) ∨
      ∃ n : Fin u.numel, d.resultIdx? (u.rowMajor.symm n) idx = some i ∧
        ∀ n' : Fin u.numel, n < n' → d.resultIdx? (u.rowMajor.symm n') idx ≠ some i := by
  classical
  by_cases h : ∃ n : Fin u.numel, d.resultIdx? (u.rowMajor.symm n) idx = some i
  · right
    -- the set of positions landing on `i` is finite and nonempty: take its largest member
    let S : Finset (Fin u.numel) :=
      Finset.univ.filter (fun n => d.resultIdx? (u.rowMajor.symm n) idx = some i)
    have hS : S.Nonempty := by
      obtain ⟨n, hn⟩ := h
      exact ⟨n, Finset.mem_filter.2 ⟨Finset.mem_univ n, hn⟩⟩
    refine ⟨S.max' hS, (Finset.mem_filter.1 (S.max'_mem hS)).2, ?_⟩
    intro n' hlt hn'
    have hmem : n' ∈ S := Finset.mem_filter.2 ⟨Finset.mem_univ n', hn'⟩
    exact absurd (S.le_max' n' hmem) (not_le.2 hlt)
  · left
    intro j hj
    exact h ⟨u.rowMajor j, by rw [Equiv.symm_apply_apply]; exact hj⟩

/-- Over a constant operand `fun _ => a`, an element no update lands on is `a`. -/
theorem scatter_set_const_miss (d : ScatterDims s si u) (a : α) (idx : IVec si w)
    (upd : u.Idx → α) (i : s.Idx) (h : ∀ j : u.Idx, d.resultIdx? j idx ≠ some i) :
    Host.scatter d (fun _ b => b) (fun _ => a) idx upd i = a :=
  scatter_set_miss d (fun _ => a) idx upd i h

/-- Over a constant operand, an element some update lands on holds the update of the last such
    position in row-major order (the operand's value plays no part). -/
theorem scatter_set_const_hit (d : ScatterDims s si u) (a : α) (idx : IVec si w)
    (upd : u.Idx → α) (i : s.Idx) (n : Fin u.numel)
    (hn : d.resultIdx? (u.rowMajor.symm n) idx = some i)
    (hlast : ∀ n' : Fin u.numel, n < n' → d.resultIdx? (u.rowMajor.symm n') idx ≠ some i) :
    Host.scatter d (fun _ b => b) (fun _ => a) idx upd i = upd (u.rowMajor.symm n) :=
  scatter_set_hit d (fun _ => a) idx upd i n hn hlast

end Cert.Lib.ScatterSet
-- ==== Proof.IndexForms.lean ====
/-
  The index arithmetic of the two programs' gathers, as explicit formulas on coordinates, and the row-major
  position of an update.

  A gather reads, for result position j, the operand position whose coordinate on each axis is the start word
  for that axis (read signed off the index array and clamped so that the slice fits) plus j's offset coordinate
  there. For the dimension numbers these programs use there is one start word per result row, at component 0 of
  that row of the index array; it selects the operand's row, and the result's trailing coordinate, when it has
  one, selects the column.
-/
import proofs.«166804_j37915971289632_2_alg».proof.KernelIdeal
import proofs.«166804_j37915971289632_2_alg».proof.ReferenceIdeal
import proofs.«166804_j37915971289632_2_alg».proof.Proof.Gen.KernelIdeal
import proofs.«166804_j37915971289632_2_alg».proof.Proof.Gen.ReferenceIdeal
import Idealize.ShloMosaic.Lib.ValueIdx

noncomputable section

namespace Cert.Vox.Forms

open Idealize.ShloMosaic Idealize.ShloMosaic.ValueIdx

/-! ## Row-major order of the update positions -/

/-- Position `(p, k)` of a `[4000000, 4]` array is the `(4 p + k)`-th in row-major order. -/
theorem rowMajor_N4 (p : Fin 4000000) (k : Fin 4) :
    ((⟨2, ![4000000, 4]⟩ : Shape).rowMajor (ix2 p k)).val = 4 * p.val + k.val := by
  rw [Shape.rowMajor_val_two]
  show p.val * 4 + k.val = _
  omega

/-- Position `(p, k)` of a `[4000000, 3]` array is the `(3 p + k)`-th in row-major order. -/
theorem rowMajor_N3 (p : Fin 4000000) (k : Fin 3) :
    ((⟨2, ![4000000, 3]⟩ : Shape).rowMajor (ix2 p k)).val = 3 * p.val + k.val := by
  rw [Shape.rowMajor_val_two]
  show p.val * 3 + k.val = _
  omega

/-- Position `p` of a `[4000000]` array is the `p`-th. -/
theorem rowMajor_N (p : Fin 4000000) : ((⟨1, ![4000000]⟩ : Shape).rowMajor (ix1 p)).val = p.val := by
  rw [Shape.rowMajor_val_one]

/-! ## Gather: which operand element a result position reads -/

/-- The row a signed start word selects in an array of `N` rows: the word's nonnegative part, at most `N - 1`. -/
def clampRow (N : Nat) (hN : 0 < N) (z : Int) : Fin N := ⟨min z.toNat (N - 1), by omega⟩

theorem clampRow_val (N : Nat) (hN : 0 < N) (z : Int) : (clampRow N hN z).val = min z.toNat (N - 1) := rfl

/-- A start word already naming a row selects that row. -/
theorem clampRow_of_inRange (N : Nat) (hN : 0 < N) (z : Int) (h0 : 0 ≤ z) (h1 : z < N) :
    ((clampRow N hN z).val : Int) = z := by
  rw [clampRow_val]; omega

variable {α : Type}

section
local notation "dG" => Cert.ReferenceIdeal.gather_S4000000x4_S4000000x1_S4000000x4_1_0_n_n_0_1_14

theorem R_rows4_row (idx : IVec Cert.ReferenceIdeal.S4000000x1 32) (p : Fin 4000000) (k : Fin 4) :
    (GatherDims.operandIdx dG (ix2 p k) idx 0).val = min (idx (ix2 p 0)).toInt.toNat (4000000 - 1) := by
  show GatherDims.start dG (ix2 p k) idx 0 + GatherDims.batchCoord dG (ix2 p k) 0
    + GatherDims.offCoord dG (ix2 p k) 0 = _
  have hmem : (0 : Fin 2) ∈ GatherDims.startIndexMap dG := by decide
  have hcol : (0 : Fin 2) ∈ GatherDims.collapsedSliceDims dG := by decide
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos hmem]
  have hsi : GatherDims.siIdx dG (ix2 p k)
      ⟨List.idxOf (0 : Fin 2) (GatherDims.startIndexMap dG), List.idxOf_lt_length_iff.2 hmem⟩ = ix2 p 0 := by
    funext b; refine Fin.ext ?_
    match b with
    | ⟨0, _⟩ => rfl
    | ⟨1, _⟩ => rfl
  rw [hsi]
  rfl

theorem R_rows4_col (idx : IVec Cert.ReferenceIdeal.S4000000x1 32) (p : Fin 4000000) (k : Fin 4) :
    (GatherDims.operandIdx dG (ix2 p k) idx 1).val = k.val := by
  show GatherDims.start dG (ix2 p k) idx 1 + GatherDims.batchCoord dG (ix2 p k) 1
    + GatherDims.offCoord dG (ix2 p k) 1 = _
  have hst : GatherDims.start dG (ix2 p k) idx 1 = 0 := by
    unfold GatherDims.start
    rw [dif_neg (by decide : (1 : Fin 2) ∉ GatherDims.startIndexMap dG)]
  have hoff : GatherDims.offCoord dG (ix2 p k) 1 = k.val := by
    unfold GatherDims.offCoord
    rw [dif_pos (by decide : (1 : Fin 2) ∈ GatherDims.sKept dG)]
    rfl
  rw [hst, GatherDims.batchCoord_eq_zero _ _ _ List.not_mem_nil, hoff]
  omega

/-- Result element `(p, k)` is the operand's element at the row the start word `idx[p, 0]` selects, column `k`. -/
theorem R_rows4_apply (x : Cert.ReferenceIdeal.S4000000x4.Idx → α) (idx : IVec Cert.ReferenceIdeal.S4000000x1 32)
    (p : Fin 4000000) (k : Fin 4) :
    Host.gather dG x idx (ix2 p k)
      = x (ix2 (clampRow 4000000 (by decide) (idx (ix2 p 0)).toInt) k) := by
  unfold Host.gather
  congr 1
  funext a
  refine Fin.ext ?_
  match a with
  | ⟨0, _⟩ => exact R_rows4_row idx p k
  | ⟨1, _⟩ => exact R_rows4_col idx p k

end

section
local notation "dG" => Cert.KernelIdeal.gather_S4000000x4_S20000x5x1_S20000x5x4_2_0_n_n_0_2_14

theorem K_rows_row (idx : IVec Cert.KernelIdeal.S20000x5x1 32) (v : Fin 20000) (r : Fin 5) (k : Fin 4) :
    (GatherDims.operandIdx dG (ix3 v r k) idx 0).val = min (idx (ix3 v r 0)).toInt.toNat (4000000 - 1) := by
  show GatherDims.start dG (ix3 v r k) idx 0 + GatherDims.batchCoord dG (ix3 v r k) 0
    + GatherDims.offCoord dG (ix3 v r k) 0 = _
  have hmem : (0 : Fin 2) ∈ GatherDims.startIndexMap dG := by decide
  have hcol : (0 : Fin 2) ∈ GatherDims.collapsedSliceDims dG := by decide
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos hmem]
  have hsi : GatherDims.siIdx dG (ix3 v r k)
      ⟨List.idxOf (0 : Fin 2) (GatherDims.startIndexMap dG), List.idxOf_lt_length_iff.2 hmem⟩ = ix3 v r 0 := by
    funext b; refine Fin.ext ?_
    match b with
    | ⟨0, _⟩ => rfl
    | ⟨1, _⟩ => rfl
    | ⟨2, _⟩ => rfl
  rw [hsi]
  rfl

theorem K_rows_col (idx : IVec Cert.KernelIdeal.S20000x5x1 32) (v : Fin 20000) (r : Fin 5) (k : Fin 4) :
    (GatherDims.operandIdx dG (ix3 v r k) idx 1).val = k.val := by
  show GatherDims.start dG (ix3 v r k) idx 1 + GatherDims.batchCoord dG (ix3 v r k) 1
    + GatherDims.offCoord dG (ix3 v r k) 1 = _
  have hst : GatherDims.start dG (ix3 v r k) idx 1 = 0 := by
    unfold GatherDims.start
    rw [dif_neg (by decide : (1 : Fin 2) ∉ GatherDims.startIndexMap dG)]
  have hoff : GatherDims.offCoord dG (ix3 v r k) 1 = k.val := by
    unfold GatherDims.offCoord
    rw [dif_pos (by decide : (1 : Fin 2) ∈ GatherDims.sKept dG)]
    rfl
  rw [hst, GatherDims.batchCoord_eq_zero _ _ _ List.not_mem_nil, hoff]
  omega

/-- Result element `(v, r, k)` is the operand's element at the row the start word `idx[v, r, 0]` selects,
    column `k`. -/
theorem K_rows_apply (x : Cert.KernelIdeal.S4000000x4.Idx → α) (idx : IVec Cert.KernelIdeal.S20000x5x1 32)
    (v : Fin 20000) (r : Fin 5) (k : Fin 4) :
    Host.gather dG x idx (ix3 v r k)
      = x (ix2 (clampRow 4000000 (by decide) (idx (ix3 v r 0)).toInt) k) := by
  unfold Host.gather
  congr 1
  funext a
  refine Fin.ext ?_
  match a with
  | ⟨0, _⟩ => exact K_rows_row idx v r k
  | ⟨1, _⟩ => exact K_rows_col idx v r k

end

section
local notation "dG" => Cert.ReferenceIdeal.gather_S4000000x3_S4000000x1_S4000000x3_1_0_n_n_0_1_13

theorem R_rows3_row (idx : IVec Cert.ReferenceIdeal.S4000000x1 32) (p : Fin 4000000) (k : Fin 3) :
    (GatherDims.operandIdx dG (ix2 p k) idx 0).val = min (idx (ix2 p 0)).toInt.toNat (4000000 - 1) := by
  show GatherDims.start dG (ix2 p k) idx 0 + GatherDims.batchCoord dG (ix2 p k) 0
    + GatherDims.offCoord dG (ix2 p k) 0 = _
  have hmem : (0 : Fin 2) ∈ GatherDims.startIndexMap dG := by decide
  have hcol : (0 : Fin 2) ∈ GatherDims.collapsedSliceDims dG := by decide
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos hmem]
  have hsi : GatherDims.siIdx dG (ix2 p k)
      ⟨List.idxOf (0 : Fin 2) (GatherDims.startIndexMap dG), List.idxOf_lt_length_iff.2 hmem⟩ = ix2 p 0 := by
    funext b; refine Fin.ext ?_
    match b with
    | ⟨0, _⟩ => rfl
    | ⟨1, _⟩ => rfl
  rw [hsi]
  rfl

theorem R_rows3_col (idx : IVec Cert.ReferenceIdeal.S4000000x1 32) (p : Fin 4000000) (k : Fin 3) :
    (GatherDims.operandIdx dG (ix2 p k) idx 1).val = k.val := by
  show GatherDims.start dG (ix2 p k) idx 1 + GatherDims.batchCoord dG (ix2 p k) 1
    + GatherDims.offCoord dG (ix2 p k) 1 = _
  have hst : GatherDims.start dG (ix2 p k) idx 1 = 0 := by
    unfold GatherDims.start
    rw [dif_neg (by decide : (1 : Fin 2) ∉ GatherDims.startIndexMap dG)]
  have hoff : GatherDims.offCoord dG (ix2 p k) 1 = k.val := by
    unfold GatherDims.offCoord
    rw [dif_pos (by decide : (1 : Fin 2) ∈ GatherDims.sKept dG)]
    rfl
  rw [hst, GatherDims.batchCoord_eq_zero _ _ _ List.not_mem_nil, hoff]
  omega

/-- Result element `(p, k)` is the operand's element at the row the start word `idx[p, 0]` selects, column `k`. -/
theorem R_rows3_apply (x : Cert.ReferenceIdeal.S4000000x3.Idx → α) (idx : IVec Cert.ReferenceIdeal.S4000000x1 32)
    (p : Fin 4000000) (k : Fin 3) :
    Host.gather dG x idx (ix2 p k)
      = x (ix2 (clampRow 4000000 (by decide) (idx (ix2 p 0)).toInt) k) := by
  unfold Host.gather
  congr 1
  funext a
  refine Fin.ext ?_
  match a with
  | ⟨0, _⟩ => exact R_rows3_row idx p k
  | ⟨1, _⟩ => exact R_rows3_col idx p k

end

section
local notation "dG" => Cert.KernelIdeal.gather_S4000000_S4000000x1_S4000000_n_0_n_n_0_1_1

theorem K_take_row (idx : IVec Cert.KernelIdeal.S4000000x1 32) (p : Fin 4000000) :
    (GatherDims.operandIdx dG (ix1 p) idx 0).val = min (idx (ix2 p 0)).toInt.toNat (4000000 - 1) := by
  show GatherDims.start dG (ix1 p) idx 0 + GatherDims.batchCoord dG (ix1 p) 0
    + GatherDims.offCoord dG (ix1 p) 0 = _
  have hmem : (0 : Fin 1) ∈ GatherDims.startIndexMap dG := by decide
  have hcol : (0 : Fin 1) ∈ GatherDims.collapsedSliceDims dG := by decide
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos hmem]
  have hsi : GatherDims.siIdx dG (ix1 p)
      ⟨List.idxOf (0 : Fin 1) (GatherDims.startIndexMap dG), List.idxOf_lt_length_iff.2 hmem⟩ = ix2 p 0 := by
    funext b; refine Fin.ext ?_
    match b with
    | ⟨0, _⟩ => rfl
    | ⟨1, _⟩ => rfl
  rw [hsi]
  rfl

/-- Result element `p` is the operand's element at the position the start word `idx[p, 0]` selects. -/
theorem K_take_apply (x : Cert.KernelIdeal.S4000000.Idx → α) (idx : IVec Cert.KernelIdeal.S4000000x1 32)
    (p : Fin 4000000) :
    Host.gather dG x idx (ix1 p)
      = x (ix1 (clampRow 4000000 (by decide) (idx (ix2 p 0)).toInt)) := by
  unfold Host.gather
  congr 1
  funext a
  refine Fin.ext ?_
  match a with
  | ⟨0, _⟩ => exact K_take_row idx p

end

section
local notation "dG" => Cert.ReferenceIdeal.gather_S4000000_S4000000x1_S4000000_n_0_n_n_0_1_1

theorem R_take_row (idx : IVec Cert.ReferenceIdeal.S4000000x1 32) (p : Fin 4000000) :
    (GatherDims.operandIdx dG (ix1 p) idx 0).val = min (idx (ix2 p 0)).toInt.toNat (4000000 - 1) := by
  show GatherDims.start dG (ix1 p) idx 0 + GatherDims.batchCoord dG (ix1 p) 0
    + GatherDims.offCoord dG (ix1 p) 0 = _
  have hmem : (0 : Fin 1) ∈ GatherDims.startIndexMap dG := by decide
  have hcol : (0 : Fin 1) ∈ GatherDims.collapsedSliceDims dG := by decide
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos hmem]
  have hsi : GatherDims.siIdx dG (ix1 p)
      ⟨List.idxOf (0 : Fin 1) (GatherDims.startIndexMap dG), List.idxOf_lt_length_iff.2 hmem⟩ = ix2 p 0 := by
    funext b; refine Fin.ext ?_
    match b with
    | ⟨0, _⟩ => rfl
    | ⟨1, _⟩ => rfl
  rw [hsi]
  rfl

/-- Result element `p` is the operand's element at the position the start word `idx[p, 0]` selects. -/
theorem R_take_apply (x : Cert.ReferenceIdeal.S4000000.Idx → α) (idx : IVec Cert.ReferenceIdeal.S4000000x1 32)
    (p : Fin 4000000) :
    Host.gather dG x idx (ix1 p)
      = x (ix1 (clampRow 4000000 (by decide) (idx (ix2 p 0)).toInt)) := by
  unfold Host.gather
  congr 1
  funext a
  refine Fin.ext ?_
  match a with
  | ⟨0, _⟩ => exact R_take_row idx p

end

end Cert.Vox.Forms

end
-- ==== Proof.Decode.lean ====
/-
  Floor division by a positive literal, as the program computes it on 32-bit words, and the recovery of a cell
  triple from its key.

  The program's floor division is a signed division rounding toward zero, corrected by one when the operands' signs
  differ and the division is inexact. On a nonnegative dividend and a positive divisor the signs never differ with a
  nonzero remainder, so the result is the quotient of the two words read as natural numbers. A key
  (a * 1600 + b) * 40 + c with a <= 1407, b <= 1599, c <= 39 is below 2^31, and dividing by 64000 = 1600 * 40 and then
  by 40, taking remainders by multiplying back and subtracting, returns a, b and c.
-/
import proofs.«166804_j37915971289632_2_alg».proof.Proof.KeySpec
import proofs.«166804_j37915971289632_2_alg».proof.Proof.KeyFacts

noncomputable section

namespace Cert.Vox

open Idealize.ShloMosaic

/-- The sign of a word as a word: 0, -1 or 1. -/
def sgn (x : BitVec 32) : BitVec 32 := if x = 0 then 0 else if x.msb then -1 else 1

/-- Floor division as the program computes it: the truncating quotient, less one when the signs differ and the
    remainder is not zero. -/
def fdiv (k d : BitVec 32) : BitVec 32 :=
  Scalar.select
    (IntOp.andi (IntOp.cmpi .ne (sgn k) (sgn d)) (IntOp.cmpi .ne (IntOp.remsi .host k d) 0#32))
    (IntOp.subi (IntOp.divsi .host k d) 1#32) (IntOp.divsi .host k d)

/-- On a nonnegative dividend and a positive divisor the program's floor division is the unsigned quotient. -/
theorem fdiv_of_nonneg (k d : BitVec 32) (hk : k.msb = false) (hd : d.msb = false) (hd0 : d ≠ 0#32) :
    fdiv k d = k / d := by
  have hcorner : ¬ IntOp.SDivCorner k d := by
    rintro (h | ⟨_, h⟩)
    · exact hd0 h
    · rw [h] at hd; exact absurd hd (by decide)
  have hdiv : IntOp.divsi .host k d = k / d := by
    unfold IntOp.divsi
    rw [if_neg hcorner, BitVec.sdiv_eq, hk, hd]
    rfl
  have hrem : IntOp.remsi .host k d = k % d := by
    unfold IntOp.remsi
    rw [if_neg hcorner, BitVec.srem_eq, hk, hd]
  unfold fdiv
  rw [hdiv, hrem]
  by_cases hk0 : k = 0#32
  · subst hk0
    have : (0#32 % d) = 0#32 := by
      apply BitVec.eq_of_toNat_eq; simp
    rw [this]
    have h2 : IntOp.cmpi .ne (0#32) (0#32) = 0#1 := by decide
    rw [h2]
    have h3 : ∀ x : BitVec 1, IntOp.andi x 0#1 = 0#1 := by decide
    rw [h3]
    rfl
  · have hsk : sgn k = 1 := by
      unfold sgn; rw [if_neg (show ¬ k = 0 from hk0), hk]; rfl
    have hsd : sgn d = 1 := by
      unfold sgn; rw [if_neg (show ¬ d = 0 from hd0), hd]; rfl
    rw [hsk, hsd]
    have h2 : IntOp.cmpi .ne (1 : BitVec 32) (1 : BitVec 32) = 0#1 := by decide
    rw [h2]
    have h3 : ∀ x : BitVec 1, IntOp.andi 0#1 x = 0#1 := by decide
    rw [h3]
    rfl

/-- The quotient of a nonnegative word by 64000, as a natural number. -/
theorem fdiv_64000_toNat (k : BitVec 32) (hk : k.toNat < 2 ^ 31) : (fdiv k 64000#32).toNat = k.toNat / 64000 := by
  have hm : k.msb = false := by
    rw [BitVec.msb_eq_decide]; simp; omega
  rw [fdiv_of_nonneg k 64000#32 hm (by decide) (by decide), BitVec.toNat_udiv]
  rfl

/-- The quotient of a nonnegative word by 40, as a natural number. -/
theorem fdiv_40_toNat (k : BitVec 32) (hk : k.toNat < 2 ^ 31) : (fdiv k 40#32).toNat = k.toNat / 40 := by
  have hm : k.msb = false := by
    rw [BitVec.msb_eq_decide]; simp; omega
  rw [fdiv_of_nonneg k 40#32 hm (by decide) (by decide), BitVec.toNat_udiv]
  rfl

/-- The first cell of a key: the key divided by 64000. -/
def dec0 (key : BitVec 32) : BitVec 32 := fdiv key 64000#32
/-- The key less its first cell's share. -/
def decR (key : BitVec 32) : BitVec 32 := IntOp.subi key (IntOp.muli (dec0 key) 64000#32)
/-- The second cell: that remainder divided by 40. -/
def dec1 (key : BitVec 32) : BitVec 32 := fdiv (decR key) 40#32
/-- The third cell: what is left. -/
def dec2 (key : BitVec 32) : BitVec 32 := IntOp.subi (decR key) (IntOp.muli (dec1 key) 40#32)

/-- Dividing the key of a cell triple within the grid returns the triple. -/
theorem decode (a b c : BitVec 32) (ha : a.toNat ≤ 1407) (hb : b.toNat ≤ 1599) (hc : c.toNat ≤ 39) :
    dec0 (encode a b c) = a ∧ dec1 (encode a b c) = b ∧ dec2 (encode a b c) = c := by
  have hkey := encode_toNat a b c ha hb hc
  have h0 : dec0 (encode a b c) = a := by
    apply BitVec.eq_of_toNat_eq
    unfold dec0
    rw [fdiv_64000_toNat _ (by rw [hkey]; omega), hkey]
    omega
  have hR : (decR (encode a b c)).toNat = b.toNat * 40 + c.toNat := by
    unfold decR
    rw [h0]
    simp only [IntOp.subi, IntOp.muli, BitVec.toNat_sub, BitVec.toNat_mul, hkey, BitVec.toNat_ofNat]
    omega
  have h1 : dec1 (encode a b c) = b := by
    apply BitVec.eq_of_toNat_eq
    unfold dec1
    rw [fdiv_40_toNat _ (by rw [hR]; omega), hR]
    omega
  refine ⟨h0, h1, ?_⟩
  apply BitVec.eq_of_toNat_eq
  unfold dec2
  rw [h1]
  simp only [IntOp.subi, IntOp.muli, BitVec.toNat_sub, BitVec.toNat_mul, hR, BitVec.toNat_ofNat]
  omega

end Cert.Vox

end
-- ==== Proof.KCoorsRead.lean ====
/-
  The cell triples of the voxels, in the kernel program: its operations from the divisor 64000 to the scatter of
  the decoded rows, read as one value (the comparison with the reference's value is in the module that imports this one).

  The kernel program recovers each sorted point's cell triple from its sorted key by two floor divisions (by
  64000 = 1600 * 40, then by 40), each remainder obtained by multiplying back and subtracting, lays the three words
  side by side as rows of three, and scatters the rows into zeros at the voxel index of each voxel start (20000, out
  of range, everywhere else). The reference gathers the rows of the cell-triple array in sorted order and scatters
  them at the same indices. A scatter that overwrites depends only on the rows that land; a row lands only at a voxel
  start, whose key is below the sentinel and is therefore the linearised cell triple of its point, which the two
  divisions return. The stretch is read in four pieces, each as a composition of whole-array operations, and the
  pieces are joined; the buffers of earlier operations that later ones read are not written by it.
-/
import proofs.«166804_j37915971289632_2_alg».proof.Proof.Gen.KernelIdeal.Launch
import proofs.«166804_j37915971289632_2_alg».proof.Proof.Pipe
import proofs.«166804_j37915971289632_2_alg».proof.Proof.KeySpec
import proofs.«166804_j37915971289632_2_alg».proof.Proof.KeyFacts
import proofs.«166804_j37915971289632_2_alg».proof.Proof.LibScatterSet
import proofs.«166804_j37915971289632_2_alg».proof.Proof.IndexForms
import proofs.«166804_j37915971289632_2_alg».proof.Proof.Decode
import Idealize.ShloMosaic.Lib.Pipeline.Value
import Idealize.ShloMosaic.Lib.ValueIdx

noncomputable section

namespace Cert.KernelIdeal.HC

open Idealize.ShloMosaic Idealize.ShloMosaic.TcCoe Idealize.SL.Sem Idealize.ShloMosaic.ValueIdx
open Cert.KernelIdeal Cert.KernelIdeal.Gen

/-- The stretch that decodes the cell triples from the sorted keys and scatters them. -/
abbrev opsCoors : List (HloOp τ sig (Elt Ideal)) :=
  hostOps1_11 ++ hostOps1_12 ++ hostOps1_13 ++ hostOps1_14 ++ hostOps1_15 ++ hostOps1_16 ++ (hostOps1_17 (F := Ideal)).take 11

/-- One 32-bit word per point. -/
abbrev KV : Type := IVec S4000000 32

/-- A word repeated for every point. -/
def bc (k : BitVec 32) : KV := broadcastInDim S4000000 ![] bcast_S_S4000000 (constantI S_ 32 k)

/-- Floor division of every word by a literal, as the program computes it. -/
def fdivV (x : KV) (d : BitVec 32) : KV :=
  select
    (andi (cmpi .ne (signi x) (broadcastInDim S4000000 ![] bcast_S_S4000000 (signi (constantI S_ 32 d))))
      (cmpi .ne (Host.remsi x (bc d)) (bc 0#32)))
    (subi (Host.divsi x (bc d)) (bc 1#32)) (Host.divsi x (bc d))

/-- What is left of every word after taking out a quotient's share. -/
def remV (x q : KV) (d : BitVec 32) : KV := subi x (muli q (bc d))

/-- A word per point as a one-column array. -/
def colK (x : KV) : IVec S4000000x1 32 := broadcastInDim S4000000x1 ![0] bcast_S4000000_S4000000x1_0 x

/-- A possibly negative index wrapped once by the extent. -/
def wrapK (x : KV) (n : BitVec 32) : KV := select (cmpi .slt x (bc 0#32)) (addi x (bc n)) x

/-- The voxel index a voxel start writes at, 20000 elsewhere. -/
def ciK (nv : IVec S4000000 1) (vd : KV) : KV := select (andi nv (cmpi .slt vd (bc 20000#32))) vd (bc 20000#32)

/-- Three columns side by side. -/
def cat3 (x0 x1 x2 : KV) : IVec S4000000x3 32 :=
  concatenate S4000000x3 1 [⟨S4000000x1, colK x0⟩, ⟨S4000000x1, colK x1⟩, ⟨S4000000x1, colK x2⟩]
    concatenates_S4000000x1_S4000000x1_S4000000x1_S4000000x3_d1

/-- The scatter of rows of three into zeros. -/
def scat3 (idx : IVec S4000000x1 32) (upd : IVec S4000000x3 32) : IVec S20000x3 32 :=
  Host.scatter scatter_S20000x3_S4000000x1_S4000000x3_1_0_0_1 (fun _ b => b)
    (broadcastInDim S20000x3 ![] bcast_S_S20000x3 (constantI S_ 32 0#32)) idx upd

/-! ## The four stretches read -/

def opsA : List (HloOp τ sig (Elt Ideal)) := hostOps1_11 ++ hostOps1_12
def opsB : List (HloOp τ sig (Elt Ideal)) := hostOps1_13 ++ hostOps1_14
def opsC : List (HloOp τ sig (Elt Ideal)) := hostOps1_15 ++ hostOps1_16
/-- The first eleven operations of the last stretch. -/
def opsD : List (HloOp τ sig (Elt Ideal)) :=
  [
    StableHlo.nullary main_c_15 (constantI S_ 32 0#32),
    StableHlo.unary main_c_15 main_v51 (broadcastInDim S20000x3 ![] bcast_S_S20000x3 : (⟨S_, .i32⟩ : BufTy).Contents (Elt Ideal) → (⟨S20000x3, .i32⟩ : BufTy).Contents (Elt Ideal)),
    StableHlo.nullary main_c_16 (constantI S_ 32 0#32),
    StableHlo.unary main_c_16 main_v52 (broadcastInDim S4000000 ![] bcast_S_S4000000 : (⟨S_, .i32⟩ : BufTy).Contents (Elt Ideal) → (⟨S4000000, .i32⟩ : BufTy).Contents (Elt Ideal)),
    StableHlo.binary main_v50 main_v52 main_v53 (cmpi .slt : (⟨S4000000, .i32⟩ : BufTy).Contents (Elt Ideal) → (⟨S4000000, .i32⟩ : BufTy).Contents (Elt Ideal) → (⟨S4000000, .i1⟩ : BufTy).Contents (Elt Ideal)),
    StableHlo.nullary main_c_17 (constantI S_ 32 20000#32),
    StableHlo.unary main_c_17 main_v54 (broadcastInDim S4000000 ![] bcast_S_S4000000 : (⟨S_, .i32⟩ : BufTy).Contents (Elt Ideal) → (⟨S4000000, .i32⟩ : BufTy).Contents (Elt Ideal)),
    StableHlo.binary main_v50 main_v54 main_v55 (addi : (⟨S4000000, .i32⟩ : BufTy).Contents (Elt Ideal) → (⟨S4000000, .i32⟩ : BufTy).Contents (Elt Ideal) → (⟨S4000000, .i32⟩ : BufTy).Contents (Elt Ideal)),
    StableHlo.ternary main_v53 main_v55 main_v50 main_v56 (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)),
    StableHlo.unary main_v56 main_v57 (broadcastInDim S4000000x1 ![0] bcast_S4000000_S4000000x1_0 : (⟨S4000000, .i32⟩ : BufTy).Contents (Elt Ideal) → (⟨S4000000x1, .i32⟩ : BufTy).Contents (Elt Ideal)),
    StableHlo.ternary main_v51 main_v57 main_v46 main_v58 ((fun x i u => Host.scatter scatter_S20000x3_S4000000x1_S4000000x3_1_0_0_1 (fun _ b => b) x i u) : (⟨S20000x3, .i32⟩ : BufTy).Contents (Elt Ideal) → (⟨S4000000x1, .i32⟩ : BufTy).Contents (Elt Ideal) → (⟨S4000000x3, .i32⟩ : BufTy).Contents (Elt Ideal) → (⟨S20000x3, .i32⟩ : BufTy).Contents (Elt Ideal)) ]

theorem opsD_eq : (hostOps1_17 (F := Ideal)).take 11 = opsD := rfl

theorem readA (W : Valuation τ sig (Elt Ideal)) :
    (StableHlo.after opsA W (Proc.devRef .tc main_v35) : KV) = fdivV (W (Proc.devRef .tc main_v10)) 64000#32 := by
  rw [opsA, StableHlo.after_append]
  after_results_simp
  rfl

theorem readB38 (W : Valuation τ sig (Elt Ideal)) :
    (StableHlo.after opsB W (Proc.devRef .tc main_v38) : KV)
      = remV (W (Proc.devRef .tc main_v10)) (W (Proc.devRef .tc main_v35)) 64000#32 := by
  rw [opsB, StableHlo.after_append]
  after_results_simp
  rfl

theorem readB39 (W : Valuation τ sig (Elt Ideal)) :
    (StableHlo.after opsB W (Proc.devRef .tc main_v39) : KV)
      = fdivV (remV (W (Proc.devRef .tc main_v10)) (W (Proc.devRef .tc main_v35)) 64000#32) 40#32 := by
  rw [opsB, StableHlo.after_append]
  after_results_simp
  rfl

theorem readC46 (W : Valuation τ sig (Elt Ideal)) :
    (StableHlo.after opsC W (Proc.devRef .tc main_v46) : IVec S4000000x3 32)
      = cat3 (W (Proc.devRef .tc main_v35)) (W (Proc.devRef .tc main_v39))
          (remV (W (Proc.devRef .tc main_v38)) (W (Proc.devRef .tc main_v39)) 40#32) := by
  rw [opsC, StableHlo.after_append]
  after_results_simp
  rfl

theorem readC50 (W : Valuation τ sig (Elt Ideal)) :
    (StableHlo.after opsC W (Proc.devRef .tc main_v50) : KV)
      = ciK (W (Proc.devRef .tc main_v18)) (W (Proc.devRef .tc main_v22)) := by
  rw [opsC, StableHlo.after_append]
  after_results_simp
  rfl

theorem readD (W : Valuation τ sig (Elt Ideal)) :
    (StableHlo.after opsD W (Proc.devRef .tc main_v58) : IVec S20000x3 32)
      = scat3 (colK (wrapK (W (Proc.devRef .tc main_v50)) 20000#32)) (W (Proc.devRef .tc main_v46)) := by
  rw [opsD]
  after_results_simp
  rfl

/-! ## What the stretches leave alone -/

/-- The references each stretch writes. -/
abbrev WA : List (Ref sig .tc) := [main_c_9, main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v35]
abbrev WB : List (Ref sig .tc) := [main_c_10, main_v36, main_v37, main_v38, main_c_11, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v39]
abbrev WC : List (Ref sig .tc) := [main_c_12, main_v40, main_v41, main_v42, main_v43, main_v44, main_v45, main_v46, main_c_13, main_v47, main_v48, main_v49, main_c_14, main_call8_v0, main_call8_v1, main_v50]
abbrev WD : List (Ref sig .tc) := [main_c_15, main_v51, main_c_16, main_v52, main_v53, main_c_17, main_v54, main_v55, main_v56, main_v57, main_v58]

theorem opsA_writes : opsA.Forall fun op => op.writes ⊆ (WA.map (Proc.devRef (τ := τ) .tc)).toFinset := by
  simp only [opsA, hostOps1_11, hostOps1_12, List.cons_append, List.nil_append, List.Forall]
  simp only [StableHlo.nullary_writes, StableHlo.unary_writes, StableHlo.binary_writes, StableHlo.ternary_writes, StableHlo.nary_writes, Finset.singleton_subset_iff, List.mem_toFinset]
  repeat' apply And.intro
  all_goals exact List.mem_map_of_mem (by decide)

theorem keepA (W : Valuation τ sig (Elt Ideal)) (r : Ref sig .tc) (h : r ∉ WA) :
    StableHlo.after opsA W (Proc.devRef .tc r) = W (Proc.devRef .tc r) :=
  StableHlo.after_of_writes_sub opsA W opsA_writes h

theorem opsB_writes : opsB.Forall fun op => op.writes ⊆ (WB.map (Proc.devRef (τ := τ) .tc)).toFinset := by
  simp only [opsB, hostOps1_13, hostOps1_14, List.cons_append, List.nil_append, List.Forall]
  simp only [StableHlo.nullary_writes, StableHlo.unary_writes, StableHlo.binary_writes, StableHlo.ternary_writes, StableHlo.nary_writes, Finset.singleton_subset_iff, List.mem_toFinset]
  repeat' apply And.intro
  all_goals exact List.mem_map_of_mem (by decide)

theorem keepB (W : Valuation τ sig (Elt Ideal)) (r : Ref sig .tc) (h : r ∉ WB) :
    StableHlo.after opsB W (Proc.devRef .tc r) = W (Proc.devRef .tc r) :=
  StableHlo.after_of_writes_sub opsB W opsB_writes h

theorem opsC_writes : opsC.Forall fun op => op.writes ⊆ (WC.map (Proc.devRef (τ := τ) .tc)).toFinset := by
  simp only [opsC, hostOps1_15, hostOps1_16, List.cons_append, List.nil_append, List.Forall]
  simp only [StableHlo.nullary_writes, StableHlo.unary_writes, StableHlo.binary_writes, StableHlo.ternary_writes, StableHlo.nary_writes, Finset.singleton_subset_iff, List.mem_toFinset]
  repeat' apply And.intro
  all_goals exact List.mem_map_of_mem (by decide)

theorem keepC (W : Valuation τ sig (Elt Ideal)) (r : Ref sig .tc) (h : r ∉ WC) :
    StableHlo.after opsC W (Proc.devRef .tc r) = W (Proc.devRef .tc r) :=
  StableHlo.after_of_writes_sub opsC W opsC_writes h

theorem opsD_writes : opsD.Forall fun op => op.writes ⊆ (WD.map (Proc.devRef (τ := τ) .tc)).toFinset := by
  simp only [opsD, List.cons_append, List.nil_append, List.Forall]
  simp only [StableHlo.nullary_writes, StableHlo.unary_writes, StableHlo.binary_writes, StableHlo.ternary_writes, StableHlo.nary_writes, Finset.singleton_subset_iff, List.mem_toFinset]
  repeat' apply And.intro
  all_goals exact List.mem_map_of_mem (by decide)

theorem keepD (W : Valuation τ sig (Elt Ideal)) (r : Ref sig .tc) (h : r ∉ WD) :
    StableHlo.after opsD W (Proc.devRef .tc r) = W (Proc.devRef .tc r) :=
  StableHlo.after_of_writes_sub opsD W opsD_writes h

/-! ## The whole stretch read -/

theorem coors_split : opsCoors = opsA ++ (opsB ++ (opsC ++ opsD)) := by
  show hostOps1_11 ++ hostOps1_12 ++ hostOps1_13 ++ hostOps1_14 ++ hostOps1_15 ++ hostOps1_16 ++ (hostOps1_17 (F := Ideal)).take 11
    = opsA ++ (opsB ++ (opsC ++ opsD))
  rw [opsD_eq, opsA, opsB, opsC]
  simp only [List.append_assoc]

/-- The first cell of every sorted key. -/
def q0V (x : KV) : KV := fdivV x 64000#32
/-- Every sorted key less its first cell's share. -/
def r1V (x : KV) : KV := remV x (q0V x) 64000#32
/-- The second cell of every sorted key. -/
def q1V (x : KV) : KV := fdivV (r1V x) 40#32
/-- The third cell of every sorted key. -/
def r2V (x : KV) : KV := remV (r1V x) (q1V x) 40#32

theorem q0V_apply (x : KV) (i : S4000000.Idx) : q0V x i = Cert.Vox.dec0 (x i) := rfl
theorem q1V_apply (x : KV) (i : S4000000.Idx) : q1V x i = Cert.Vox.dec1 (x i) := rfl
theorem r2V_apply (x : KV) (i : S4000000.Idx) : r2V x i = Cert.Vox.dec2 (x i) := rfl

theorem coors_read (W : Valuation τ sig (Elt Ideal)) :
    (StableHlo.after opsCoors W (Proc.devRef .tc main_v58) : IVec S20000x3 32)
      = scat3 (colK (wrapK (ciK (W (Proc.devRef .tc main_v18)) (W (Proc.devRef .tc main_v22))) 20000#32))
          (cat3 (q0V (W (Proc.devRef .tc main_v10))) (q1V (W (Proc.devRef .tc main_v10))) (r2V (W (Proc.devRef .tc main_v10)))) := by
  rw [coors_split, StableHlo.after_append, StableHlo.after_append, StableHlo.after_append]
  rw [readD, readC50, readC46, readB39, readB38]
  rw [keepB _ main_v35 (by decide), keepB _ main_v18 (by decide), keepB _ main_v22 (by decide)]
  rw [readA, keepA _ main_v10 (by decide), keepA _ main_v18 (by decide), keepA _ main_v22 (by decide)]
  rfl

/-- The buffers of earlier stretches that later stretches read are not written here. -/
theorem keep_of (W : Valuation τ sig (Elt Ideal)) (r : Ref sig .tc) (hA : r ∉ WA) (hB : r ∉ WB) (hC : r ∉ WC) (hD : r ∉ WD) :
    StableHlo.after opsCoors W (Proc.devRef .tc r) = W (Proc.devRef .tc r) := by
  rw [coors_split, StableHlo.after_append, StableHlo.after_append, StableHlo.after_append,
    keepD _ r hD, keepC _ r hC, keepB _ r hB, keepA _ r hA]

theorem keep_coors (W : Valuation τ sig (Elt Ideal)) :
    (StableHlo.after opsCoors W (Proc.devRef .tc main_arg0) = W (Proc.devRef .tc main_arg0))
    ∧ (StableHlo.after opsCoors W (Proc.devRef .tc main_v3) = W (Proc.devRef .tc main_v3))
    ∧ (StableHlo.after opsCoors W (Proc.devRef .tc main_v18) = W (Proc.devRef .tc main_v18))
    ∧ (StableHlo.after opsCoors W (Proc.devRef .tc main_v32) = W (Proc.devRef .tc main_v32))
    ∧ (StableHlo.after opsCoors W (Proc.devRef .tc main_v33) = W (Proc.devRef .tc main_v33))
    ∧ (StableHlo.after opsCoors W (Proc.devRef .tc main_v34) = W (Proc.devRef .tc main_v34)) :=
  ⟨keep_of W main_arg0 (by decide) (by decide) (by decide) (by decide),
   keep_of W main_v3 (by decide) (by decide) (by decide) (by decide),
   keep_of W main_v18 (by decide) (by decide) (by decide) (by decide),
   keep_of W main_v32 (by decide) (by decide) (by decide) (by decide),
   keep_of W main_v33 (by decide) (by decide) (by decide) (by decide),
   keep_of W main_v34 (by decide) (by decide) (by decide) (by decide)⟩

/-! ## The decoded rows at an index -/

theorem colK_apply (x : KV) (p : Fin 4000000) (z : Fin 1) : colK x (ix2 p z) = x (ix1 p) := by
  unfold colK
  refine broadcastInDim_apply _ _ x (ix2 p z) (ix1 p) ?_
  intro a
  match a with
  | ⟨0, _⟩ => rfl

private theorem cat3_hi (p : Fin 4000000) (k : Fin 3) :
    ∀ b : Fin S4000000x1.rank, b.cast (rfl : S4000000x1.rank = S4000000x3.rank) ≠ (1 : Fin S4000000x3.rank) →
      ((ix2 p (0 : Fin 1) : S4000000x1.Idx) b).val = ((ix2 p k : S4000000x3.Idx) (b.cast rfl)).val := by
  intro b hb
  match b with
  | ⟨0, _⟩ => rfl
  | ⟨1, _⟩ => exact absurd rfl hb

/-- Column 0 of the three columns side by side is the first. -/
theorem cat3_apply0 (x0 x1 x2 : KV) (p : Fin 4000000) : cat3 x0 x1 x2 (ix2 p (0 : Fin 3)) = x0 (ix1 p) := by
  unfold cat3
  rw [concatenate_apply_piece (1 : Fin S4000000x3.rank) _ _ (ix2 p (0 : Fin 3)) 0 (by show (0 : Nat) < 3; decide) S4000000x1 (colK x0) rfl rfl 0 rfl
    (ix2 p (0 : Fin 1)) (cat3_hi p 0) rfl]
  exact colK_apply x0 p 0

/-- Column 1 is the second. -/
theorem cat3_apply1 (x0 x1 x2 : KV) (p : Fin 4000000) : cat3 x0 x1 x2 (ix2 p (1 : Fin 3)) = x1 (ix1 p) := by
  unfold cat3
  rw [concatenate_apply_piece (1 : Fin S4000000x3.rank) _ _ (ix2 p (1 : Fin 3)) 1 (by show (1 : Nat) < 3; decide) S4000000x1 (colK x1) rfl rfl 1 rfl
    (ix2 p (0 : Fin 1)) (cat3_hi p 1) rfl]
  exact colK_apply x1 p 0

/-- Column 2 is the third. -/
theorem cat3_apply2 (x0 x1 x2 : KV) (p : Fin 4000000) : cat3 x0 x1 x2 (ix2 p (2 : Fin 3)) = x2 (ix1 p) := by
  unfold cat3
  rw [concatenate_apply_piece (1 : Fin S4000000x3.rank) _ _ (ix2 p (2 : Fin 3)) 2 (by show (2 : Nat) < 3; decide) S4000000x1 (colK x2) rfl rfl 2 rfl
    (ix2 p (0 : Fin 1)) (cat3_hi p 2) rfl]
  exact colK_apply x2 p 0

/-! ## The scatter indices -/

/-- The kernel's scatter indices are the specification's. -/
theorem idxc_eq (keys : Cert.Vox.Pipe.KV) :
    colK (wrapK (ciK (Cert.Vox.Pipe.newv keys) (Cert.Vox.Pipe.vid keys)) 20000#32) = Cert.Vox.Pipe.idxc keys := rfl

end Cert.KernelIdeal.HC

end
-- ==== Proof.ScatterForms.lean ====
/-
  Where the updates of the two programs' "set" scatters land, as explicit formulas on coordinates.

  A scatter sends update position j to the operand position whose coordinate on each axis is the start word
  for that axis (read signed off the index array, not clamped) plus j's window coordinate there, when that sum
  is inside the operand on every axis; otherwise the update is dropped. For the dimension numbers these
  programs use, the start word of operand axis c sits at (p, c) of the index array, p the update's row; an
  operand axis the index vector does not name starts at 0, and there the window coordinate is the update's
  trailing coordinate. So an update lands at a given operand position exactly when its index words ARE that
  position's leading coordinates (as signed integers: a negative or too large word lands nowhere) and its
  trailing coordinate is the position's.
-/
import proofs.«166804_j37915971289632_2_alg».proof.KernelIdeal
import proofs.«166804_j37915971289632_2_alg».proof.ReferenceIdeal
import proofs.«166804_j37915971289632_2_alg».proof.Proof.Gen.KernelIdeal
import proofs.«166804_j37915971289632_2_alg».proof.Proof.Gen.ReferenceIdeal
import Idealize.ShloMosaic.Lib.ValueIdx

noncomputable section

namespace Cert.Vox.Forms

open Idealize.ShloMosaic Idealize.ShloMosaic.ValueIdx

/-! ## Scatter: where an update lands -/

/-- An update lands at `t` exactly when, on every axis, start plus window coordinate is `t`'s coordinate. -/
theorem resultIdx?_eq_some_iff {s si u : Shape} (d : ScatterDims s si u) {w : Nat} (j : u.Idx) (idx : IVec si w)
    (t : s.Idx) :
    d.resultIdx? j idx = some t ↔ ∀ a, d.start j idx a + (d.window j a : Int) = ((t a).val : Int) := by
  unfold ScatterDims.resultIdx?
  split
  · rename_i h
    constructor
    · intro e a
      have e' := Option.some.inj e
      rw [← e']
      exact (Int.toNat_of_nonneg (h a).1).symm
    · intro e
      congr 1
      funext a
      apply Fin.ext
      show (d.start j idx a + (d.window j a : Int)).toNat = (t a).val
      rw [e a]; exact Int.toNat_natCast _
  · rename_i h
    constructor
    · intro e; cases e
    · intro e; exfalso; apply h; intro a; rw [e a]
      exact ⟨Int.natCast_nonneg _, by exact_mod_cast (t a).isLt⟩

/-- A statement about every axis of a rank-3 array is the three statements. -/
theorem forall_fin_three {P : Fin 3 → Prop} : (∀ a, P a) ↔ P 0 ∧ P 1 ∧ P 2 :=
  ⟨fun h => ⟨h 0, h 1, h 2⟩, fun h a => by
    match a with
    | ⟨0, _⟩ => exact h.1
    | ⟨1, _⟩ => exact h.2.1
    | ⟨2, _⟩ => exact h.2.2⟩

/-! ### One word into `[20000, 5]` at `(idx[p, 0], idx[p, 1])` -/

section KTable

local notation "dT" => Cert.KernelIdeal.scatter_S20000x5_S4000000x2_S4000000_n_01_01_1

theorem K_table_start0 (idx : IVec Cert.KernelIdeal.S4000000x2 32) (p : Fin 4000000) :
    ScatterDims.start dT (ix1 p) idx 0 = (idx (ix2 p 0)).toInt := by
  unfold ScatterDims.start
  have hmem : (0 : Fin 2) ∈ ScatterDims.scatterDimsToOperandDims dT := by decide
  rw [dif_pos hmem]
  have hsi : ScatterDims.siIdx dT (ix1 p)
      ⟨List.idxOf (0 : Fin 2) (ScatterDims.scatterDimsToOperandDims dT), List.idxOf_lt_length_iff.2 hmem⟩
      = ix2 p 0 := by
    funext b; refine Fin.ext ?_
    match b with
    | ⟨0, _⟩ => rfl
    | ⟨1, _⟩ => rfl
  rw [hsi]

theorem K_table_start1 (idx : IVec Cert.KernelIdeal.S4000000x2 32) (p : Fin 4000000) :
    ScatterDims.start dT (ix1 p) idx 1 = (idx (ix2 p 1)).toInt := by
  unfold ScatterDims.start
  have hmem : (1 : Fin 2) ∈ ScatterDims.scatterDimsToOperandDims dT := by decide
  rw [dif_pos hmem]
  have hsi : ScatterDims.siIdx dT (ix1 p)
      ⟨List.idxOf (1 : Fin 2) (ScatterDims.scatterDimsToOperandDims dT), List.idxOf_lt_length_iff.2 hmem⟩
      = ix2 p 1 := by
    funext b; refine Fin.ext ?_
    match b with
    | ⟨0, _⟩ => rfl
    | ⟨1, _⟩ => rfl
  rw [hsi]

theorem K_table_window (p : Fin 4000000) (a : Fin 2) : ScatterDims.window dT (ix1 p) a = 0 := by
  unfold ScatterDims.window
  have hno : ∀ a : Fin 2, a ∉ ScatterDims.sKept dT := by decide
  rw [dif_neg (hno a)]

/-- The table scatter's update `p` lands at `(v, r)` exactly when its two index words are `v` and `r`. -/
theorem K_table_some (idx : IVec Cert.KernelIdeal.S4000000x2 32) (p : Fin 4000000) (v : Fin 20000) (r : Fin 5) :
    ScatterDims.resultIdx? dT (ix1 p) idx = some (ix2 v r)
      ↔ ((idx (ix2 p 0)).toInt = v.val ∧ (idx (ix2 p 1)).toInt = r.val) := by
  refine (resultIdx?_eq_some_iff dT (ix1 p) idx (ix2 v r)).trans (Fin.forall_fin_two.trans ?_)
  rw [K_table_start0, K_table_start1, K_table_window, K_table_window]
  simp only [Nat.cast_zero, add_zero]

end KTable

/-! ### A row of four into `[20000, 5, 4]` at `(idx[p, 0], idx[p, 1], ·)` -/

section RVox

local notation "dV" => Cert.ReferenceIdeal.scatter_S20000x5x4_S4000000x2_S4000000x4_1_01_01_1

theorem R_vox_start0 (idx : IVec Cert.ReferenceIdeal.S4000000x2 32) (p : Fin 4000000) (k : Fin 4) :
    ScatterDims.start dV (ix2 p k) idx 0 = (idx (ix2 p 0)).toInt := by
  unfold ScatterDims.start
  have hmem : (0 : Fin 3) ∈ ScatterDims.scatterDimsToOperandDims dV := by decide
  rw [dif_pos hmem]
  have hsi : ScatterDims.siIdx dV (ix2 p k)
      ⟨List.idxOf (0 : Fin 3) (ScatterDims.scatterDimsToOperandDims dV), List.idxOf_lt_length_iff.2 hmem⟩
      = ix2 p 0 := by
    funext b; refine Fin.ext ?_
    match b with
    | ⟨0, _⟩ => rfl
    | ⟨1, _⟩ => rfl
  rw [hsi]

theorem R_vox_start1 (idx : IVec Cert.ReferenceIdeal.S4000000x2 32) (p : Fin 4000000) (k : Fin 4) :
    ScatterDims.start dV (ix2 p k) idx 1 = (idx (ix2 p 1)).toInt := by
  unfold ScatterDims.start
  have hmem : (1 : Fin 3) ∈ ScatterDims.scatterDimsToOperandDims dV := by decide
  rw [dif_pos hmem]
  have hsi : ScatterDims.siIdx dV (ix2 p k)
      ⟨List.idxOf (1 : Fin 3) (ScatterDims.scatterDimsToOperandDims dV), List.idxOf_lt_length_iff.2 hmem⟩
      = ix2 p 1 := by
    funext b; refine Fin.ext ?_
    match b with
    | ⟨0, _⟩ => rfl
    | ⟨1, _⟩ => rfl
  rw [hsi]

theorem R_vox_start2 (idx : IVec Cert.ReferenceIdeal.S4000000x2 32) (p : Fin 4000000) (k : Fin 4) :
    ScatterDims.start dV (ix2 p k) idx 2 = 0 := by
  unfold ScatterDims.start
  have hno : (2 : Fin 3) ∉ ScatterDims.scatterDimsToOperandDims dV := by decide
  rw [dif_neg hno]

theorem R_vox_window0 (p : Fin 4000000) (k : Fin 4) : ScatterDims.window dV (ix2 p k) 0 = 0 := by
  unfold ScatterDims.window
  have hno : (0 : Fin 3) ∉ ScatterDims.sKept dV := by decide
  rw [dif_neg hno]

theorem R_vox_window1 (p : Fin 4000000) (k : Fin 4) : ScatterDims.window dV (ix2 p k) 1 = 0 := by
  unfold ScatterDims.window
  have hno : (1 : Fin 3) ∉ ScatterDims.sKept dV := by decide
  rw [dif_neg hno]

theorem R_vox_window2 (p : Fin 4000000) (k : Fin 4) : ScatterDims.window dV (ix2 p k) 2 = k.val := by
  unfold ScatterDims.window
  have hmem : (2 : Fin 3) ∈ ScatterDims.sKept dV := by decide
  rw [dif_pos hmem]
  rfl

/-- Update `(p, k)` of the voxel scatter lands at `(v, r, k')` exactly when its two index words are `v` and
    `r` and the window coordinate is kept: `k = k'`. -/
theorem R_vox_some (idx : IVec Cert.ReferenceIdeal.S4000000x2 32) (p : Fin 4000000) (k : Fin 4) (v : Fin 20000)
    (r : Fin 5) (k' : Fin 4) :
    ScatterDims.resultIdx? dV (ix2 p k) idx = some (ix3 v r k')
      ↔ ((idx (ix2 p 0)).toInt = v.val ∧ (idx (ix2 p 1)).toInt = r.val ∧ k = k') := by
  refine (resultIdx?_eq_some_iff dV (ix2 p k) idx (ix3 v r k')).trans (forall_fin_three.trans ?_)
  rw [R_vox_start0, R_vox_start1, R_vox_start2, R_vox_window0, R_vox_window1, R_vox_window2]
  show ((idx (ix2 p 0)).toInt + ((0 : Nat) : Int) = ((v.val : Nat) : Int)
      ∧ (idx (ix2 p 1)).toInt + ((0 : Nat) : Int) = ((r.val : Nat) : Int)
      ∧ (0 : Int) + ((k.val : Nat) : Int) = ((k'.val : Nat) : Int)) ↔ _
  simp only [Nat.cast_zero, add_zero, zero_add, Nat.cast_inj, Fin.val_inj]

end RVox

/-! ### A row of three into `[20000, 3]` at `(idx[p, 0], ·)`, in either program -/

section KCoors

local notation "dC" => Cert.KernelIdeal.scatter_S20000x3_S4000000x1_S4000000x3_1_0_0_1

theorem K_coors_start0 (idx : IVec Cert.KernelIdeal.S4000000x1 32) (p : Fin 4000000) (k : Fin 3) :
    ScatterDims.start dC (ix2 p k) idx 0 = (idx (ix2 p 0)).toInt := by
  unfold ScatterDims.start
  have hmem : (0 : Fin 2) ∈ ScatterDims.scatterDimsToOperandDims dC := by decide
  rw [dif_pos hmem]
  have hsi : ScatterDims.siIdx dC (ix2 p k)
      ⟨List.idxOf (0 : Fin 2) (ScatterDims.scatterDimsToOperandDims dC), List.idxOf_lt_length_iff.2 hmem⟩
      = ix2 p 0 := by
    funext b; refine Fin.ext ?_
    match b with
    | ⟨0, _⟩ => rfl
    | ⟨1, _⟩ => rfl
  rw [hsi]

theorem K_coors_start1 (idx : IVec Cert.KernelIdeal.S4000000x1 32) (p : Fin 4000000) (k : Fin 3) :
    ScatterDims.start dC (ix2 p k) idx 1 = 0 := by
  unfold ScatterDims.start
  have hno : (1 : Fin 2) ∉ ScatterDims.scatterDimsToOperandDims dC := by decide
  rw [dif_neg hno]

theorem K_coors_window0 (p : Fin 4000000) (k : Fin 3) : ScatterDims.window dC (ix2 p k) 0 = 0 := by
  unfold ScatterDims.window
  have hno : (0 : Fin 2) ∉ ScatterDims.sKept dC := by decide
  rw [dif_neg hno]

theorem K_coors_window1 (p : Fin 4000000) (k : Fin 3) : ScatterDims.window dC (ix2 p k) 1 = k.val := by
  unfold ScatterDims.window
  have hmem : (1 : Fin 2) ∈ ScatterDims.sKept dC := by decide
  rw [dif_pos hmem]
  rfl

/-- Update `(p, k)` of the coordinates scatter lands at `(v, k')` exactly when its one index word is `v` and
    the window coordinate is kept: `k = k'`. -/
theorem K_coors_some (idx : IVec Cert.KernelIdeal.S4000000x1 32) (p : Fin 4000000) (k : Fin 3) (v : Fin 20000)
    (k' : Fin 3) :
    ScatterDims.resultIdx? dC (ix2 p k) idx = some (ix2 v k')
      ↔ ((idx (ix2 p 0)).toInt = v.val ∧ k = k') := by
  refine (resultIdx?_eq_some_iff dC (ix2 p k) idx (ix2 v k')).trans (Fin.forall_fin_two.trans ?_)
  rw [K_coors_start0, K_coors_start1, K_coors_window0, K_coors_window1]
  show ((idx (ix2 p 0)).toInt + ((0 : Nat) : Int) = ((v.val : Nat) : Int)
      ∧ (0 : Int) + ((k.val : Nat) : Int) = ((k'.val : Nat) : Int)) ↔ _
  simp only [Nat.cast_zero, add_zero, zero_add, Nat.cast_inj, Fin.val_inj]

end KCoors

section RCoors

local notation "dC" => Cert.ReferenceIdeal.scatter_S20000x3_S4000000x1_S4000000x3_1_0_0_1

theorem R_coors_start0 (idx : IVec Cert.ReferenceIdeal.S4000000x1 32) (p : Fin 4000000) (k : Fin 3) :
    ScatterDims.start dC (ix2 p k) idx 0 = (idx (ix2 p 0)).toInt := by
  unfold ScatterDims.start
  have hmem : (0 : Fin 2) ∈ ScatterDims.scatterDimsToOperandDims dC := by decide
  rw [dif_pos hmem]
  have hsi : ScatterDims.siIdx dC (ix2 p k)
      ⟨List.idxOf (0 : Fin 2) (ScatterDims.scatterDimsToOperandDims dC), List.idxOf_lt_length_iff.2 hmem⟩
      = ix2 p 0 := by
    funext b; refine Fin.ext ?_
    match b with
    | ⟨0, _⟩ => rfl
    | ⟨1, _⟩ => rfl
  rw [hsi]

theorem R_coors_start1 (idx : IVec Cert.ReferenceIdeal.S4000000x1 32) (p : Fin 4000000) (k : Fin 3) :
    ScatterDims.start dC (ix2 p k) idx 1 = 0 := by
  unfold ScatterDims.start
  have hno : (1 : Fin 2) ∉ ScatterDims.scatterDimsToOperandDims dC := by decide
  rw [dif_neg hno]

theorem R_coors_window0 (p : Fin 4000000) (k : Fin 3) : ScatterDims.window dC (ix2 p k) 0 = 0 := by
  unfold ScatterDims.window
  have hno : (0 : Fin 2) ∉ ScatterDims.sKept dC := by decide
  rw [dif_neg hno]

theorem R_coors_window1 (p : Fin 4000000) (k : Fin 3) : ScatterDims.window dC (ix2 p k) 1 = k.val := by
  unfold ScatterDims.window
  have hmem : (1 : Fin 2) ∈ ScatterDims.sKept dC := by decide
  rw [dif_pos hmem]
  rfl

/-- Update `(p, k)` of the coordinates scatter lands at `(v, k')` exactly when its one index word is `v` and
    the window coordinate is kept: `k = k'`. -/
theorem R_coors_some (idx : IVec Cert.ReferenceIdeal.S4000000x1 32) (p : Fin 4000000) (k : Fin 3) (v : Fin 20000)
    (k' : Fin 3) :
    ScatterDims.resultIdx? dC (ix2 p k) idx = some (ix2 v k')
      ↔ ((idx (ix2 p 0)).toInt = v.val ∧ k = k') := by
  refine (resultIdx?_eq_some_iff dC (ix2 p k) idx (ix2 v k')).trans (Fin.forall_fin_two.trans ?_)
  rw [R_coors_start0, R_coors_start1, R_coors_window0, R_coors_window1]
  show ((idx (ix2 p 0)).toInt + ((0 : Nat) : Int) = ((v.val : Nat) : Int)
      ∧ (0 : Int) + ((k.val : Nat) : Int) = ((k'.val : Nat) : Int)) ↔ _
  simp only [Nat.cast_zero, add_zero, zero_add, Nat.cast_inj, Fin.val_inj]

end RCoors

end Cert.Vox.Forms

end
-- ==== Proof.CoorsElem.lean ====
/-
  The cell triple written for a voxel, one update at a time.

  The cell triples are scattered, in both programs, at the index array whose word for sorted position p is the
  voxel's number when p starts a voxel numbered below 20000, and 20000 — outside the array — otherwise. So an
  update that lands anywhere sits at a voxel start; a voxel start holds a sorted key below the sentinel; that key
  is the key of the point the sort put there, which, being below the sentinel, is the encoded cell triple of that
  point; and decoding an encoded triple inside the grid returns the triple — the very words the reference reads
  from the cell array in the same row. Two scatters at the same indices whose updates agree wherever an update
  lands are equal.
-/
import proofs.«166804_j37915971289632_2_alg».proof.Proof.ScatterForms
import proofs.«166804_j37915971289632_2_alg».proof.Proof.LibScatterSet
import proofs.«166804_j37915971289632_2_alg».proof.Proof.IndexForms
import proofs.«166804_j37915971289632_2_alg».proof.Proof.Pipe
import proofs.«166804_j37915971289632_2_alg».proof.Proof.KeySpec
import proofs.«166804_j37915971289632_2_alg».proof.Proof.KeyFacts
import proofs.«166804_j37915971289632_2_alg».proof.Proof.Decode
import Idealize.ShloMosaic.Lib.Pipeline.Value

noncomputable section

namespace Cert.Vox.Forms

open Idealize.ShloMosaic Idealize.ShloMosaic.ValueIdx Cert.Lib.ScatterSet
open Cert.Vox.Pipe (KV kconst wrap col ordN skeys sv newv vid ci idxc)

/-! ## Two scatters of triples at the same indices -/

/-- The two programs' scatters of triples have the same dimension numbers; at the same operand and indices they
    are equal as soon as their updates agree at every position that lands inside the operand. -/
theorem coors_scatter_congr (idxc : IVec Cert.ReferenceIdeal.S4000000x1 32)
    (z : Cert.ReferenceIdeal.S20000x3.Idx → BitVec 32) (updK updR : Cert.ReferenceIdeal.S4000000x3.Idx → BitVec 32)
    (h : ∀ (p : Fin 4000000) (j : Fin 3) (v : Fin 20000),
      (idxc (ix2 p (0 : Fin 1))).toInt = v.val → updK (ix2 p j) = updR (ix2 p j)) :
    Host.scatter Cert.KernelIdeal.scatter_S20000x3_S4000000x1_S4000000x3_1_0_0_1 (fun _ b => b) z idxc updK
      = Host.scatter Cert.ReferenceIdeal.scatter_S20000x3_S4000000x1_S4000000x3_1_0_0_1 (fun _ b => b) z idxc updR := by
  show Host.scatter Cert.ReferenceIdeal.scatter_S20000x3_S4000000x1_S4000000x3_1_0_0_1 (fun _ b => b) z idxc updK = _
  refine scatter_set_congr _ z idxc updK updR (fun j i hi => ?_)
  rw [eq_ix2 j] at hi ⊢
  rw [eq_ix2 i] at hi
  exact h _ _ _ ((R_coors_some idxc _ _ _ _).1 hi).1

/-! ## The bookkeeping arrays read at one position -/

/-- A repeated word, read anywhere. -/
theorem kconst_apply (c : BitVec 32) (i : Cert.ReferenceIdeal.S4000000.Idx) : kconst c i = c := rfl

/-- The one-column array of a word array, read at row `p`. -/
theorem col_apply (x : KV) (p : Fin 4000000) (c : Fin 1) : col x (ix2 p c) = x (ix1 p) := by
  unfold Cert.Vox.Pipe.col
  refine broadcastInDim_apply _ _ x (ix2 p c) (ix1 p) (fun a => ?_)
  obtain rfl : a = 0 := Subsingleton.elim _ _
  rw [if_neg (by decide)]
  rfl

/-- Wrapping once, read at one position: a negative word gets the extent added. -/
theorem wrap_apply (x : KV) (n : BitVec 32) (i : Cert.ReferenceIdeal.S4000000.Idx) :
    wrap x n i = Scalar.select (IntOp.cmpi .slt (x i) 0#32) (IntOp.addi (x i) n) (x i) := rfl

/-- The triples' scatter index before wrapping, read at one position: the voxel's number at a voxel start
    numbered below 20000, else 20000. -/
theorem ci_apply (k : KV) (i : Cert.ReferenceIdeal.S4000000.Idx) :
    ci k i = Scalar.select (IntOp.andi (newv k i) (IntOp.cmpi .slt (vid k i) 20000#32)) (vid k i) 20000#32 := rfl

/-- A word that is 20000 unless the bit `b` is set, wrapped once, names a row below 20000 only if `b` is
    set: 20000 is not negative, so it is not wrapped, and it is not below 20000. -/
theorem word_lands_bit (b c : BitVec 1) (x : BitVec 32) (v : Fin 20000)
    (h : (Scalar.select (IntOp.cmpi .slt (Scalar.select (IntOp.andi b c) x 20000#32) 0#32)
            (IntOp.addi (Scalar.select (IntOp.andi b c) x 20000#32) 20000#32)
            (Scalar.select (IntOp.andi b c) x 20000#32)).toInt = v.val) : b = 1#1 := by
  by_contra hb
  have hb0 : b = 0#1 := eq_zero_of_ne_one hb
  subst hb0
  have h0 : ∀ c : BitVec 1, IntOp.andi 0#1 c = 0#1 := by decide
  rw [h0 c, select_zero] at h
  have e : Scalar.select (IntOp.cmpi .slt 20000#32 0#32) (IntOp.addi 20000#32 20000#32) 20000#32
      = (20000#32 : BitVec 32) := by decide
  rw [e] at h
  have e2 : (20000#32 : BitVec 32).toInt = 20000 := by decide
  rw [e2] at h
  have := v.isLt
  omega

/-- An update of the triples' scatter that lands sits at a voxel start. -/
theorem lands_newv (k : KV) (p : Fin 4000000) (v : Fin 20000)
    (h : (idxc k (ix2 p (0 : Fin 1))).toInt = v.val) : newv k (ix1 p) = 1#1 := by
  unfold Cert.Vox.Pipe.idxc at h
  rw [col_apply, wrap_apply, ci_apply] at h
  exact word_lands_bit _ _ _ v h

/-- A voxel start holds a sorted key below the sentinel. -/
theorem newv_lt (k : KV) (p : Fin 4000000) (h : newv k (ix1 p) = 1#1) :
    (skeys k (ix1 p)).slt Cert.Vox.sentinel = true := by
  obtain ⟨b, hb⟩ : ∃ b : BitVec 1, newv k (ix1 p) = IntOp.andi (sv k (ix1 p)) b := ⟨_, rfl⟩
  rw [hb] at h
  have hand : ∀ a b : BitVec 1, IntOp.andi a b = 1#1 → a = 1#1 := by decide
  have h1 := hand _ _ h
  have h2 : sv k (ix1 p) = BitVec.ofBool ((skeys k (ix1 p)).slt 90112000#32) := rfl
  rw [h2] at h1
  show (skeys k (ix1 p)).slt 90112000#32 = true
  cases hx : (skeys k (ix1 p)).slt 90112000#32
  · rw [hx] at h1; exact absurd h1 (by decide)
  · rfl

/-- The sorted key at position `p` is the key of the point the sort put there. -/
theorem skeys_apply (k : KV) (p : Fin 4000000) :
    skeys k (ix1 p) = k (ix1 (clampRow 4000000 (by decide) (ordN k (ix1 p)).toInt)) := by
  unfold Cert.Vox.Pipe.skeys
  rw [R_take_apply, col_apply]

/-! ## Decoding a valid key gives the point's cells -/

/-- A point whose key is below the sentinel: decoding the key gives its three cells. -/
theorem dec_keys_row (pts : FVec Ideal Cert.ReferenceIdeal.S4000000x4 .f32) (q : Fin 4000000)
    (h : (Cert.Vox.keys pts (ix1 q)).slt Cert.Vox.sentinel = true) :
    Cert.Vox.dec0 (Cert.Vox.keys pts (ix1 q)) = Cert.Vox.cells pts (ix2 q (0 : Fin 3))
      ∧ Cert.Vox.dec1 (Cert.Vox.keys pts (ix1 q)) = Cert.Vox.cells pts (ix2 q (1 : Fin 3))
      ∧ Cert.Vox.dec2 (Cert.Vox.keys pts (ix1 q)) = Cert.Vox.cells pts (ix2 q (2 : Fin 3)) := by
  have hkey : Cert.Vox.keys pts (ix1 q)
      = Cert.Vox.keyOf (pts (ix2 q (0 : Fin 4))) (pts (ix2 q (1 : Fin 4))) (pts (ix2 q (2 : Fin 4))) := rfl
  rw [hkey] at h ⊢
  rw [Cert.Vox.key_valid_of_lt _ _ _ h]
  exact Cert.Vox.decode _ _ _ (Cert.Vox.cell_bounds _ _ _ (by decide) _) (Cert.Vox.cell_bounds _ _ _ (by decide) _)
    (Cert.Vox.cell_bounds _ _ _ (by decide) _)

/-- THE TRIPLE AT A LANDING UPDATE: where update `p` of the triples' scatter lands, decoding the sorted key at
    `p` gives the three words the reference gathers from the cell array at row `p`. -/
theorem coors_elem (pts : FVec Ideal Cert.ReferenceIdeal.S4000000x4 .f32) (p : Fin 4000000) (v : Fin 20000)
    (hl : (idxc (Cert.Vox.keys pts) (ix2 p (0 : Fin 1))).toInt = v.val) :
    Cert.Vox.dec0 (skeys (Cert.Vox.keys pts) (ix1 p))
        = Host.gather Cert.ReferenceIdeal.gather_S4000000x3_S4000000x1_S4000000x3_1_0_n_n_0_1_13 (Cert.Vox.cells pts)
            (col (ordN (Cert.Vox.keys pts))) (ix2 p (0 : Fin 3))
      ∧ Cert.Vox.dec1 (skeys (Cert.Vox.keys pts) (ix1 p))
        = Host.gather Cert.ReferenceIdeal.gather_S4000000x3_S4000000x1_S4000000x3_1_0_n_n_0_1_13 (Cert.Vox.cells pts)
            (col (ordN (Cert.Vox.keys pts))) (ix2 p (1 : Fin 3))
      ∧ Cert.Vox.dec2 (skeys (Cert.Vox.keys pts) (ix1 p))
        = Host.gather Cert.ReferenceIdeal.gather_S4000000x3_S4000000x1_S4000000x3_1_0_n_n_0_1_13 (Cert.Vox.cells pts)
            (col (ordN (Cert.Vox.keys pts))) (ix2 p (2 : Fin 3)) := by
  have hnv := lands_newv (Cert.Vox.keys pts) p v hl
  have hlt := newv_lt (Cert.Vox.keys pts) p hnv
  rw [skeys_apply] at hlt ⊢
  rw [R_rows3_apply, R_rows3_apply, R_rows3_apply, col_apply]
  exact dec_keys_row pts _ hlt

end Cert.Vox.Forms

end
-- ==== Proof.KCoors.lean ====
/-
  The cell triples of the voxels: the kernel program's value is the reference's.

  Both programs scatter rows of three words into zeros at the voxel index of each voxel start, overwriting; the
  kernel's rows are decoded from the sorted keys by two floor divisions, the reference's are gathered from the
  cell-triple array in sorted order. A row that lands belongs to a voxel start, whose key is below the sentinel and
  so is the linearised cell triple of its point; the divisions return that triple, so the rows that land agree and
  the two scatters are equal.
-/
import proofs.«166804_j37915971289632_2_alg».proof.Proof.KCoorsRead
import proofs.«166804_j37915971289632_2_alg».proof.Proof.CoorsElem

noncomputable section

namespace Cert.KernelIdeal.HC

open Idealize.ShloMosaic Idealize.ShloMosaic.TcCoe Idealize.SL.Sem Idealize.ShloMosaic.ValueIdx
open Cert.KernelIdeal Cert.KernelIdeal.Gen

/-! ## The result -/

/-- The cell triples the kernel program decodes and scatters are the reference's gathered and scattered ones. -/
theorem coors_end (W : Valuation τ sig (Elt Ideal)) (pts : FVec Ideal Cert.ReferenceIdeal.S4000000x4 .f32)
    (hs : W (Proc.devRef .tc main_v10) = Cert.Vox.Pipe.skeys (Cert.Vox.keys pts))
    (hn : W (Proc.devRef .tc main_v18) = Cert.Vox.Pipe.newv (Cert.Vox.keys pts))
    (hv : W (Proc.devRef .tc main_v22) = Cert.Vox.Pipe.vid (Cert.Vox.keys pts)) :
    StableHlo.after opsCoors W (Proc.devRef .tc main_v58) = Cert.Vox.Pipe.coors (Cert.Vox.cells pts) (Cert.Vox.keys pts) := by
  refine (coors_read W).trans ?_
  rw [hs, hn, hv, idxc_eq]
  unfold scat3 Cert.Vox.Pipe.coors
  refine Cert.Vox.Forms.coors_scatter_congr (Cert.Vox.Pipe.idxc (Cert.Vox.keys pts)) _ _ _ ?_
  intro p j v hl
  obtain ⟨h0, h1, h2⟩ := Cert.Vox.Forms.coors_elem pts p v hl
  match j with
  | ⟨0, _⟩ => exact (cat3_apply0 _ _ _ p).trans ((q0V_apply _ _).trans h0)
  | ⟨1, _⟩ => exact (cat3_apply1 _ _ _ p).trans ((q1V_apply _ _).trans h1)
  | ⟨2, _⟩ => exact (cat3_apply2 _ _ _ p).trans ((r2V_apply _ _).trans h2)

end Cert.KernelIdeal.HC

end
-- ==== Proof.VoxElem.lean ====
/-
  The three "set" scatters of the two programs, read at one voxel slot.

  The kernel program writes, at ONE index array idx : [4000000, 2], a word per point into a table [20000, 5]
  and the bit 1 into a mask [20000, 5]; the reference writes, at the same index array, the point's row of four
  into [20000, 5, 4]. Point p lands on slot (v, r) — in all three — exactly when its two index words are v and
  r as signed integers. A "set" scatter keeps, at each slot, the update of the LAST point landing there, and
  the order of the points is the same in the three (row p of a [4000000, 4] array comes before row p' exactly
  when p < p'). So either no point lands on (v, r), and the three hold their initial values there; or there is
  a last such point p, the mask holds 1, the table holds the word of p, and the reference holds p's row.
-/
import proofs.«166804_j37915971289632_2_alg».proof.Proof.ScatterForms
import proofs.«166804_j37915971289632_2_alg».proof.Proof.LibScatterSet
import proofs.«166804_j37915971289632_2_alg».proof.Proof.IndexForms

noncomputable section

namespace Cert.Vox.Forms

open Idealize.ShloMosaic Idealize.ShloMosaic.ValueIdx Cert.Lib.ScatterSet

/-- Among the positions `p < N` with a property that some position has, there is a last one. -/
theorem exists_last {N : Nat} (P : Fin N → Prop) (h : ∃ p, P p) : ∃ p, P p ∧ ∀ p', p < p' → ¬ P p' := by
  classical
  let S : Finset (Fin N) := Finset.univ.filter P
  have hS : S.Nonempty := by
    obtain ⟨p, hp⟩ := h
    exact ⟨p, Finset.mem_filter.2 ⟨Finset.mem_univ p, hp⟩⟩
  refine ⟨S.max' hS, (Finset.mem_filter.1 (S.max'_mem hS)).2, ?_⟩
  intro p' hlt hp'
  have hmem : p' ∈ S := Finset.mem_filter.2 ⟨Finset.mem_univ p', hp'⟩
  exact absurd (S.le_max' p' hmem) (not_le.2 hlt)

section
variable {α : Type}

local notation "dT" => Cert.KernelIdeal.scatter_S20000x5_S4000000x2_S4000000_n_01_01_1
local notation "dV" => Cert.ReferenceIdeal.scatter_S20000x5x4_S4000000x2_S4000000x4_1_01_01_1

/-- Point `p`'s index words are the slot `(v, r)`. -/
def Lands (idx : IVec Cert.ReferenceIdeal.S4000000x2 32) (v : Fin 20000) (r : Fin 5) (p : Fin 4000000) : Prop :=
  (idx (ix2 p 0)).toInt = v.val ∧ (idx (ix2 p 1)).toInt = r.val

/-- The one-word scatter at a slot no point lands on: the operand's value. -/
theorem K_table_miss (x : Cert.KernelIdeal.S20000x5.Idx → α) (idx : IVec Cert.ReferenceIdeal.S4000000x2 32)
    (upd : Cert.KernelIdeal.S4000000.Idx → α) (v : Fin 20000) (r : Fin 5)
    (h : ∀ p : Fin 4000000, ¬ Lands idx v r p) :
    Host.scatter dT (fun _ b => b) x idx upd (ix2 v r) = x (ix2 v r) := by
  refine scatter_set_miss dT x idx upd (ix2 v r) (fun j hj => ?_)
  rw [eq_ix1 j] at hj
  exact h _ ((K_table_some idx _ v r).1 hj)

/-- The one-word scatter at a slot whose last landing point is `p`: the update of `p`. -/
theorem K_table_hit (x : Cert.KernelIdeal.S20000x5.Idx → α) (idx : IVec Cert.ReferenceIdeal.S4000000x2 32)
    (upd : Cert.KernelIdeal.S4000000.Idx → α) (v : Fin 20000) (r : Fin 5) (p : Fin 4000000)
    (hp : Lands idx v r p) (hlast : ∀ p' : Fin 4000000, p < p' → ¬ Lands idx v r p') :
    Host.scatter dT (fun _ b => b) x idx upd (ix2 v r) = upd (ix1 p) := by
  have key := scatter_set_hit dT x idx upd (ix2 v r) (Cert.KernelIdeal.S4000000.rowMajor (ix1 p))
  rw [Equiv.symm_apply_apply] at key
  refine key ((K_table_some idx p v r).2 hp) (fun n' hlt hland => ?_)
  obtain ⟨p', hp'⟩ : ∃ p' : Fin 4000000, Cert.KernelIdeal.S4000000.rowMajor.symm n' = ix1 p' := ⟨_, eq_ix1 _⟩
  rw [hp'] at hland
  have hn' : n' = Cert.KernelIdeal.S4000000.rowMajor (ix1 p') := by rw [← hp', Equiv.apply_symm_apply]
  rw [hn', Fin.lt_def] at hlt
  have h1 : (Cert.KernelIdeal.S4000000.rowMajor (ix1 p)).val = p.val := rowMajor_N p
  have h2 : (Cert.KernelIdeal.S4000000.rowMajor (ix1 p')).val = p'.val := rowMajor_N p'
  exact hlast p' (Fin.lt_def.2 (by omega)) ((K_table_some idx p' v r).1 hland)

/-- The row-of-four scatter at a slot no point lands on: the operand's value. -/
theorem R_vox_miss (x : Cert.ReferenceIdeal.S20000x5x4.Idx → α) (idx : IVec Cert.ReferenceIdeal.S4000000x2 32)
    (upd : Cert.ReferenceIdeal.S4000000x4.Idx → α) (v : Fin 20000) (r : Fin 5) (k : Fin 4)
    (h : ∀ p : Fin 4000000, ¬ Lands idx v r p) :
    Host.scatter dV (fun _ b => b) x idx upd (ix3 v r k) = x (ix3 v r k) := by
  refine scatter_set_miss dV x idx upd (ix3 v r k) (fun j hj => ?_)
  rw [eq_ix2 j] at hj
  have h3 := (R_vox_some idx _ _ v r k).1 hj
  exact h _ ⟨h3.1, h3.2.1⟩

/-- The row-of-four scatter at a slot whose last landing point is `p`: the row of `p`. -/
theorem R_vox_hit (x : Cert.ReferenceIdeal.S20000x5x4.Idx → α) (idx : IVec Cert.ReferenceIdeal.S4000000x2 32)
    (upd : Cert.ReferenceIdeal.S4000000x4.Idx → α) (v : Fin 20000) (r : Fin 5) (k : Fin 4) (p : Fin 4000000)
    (hp : Lands idx v r p) (hlast : ∀ p' : Fin 4000000, p < p' → ¬ Lands idx v r p') :
    Host.scatter dV (fun _ b => b) x idx upd (ix3 v r k) = upd (ix2 p k) := by
  have key := scatter_set_hit dV x idx upd (ix3 v r k) (Cert.ReferenceIdeal.S4000000x4.rowMajor (ix2 p k))
  rw [Equiv.symm_apply_apply] at key
  refine key ((R_vox_some idx p k v r k).2 ⟨hp.1, hp.2, rfl⟩) (fun n' hlt hland => ?_)
  obtain ⟨p', k', hp'⟩ : ∃ (p' : Fin 4000000) (k' : Fin 4),
      Cert.ReferenceIdeal.S4000000x4.rowMajor.symm n' = ix2 p' k' := ⟨_, _, eq_ix2 _⟩
  rw [hp'] at hland
  have h3 := (R_vox_some idx p' k' v r k).1 hland
  have hn' : n' = Cert.ReferenceIdeal.S4000000x4.rowMajor (ix2 p' k') := by rw [← hp', Equiv.apply_symm_apply]
  rw [hn', Fin.lt_def] at hlt
  have h1 : (Cert.ReferenceIdeal.S4000000x4.rowMajor (ix2 p k)).val = 4 * p.val + k.val := rowMajor_N4 p k
  have h2 : (Cert.ReferenceIdeal.S4000000x4.rowMajor (ix2 p' k')).val = 4 * p'.val + k'.val := rowMajor_N4 p' k'
  have hk : k'.val = k.val := congrArg Fin.val h3.2.2
  exact hlast p' (Fin.lt_def.2 (by omega)) ⟨h3.1, h3.2.1⟩

end

/-- THE THREE SCATTERS IN STEP, at slot `(v, r)` and column `k`: either the mask is 0 and the reference
    holds 0, or the mask is 1 and for one and the same point `p` the table holds `p`'s word and the reference
    holds `p`'s row at `k`. -/
theorem vox_elem {β : Type} [Zero β] (idx : IVec Cert.ReferenceIdeal.S4000000x2 32)
    (ord : Cert.ReferenceIdeal.S4000000.Idx → BitVec 32) (rows : Cert.ReferenceIdeal.S4000000x4.Idx → β)
    (zt : Cert.KernelIdeal.S20000x5.Idx → BitVec 32) (zm : Cert.KernelIdeal.S20000x5.Idx → BitVec 1)
    (zv : Cert.ReferenceIdeal.S20000x5x4.Idx → β) (one : Cert.KernelIdeal.S4000000.Idx → BitVec 1)
    (hzm : ∀ i, zm i = 0#1) (hzv : ∀ i, zv i = 0) (hone : ∀ i, one i = 1#1)
    (v : Fin 20000) (r : Fin 5) (k : Fin 4) :
    (Host.scatter Cert.KernelIdeal.scatter_S20000x5_S4000000x2_S4000000_n_01_01_1 (fun _ b => b) zm idx one (ix2 v r) = 0#1
        ∧ Host.scatter Cert.ReferenceIdeal.scatter_S20000x5x4_S4000000x2_S4000000x4_1_01_01_1 (fun _ b => b) zv idx rows (ix3 v r k) = 0)
    ∨ (Host.scatter Cert.KernelIdeal.scatter_S20000x5_S4000000x2_S4000000_n_01_01_1 (fun _ b => b) zm idx one (ix2 v r) = 1#1
        ∧ ∃ p : Fin 4000000,
            Host.scatter Cert.KernelIdeal.scatter_S20000x5_S4000000x2_S4000000_n_01_01_1 (fun _ b => b) zt idx ord (ix2 v r) = ord (ix1 p)
            ∧ Host.scatter Cert.ReferenceIdeal.scatter_S20000x5x4_S4000000x2_S4000000x4_1_01_01_1 (fun _ b => b) zv idx rows (ix3 v r k) = rows (ix2 p k)) := by
  by_cases h : ∃ p : Fin 4000000, Lands idx v r p
  · right
    obtain ⟨p, hp, hlast⟩ := exists_last (Lands idx v r) h
    exact ⟨(K_table_hit zm idx one v r p hp hlast).trans (hone _), p,
      K_table_hit zt idx ord v r p hp hlast, R_vox_hit zv idx rows v r k p hp hlast⟩
  · left
    have h' : ∀ p : Fin 4000000, ¬ Lands idx v r p := fun p hp => h ⟨p, hp⟩
    exact ⟨(K_table_miss zm idx one v r h').trans (hzm _), (R_vox_miss zv idx rows v r k h').trans (hzv _)⟩

end Cert.Vox.Forms

end
-- ==== Proof.KVox.lean ====
/-
  The tail of the kernel program's host line, from the zero table of the per-voxel point table to the voxel count,
  read against the bookkeeping of the keys.

  The tail writes three results. The per-voxel counts and the voxel count are the reference's own operations on the
  same arrays. The per-voxel point table is computed differently: the reference writes each kept sorted point's row
  of four at (voxel, place); the tail writes the kept sorted point's ORIGINAL POSITION (one word) into a zero table
  and `true` into a false mask at the same (voxel, place), then reads the points' rows at the table's positions and
  multiplies by the mask as 1.0 / 0.0. Element by element the two agree: where no point is written both give zero,
  and where a point is written the last one written is the same on both sides, since the row-major order of the
  updates (point, column) refines the order of the points.
-/
import proofs.«166804_j37915971289632_2_alg».proof.Proof.Gen.KernelIdeal.Launch
import proofs.«166804_j37915971289632_2_alg».proof.Proof.Pipe
import Idealize.ShloMosaic.Lib.StableHlo.Run
import Idealize.ShloMosaic.Lib.Pipeline.Frame
import Idealize.ShloMosaic.Lib.ValueIdx
import Idealize.ShloMosaic.PureOps.Ideal.Laws
import proofs.«166804_j37915971289632_2_alg».proof.Proof.VoxElem

noncomputable section

namespace Cert.KernelIdeal.HX

open Cert.KernelIdeal Cert.KernelIdeal.Gen Idealize.ShloMosaic Idealize.ShloMosaic.TcCoe Idealize.SL.Sem Idealize.ShloMosaic.StableHlo

variable {F : FTy → Type} [FloatOps F]

/-- The tail of the host line from the zero table on: 72 operations. -/
abbrev opsEnd : List (HloOp τ sig (Elt Ideal)) := (hostOps1_17 (F := Ideal)).drop 11

/-- The table: the sorted positions' original indices written into zeros at (voxel, place). -/
abbrev opsA : List (HloOp τ sig (Elt F)) :=
  [ StableHlo.nullary main_c_18 (constantI S_ 32 0#32),
    StableHlo.unary main_c_18 main_v59 (broadcastInDim S20000x5 ![] bcast_S_S20000x5 : (⟨S_, .i32⟩ : BufTy).Contents (Elt F) → (⟨S20000x5, .i32⟩ : BufTy).Contents (Elt F)),
    StableHlo.nullary main_c_19 (constantI S_ 32 0#32),
    StableHlo.unary main_c_19 main_v60 (broadcastInDim S4000000 ![] bcast_S_S4000000 : (⟨S_, .i32⟩ : BufTy).Contents (Elt F) → (⟨S4000000, .i32⟩ : BufTy).Contents (Elt F)),
    StableHlo.binary main_v33 main_v60 main_v61 (cmpi .slt : (⟨S4000000, .i32⟩ : BufTy).Contents (Elt F) → (⟨S4000000, .i32⟩ : BufTy).Contents (Elt F) → (⟨S4000000, .i1⟩ : BufTy).Contents (Elt F)),
    StableHlo.nullary main_c_20 (constantI S_ 32 20000#32),
    StableHlo.unary main_c_20 main_v62 (broadcastInDim S4000000 ![] bcast_S_S4000000 : (⟨S_, .i32⟩ : BufTy).Contents (Elt F) → (⟨S4000000, .i32⟩ : BufTy).Contents (Elt F)),
    StableHlo.binary main_v33 main_v62 main_v63 (addi : (⟨S4000000, .i32⟩ : BufTy).Contents (Elt F) → (⟨S4000000, .i32⟩ : BufTy).Contents (Elt F) → (⟨S4000000, .i32⟩ : BufTy).Contents (Elt F)),
    StableHlo.ternary main_v61 main_v63 main_v33 main_v64 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_21 (constantI S_ 32 0#32),
    StableHlo.unary main_c_21 main_v65 (broadcastInDim S4000000 ![] bcast_S_S4000000 : (⟨S_, .i32⟩ : BufTy).Contents (Elt F) → (⟨S4000000, .i32⟩ : BufTy).Contents (Elt F)),
    StableHlo.binary main_v34 main_v65 main_v66 (cmpi .slt : (⟨S4000000, .i32⟩ : BufTy).Contents (Elt F) → (⟨S4000000, .i32⟩ : BufTy).Contents (Elt F) → (⟨S4000000, .i1⟩ : BufTy).Contents (Elt F)),
    StableHlo.nullary main_c_22 (constantI S_ 32 5#32),
    StableHlo.unary main_c_22 main_v67 (broadcastInDim S4000000 ![] bcast_S_S4000000 : (⟨S_, .i32⟩ : BufTy).Contents (Elt F) → (⟨S4000000, .i32⟩ : BufTy).Contents (Elt F)),
    StableHlo.binary main_v34 main_v67 main_v68 (addi : (⟨S4000000, .i32⟩ : BufTy).Contents (Elt F) → (⟨S4000000, .i32⟩ : BufTy).Contents (Elt F) → (⟨S4000000, .i32⟩ : BufTy).Contents (Elt F)),
    StableHlo.ternary main_v66 main_v68 main_v34 main_v69 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v64 main_v70 (broadcastInDim S4000000x1 ![0] bcast_S4000000_S4000000x1_0 : (⟨S4000000, .i32⟩ : BufTy).Contents (Elt F) → (⟨S4000000x1, .i32⟩ : BufTy).Contents (Elt F)),
    StableHlo.unary main_v69 main_v71 (broadcastInDim S4000000x1 ![0] bcast_S4000000_S4000000x1_0 : (⟨S4000000, .i32⟩ : BufTy).Contents (Elt F) → (⟨S4000000x1, .i32⟩ : BufTy).Contents (Elt F)),
    StableHlo.binary main_v70 main_v71 main_v72 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.ternary main_v59 main_v72 main_v3 main_v73 ((fun x i u => Host.scatter scatter_S20000x5_S4000000x2_S4000000_n_01_01_1 (fun _ b => b) x i u) : (⟨S20000x5, .i32⟩ : BufTy).Contents (Elt F) → (⟨S4000000x2, .i32⟩ : BufTy).Contents (Elt F) → (⟨S4000000, .i32⟩ : BufTy).Contents (Elt F) → (⟨S20000x5, .i32⟩ : BufTy).Contents (Elt F)) ]
/-- The references `opsA` writes. -/
abbrev opsA_W : List (Ref sig .tc) := [main_c_18, main_v59, main_c_19, main_v60, main_v61, main_c_20, main_v62, main_v63, main_v64, main_c_21, main_v65, main_v66, main_c_22, main_v67, main_v68, main_v69, main_v70, main_v71, main_v72, main_v73]
theorem opsA_writes : (opsA : List (HloOp τ sig (Elt F))).Forall fun op => op.writes ⊆ (opsA_W.map (Proc.devRef (τ := τ) .tc)).toFinset := by
  simp only [List.Forall]; exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩
/-- A reference `opsA` does not write keeps its contents through it. -/
theorem opsA_keep (V : Valuation τ sig (Elt F)) (r : Ref sig .tc) (h : r ∉ opsA_W) :
    StableHlo.after opsA V (Proc.devRef .tc r) = V (Proc.devRef .tc r) :=
  StableHlo.after_of_writes_sub opsA V opsA_writes h

/-- The mask: `true` written into `false` at the same (voxel, place), computed again. -/
abbrev opsB : List (HloOp τ sig (Elt F)) :=
  [ StableHlo.nullary main_c_23 (constantI S_ 1 0#1),
    StableHlo.unary main_c_23 main_v74 (broadcastInDim S20000x5 ![] bcast_S_S20000x5 : (⟨S_, .i1⟩ : BufTy).Contents (Elt F) → (⟨S20000x5, .i1⟩ : BufTy).Contents (Elt F)),
    StableHlo.nullary main_c_24 (constantI S_ 32 0#32),
    StableHlo.unary main_c_24 main_v75 (broadcastInDim S4000000 ![] bcast_S_S4000000 : (⟨S_, .i32⟩ : BufTy).Contents (Elt F) → (⟨S4000000, .i32⟩ : BufTy).Contents (Elt F)),
    StableHlo.binary main_v33 main_v75 main_v76 (cmpi .slt : (⟨S4000000, .i32⟩ : BufTy).Contents (Elt F) → (⟨S4000000, .i32⟩ : BufTy).Contents (Elt F) → (⟨S4000000, .i1⟩ : BufTy).Contents (Elt F)),
    StableHlo.nullary main_c_25 (constantI S_ 32 20000#32),
    StableHlo.unary main_c_25 main_v77 (broadcastInDim S4000000 ![] bcast_S_S4000000 : (⟨S_, .i32⟩ : BufTy).Contents (Elt F) → (⟨S4000000, .i32⟩ : BufTy).Contents (Elt F)),
    StableHlo.binary main_v33 main_v77 main_v78 (addi : (⟨S4000000, .i32⟩ : BufTy).Contents (Elt F) → (⟨S4000000, .i32⟩ : BufTy).Contents (Elt F) → (⟨S4000000, .i32⟩ : BufTy).Contents (Elt F)),
    StableHlo.ternary main_v76 main_v78 main_v33 main_v79 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_26 (constantI S_ 32 0#32),
    StableHlo.unary main_c_26 main_v80 (broadcastInDim S4000000 ![] bcast_S_S4000000 : (⟨S_, .i32⟩ : BufTy).Contents (Elt F) → (⟨S4000000, .i32⟩ : BufTy).Contents (Elt F)),
    StableHlo.binary main_v34 main_v80 main_v81 (cmpi .slt : (⟨S4000000, .i32⟩ : BufTy).Contents (Elt F) → (⟨S4000000, .i32⟩ : BufTy).Contents (Elt F) → (⟨S4000000, .i1⟩ : BufTy).Contents (Elt F)),
    StableHlo.nullary main_c_27 (constantI S_ 32 5#32),
    StableHlo.unary main_c_27 main_v82 (broadcastInDim S4000000 ![] bcast_S_S4000000 : (⟨S_, .i32⟩ : BufTy).Contents (Elt F) → (⟨S4000000, .i32⟩ : BufTy).Contents (Elt F)),
    StableHlo.binary main_v34 main_v82 main_v83 (addi : (⟨S4000000, .i32⟩ : BufTy).Contents (Elt F) → (⟨S4000000, .i32⟩ : BufTy).Contents (Elt F) → (⟨S4000000, .i32⟩ : BufTy).Contents (Elt F)),
    StableHlo.ternary main_v81 main_v83 main_v34 main_v84 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v79 main_v85 (broadcastInDim S4000000x1 ![0] bcast_S4000000_S4000000x1_0 : (⟨S4000000, .i32⟩ : BufTy).Contents (Elt F) → (⟨S4000000x1, .i32⟩ : BufTy).Contents (Elt F)),
    StableHlo.unary main_v84 main_v86 (broadcastInDim S4000000x1 ![0] bcast_S4000000_S4000000x1_0 : (⟨S4000000, .i32⟩ : BufTy).Contents (Elt F) → (⟨S4000000x1, .i32⟩ : BufTy).Contents (Elt F)),
    StableHlo.binary main_v85 main_v86 main_v87 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.nullary main_c_28 (constantI S_ 1 1#1),
    StableHlo.unary main_c_28 main_v88 (broadcastInDim S4000000 ![] bcast_S_S4000000 : (⟨S_, .i1⟩ : BufTy).Contents (Elt F) → (⟨S4000000, .i1⟩ : BufTy).Contents (Elt F)),
    StableHlo.ternary main_v74 main_v87 main_v88 main_v89 ((fun x i u => Host.scatter scatter_S20000x5_S4000000x2_S4000000_n_01_01_1 (fun _ b => b) x i u) : (⟨S20000x5, .i1⟩ : BufTy).Contents (Elt F) → (⟨S4000000x2, .i32⟩ : BufTy).Contents (Elt F) → (⟨S4000000, .i1⟩ : BufTy).Contents (Elt F) → (⟨S20000x5, .i1⟩ : BufTy).Contents (Elt F)) ]
/-- The references `opsB` writes. -/
abbrev opsB_W : List (Ref sig .tc) := [main_c_23, main_v74, main_c_24, main_v75, main_v76, main_c_25, main_v77, main_v78, main_v79, main_c_26, main_v80, main_v81, main_c_27, main_v82, main_v83, main_v84, main_v85, main_v86, main_v87, main_c_28, main_v88, main_v89]
theorem opsB_writes : (opsB : List (HloOp τ sig (Elt F))).Forall fun op => op.writes ⊆ (opsB_W.map (Proc.devRef (τ := τ) .tc)).toFinset := by
  simp only [List.Forall]; exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩
/-- A reference `opsB` does not write keeps its contents through it. -/
theorem opsB_keep (V : Valuation τ sig (Elt F)) (r : Ref sig .tc) (h : r ∉ opsB_W) :
    StableHlo.after opsB V (Proc.devRef .tc r) = V (Proc.devRef .tc r) :=
  StableHlo.after_of_writes_sub opsB V opsB_writes h

/-- The point table: the points' rows at the table's positions, times the mask as 1.0 / 0.0. -/
abbrev opsC : List (HloOp τ sig (Elt F)) :=
  [ StableHlo.nullary main_c_29 (constantI S_ 32 0#32),
    StableHlo.unary main_c_29 main_v90 (broadcastInDim S20000x5 ![] bcast_S_S20000x5 : (⟨S_, .i32⟩ : BufTy).Contents (Elt F) → (⟨S20000x5, .i32⟩ : BufTy).Contents (Elt F)),
    StableHlo.binary main_v73 main_v90 main_v91 (cmpi .slt : (⟨S20000x5, .i32⟩ : BufTy).Contents (Elt F) → (⟨S20000x5, .i32⟩ : BufTy).Contents (Elt F) → (⟨S20000x5, .i1⟩ : BufTy).Contents (Elt F)),
    StableHlo.nullary main_c_30 (constantI S_ 32 4000000#32),
    StableHlo.unary main_c_30 main_v92 (broadcastInDim S20000x5 ![] bcast_S_S20000x5 : (⟨S_, .i32⟩ : BufTy).Contents (Elt F) → (⟨S20000x5, .i32⟩ : BufTy).Contents (Elt F)),
    StableHlo.binary main_v73 main_v92 main_v93 (addi : (⟨S20000x5, .i32⟩ : BufTy).Contents (Elt F) → (⟨S20000x5, .i32⟩ : BufTy).Contents (Elt F) → (⟨S20000x5, .i32⟩ : BufTy).Contents (Elt F)),
    StableHlo.ternary main_v91 main_v93 main_v73 main_v94 (select : (⟨S20000x5, .i1⟩ : BufTy).Contents (Elt F) → (⟨S20000x5, .i32⟩ : BufTy).Contents (Elt F) → (⟨S20000x5, .i32⟩ : BufTy).Contents (Elt F) → (⟨S20000x5, .i32⟩ : BufTy).Contents (Elt F)),
    StableHlo.unary main_v94 main_v95 (broadcastInDim S20000x5x1 ![0, 1] bcast_S20000x5_S20000x5x1_0_1 : (⟨S20000x5, .i32⟩ : BufTy).Contents (Elt F) → (⟨S20000x5x1, .i32⟩ : BufTy).Contents (Elt F)),
    StableHlo.binary main_arg0 main_v95 main_v96 ((fun x i => Host.gather gather_S4000000x4_S20000x5x1_S20000x5x4_2_0_n_n_0_2_14 x i) : (⟨S4000000x4, .f32⟩ : BufTy).Contents (Elt F) → (⟨S20000x5x1, .i32⟩ : BufTy).Contents (Elt F) → (⟨S20000x5x4, .f32⟩ : BufTy).Contents (Elt F)),
    StableHlo.unary main_v89 main_v97 (broadcastInDim S20000x5x1 ![0, 1] bcast_S20000x5_S20000x5x1_0_1 : (⟨S20000x5, .i1⟩ : BufTy).Contents (Elt F) → (⟨S20000x5x1, .i1⟩ : BufTy).Contents (Elt F)),
    StableHlo.unary main_v97 main_v98 (uitofp .f32 : (⟨S20000x5x1, .i1⟩ : BufTy).Contents (Elt F) → (⟨S20000x5x1, .f32⟩ : BufTy).Contents (Elt F)),
    StableHlo.unary main_v98 main_v99 (broadcastInDim S20000x5x4 ![0, 1, 2] bcast_S20000x5x1_S20000x5x4_0_1_2 : (⟨S20000x5x1, .f32⟩ : BufTy).Contents (Elt F) → (⟨S20000x5x4, .f32⟩ : BufTy).Contents (Elt F)),
    StableHlo.binary main_v96 main_v99 main_v100 (mulf : (⟨S20000x5x4, .f32⟩ : BufTy).Contents (Elt F) → (⟨S20000x5x4, .f32⟩ : BufTy).Contents (Elt F) → (⟨S20000x5x4, .f32⟩ : BufTy).Contents (Elt F)) ]
/-- The references `opsC` writes. -/
abbrev opsC_W : List (Ref sig .tc) := [main_c_29, main_v90, main_v91, main_c_30, main_v92, main_v93, main_v94, main_v95, main_v96, main_v97, main_v98, main_v99, main_v100]
theorem opsC_writes : (opsC : List (HloOp τ sig (Elt F))).Forall fun op => op.writes ⊆ (opsC_W.map (Proc.devRef (τ := τ) .tc)).toFinset := by
  simp only [List.Forall]; exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩
/-- A reference `opsC` does not write keeps its contents through it. -/
theorem opsC_keep (V : Valuation τ sig (Elt F)) (r : Ref sig .tc) (h : r ∉ opsC_W) :
    StableHlo.after opsC V (Proc.devRef .tc r) = V (Proc.devRef .tc r) :=
  StableHlo.after_of_writes_sub opsC V opsC_writes h

/-- The per-voxel counts: the kept flags added up at the voxel indices. -/
abbrev opsD : List (HloOp τ sig (Elt F)) :=
  [ StableHlo.nullary main_c_31 (constantI S_ 32 0#32),
    StableHlo.unary main_c_31 main_v101 (broadcastInDim S20000 ![] bcast_S_S20000 : (⟨S_, .i32⟩ : BufTy).Contents (Elt F) → (⟨S20000, .i32⟩ : BufTy).Contents (Elt F)),
    StableHlo.unary main_v32 main_v102 ((extui 32 · natLt_1_32) : (⟨S4000000, .i1⟩ : BufTy).Contents (Elt F) → (⟨S4000000, .i32⟩ : BufTy).Contents (Elt F)),
    StableHlo.nullary main_c_32 (constantI S_ 32 0#32),
    StableHlo.unary main_c_32 main_v103 (broadcastInDim S4000000 ![] bcast_S_S4000000 : (⟨S_, .i32⟩ : BufTy).Contents (Elt F) → (⟨S4000000, .i32⟩ : BufTy).Contents (Elt F)),
    StableHlo.binary main_v33 main_v103 main_v104 (cmpi .slt : (⟨S4000000, .i32⟩ : BufTy).Contents (Elt F) → (⟨S4000000, .i32⟩ : BufTy).Contents (Elt F) → (⟨S4000000, .i1⟩ : BufTy).Contents (Elt F)),
    StableHlo.nullary main_c_33 (constantI S_ 32 20000#32),
    StableHlo.unary main_c_33 main_v105 (broadcastInDim S4000000 ![] bcast_S_S4000000 : (⟨S_, .i32⟩ : BufTy).Contents (Elt F) → (⟨S4000000, .i32⟩ : BufTy).Contents (Elt F)),
    StableHlo.binary main_v33 main_v105 main_v106 (addi : (⟨S4000000, .i32⟩ : BufTy).Contents (Elt F) → (⟨S4000000, .i32⟩ : BufTy).Contents (Elt F) → (⟨S4000000, .i32⟩ : BufTy).Contents (Elt F)),
    StableHlo.ternary main_v104 main_v106 main_v33 main_v107 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v107 main_v108 (broadcastInDim S4000000x1 ![0] bcast_S4000000_S4000000x1_0 : (⟨S4000000, .i32⟩ : BufTy).Contents (Elt F) → (⟨S4000000x1, .i32⟩ : BufTy).Contents (Elt F)),
    StableHlo.ternary main_v101 main_v108 main_v102 main_v109 ((fun x i u => Host.scatter scatter_S20000_S4000000x1_S4000000_n_0_0_1 IntOp.addi x i u) : (⟨S20000, .i32⟩ : BufTy).Contents (Elt F) → (⟨S4000000x1, .i32⟩ : BufTy).Contents (Elt F) → (⟨S4000000, .i32⟩ : BufTy).Contents (Elt F) → (⟨S20000, .i32⟩ : BufTy).Contents (Elt F)) ]
/-- The references `opsD` writes. -/
abbrev opsD_W : List (Ref sig .tc) := [main_c_31, main_v101, main_v102, main_c_32, main_v103, main_v104, main_c_33, main_v105, main_v106, main_v107, main_v108, main_v109]
theorem opsD_writes : (opsD : List (HloOp τ sig (Elt F))).Forall fun op => op.writes ⊆ (opsD_W.map (Proc.devRef (τ := τ) .tc)).toFinset := by
  simp only [List.Forall]; exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩
/-- A reference `opsD` does not write keeps its contents through it. -/
theorem opsD_keep (V : Valuation τ sig (Elt F)) (r : Ref sig .tc) (h : r ∉ opsD_W) :
    StableHlo.after opsD V (Proc.devRef .tc r) = V (Proc.devRef .tc r) :=
  StableHlo.after_of_writes_sub opsD V opsD_writes h

/-- The voxel count: the voxel starts added up, capped at 20000. -/
abbrev opsE : List (HloOp τ sig (Elt F)) :=
  [ StableHlo.unary main_v18 main_v110 ((extui 32 · natLt_1_32) : (⟨S4000000, .i1⟩ : BufTy).Contents (Elt F) → (⟨S4000000, .i32⟩ : BufTy).Contents (Elt F)),
    StableHlo.nullary main_c_34 (constantI S_ 32 0#32),
    StableHlo.binary main_v110 main_c_34 main_v111 ((fun x v => Host.reduce IntOp.addi x v reducesTo_S4000000_S_d0 h_S_) : (⟨S4000000, .i32⟩ : BufTy).Contents (Elt F) → (⟨S_, .i32⟩ : BufTy).Contents (Elt F) → (⟨S_, .i32⟩ : BufTy).Contents (Elt F)),
    StableHlo.nullary main_c_35 (constantI S_ 32 20000#32),
    StableHlo.binary main_v111 main_c_35 main_v112 (minsi : (⟨S_, .i32⟩ : BufTy).Contents (Elt F) → (⟨S_, .i32⟩ : BufTy).Contents (Elt F) → (⟨S_, .i32⟩ : BufTy).Contents (Elt F)) ]
/-- The references `opsE` writes. -/
abbrev opsE_W : List (Ref sig .tc) := [main_v110, main_c_34, main_v111, main_c_35, main_v112]
theorem opsE_writes : (opsE : List (HloOp τ sig (Elt F))).Forall fun op => op.writes ⊆ (opsE_W.map (Proc.devRef (τ := τ) .tc)).toFinset := by
  simp only [List.Forall]; exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩
/-- A reference `opsE` does not write keeps its contents through it. -/
theorem opsE_keep (V : Valuation τ sig (Elt F)) (r : Ref sig .tc) (h : r ∉ opsE_W) :
    StableHlo.after opsE V (Proc.devRef .tc r) = V (Proc.devRef .tc r) :=
  StableHlo.after_of_writes_sub opsE V opsE_writes h

/-- The tail is the five stretches in order. -/
theorem opsEnd_eq : opsEnd = opsA ++ (opsB ++ (opsC ++ (opsD ++ opsE))) := rfl

theorem after_end (W : Valuation τ sig (Elt Ideal)) :
    StableHlo.after opsEnd W = StableHlo.after opsE (StableHlo.after opsD (StableHlo.after opsC (StableHlo.after opsB (StableHlo.after opsA W)))) := by
  rw [opsEnd_eq, StableHlo.after_append, StableHlo.after_append, StableHlo.after_append, StableHlo.after_append]

/-- The counts read off their stretch. -/
theorem readD (V : Valuation τ sig (Elt F)) :
    StableHlo.after opsD V (Proc.devRef .tc main_v109) =
      Host.scatter scatter_S20000_S4000000x1_S4000000_n_0_0_1 IntOp.addi
        (broadcastInDim S20000 ![] bcast_S_S20000 (constantI S_ 32 0#32))
        (broadcastInDim S4000000x1 ![0] bcast_S4000000_S4000000x1_0
          (select (cmpi .slt (V (Proc.devRef .tc main_v33)) (broadcastInDim S4000000 ![] bcast_S_S4000000 (constantI S_ 32 0#32)))
            (addi (V (Proc.devRef .tc main_v33)) (broadcastInDim S4000000 ![] bcast_S_S4000000 (constantI S_ 32 20000#32)))
            (V (Proc.devRef .tc main_v33))))
        (extui 32 (V (Proc.devRef .tc main_v32)) natLt_1_32) := by
  after_results_simp

/-- The voxel count read off its stretch. -/
theorem readE (V : Valuation τ sig (Elt F)) :
    StableHlo.after opsE V (Proc.devRef .tc main_v112) =
      minsi (Host.reduce IntOp.addi (extui 32 (V (Proc.devRef .tc main_v18)) natLt_1_32) (constantI S_ 32 0#32) reducesTo_S4000000_S_d0 h_S_)
        (constantI S_ 32 20000#32) := by
  after_results_simp

theorem num_end (W : Valuation τ sig (Elt Ideal)) (k : Cert.Vox.Pipe.KV)
    (hvi : W (Proc.devRef .tc main_v33) = Cert.Vox.Pipe.vi k) (hwm : W (Proc.devRef .tc main_v32) = Cert.Vox.Pipe.wm k) :
    StableHlo.after opsEnd W (Proc.devRef .tc main_v109) = Cert.Vox.Pipe.num k := by
  rw [after_end, opsE_keep _ main_v109 (by decide), readD,
    opsC_keep _ main_v33 (by decide), opsB_keep _ main_v33 (by decide), opsA_keep _ main_v33 (by decide),
    opsC_keep _ main_v32 (by decide), opsB_keep _ main_v32 (by decide), opsA_keep _ main_v32 (by decide), hvi, hwm]
  rfl

theorem vnum_end (W : Valuation τ sig (Elt Ideal)) (k : Cert.Vox.Pipe.KV)
    (hn : W (Proc.devRef .tc main_v18) = Cert.Vox.Pipe.newv k) :
    StableHlo.after opsEnd W (Proc.devRef .tc main_v112) = Cert.Vox.Pipe.vnum k := by
  rw [after_end, readE, opsD_keep _ main_v18 (by decide),
    opsC_keep _ main_v18 (by decide), opsB_keep _ main_v18 (by decide), opsA_keep _ main_v18 (by decide), hn]
  rfl

theorem keep_end (W : Valuation τ sig (Elt Ideal)) :
    (StableHlo.after opsEnd W (Proc.devRef .tc main_v58) = W (Proc.devRef .tc main_v58)) ∧
    (StableHlo.after opsEnd W (Proc.devRef .tc main_arg0) = W (Proc.devRef .tc main_arg0)) := by
  constructor
  · rw [after_end, opsE_keep _ main_v58 (by decide), opsD_keep _ main_v58 (by decide),
      opsC_keep _ main_v58 (by decide), opsB_keep _ main_v58 (by decide), opsA_keep _ main_v58 (by decide)]
  · rw [after_end, opsE_keep _ main_arg0 (by decide), opsD_keep _ main_arg0 (by decide),
      opsC_keep _ main_arg0 (by decide), opsB_keep _ main_arg0 (by decide), opsA_keep _ main_arg0 (by decide)]

/-- An index possibly negative wrapped once by the extent `n`, as array indexing does. -/
def kwrap (x : IVec S4000000 32) (n : BitVec 32) : IVec S4000000 32 :=
  select (cmpi .slt x (broadcastInDim S4000000 ![] bcast_S_S4000000 (constantI S_ 32 0#32)))
    (addi x (broadcastInDim S4000000 ![] bcast_S_S4000000 (constantI S_ 32 n))) x

/-- The (voxel, place) scatter indices from the voxel and place words. -/
def kidx2 (vi ri : IVec S4000000 32) : IVec S4000000x2 32 :=
  concatenate S4000000x2 1
    [⟨S4000000x1, broadcastInDim S4000000x1 ![0] bcast_S4000000_S4000000x1_0 (kwrap vi 20000#32)⟩,
     ⟨S4000000x1, broadcastInDim S4000000x1 ![0] bcast_S4000000_S4000000x1_0 (kwrap ri 5#32)⟩]
    concatenates_S4000000x1_S4000000x1_S4000000x2_d1

/-- The table read off its stretch: the original indices written into zeros at (voxel, place). -/
theorem readA (V : Valuation τ sig (Elt F)) :
    StableHlo.after opsA V (Proc.devRef .tc main_v73) =
      Host.scatter scatter_S20000x5_S4000000x2_S4000000_n_01_01_1 (fun _ b => b)
        (broadcastInDim S20000x5 ![] bcast_S_S20000x5 (constantI S_ 32 0#32))
        (kidx2 (V (Proc.devRef .tc main_v33)) (V (Proc.devRef .tc main_v34))) (V (Proc.devRef .tc main_v3)) := by
  after_results_simp
  rfl

/-- The mask read off its stretch: `true` written into `false` at (voxel, place). -/
theorem readB (V : Valuation τ sig (Elt F)) :
    StableHlo.after opsB V (Proc.devRef .tc main_v89) =
      Host.scatter scatter_S20000x5_S4000000x2_S4000000_n_01_01_1 (fun _ b => b)
        (broadcastInDim S20000x5 ![] bcast_S_S20000x5 (constantI S_ 1 0#1))
        (kidx2 (V (Proc.devRef .tc main_v33)) (V (Proc.devRef .tc main_v34)))
        (broadcastInDim S4000000 ![] bcast_S_S4000000 (constantI S_ 1 1#1)) := by
  after_results_simp
  rfl

/-- The point table read off its stretch: the points' rows at the table's positions (wrapped once), times the
    mask converted to a float and repeated along the row. -/
theorem readC (V : Valuation τ sig (Elt F)) :
    StableHlo.after opsC V (Proc.devRef .tc main_v100) =
      mulf
        (Host.gather gather_S4000000x4_S20000x5x1_S20000x5x4_2_0_n_n_0_2_14 (V (Proc.devRef .tc main_arg0))
          (broadcastInDim S20000x5x1 ![0, 1] bcast_S20000x5_S20000x5x1_0_1
            (select (cmpi .slt (V (Proc.devRef .tc main_v73)) (broadcastInDim S20000x5 ![] bcast_S_S20000x5 (constantI S_ 32 0#32)))
              (addi (V (Proc.devRef .tc main_v73)) (broadcastInDim S20000x5 ![] bcast_S_S20000x5 (constantI S_ 32 4000000#32)))
              (V (Proc.devRef .tc main_v73)))))
        (broadcastInDim S20000x5x4 ![0, 1, 2] bcast_S20000x5x1_S20000x5x4_0_1_2
          (uitofp .f32 (broadcastInDim S20000x5x1 ![0, 1] bcast_S20000x5_S20000x5x1_0_1 (V (Proc.devRef .tc main_v89))))) := by
  after_results_simp

/-- The scatter indices are the reference's, once the voxel and place words are. -/
theorem kidx2_pipe (k : Cert.Vox.Pipe.KV) : kidx2 (Cert.Vox.Pipe.vi k) (Cert.Vox.Pipe.ri k) = Cert.Vox.Pipe.idx2 k := rfl

open Idealize.ShloMosaic.ValueIdx

/-- A word possibly negative wrapped once by 4000000. -/
def wrapz (z : BitVec 32) : BitVec 32 := Scalar.select (IntOp.cmpi .slt z 0#32) (IntOp.addi z 4000000#32) z

/-- An array over (voxel, place) repeated along a trailing axis of extent one, read at an element. -/
theorem bcast3_apply {α : Type} (x : S20000x5.Idx → α) (v : Fin 20000) (r : Fin 5) (z : Fin 1) :
    broadcastInDim S20000x5x1 ![0, 1] bcast_S20000x5_S20000x5x1_0_1 x (ix3 v r z) = x (ix2 v r) := by
  show x _ = x _
  congr 1
  funext a
  match a with
  | ⟨0, _⟩ => rfl
  | ⟨1, _⟩ => rfl

/-- An array over (voxel, place, one) repeated along the row of four, read at an element. -/
theorem bcast4_apply {α : Type} (x : S20000x5x1.Idx → α) (v : Fin 20000) (r : Fin 5) (k : Fin 4) :
    broadcastInDim S20000x5x4 ![0, 1, 2] bcast_S20000x5x1_S20000x5x4_0_1_2 x (ix3 v r k) = x (ix3 v r 0) := by
  show x _ = x _
  congr 1
  funext a
  match a with
  | ⟨0, _⟩ => rfl
  | ⟨1, _⟩ => rfl
  | ⟨2, _⟩ => rfl

/-- A word per point as a one-column array, read at an element. -/
theorem col_apply (x : Cert.Vox.Pipe.KV) (p : Fin 4000000) (z : Fin 1) : Cert.Vox.Pipe.col x (ix2 p z) = x (ix1 p) := by
  show x _ = x _
  congr 1
  funext a
  match a with
  | ⟨0, _⟩ => rfl

/-- The bit read as a float is the bit's number. -/
theorem uitofp_apply {s : Shape} (x : IVec s 1) (i : s.Idx) :
    (uitofp .f32 x : FVec Ideal s .f32) i = (((x i).toNat : ℝ) : EReal) := rfl

/-- The table wrapped once, read at an element. -/
theorem twrap_apply (T : IVec S20000x5 32) (i : S20000x5.Idx) :
    select (cmpi .slt T (broadcastInDim S20000x5 ![] bcast_S_S20000x5 (constantI S_ 32 0#32)))
      (addi T (broadcastInDim S20000x5 ![] bcast_S_S20000x5 (constantI S_ 32 4000000#32))) T i = wrapz (T i) := rfl

/-- The order wrapped once, read at an element. -/
theorem owrap_apply (ord : Cert.Vox.Pipe.KV) (i : Cert.ReferenceIdeal.S4000000.Idx) :
    Cert.Vox.Pipe.wrap ord 4000000#32 i = wrapz (ord i) := rfl

/-- The kernel's point table and the reference's agree element by element, over any index array, order and
    points: where no point is written the mask is 0 and the product is 0, the reference's untouched zero; where
    one is, the table holds the original index of the same last-written point the reference's row comes from,
    and the mask is 1. -/
theorem vox_at (idx : IVec S4000000x2 32) (ord : IVec S4000000 32) (pts : FVec Ideal S4000000x4 .f32)
    (v : Fin 20000) (r : Fin 5) (k : Fin 4) :
    mulf
        (Host.gather gather_S4000000x4_S20000x5x1_S20000x5x4_2_0_n_n_0_2_14 pts
          (broadcastInDim S20000x5x1 ![0, 1] bcast_S20000x5_S20000x5x1_0_1
            (select (cmpi .slt (Host.scatter scatter_S20000x5_S4000000x2_S4000000_n_01_01_1 (fun _ b => b)
                  (broadcastInDim S20000x5 ![] bcast_S_S20000x5 (constantI S_ 32 0#32)) idx ord)
                (broadcastInDim S20000x5 ![] bcast_S_S20000x5 (constantI S_ 32 0#32)))
              (addi (Host.scatter scatter_S20000x5_S4000000x2_S4000000_n_01_01_1 (fun _ b => b)
                  (broadcastInDim S20000x5 ![] bcast_S_S20000x5 (constantI S_ 32 0#32)) idx ord)
                (broadcastInDim S20000x5 ![] bcast_S_S20000x5 (constantI S_ 32 4000000#32)))
              (Host.scatter scatter_S20000x5_S4000000x2_S4000000_n_01_01_1 (fun _ b => b)
                  (broadcastInDim S20000x5 ![] bcast_S_S20000x5 (constantI S_ 32 0#32)) idx ord))))
        (broadcastInDim S20000x5x4 ![0, 1, 2] bcast_S20000x5x1_S20000x5x4_0_1_2
          (uitofp .f32 (broadcastInDim S20000x5x1 ![0, 1] bcast_S20000x5_S20000x5x1_0_1
            (Host.scatter scatter_S20000x5_S4000000x2_S4000000_n_01_01_1 (fun _ b => b)
              (broadcastInDim S20000x5 ![] bcast_S_S20000x5 (constantI S_ 1 0#1)) idx
              (broadcastInDim S4000000 ![] bcast_S_S4000000 (constantI S_ 1 1#1))))))
        (ix3 v r k)
      = Host.scatter Cert.ReferenceIdeal.scatter_S20000x5x4_S4000000x2_S4000000x4_1_01_01_1 (fun _ b => b)
          (broadcastInDim Cert.ReferenceIdeal.S20000x5x4 ![] Cert.ReferenceIdeal.Gen.bcast_S_S20000x5x4 (constant (F := Ideal) Cert.ReferenceIdeal.S_ .f32 0x00000000#32))
          idx
          (Host.gather Cert.ReferenceIdeal.gather_S4000000x4_S4000000x1_S4000000x4_1_0_n_n_0_1_14 pts
            (Cert.Vox.Pipe.col (Cert.Vox.Pipe.wrap ord 4000000#32)))
          (ix3 v r k) := by
  rw [ValueIdx.mulf_apply, Cert.Vox.Forms.K_rows_apply, bcast4_apply, uitofp_apply, bcast3_apply, bcast3_apply, twrap_apply]
  rcases Cert.Vox.Forms.vox_elem (β := EReal) idx ord
      (Host.gather Cert.ReferenceIdeal.gather_S4000000x4_S4000000x1_S4000000x4_1_0_n_n_0_1_14 pts
        (Cert.Vox.Pipe.col (Cert.Vox.Pipe.wrap ord 4000000#32)))
      (broadcastInDim S20000x5 ![] bcast_S_S20000x5 (constantI S_ 32 0#32))
      (broadcastInDim S20000x5 ![] bcast_S_S20000x5 (constantI S_ 1 0#1))
      (broadcastInDim Cert.ReferenceIdeal.S20000x5x4 ![] Cert.ReferenceIdeal.Gen.bcast_S_S20000x5x4 (constant (F := Ideal) Cert.ReferenceIdeal.S_ .f32 0x00000000#32))
      (broadcastInDim S4000000 ![] bcast_S_S4000000 (constantI S_ 1 1#1))
      (fun _ => rfl) (fun _ => Ideal.ofBits_zero_f32) (fun _ => rfl) v r k with ⟨hM, hR⟩ | ⟨hM, p, hT, hR⟩
  · rw [hM, hR]
    simp
  · rw [hM, hR, hT, Cert.Vox.Forms.R_rows4_apply, col_apply, owrap_apply]
    simp

theorem vox_end (W : Valuation τ sig (Elt Ideal)) (k : Cert.Vox.Pipe.KV)
    (hvi : W (Proc.devRef .tc main_v33) = Cert.Vox.Pipe.vi k) (hri : W (Proc.devRef .tc main_v34) = Cert.Vox.Pipe.ri k)
    (ho : W (Proc.devRef .tc main_v3) = Cert.Vox.Pipe.order k) :
    StableHlo.after opsEnd W (Proc.devRef .tc main_v100) = Cert.Vox.Pipe.vox (W (Proc.devRef .tc main_arg0)) k := by
  rw [after_end, opsE_keep _ main_v100 (by decide), opsD_keep _ main_v100 (by decide), readC,
    opsB_keep _ main_arg0 (by decide), opsA_keep _ main_arg0 (by decide),
    opsB_keep _ main_v73 (by decide), readA, readB,
    opsA_keep _ main_v33 (by decide), opsA_keep _ main_v34 (by decide), hvi, hri, ho, kidx2_pipe]
  funext i
  obtain ⟨v, r, c, rfl⟩ : ∃ v r c, i = ix3 v r c := ⟨i 0, i 1, i 2, eq_ix3 i⟩
  exact vox_at (Cert.Vox.Pipe.idx2 k) (Cert.Vox.Pipe.order k) (W (Proc.devRef .tc main_arg0)) v r c

end Cert.KernelIdeal.HX

end
-- ==== Proof.KAll.lean ====
/-
  The kernel program's four results as functions of the points, at the ideal instance.

  After the region the output array holds the key of every point; the host operations that follow are read in four
  stretches (a reshape; the sort and the per-point bookkeeping; the decoded cell triples; the point table, the counts
  and the number of voxels), each against the specification of the pipeline, and chained: a buffer written in one
  stretch and read in a later one is not written in between.
-/
import proofs.«166804_j37915971289632_2_alg».proof.Proof.KIFrame
import proofs.«166804_j37915971289632_2_alg».proof.Proof.KIValue
import proofs.«166804_j37915971289632_2_alg».proof.Proof.KGlue
import proofs.«166804_j37915971289632_2_alg».proof.Proof.KPipe
import proofs.«166804_j37915971289632_2_alg».proof.Proof.KCoors
import proofs.«166804_j37915971289632_2_alg».proof.Proof.KVox

noncomputable section

namespace Cert.KernelIdeal.HA

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The buffers when the region is left: the two arrays as the region leaves them, the rest as it found them. -/
abbrev Wx (c : Dev nD) : Valuation τ sig (Elt Ideal) :=
  Pipeline.withArrays spec0 c (HF.V0 m c) fun w => (HF.dats m 0 c).arrAt w cfg0.N

/-- The points, as launched. -/
abbrev pts (c : Dev nD) : FVec Ideal Cert.ReferenceIdeal.S4000000x4 .f32 := m ((c : Thread nD τ).loc main_arg0)

/-- The region leaves the key of every point in its output array. -/
theorem Wx_v1 (c : Dev nD) :
    (Wx m c (Proc.devRef .tc main_v1) : S1x4000000.Idx → BitVec 32) = fun j => Cert.Vox.keys (pts m c) (ix1 (j 1)) :=
  (Pipeline.withArrays_arr spec0 launch0.win.arr_inj c _ _ 1).trans (HV.keys2d_final m c)

/-- The points are untouched when the region is left. -/
theorem Wx_arg0 (c : Dev nD) : Wx m c (Proc.devRef .tc main_arg0) = pts m c :=
  (Pipeline.withArrays_of_ne spec0 c (HF.V0 m c) _ main_arg0 (by decide)).trans (HF.V_main_arg0 m c)

/-- After the reshape the flat key array is the specification's. -/
theorem keys_flat (c : Dev nD) :
    (StableHlo.after (hostOps1 (F := Ideal)) (Wx m c) (Proc.devRef .tc main_v2) : Cert.Vox.Pipe.KV) = Cert.Vox.keys (pts m c) := by
  rw [reshape_read, Wx_v1]
  funext i
  exact congrArg (Cert.Vox.keys (pts m c)) (eq_ix1 i).symm

/-- The four results, and the points, after all the host operations that follow the region. -/
theorem tail_results (c : Dev nD) :
    Pipeline.afterTail₀ cfgs (HF.dats m) 0 (HF.V0 m) HF.tailOps c main_v100 = Cert.Vox.Pipe.vox (pts m c) (Cert.Vox.keys (pts m c))
    ∧ Pipeline.afterTail₀ cfgs (HF.dats m) 0 (HF.V0 m) HF.tailOps c main_v58 = Cert.Vox.Pipe.coors (Cert.Vox.cells (pts m c)) (Cert.Vox.keys (pts m c))
    ∧ Pipeline.afterTail₀ cfgs (HF.dats m) 0 (HF.V0 m) HF.tailOps c main_v109 = Cert.Vox.Pipe.num (Cert.Vox.keys (pts m c))
    ∧ Pipeline.afterTail₀ cfgs (HF.dats m) 0 (HF.V0 m) HF.tailOps c main_v112 = Cert.Vox.Pipe.vnum (Cert.Vox.keys (pts m c)) := by
  unfold Pipeline.afterTail₀
  rw [flatten_tail, StableHlo.after_append, StableHlo.after_append, StableHlo.after_append]
  -- the buffers entering each stretch
  generalize hW1 : StableHlo.after (hostOps1 (F := Ideal)) (Wx m c) = W1
  have hk : (W1 (Proc.devRef .tc main_v2) : Cert.Vox.Pipe.KV) = Cert.Vox.keys (pts m c) := by rw [← hW1]; exact keys_flat m c
  have hp1 : W1 (Proc.devRef .tc main_arg0) = pts m c := by rw [← hW1, reshape_keep]; exact Wx_arg0 m c
  generalize hW2 : StableHlo.after opsMid W1 = W2
  have ho2 : W2 (Proc.devRef .tc main_v3) = Cert.Vox.Pipe.order (Cert.Vox.keys (pts m c)) := by rw [← hW2, ← hk]; exact HP.order_read W1
  have hs2 : W2 (Proc.devRef .tc main_v10) = Cert.Vox.Pipe.skeys (Cert.Vox.keys (pts m c)) := by rw [← hW2, ← hk]; exact HP.skeys_read W1
  have hn2 : W2 (Proc.devRef .tc main_v18) = Cert.Vox.Pipe.newv (Cert.Vox.keys (pts m c)) := by rw [← hW2, ← hk]; exact HP.newv_read W1
  have hv2 : W2 (Proc.devRef .tc main_v22) = Cert.Vox.Pipe.vid (Cert.Vox.keys (pts m c)) := by rw [← hW2, ← hk]; exact HP.vid_read W1
  have hw2 : W2 (Proc.devRef .tc main_v32) = Cert.Vox.Pipe.wm (Cert.Vox.keys (pts m c)) := by rw [← hW2, ← hk]; exact HP.wm_read W1
  have hvi2 : W2 (Proc.devRef .tc main_v33) = Cert.Vox.Pipe.vi (Cert.Vox.keys (pts m c)) := by rw [← hW2, ← hk]; exact HP.vi_read W1
  have hri2 : W2 (Proc.devRef .tc main_v34) = Cert.Vox.Pipe.ri (Cert.Vox.keys (pts m c)) := by rw [← hW2, ← hk]; exact HP.ri_read W1
  have hp2 : W2 (Proc.devRef .tc main_arg0) = pts m c := by rw [← hW2, HP.arg0_mid]; exact hp1
  have hc3 := HC.coors_end W2 (pts m c) hs2 hn2 hv2
  obtain ⟨kp, k3, k18, k32, k33, k34⟩ := HC.keep_coors W2
  generalize hW3 : StableHlo.after opsCoors W2 = W3 at hc3 kp k3 k18 k32 k33 k34
  obtain ⟨e58, ep⟩ := HX.keep_end W3
  refine ⟨?_, ?_, ?_, ?_⟩
  · have := HX.vox_end W3 (Cert.Vox.keys (pts m c)) (k33.trans hvi2) (k34.trans hri2) (k3.trans ho2)
    rw [kp.trans hp2] at this
    exact this
  · exact e58.trans hc3
  · exact HX.num_end W3 (Cert.Vox.keys (pts m c)) (k33.trans hvi2) (k32.trans hw2)
  · exact HX.vnum_end W3 (Cert.Vox.keys (pts m c)) (k18.trans hn2)

/-- The kernel program's run with its four results named. -/
theorem run (ρ : Dev nD → PrngReg) :
    θ_run defs (onTc (τ := τ) (main (F := Ideal))) ⟨m, fun _ => 0, ρ⟩ (fun r => ∀ c : Dev nD,
      r.2.mem ((c.tc : Thread nD τ).loc main_v100) = Cert.Vox.Pipe.vox (pts m c) (Cert.Vox.keys (pts m c))
      ∧ r.2.mem ((c.tc : Thread nD τ).loc main_v58) = Cert.Vox.Pipe.coors (Cert.Vox.cells (pts m c)) (Cert.Vox.keys (pts m c))
      ∧ r.2.mem ((c.tc : Thread nD τ).loc main_v109) = Cert.Vox.Pipe.num (Cert.Vox.keys (pts m c))
      ∧ r.2.mem ((c.tc : Thread nD τ).loc main_v112) = Cert.Vox.Pipe.vnum (Cert.Vox.keys (pts m c))
      ∧ r.2.mem ((c.tc : Thread nD τ).loc main_arg0) = m ((c.tc : Thread nD τ).loc main_arg0)) :=
  (θ_run defs _ _).mono (fun _ h c =>
    ⟨((h c).2 main_v100 (Pipeline.mem_restRefs_of main_v100 (by decide) (by decide))).trans (tail_results m c).1,
     ((h c).2 main_v58 (Pipeline.mem_restRefs_of main_v58 (by decide) (by decide))).trans (tail_results m c).2.1,
     ((h c).2 main_v109 (Pipeline.mem_restRefs_of main_v109 (by decide) (by decide))).trans (tail_results m c).2.2.1,
     ((h c).2 main_v112 (Pipeline.mem_restRefs_of main_v112 (by decide) (by decide))).trans (tail_results m c).2.2.2,
     ((h c).2 main_arg0 (Pipeline.mem_restRefs_of main_arg0 (by decide) (by decide))).trans (HF.W_main_arg0 m c)⟩)
    (HF.run_main (F := Ideal) m ρ)

end Cert.KernelIdeal.HA

end
-- ==== Proof.RRunOps.lean ====
/-
  The reference program's @main as a list of its host operations.

  @main is a straight line: 152 operations of its own and nine calls of module-local functions, each of which is
  itself a straight line over the buffers the call names (its record). Unfolding every call at its site gives
  181 operations, one per buffer of the signature other than the argument. They are listed here in program order, in
  four consecutive stretches; each operation is the builder the program states, at the same buffers and with the
  same pure function, a callee's operation over the call's record fields and the caller's operand buffers.
-/
import proofs.«166804_j37915971289632_2_alg».proof.Proof.Gen.ReferenceIdeal
import Idealize.ShloMosaic.Lib.StableHlo.Run

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

/-- The first stretch: from `%cst` through the call of `@_where` whose result `%38` holds the keys — the range tests, the cell triple (`@clip` inlined over `main_call0`), its row-major linearisation, and the select against the sentinel (`@_where` inlined over `main_call1`). 53 operations. -/
abbrev opsR0 : List (HloOp τ sig (Elt F)) :=
  [ StableHlo.nullary main_cst (fun i => FloatOps.ofBits .f32 (lit0 (S3.rowMajor i))),  -- %cst stablehlo.constant
    StableHlo.nullary main_cst_0 (fun i => FloatOps.ofBits .f32 (lit1 (S3.rowMajor i))),  -- %cst_0 stablehlo.constant
    StableHlo.nullary main_cst_1 (fun i => FloatOps.ofBits .f32 (lit2 (S3.rowMajor i))),  -- %cst_1 stablehlo.constant
    StableHlo.nullary main_c (fun i => lit3 (S3.rowMajor i)),  -- %c stablehlo.constant
    StableHlo.unary main_arg0 main_v0 ((extractStridedSlice S4000000x3 ![0, 0] · slices_S4000000x4_S4000000x3_0_0) : (⟨S4000000x4, .f32⟩ : BufTy).Contents (Elt F) → (⟨S4000000x3, .f32⟩ : BufTy).Contents (Elt F)),  -- %0 stablehlo.slice
    StableHlo.unary main_cst main_v1 (broadcastInDim S1x3 ![1] bcast_S3_S1x3_1 : (⟨S3, .f32⟩ : BufTy).Contents (Elt F) → (⟨S1x3, .f32⟩ : BufTy).Contents (Elt F)),  -- %1 stablehlo.broadcast_in_dim
    StableHlo.unary main_v1 main_v2 (broadcastInDim S4000000x3 ![0, 1] bcast_S1x3_S4000000x3_0_1 : (⟨S1x3, .f32⟩ : BufTy).Contents (Elt F) → (⟨S4000000x3, .f32⟩ : BufTy).Contents (Elt F)),  -- %2 stablehlo.broadcast_in_dim
    StableHlo.binary main_v0 main_v2 main_v3 (cmpf .oge : (⟨S4000000x3, .f32⟩ : BufTy).Contents (Elt F) → (⟨S4000000x3, .f32⟩ : BufTy).Contents (Elt F) → (⟨S4000000x3, .i1⟩ : BufTy).Contents (Elt F)),  -- %3 stablehlo.compare
    StableHlo.unary main_arg0 main_v4 ((extractStridedSlice S4000000x3 ![0, 0] · slices_S4000000x4_S4000000x3_0_0) : (⟨S4000000x4, .f32⟩ : BufTy).Contents (Elt F) → (⟨S4000000x3, .f32⟩ : BufTy).Contents (Elt F)),  -- %4 stablehlo.slice
    StableHlo.unary main_cst_0 main_v5 (broadcastInDim S1x3 ![1] bcast_S3_S1x3_1 : (⟨S3, .f32⟩ : BufTy).Contents (Elt F) → (⟨S1x3, .f32⟩ : BufTy).Contents (Elt F)),  -- %5 stablehlo.broadcast_in_dim
    StableHlo.unary main_v5 main_v6 (broadcastInDim S4000000x3 ![0, 1] bcast_S1x3_S4000000x3_0_1 : (⟨S1x3, .f32⟩ : BufTy).Contents (Elt F) → (⟨S4000000x3, .f32⟩ : BufTy).Contents (Elt F)),  -- %6 stablehlo.broadcast_in_dim
    StableHlo.binary main_v4 main_v6 main_v7 (cmpf .olt : (⟨S4000000x3, .f32⟩ : BufTy).Contents (Elt F) → (⟨S4000000x3, .f32⟩ : BufTy).Contents (Elt F) → (⟨S4000000x3, .i1⟩ : BufTy).Contents (Elt F)),  -- %7 stablehlo.compare
    StableHlo.binary main_v3 main_v7 main_v8 (andi : (⟨S4000000x3, .i1⟩ : BufTy).Contents (Elt F) → (⟨S4000000x3, .i1⟩ : BufTy).Contents (Elt F) → (⟨S4000000x3, .i1⟩ : BufTy).Contents (Elt F)),  -- %8 stablehlo.and
    StableHlo.nullary main_c_2 (constantI S_ 1 1#1),  -- %c_2 stablehlo.constant
    StableHlo.binary main_v8 main_c_2 main_v9 ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F)),  -- %9 stablehlo.reduce
    StableHlo.unary main_arg0 main_v10 ((extractStridedSlice S4000000x3 ![0, 0] · slices_S4000000x4_S4000000x3_0_0) : (⟨S4000000x4, .f32⟩ : BufTy).Contents (Elt F) → (⟨S4000000x3, .f32⟩ : BufTy).Contents (Elt F)),  -- %10 stablehlo.slice
    StableHlo.unary main_cst main_v11 (broadcastInDim S1x3 ![1] bcast_S3_S1x3_1 : (⟨S3, .f32⟩ : BufTy).Contents (Elt F) → (⟨S1x3, .f32⟩ : BufTy).Contents (Elt F)),  -- %11 stablehlo.broadcast_in_dim
    StableHlo.unary main_v11 main_v12 (broadcastInDim S4000000x3 ![0, 1] bcast_S1x3_S4000000x3_0_1 : (⟨S1x3, .f32⟩ : BufTy).Contents (Elt F) → (⟨S4000000x3, .f32⟩ : BufTy).Contents (Elt F)),  -- %12 stablehlo.broadcast_in_dim
    StableHlo.binary main_v10 main_v12 main_v13 (subf : (⟨S4000000x3, .f32⟩ : BufTy).Contents (Elt F) → (⟨S4000000x3, .f32⟩ : BufTy).Contents (Elt F) → (⟨S4000000x3, .f32⟩ : BufTy).Contents (Elt F)),  -- %13 stablehlo.subtract
    StableHlo.unary main_cst_1 main_v14 (broadcastInDim S1x3 ![1] bcast_S3_S1x3_1 : (⟨S3, .f32⟩ : BufTy).Contents (Elt F) → (⟨S1x3, .f32⟩ : BufTy).Contents (Elt F)),  -- %14 stablehlo.broadcast_in_dim
    StableHlo.unary main_v14 main_v15 (broadcastInDim S4000000x3 ![0, 1] bcast_S1x3_S4000000x3_0_1 : (⟨S1x3, .f32⟩ : BufTy).Contents (Elt F) → (⟨S4000000x3, .f32⟩ : BufTy).Contents (Elt F)),  -- %15 stablehlo.broadcast_in_dim
    StableHlo.binary main_v13 main_v15 main_v16 (Host.divf : (⟨S4000000x3, .f32⟩ : BufTy).Contents (Elt F) → (⟨S4000000x3, .f32⟩ : BufTy).Contents (Elt F) → (⟨S4000000x3, .f32⟩ : BufTy).Contents (Elt F)),  -- %16 stablehlo.divide
    StableHlo.unary main_v16 main_v17 (Host.floor : (⟨S4000000x3, .f32⟩ : BufTy).Contents (Elt F) → (⟨S4000000x3, .f32⟩ : BufTy).Contents (Elt F)),  -- %17 stablehlo.floor
    StableHlo.unary main_v17 main_v18 (fptosi 32 : (⟨S4000000x3, .f32⟩ : BufTy).Contents (Elt F) → (⟨S4000000x3, .i32⟩ : BufTy).Contents (Elt F)),  -- %18 stablehlo.convert
    StableHlo.nullary main_c_3 (constantI S_ 32 1#32),  -- %c_3 stablehlo.constant
    StableHlo.unary main_c_3 main_v19 (broadcastInDim S3 ![] bcast_S_S3 : (⟨S_, .i32⟩ : BufTy).Contents (Elt F) → (⟨S3, .i32⟩ : BufTy).Contents (Elt F)),  -- %19 stablehlo.broadcast_in_dim
    StableHlo.binary main_c main_v19 main_v20 (subi : (⟨S3, .i32⟩ : BufTy).Contents (Elt F) → (⟨S3, .i32⟩ : BufTy).Contents (Elt F) → (⟨S3, .i32⟩ : BufTy).Contents (Elt F)),  -- %20 stablehlo.subtract
    StableHlo.nullary main_c_4 (constantI S_ 32 0#32),  -- %c_4 stablehlo.constant
    StableHlo.TRef.unary (.of main_c_4 : StableHlo.TRef sig ⟨S_, .i32⟩) main_call0.v0 id,  -- %21 = @clip(…): %0 stablehlo.convert
    StableHlo.TRef.unary main_call0.v0 main_call0.v1 (broadcastInDim S4000000x3 ![] bcast_S_S4000000x3),  -- %21 = @clip(…): %1 stablehlo.broadcast_in_dim
    StableHlo.TRef.binary main_call0.v1 (.of main_v18 : StableHlo.TRef sig ⟨S4000000x3, .i32⟩) main_call0.v2 maxsi,  -- %21 = @clip(…): %2 stablehlo.maximum
    StableHlo.TRef.unary (.of main_v20 : StableHlo.TRef sig ⟨S3, .i32⟩) main_call0.v3 (broadcastInDim S1x3 ![1] bcast_S3_S1x3_1),  -- %21 = @clip(…): %3 stablehlo.broadcast_in_dim
    StableHlo.TRef.unary main_call0.v3 main_call0.v4 (broadcastInDim S4000000x3 ![0, 1] bcast_S1x3_S4000000x3_0_1),  -- %21 = @clip(…): %4 stablehlo.broadcast_in_dim
    StableHlo.TRef.binary main_call0.v4 main_call0.v2 main_call0.v5 minsi,  -- %21 = @clip(…): %5 stablehlo.minimum
    StableHlo.unary main_v21 main_v22 ((extractStridedSlice S4000000x1 ![0, 0] · slices_S4000000x3_S4000000x1_0_0) : (⟨S4000000x3, .i32⟩ : BufTy).Contents (Elt F) → (⟨S4000000x1, .i32⟩ : BufTy).Contents (Elt F)),  -- %22 stablehlo.slice
    StableHlo.reshape main_v22 main_v23 rfl shapeCasts_S4000000x1_S4000000,  -- %23 stablehlo.reshape
    StableHlo.unary main_c main_v24 ((extractStridedSlice S1 ![1] · slices_S3_S1_1) : (⟨S3, .i32⟩ : BufTy).Contents (Elt F) → (⟨S1, .i32⟩ : BufTy).Contents (Elt F)),  -- %24 stablehlo.slice
    StableHlo.reshape main_v24 main_v25 rfl shapeCasts_S1_S_,  -- %25 stablehlo.reshape
    StableHlo.unary main_v25 main_v26 (broadcastInDim S4000000 ![] bcast_S_S4000000 : (⟨S_, .i32⟩ : BufTy).Contents (Elt F) → (⟨S4000000, .i32⟩ : BufTy).Contents (Elt F)),  -- %26 stablehlo.broadcast_in_dim
    StableHlo.binary main_v23 main_v26 main_v27 (muli : (⟨S4000000, .i32⟩ : BufTy).Contents (Elt F) → (⟨S4000000, .i32⟩ : BufTy).Contents (Elt F) → (⟨S4000000, .i32⟩ : BufTy).Contents (Elt F)),  -- %27 stablehlo.multiply
    StableHlo.unary main_v21 main_v28 ((extractStridedSlice S4000000x1 ![0, 1] · slices_S4000000x3_S4000000x1_0_1) : (⟨S4000000x3, .i32⟩ : BufTy).Contents (Elt F) → (⟨S4000000x1, .i32⟩ : BufTy).Contents (Elt F)),  -- %28 stablehlo.slice
    StableHlo.reshape main_v28 main_v29 rfl shapeCasts_S4000000x1_S4000000,  -- %29 stablehlo.reshape
    StableHlo.binary main_v27 main_v29 main_v30 (addi : (⟨S4000000, .i32⟩ : BufTy).Contents (Elt F) → (⟨S4000000, .i32⟩ : BufTy).Contents (Elt F) → (⟨S4000000, .i32⟩ : BufTy).Contents (Elt F)),  -- %30 stablehlo.add
    StableHlo.unary main_c main_v31 ((extractStridedSlice S1 ![2] · slices_S3_S1_2) : (⟨S3, .i32⟩ : BufTy).Contents (Elt F) → (⟨S1, .i32⟩ : BufTy).Contents (Elt F)),  -- %31 stablehlo.slice
    StableHlo.reshape main_v31 main_v32 rfl shapeCasts_S1_S_,  -- %32 stablehlo.reshape
    StableHlo.unary main_v32 main_v33 (broadcastInDim S4000000 ![] bcast_S_S4000000 : (⟨S_, .i32⟩ : BufTy).Contents (Elt F) → (⟨S4000000, .i32⟩ : BufTy).Contents (Elt F)),  -- %33 stablehlo.broadcast_in_dim
    StableHlo.binary main_v30 main_v33 main_v34 (muli : (⟨S4000000, .i32⟩ : BufTy).Contents (Elt F) → (⟨S4000000, .i32⟩ : BufTy).Contents (Elt F) → (⟨S4000000, .i32⟩ : BufTy).Contents (Elt F)),  -- %34 stablehlo.multiply
    StableHlo.unary main_v21 main_v35 ((extractStridedSlice S4000000x1 ![0, 2] · slices_S4000000x3_S4000000x1_0_2) : (⟨S4000000x3, .i32⟩ : BufTy).Contents (Elt F) → (⟨S4000000x1, .i32⟩ : BufTy).Contents (Elt F)),  -- %35 stablehlo.slice
    StableHlo.reshape main_v35 main_v36 rfl shapeCasts_S4000000x1_S4000000,  -- %36 stablehlo.reshape
    StableHlo.binary main_v34 main_v36 main_v37 (addi : (⟨S4000000, .i32⟩ : BufTy).Contents (Elt F) → (⟨S4000000, .i32⟩ : BufTy).Contents (Elt F) → (⟨S4000000, .i32⟩ : BufTy).Contents (Elt F)),  -- %37 stablehlo.add
    StableHlo.nullary main_c_5 (constantI S_ 32 90112000#32),  -- %c_5 stablehlo.constant
    StableHlo.TRef.unary (.of main_c_5 : StableHlo.TRef sig ⟨S_, .i32⟩) main_call1.v0 (broadcastInDim S4000000 ![] bcast_S_S4000000),  -- %38 = @_where(…): %0 stablehlo.broadcast_in_dim
    StableHlo.TRef.ternary (.of main_v9 : StableHlo.TRef sig ⟨S4000000, .i1⟩) (.of main_v37 : StableHlo.TRef sig ⟨S4000000, .i32⟩) main_call1.v0 main_call1.v1 select ]  -- %38 = @_where(…): %1 stablehlo.select

/-- The second stretch: from the call of `@argsort` (`%39`, inlined over `main_call2`: the iota and the two results of the stable sort) through `%69` — the three gathers along the sorting permutation, the validity bit, the first-of-run bit and its conversion to a word. 41 operations. -/
abbrev opsR1 : List (HloOp τ sig (Elt F)) :=
  [ StableHlo.TRef.nullary main_call2.v0 (iotaInDim S4000000 32 0),  -- %39 = @argsort(…): %0 stablehlo.iota
    StableHlo.TRef.binary (.of main_v38 : StableHlo.TRef sig ⟨S4000000, .i32⟩) main_call2.v0 main_call2.v1_0 (fun x y => (Host.sort2 S4000000 0 comparator_i32_i32_d0 x y).1),  -- %39 = @argsort(…): %1:2 stablehlo.sort
    StableHlo.TRef.binary (.of main_v38 : StableHlo.TRef sig ⟨S4000000, .i32⟩) main_call2.v0 main_call2.v1_1 (fun x y => (Host.sort2 S4000000 0 comparator_i32_i32_d0 x y).2),  -- %39 = @argsort(…): %1:2 stablehlo.sort
    StableHlo.nullary main_c_6 (constantI S_ 32 0#32),  -- %c_6 stablehlo.constant
    StableHlo.unary main_c_6 main_v40 (broadcastInDim S4000000 ![] bcast_S_S4000000 : (⟨S_, .i32⟩ : BufTy).Contents (Elt F) → (⟨S4000000, .i32⟩ : BufTy).Contents (Elt F)),  -- %40 stablehlo.broadcast_in_dim
    StableHlo.binary main_v39 main_v40 main_v41 (cmpi .slt : (⟨S4000000, .i32⟩ : BufTy).Contents (Elt F) → (⟨S4000000, .i32⟩ : BufTy).Contents (Elt F) → (⟨S4000000, .i1⟩ : BufTy).Contents (Elt F)),  -- %41 stablehlo.compare
    StableHlo.nullary main_c_7 (constantI S_ 32 4000000#32),  -- %c_7 stablehlo.constant
    StableHlo.unary main_c_7 main_v42 (broadcastInDim S4000000 ![] bcast_S_S4000000 : (⟨S_, .i32⟩ : BufTy).Contents (Elt F) → (⟨S4000000, .i32⟩ : BufTy).Contents (Elt F)),  -- %42 stablehlo.broadcast_in_dim
    StableHlo.binary main_v39 main_v42 main_v43 (addi : (⟨S4000000, .i32⟩ : BufTy).Contents (Elt F) → (⟨S4000000, .i32⟩ : BufTy).Contents (Elt F) → (⟨S4000000, .i32⟩ : BufTy).Contents (Elt F)),  -- %43 stablehlo.add
    StableHlo.ternary main_v41 main_v43 main_v39 main_v44 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),  -- %44 stablehlo.select
    StableHlo.unary main_v44 main_v45 (broadcastInDim S4000000x1 ![0] bcast_S4000000_S4000000x1_0 : (⟨S4000000, .i32⟩ : BufTy).Contents (Elt F) → (⟨S4000000x1, .i32⟩ : BufTy).Contents (Elt F)),  -- %45 stablehlo.broadcast_in_dim
    StableHlo.binary main_v38 main_v45 main_v46 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),  -- %46 stablehlo.gather
    StableHlo.nullary main_c_8 (constantI S_ 32 0#32),  -- %c_8 stablehlo.constant
    StableHlo.unary main_c_8 main_v47 (broadcastInDim S4000000 ![] bcast_S_S4000000 : (⟨S_, .i32⟩ : BufTy).Contents (Elt F) → (⟨S4000000, .i32⟩ : BufTy).Contents (Elt F)),  -- %47 stablehlo.broadcast_in_dim
    StableHlo.binary main_v39 main_v47 main_v48 (cmpi .slt : (⟨S4000000, .i32⟩ : BufTy).Contents (Elt F) → (⟨S4000000, .i32⟩ : BufTy).Contents (Elt F) → (⟨S4000000, .i1⟩ : BufTy).Contents (Elt F)),  -- %48 stablehlo.compare
    StableHlo.nullary main_c_9 (constantI S_ 32 4000000#32),  -- %c_9 stablehlo.constant
    StableHlo.unary main_c_9 main_v49 (broadcastInDim S4000000 ![] bcast_S_S4000000 : (⟨S_, .i32⟩ : BufTy).Contents (Elt F) → (⟨S4000000, .i32⟩ : BufTy).Contents (Elt F)),  -- %49 stablehlo.broadcast_in_dim
    StableHlo.binary main_v39 main_v49 main_v50 (addi : (⟨S4000000, .i32⟩ : BufTy).Contents (Elt F) → (⟨S4000000, .i32⟩ : BufTy).Contents (Elt F) → (⟨S4000000, .i32⟩ : BufTy).Contents (Elt F)),  -- %50 stablehlo.add
    StableHlo.ternary main_v48 main_v50 main_v39 main_v51 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),  -- %51 stablehlo.select
    StableHlo.unary main_v51 main_v52 (broadcastInDim S4000000x1 ![0] bcast_S4000000_S4000000x1_0 : (⟨S4000000, .i32⟩ : BufTy).Contents (Elt F) → (⟨S4000000x1, .i32⟩ : BufTy).Contents (Elt F)),  -- %52 stablehlo.broadcast_in_dim
    StableHlo.binary main_arg0 main_v52 main_v53 ((fun x i => Host.gather gather_S4000000x4_S4000000x1_S4000000x4_1_0_n_n_0_1_14 x i) : (⟨S4000000x4, .f32⟩ : BufTy).Contents (Elt F) → (⟨S4000000x1, .i32⟩ : BufTy).Contents (Elt F) → (⟨S4000000x4, .f32⟩ : BufTy).Contents (Elt F)),  -- %53 stablehlo.gather
    StableHlo.nullary main_c_10 (constantI S_ 32 0#32),  -- %c_10 stablehlo.constant
    StableHlo.unary main_c_10 main_v54 (broadcastInDim S4000000 ![] bcast_S_S4000000 : (⟨S_, .i32⟩ : BufTy).Contents (Elt F) → (⟨S4000000, .i32⟩ : BufTy).Contents (Elt F)),  -- %54 stablehlo.broadcast_in_dim
    StableHlo.binary main_v39 main_v54 main_v55 (cmpi .slt : (⟨S4000000, .i32⟩ : BufTy).Contents (Elt F) → (⟨S4000000, .i32⟩ : BufTy).Contents (Elt F) → (⟨S4000000, .i1⟩ : BufTy).Contents (Elt F)),  -- %55 stablehlo.compare
    StableHlo.nullary main_c_11 (constantI S_ 32 4000000#32),  -- %c_11 stablehlo.constant
    StableHlo.unary main_c_11 main_v56 (broadcastInDim S4000000 ![] bcast_S_S4000000 : (⟨S_, .i32⟩ : BufTy).Contents (Elt F) → (⟨S4000000, .i32⟩ : BufTy).Contents (Elt F)),  -- %56 stablehlo.broadcast_in_dim
    StableHlo.binary main_v39 main_v56 main_v57 (addi : (⟨S4000000, .i32⟩ : BufTy).Contents (Elt F) → (⟨S4000000, .i32⟩ : BufTy).Contents (Elt F) → (⟨S4000000, .i32⟩ : BufTy).Contents (Elt F)),  -- %57 stablehlo.add
    StableHlo.ternary main_v55 main_v57 main_v39 main_v58 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),  -- %58 stablehlo.select
    StableHlo.unary main_v58 main_v59 (broadcastInDim S4000000x1 ![0] bcast_S4000000_S4000000x1_0 : (⟨S4000000, .i32⟩ : BufTy).Contents (Elt F) → (⟨S4000000x1, .i32⟩ : BufTy).Contents (Elt F)),  -- %59 stablehlo.broadcast_in_dim
    StableHlo.binary main_v21 main_v59 main_v60 ((fun x i => Host.gather gather_S4000000x3_S4000000x1_S4000000x3_1_0_n_n_0_1_13 x i) : (⟨S4000000x3, .i32⟩ : BufTy).Contents (Elt F) → (⟨S4000000x1, .i32⟩ : BufTy).Contents (Elt F) → (⟨S4000000x3, .i32⟩ : BufTy).Contents (Elt F)),  -- %60 stablehlo.gather
    StableHlo.nullary main_c_12 (constantI S_ 32 90112000#32),  -- %c_12 stablehlo.constant
    StableHlo.unary main_c_12 main_v61 (broadcastInDim S4000000 ![] bcast_S_S4000000 : (⟨S_, .i32⟩ : BufTy).Contents (Elt F) → (⟨S4000000, .i32⟩ : BufTy).Contents (Elt F)),  -- %61 stablehlo.broadcast_in_dim
    StableHlo.binary main_v46 main_v61 main_v62 (cmpi .slt : (⟨S4000000, .i32⟩ : BufTy).Contents (Elt F) → (⟨S4000000, .i32⟩ : BufTy).Contents (Elt F) → (⟨S4000000, .i1⟩ : BufTy).Contents (Elt F)),  -- %62 stablehlo.compare
    StableHlo.nullary main_c_13 (constantI S_ 1 1#1),  -- %c_13 stablehlo.constant
    StableHlo.unary main_c_13 main_v63 (broadcastInDim S1 ![] bcast_S_S1 : (⟨S_, .i1⟩ : BufTy).Contents (Elt F) → (⟨S1, .i1⟩ : BufTy).Contents (Elt F)),  -- %63 stablehlo.broadcast_in_dim
    StableHlo.unary main_v46 main_v64 ((extractStridedSlice S3999999 ![1] · slices_S4000000_S3999999_1) : (⟨S4000000, .i32⟩ : BufTy).Contents (Elt F) → (⟨S3999999, .i32⟩ : BufTy).Contents (Elt F)),  -- %64 stablehlo.slice
    StableHlo.unary main_v46 main_v65 ((extractStridedSlice S3999999 ![0] · slices_S4000000_S3999999_0) : (⟨S4000000, .i32⟩ : BufTy).Contents (Elt F) → (⟨S3999999, .i32⟩ : BufTy).Contents (Elt F)),  -- %65 stablehlo.slice
    StableHlo.binary main_v64 main_v65 main_v66 (cmpi .ne : (⟨S3999999, .i32⟩ : BufTy).Contents (Elt F) → (⟨S3999999, .i32⟩ : BufTy).Contents (Elt F) → (⟨S3999999, .i1⟩ : BufTy).Contents (Elt F)),  -- %66 stablehlo.compare
    StableHlo.binary main_v63 main_v66 main_v67 ((fun a b => concatenate S4000000 0 [⟨S1, a⟩, ⟨S3999999, b⟩] concatenates_S1_S3999999_S4000000_d0) : (⟨S1, .i1⟩ : BufTy).Contents (Elt F) → (⟨S3999999, .i1⟩ : BufTy).Contents (Elt F) → (⟨S4000000, .i1⟩ : BufTy).Contents (Elt F)),  -- %67 stablehlo.concatenate
    StableHlo.binary main_v62 main_v67 main_v68 (andi : (⟨S4000000, .i1⟩ : BufTy).Contents (Elt F) → (⟨S4000000, .i1⟩ : BufTy).Contents (Elt F) → (⟨S4000000, .i1⟩ : BufTy).Contents (Elt F)),  -- %68 stablehlo.and
    StableHlo.unary main_v68 main_v69 ((extui 32 · natLt_1_32) : (⟨S4000000, .i1⟩ : BufTy).Contents (Elt F) → (⟨S4000000, .i32⟩ : BufTy).Contents (Elt F)) ]  -- %69 stablehlo.convert

/-- The third stretch: from the call of `@cumsum` (`%70`: `@cumsum_0` inlined over `main_call3.call0`) through the call of `@_where_1` whose result is `%84` — the run number, the position within the run (`@cummax` inlined over `main_call5`), the keep bit and the two scatter coordinates. 31 operations. -/
abbrev opsR2 : List (HloOp τ sig (Elt F)) :=
  [ StableHlo.TRef.nullary main_call3.call0.c (constantI S_ 32 0#32),  -- %70 = @cumsum(…): %0 = @cumsum_0(…): %c stablehlo.constant
    StableHlo.TRef.unary main_call3.call0.c main_call3.call0.v0 (broadcastInDim S_ ![] bcast_S_S_),  -- %70 = @cumsum(…): %0 = @cumsum_0(…): %0 stablehlo.broadcast_in_dim
    StableHlo.TRef.binary (.of main_v69 : StableHlo.TRef sig ⟨S4000000, .i32⟩) main_call3.call0.v0 main_call3.call0.v1 (fun x v => Host.reduceWindow IntOp.addi ![4000000] ![1] ![3999999] ![0] x v reduceWindows_S4000000_S4000000_w4000000s1p3999999_0 h_S_),  -- %70 = @cumsum(…): %0 = @cumsum_0(…): %1 stablehlo.reduce_window
    StableHlo.nullary main_c_14 (constantI S_ 32 1#32),  -- %c_14 stablehlo.constant
    StableHlo.unary main_c_14 main_v71 (broadcastInDim S4000000 ![] bcast_S_S4000000 : (⟨S_, .i32⟩ : BufTy).Contents (Elt F) → (⟨S4000000, .i32⟩ : BufTy).Contents (Elt F)),  -- %71 stablehlo.broadcast_in_dim
    StableHlo.binary main_v70 main_v71 main_v72 (subi : (⟨S4000000, .i32⟩ : BufTy).Contents (Elt F) → (⟨S4000000, .i32⟩ : BufTy).Contents (Elt F) → (⟨S4000000, .i32⟩ : BufTy).Contents (Elt F)),  -- %72 stablehlo.subtract
    StableHlo.nullary main_v73 (iotaInDim S4000000 32 0),  -- %73 stablehlo.iota
    StableHlo.nullary main_c_15 (constantI S_ 32 0#32),  -- %c_15 stablehlo.constant
    StableHlo.TRef.unary (.of main_c_15 : StableHlo.TRef sig ⟨S_, .i32⟩) main_call4.v0 id,  -- %74 = @_where_1(…): %0 stablehlo.convert
    StableHlo.TRef.unary main_call4.v0 main_call4.v1 (broadcastInDim S4000000 ![] bcast_S_S4000000),  -- %74 = @_where_1(…): %1 stablehlo.broadcast_in_dim
    StableHlo.TRef.ternary (.of main_v68 : StableHlo.TRef sig ⟨S4000000, .i1⟩) (.of main_v73 : StableHlo.TRef sig ⟨S4000000, .i32⟩) main_call4.v1 main_call4.v2 select,  -- %74 = @_where_1(…): %2 stablehlo.select
    StableHlo.TRef.nullary main_call5.c (constantI S_ 32 2147483648#32),  -- %75 = @cummax(…): %c stablehlo.constant
    StableHlo.TRef.unary main_call5.c main_call5.v0 (broadcastInDim S_ ![] bcast_S_S_),  -- %75 = @cummax(…): %0 stablehlo.broadcast_in_dim
    StableHlo.TRef.binary (.of main_v74 : StableHlo.TRef sig ⟨S4000000, .i32⟩) main_call5.v0 main_call5.v1 (fun x v => Host.reduceWindow IntOp.maxsi ![4000000] ![1] ![3999999] ![0] x v reduceWindows_S4000000_S4000000_w4000000s1p3999999_0 h_S_),  -- %75 = @cummax(…): %1 stablehlo.reduce_window
    StableHlo.binary main_v73 main_v75 main_v76 (subi : (⟨S4000000, .i32⟩ : BufTy).Contents (Elt F) → (⟨S4000000, .i32⟩ : BufTy).Contents (Elt F) → (⟨S4000000, .i32⟩ : BufTy).Contents (Elt F)),  -- %76 stablehlo.subtract
    StableHlo.nullary main_c_16 (constantI S_ 32 20000#32),  -- %c_16 stablehlo.constant
    StableHlo.unary main_c_16 main_v77 (broadcastInDim S4000000 ![] bcast_S_S4000000 : (⟨S_, .i32⟩ : BufTy).Contents (Elt F) → (⟨S4000000, .i32⟩ : BufTy).Contents (Elt F)),  -- %77 stablehlo.broadcast_in_dim
    StableHlo.binary main_v72 main_v77 main_v78 (cmpi .slt : (⟨S4000000, .i32⟩ : BufTy).Contents (Elt F) → (⟨S4000000, .i32⟩ : BufTy).Contents (Elt F) → (⟨S4000000, .i1⟩ : BufTy).Contents (Elt F)),  -- %78 stablehlo.compare
    StableHlo.binary main_v62 main_v78 main_v79 (andi : (⟨S4000000, .i1⟩ : BufTy).Contents (Elt F) → (⟨S4000000, .i1⟩ : BufTy).Contents (Elt F) → (⟨S4000000, .i1⟩ : BufTy).Contents (Elt F)),  -- %79 stablehlo.and
    StableHlo.nullary main_c_17 (constantI S_ 32 5#32),  -- %c_17 stablehlo.constant
    StableHlo.unary main_c_17 main_v80 (broadcastInDim S4000000 ![] bcast_S_S4000000 : (⟨S_, .i32⟩ : BufTy).Contents (Elt F) → (⟨S4000000, .i32⟩ : BufTy).Contents (Elt F)),  -- %80 stablehlo.broadcast_in_dim
    StableHlo.binary main_v76 main_v80 main_v81 (cmpi .slt : (⟨S4000000, .i32⟩ : BufTy).Contents (Elt F) → (⟨S4000000, .i32⟩ : BufTy).Contents (Elt F) → (⟨S4000000, .i1⟩ : BufTy).Contents (Elt F)),  -- %81 stablehlo.compare
    StableHlo.binary main_v79 main_v81 main_v82 (andi : (⟨S4000000, .i1⟩ : BufTy).Contents (Elt F) → (⟨S4000000, .i1⟩ : BufTy).Contents (Elt F) → (⟨S4000000, .i1⟩ : BufTy).Contents (Elt F)),  -- %82 stablehlo.and
    StableHlo.nullary main_c_18 (constantI S_ 32 20000#32),  -- %c_18 stablehlo.constant
    StableHlo.TRef.unary (.of main_c_18 : StableHlo.TRef sig ⟨S_, .i32⟩) main_call6.v0 id,  -- %83 = @_where_1(…): %0 stablehlo.convert
    StableHlo.TRef.unary main_call6.v0 main_call6.v1 (broadcastInDim S4000000 ![] bcast_S_S4000000),  -- %83 = @_where_1(…): %1 stablehlo.broadcast_in_dim
    StableHlo.TRef.ternary (.of main_v82 : StableHlo.TRef sig ⟨S4000000, .i1⟩) (.of main_v72 : StableHlo.TRef sig ⟨S4000000, .i32⟩) main_call6.v1 main_call6.v2 select,  -- %83 = @_where_1(…): %2 stablehlo.select
    StableHlo.nullary main_c_19 (constantI S_ 32 0#32),  -- %c_19 stablehlo.constant
    StableHlo.TRef.unary (.of main_c_19 : StableHlo.TRef sig ⟨S_, .i32⟩) main_call7.v0 id,  -- %84 = @_where_1(…): %0 stablehlo.convert
    StableHlo.TRef.unary main_call7.v0 main_call7.v1 (broadcastInDim S4000000 ![] bcast_S_S4000000),  -- %84 = @_where_1(…): %1 stablehlo.broadcast_in_dim
    StableHlo.TRef.ternary (.of main_v82 : StableHlo.TRef sig ⟨S4000000, .i1⟩) (.of main_v76 : StableHlo.TRef sig ⟨S4000000, .i32⟩) main_call7.v1 main_call7.v2 select ]  -- %84 = @_where_1(…): %2 stablehlo.select

/-- The last stretch: from `%cst_20` to `%123` — the three scatters (points, counts, cell triples) and the number of runs capped at 20000. 56 operations. -/
abbrev opsR3 : List (HloOp τ sig (Elt F)) :=
  [ StableHlo.nullary main_cst_20 (constant S_ .f32 0x00000000#32),  -- %cst_20 stablehlo.constant
    StableHlo.unary main_cst_20 main_v85 (broadcastInDim S20000x5x4 ![] bcast_S_S20000x5x4 : (⟨S_, .f32⟩ : BufTy).Contents (Elt F) → (⟨S20000x5x4, .f32⟩ : BufTy).Contents (Elt F)),  -- %85 stablehlo.broadcast_in_dim
    StableHlo.nullary main_c_21 (constantI S_ 32 0#32),  -- %c_21 stablehlo.constant
    StableHlo.unary main_c_21 main_v86 (broadcastInDim S4000000 ![] bcast_S_S4000000 : (⟨S_, .i32⟩ : BufTy).Contents (Elt F) → (⟨S4000000, .i32⟩ : BufTy).Contents (Elt F)),  -- %86 stablehlo.broadcast_in_dim
    StableHlo.binary main_v83 main_v86 main_v87 (cmpi .slt : (⟨S4000000, .i32⟩ : BufTy).Contents (Elt F) → (⟨S4000000, .i32⟩ : BufTy).Contents (Elt F) → (⟨S4000000, .i1⟩ : BufTy).Contents (Elt F)),  -- %87 stablehlo.compare
    StableHlo.nullary main_c_22 (constantI S_ 32 20000#32),  -- %c_22 stablehlo.constant
    StableHlo.unary main_c_22 main_v88 (broadcastInDim S4000000 ![] bcast_S_S4000000 : (⟨S_, .i32⟩ : BufTy).Contents (Elt F) → (⟨S4000000, .i32⟩ : BufTy).Contents (Elt F)),  -- %88 stablehlo.broadcast_in_dim
    StableHlo.binary main_v83 main_v88 main_v89 (addi : (⟨S4000000, .i32⟩ : BufTy).Contents (Elt F) → (⟨S4000000, .i32⟩ : BufTy).Contents (Elt F) → (⟨S4000000, .i32⟩ : BufTy).Contents (Elt F)),  -- %89 stablehlo.add
    StableHlo.ternary main_v87 main_v89 main_v83 main_v90 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),  -- %90 stablehlo.select
    StableHlo.nullary main_c_23 (constantI S_ 32 0#32),  -- %c_23 stablehlo.constant
    StableHlo.unary main_c_23 main_v91 (broadcastInDim S4000000 ![] bcast_S_S4000000 : (⟨S_, .i32⟩ : BufTy).Contents (Elt F) → (⟨S4000000, .i32⟩ : BufTy).Contents (Elt F)),  -- %91 stablehlo.broadcast_in_dim
    StableHlo.binary main_v84 main_v91 main_v92 (cmpi .slt : (⟨S4000000, .i32⟩ : BufTy).Contents (Elt F) → (⟨S4000000, .i32⟩ : BufTy).Contents (Elt F) → (⟨S4000000, .i1⟩ : BufTy).Contents (Elt F)),  -- %92 stablehlo.compare
    StableHlo.nullary main_c_24 (constantI S_ 32 5#32),  -- %c_24 stablehlo.constant
    StableHlo.unary main_c_24 main_v93 (broadcastInDim S4000000 ![] bcast_S_S4000000 : (⟨S_, .i32⟩ : BufTy).Contents (Elt F) → (⟨S4000000, .i32⟩ : BufTy).Contents (Elt F)),  -- %93 stablehlo.broadcast_in_dim
    StableHlo.binary main_v84 main_v93 main_v94 (addi : (⟨S4000000, .i32⟩ : BufTy).Contents (Elt F) → (⟨S4000000, .i32⟩ : BufTy).Contents (Elt F) → (⟨S4000000, .i32⟩ : BufTy).Contents (Elt F)),  -- %94 stablehlo.add
    StableHlo.ternary main_v92 main_v94 main_v84 main_v95 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),  -- %95 stablehlo.select
    StableHlo.unary main_v90 main_v96 (broadcastInDim S4000000x1 ![0] bcast_S4000000_S4000000x1_0 : (⟨S4000000, .i32⟩ : BufTy).Contents (Elt F) → (⟨S4000000x1, .i32⟩ : BufTy).Contents (Elt F)),  -- %96 stablehlo.broadcast_in_dim
    StableHlo.unary main_v95 main_v97 (broadcastInDim S4000000x1 ![0] bcast_S4000000_S4000000x1_0 : (⟨S4000000, .i32⟩ : BufTy).Contents (Elt F) → (⟨S4000000x1, .i32⟩ : BufTy).Contents (Elt F)),  -- %97 stablehlo.broadcast_in_dim
    StableHlo.binary main_v96 main_v97 main_v98 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),  -- %98 stablehlo.concatenate
    StableHlo.ternary main_v85 main_v98 main_v53 main_v99 ((fun x i u => Host.scatter scatter_S20000x5x4_S4000000x2_S4000000x4_1_01_01_1 (fun _ b => b) x i u) : (⟨S20000x5x4, .f32⟩ : BufTy).Contents (Elt F) → (⟨S4000000x2, .i32⟩ : BufTy).Contents (Elt F) → (⟨S4000000x4, .f32⟩ : BufTy).Contents (Elt F) → (⟨S20000x5x4, .f32⟩ : BufTy).Contents (Elt F)),  -- %99 stablehlo.scatter
    StableHlo.nullary main_c_25 (constantI S_ 32 0#32),  -- %c_25 stablehlo.constant
    StableHlo.unary main_c_25 main_v100 (broadcastInDim S20000 ![] bcast_S_S20000 : (⟨S_, .i32⟩ : BufTy).Contents (Elt F) → (⟨S20000, .i32⟩ : BufTy).Contents (Elt F)),  -- %100 stablehlo.broadcast_in_dim
    StableHlo.unary main_v82 main_v101 ((extui 32 · natLt_1_32) : (⟨S4000000, .i1⟩ : BufTy).Contents (Elt F) → (⟨S4000000, .i32⟩ : BufTy).Contents (Elt F)),  -- %101 stablehlo.convert
    StableHlo.nullary main_c_26 (constantI S_ 32 0#32),  -- %c_26 stablehlo.constant
    StableHlo.unary main_c_26 main_v102 (broadcastInDim S4000000 ![] bcast_S_S4000000 : (⟨S_, .i32⟩ : BufTy).Contents (Elt F) → (⟨S4000000, .i32⟩ : BufTy).Contents (Elt F)),  -- %102 stablehlo.broadcast_in_dim
    StableHlo.binary main_v83 main_v102 main_v103 (cmpi .slt : (⟨S4000000, .i32⟩ : BufTy).Contents (Elt F) → (⟨S4000000, .i32⟩ : BufTy).Contents (Elt F) → (⟨S4000000, .i1⟩ : BufTy).Contents (Elt F)),  -- %103 stablehlo.compare
    StableHlo.nullary main_c_27 (constantI S_ 32 20000#32),  -- %c_27 stablehlo.constant
    StableHlo.unary main_c_27 main_v104 (broadcastInDim S4000000 ![] bcast_S_S4000000 : (⟨S_, .i32⟩ : BufTy).Contents (Elt F) → (⟨S4000000, .i32⟩ : BufTy).Contents (Elt F)),  -- %104 stablehlo.broadcast_in_dim
    StableHlo.binary main_v83 main_v104 main_v105 (addi : (⟨S4000000, .i32⟩ : BufTy).Contents (Elt F) → (⟨S4000000, .i32⟩ : BufTy).Contents (Elt F) → (⟨S4000000, .i32⟩ : BufTy).Contents (Elt F)),  -- %105 stablehlo.add
    StableHlo.ternary main_v103 main_v105 main_v83 main_v106 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),  -- %106 stablehlo.select
    StableHlo.unary main_v106 main_v107 (broadcastInDim S4000000x1 ![0] bcast_S4000000_S4000000x1_0 : (⟨S4000000, .i32⟩ : BufTy).Contents (Elt F) → (⟨S4000000x1, .i32⟩ : BufTy).Contents (Elt F)),  -- %107 stablehlo.broadcast_in_dim
    StableHlo.ternary main_v100 main_v107 main_v101 main_v108 ((fun x i u => Host.scatter scatter_S20000_S4000000x1_S4000000_n_0_0_1 IntOp.addi x i u) : (⟨S20000, .i32⟩ : BufTy).Contents (Elt F) → (⟨S4000000x1, .i32⟩ : BufTy).Contents (Elt F) → (⟨S4000000, .i32⟩ : BufTy).Contents (Elt F) → (⟨S20000, .i32⟩ : BufTy).Contents (Elt F)),  -- %108 stablehlo.scatter
    StableHlo.nullary main_c_28 (constantI S_ 32 20000#32),  -- %c_28 stablehlo.constant
    StableHlo.unary main_c_28 main_v109 (broadcastInDim S4000000 ![] bcast_S_S4000000 : (⟨S_, .i32⟩ : BufTy).Contents (Elt F) → (⟨S4000000, .i32⟩ : BufTy).Contents (Elt F)),  -- %109 stablehlo.broadcast_in_dim
    StableHlo.binary main_v72 main_v109 main_v110 (cmpi .slt : (⟨S4000000, .i32⟩ : BufTy).Contents (Elt F) → (⟨S4000000, .i32⟩ : BufTy).Contents (Elt F) → (⟨S4000000, .i1⟩ : BufTy).Contents (Elt F)),  -- %110 stablehlo.compare
    StableHlo.binary main_v68 main_v110 main_v111 (andi : (⟨S4000000, .i1⟩ : BufTy).Contents (Elt F) → (⟨S4000000, .i1⟩ : BufTy).Contents (Elt F) → (⟨S4000000, .i1⟩ : BufTy).Contents (Elt F)),  -- %111 stablehlo.and
    StableHlo.nullary main_c_29 (constantI S_ 32 20000#32),  -- %c_29 stablehlo.constant
    StableHlo.TRef.unary (.of main_c_29 : StableHlo.TRef sig ⟨S_, .i32⟩) main_call8.v0 id,  -- %112 = @_where_1(…): %0 stablehlo.convert
    StableHlo.TRef.unary main_call8.v0 main_call8.v1 (broadcastInDim S4000000 ![] bcast_S_S4000000),  -- %112 = @_where_1(…): %1 stablehlo.broadcast_in_dim
    StableHlo.TRef.ternary (.of main_v111 : StableHlo.TRef sig ⟨S4000000, .i1⟩) (.of main_v72 : StableHlo.TRef sig ⟨S4000000, .i32⟩) main_call8.v1 main_call8.v2 select,  -- %112 = @_where_1(…): %2 stablehlo.select
    StableHlo.nullary main_c_30 (constantI S_ 32 0#32),  -- %c_30 stablehlo.constant
    StableHlo.unary main_c_30 main_v113 (broadcastInDim S20000x3 ![] bcast_S_S20000x3 : (⟨S_, .i32⟩ : BufTy).Contents (Elt F) → (⟨S20000x3, .i32⟩ : BufTy).Contents (Elt F)),  -- %113 stablehlo.broadcast_in_dim
    StableHlo.nullary main_c_31 (constantI S_ 32 0#32),  -- %c_31 stablehlo.constant
    StableHlo.unary main_c_31 main_v114 (broadcastInDim S4000000 ![] bcast_S_S4000000 : (⟨S_, .i32⟩ : BufTy).Contents (Elt F) → (⟨S4000000, .i32⟩ : BufTy).Contents (Elt F)),  -- %114 stablehlo.broadcast_in_dim
    StableHlo.binary main_v112 main_v114 main_v115 (cmpi .slt : (⟨S4000000, .i32⟩ : BufTy).Contents (Elt F) → (⟨S4000000, .i32⟩ : BufTy).Contents (Elt F) → (⟨S4000000, .i1⟩ : BufTy).Contents (Elt F)),  -- %115 stablehlo.compare
    StableHlo.nullary main_c_32 (constantI S_ 32 20000#32),  -- %c_32 stablehlo.constant
    StableHlo.unary main_c_32 main_v116 (broadcastInDim S4000000 ![] bcast_S_S4000000 : (⟨S_, .i32⟩ : BufTy).Contents (Elt F) → (⟨S4000000, .i32⟩ : BufTy).Contents (Elt F)),  -- %116 stablehlo.broadcast_in_dim
    StableHlo.binary main_v112 main_v116 main_v117 (addi : (⟨S4000000, .i32⟩ : BufTy).Contents (Elt F) → (⟨S4000000, .i32⟩ : BufTy).Contents (Elt F) → (⟨S4000000, .i32⟩ : BufTy).Contents (Elt F)),  -- %117 stablehlo.add
    StableHlo.ternary main_v115 main_v117 main_v112 main_v118 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),  -- %118 stablehlo.select
    StableHlo.unary main_v118 main_v119 (broadcastInDim S4000000x1 ![0] bcast_S4000000_S4000000x1_0 : (⟨S4000000, .i32⟩ : BufTy).Contents (Elt F) → (⟨S4000000x1, .i32⟩ : BufTy).Contents (Elt F)),  -- %119 stablehlo.broadcast_in_dim
    StableHlo.ternary main_v113 main_v119 main_v60 main_v120 ((fun x i u => Host.scatter scatter_S20000x3_S4000000x1_S4000000x3_1_0_0_1 (fun _ b => b) x i u) : (⟨S20000x3, .i32⟩ : BufTy).Contents (Elt F) → (⟨S4000000x1, .i32⟩ : BufTy).Contents (Elt F) → (⟨S4000000x3, .i32⟩ : BufTy).Contents (Elt F) → (⟨S20000x3, .i32⟩ : BufTy).Contents (Elt F)),  -- %120 stablehlo.scatter
    StableHlo.unary main_v68 main_v121 ((extui 32 · natLt_1_32) : (⟨S4000000, .i1⟩ : BufTy).Contents (Elt F) → (⟨S4000000, .i32⟩ : BufTy).Contents (Elt F)),  -- %121 stablehlo.convert
    StableHlo.nullary main_c_33 (constantI S_ 32 0#32),  -- %c_33 stablehlo.constant
    StableHlo.binary main_v121 main_c_33 main_v122 ((fun x v => Host.reduce IntOp.addi x v reducesTo_S4000000_S_d0 h_S_) : (⟨S4000000, .i32⟩ : BufTy).Contents (Elt F) → (⟨S_, .i32⟩ : BufTy).Contents (Elt F) → (⟨S_, .i32⟩ : BufTy).Contents (Elt F)),  -- %122 stablehlo.reduce
    StableHlo.nullary main_c_34 (constantI S_ 32 20000#32),  -- %c_34 stablehlo.constant
    StableHlo.binary main_v122 main_c_34 main_v123 (minsi : (⟨S_, .i32⟩ : BufTy).Contents (Elt F) → (⟨S_, .i32⟩ : BufTy).Contents (Elt F) → (⟨S_, .i32⟩ : BufTy).Contents (Elt F)) ]  -- %123 stablehlo.minimum

/-- @main's 181 operations, in order. -/
abbrev ops : List (HloOp τ sig (Elt F)) := opsR0 ++ opsR1 ++ opsR2 ++ opsR3

end Cert.ReferenceIdeal.HR

end
-- ==== Proof.RRun.lean ====
/-
  The reference program's run.

  @main is the straight line of the 181 operations listed in `ops` (its calls unfolded at their sites), so on every
  device every weakly fair execution terminates with each buffer at the fold of the operations' results over the launch
  contents (`run_all`); no operation writes the argument's buffer, which therefore ends as launched (`arg0_kept`,
  `frame`).
-/
import proofs.«166804_j37915971289632_2_alg».proof.Proof.RRunOps

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

/-! ## @main is the line

@main runs its three windows in order; each window is a chain of `hlo` steps, a call being the callee's chain over the
call's record followed by the rest. Sequencing computes on such chains — a step followed by a continuation is the step
continued by it, a finished line followed by a continuation is the continuation — so each window and the line over its
stretch of the list are the same chain, by computation. The windows' stretches are cut by count, not at the four
stretches' ends: the first window is the first stretch and the first 15 operations of the second, the last window is
the last stretch without its first 13 operations, the middle window the rest. -/

/-- The first window: the first stretch and the second's first 15 operations. -/
theorem part0_eq (c : Dev nD) : main_part0 (F := F) c = seq (opsR0 ++ opsR1.take 15) := rfl

/-- The middle window: the second stretch from its 16th operation, the third, the last one's first 13 operations. -/
theorem part1_eq (c : Dev nD) : main_part1 (F := F) c = seq (opsR1.drop 15 ++ opsR2 ++ opsR3.take 13) := rfl

/-- The last window: the last stretch from its 14th operation. -/
theorem part2_eq (c : Dev nD) : main_part2 (F := F) c = seq (opsR3.drop 13) := rfl

/-- The three windows' stretches, in order, are the whole list. -/
theorem ops_windows : (ops : List (HloOp τ sig (Elt F)))
    = (opsR0 ++ opsR1.take 15) ++ ((opsR1.drop 15 ++ opsR2 ++ opsR3.take 13) ++ opsR3.drop 13) := by
  have h1 : (opsR1 : List (HloOp τ sig (Elt F))) = opsR1.take 15 ++ opsR1.drop 15 := (List.take_append_drop 15 _).symm
  have h3 : (opsR3 : List (HloOp τ sig (Elt F))) = opsR3.take 13 ++ opsR3.drop 13 := (List.take_append_drop 13 _).symm
  show opsR0 ++ opsR1 ++ opsR2 ++ opsR3 = _
  conv_lhs => rw [h1, h3]
  simp only [List.append_assoc]

/-- @main is the line of its 181 operations. -/
theorem main_eq (c : Dev nD) : main (F := F) c = seq ops := by
  rw [ops_windows, seq_append (opsR0 ++ opsR1.take 15) _, seq_append (opsR1.drop 15 ++ opsR2 ++ opsR3.take 13) _,
    ← part0_eq c, ← part1_eq c, ← part2_eq c]
  rfl

/-! ## The side conditions of the run

Nothing of the signature is scoped (no kernel: no staging buffer, no semaphore); every operation touches only
TensorCore references; every operation determines its results (none allocates). -/

theorem scopedRefs_eq : (Finset.univ.filter fun b : Ref sig .tc => b.isScoped) = ∅ := by decide
theorem scopedSems_eq : (Finset.univ.filter fun sm : SemLoc sig => sm.isScoped .tc) = ∅ := by decide

theorem opsR0_sub : (opsR0 : List (HloOp τ sig (Elt F))).Forall fun op => op.bufs ⊆ tcRefs τ sig :=
  ⟨nullary_bufs_sub .., nullary_bufs_sub .., nullary_bufs_sub .., nullary_bufs_sub .., unary_bufs_sub .., unary_bufs_sub ..,
    unary_bufs_sub .., binary_bufs_sub .., unary_bufs_sub .., unary_bufs_sub .., unary_bufs_sub .., binary_bufs_sub ..,
    binary_bufs_sub .., nullary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., unary_bufs_sub ..,
    binary_bufs_sub .., unary_bufs_sub .., unary_bufs_sub .., binary_bufs_sub .., unary_bufs_sub .., reshape_bufs_sub ..,
    unary_bufs_sub .., reshape_bufs_sub .., unary_bufs_sub .., binary_bufs_sub .., unary_bufs_sub .., reshape_bufs_sub ..,
    binary_bufs_sub .., unary_bufs_sub .., reshape_bufs_sub .., unary_bufs_sub .., binary_bufs_sub .., unary_bufs_sub ..,
    reshape_bufs_sub .., binary_bufs_sub .., nullary_bufs_sub .., unary_bufs_sub .., ternary_bufs_sub ..⟩
theorem opsR1_sub : (opsR1 : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., unary_bufs_sub ..,
    unary_bufs_sub .., binary_bufs_sub .., binary_bufs_sub .., binary_bufs_sub .., unary_bufs_sub ..⟩
theorem opsR2_sub : (opsR2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., nullary_bufs_sub .., unary_bufs_sub .., unary_bufs_sub .., ternary_bufs_sub .., nullary_bufs_sub ..,
    unary_bufs_sub .., binary_bufs_sub .., binary_bufs_sub .., nullary_bufs_sub .., unary_bufs_sub .., binary_bufs_sub ..,
    binary_bufs_sub .., nullary_bufs_sub .., unary_bufs_sub .., binary_bufs_sub .., binary_bufs_sub .., nullary_bufs_sub ..,
    unary_bufs_sub .., unary_bufs_sub .., ternary_bufs_sub .., nullary_bufs_sub .., unary_bufs_sub .., unary_bufs_sub ..,
    ternary_bufs_sub ..⟩
theorem opsR3_sub : (opsR3 : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., ternary_bufs_sub .., nullary_bufs_sub .., unary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., binary_bufs_sub .., binary_bufs_sub ..,
    nullary_bufs_sub .., unary_bufs_sub .., unary_bufs_sub .., ternary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., unary_bufs_sub .., nullary_bufs_sub .., binary_bufs_sub ..,
    nullary_bufs_sub .., binary_bufs_sub ..⟩

/-- Every operation of the line touches only TensorCore references. -/
theorem ops_sub : (ops : List (HloOp τ sig (Elt F))).Forall fun op => op.bufs ⊆ tcRefs τ sig :=
  List.forall_append.2 ⟨List.forall_append.2 ⟨List.forall_append.2 ⟨opsR0_sub, opsR1_sub⟩, opsR2_sub⟩, opsR3_sub⟩

theorem opsR0_fresh : (opsR0 : List (HloOp τ sig (Elt F))).Forall fun op => op.fresh = ∅ := by
  simp only [List.Forall]; repeat' constructor
theorem opsR1_fresh : (opsR1 : List (HloOp τ sig (Elt F))).Forall fun op => op.fresh = ∅ := by
  simp only [List.Forall]; repeat' constructor
theorem opsR2_fresh : (opsR2 : List (HloOp τ sig (Elt F))).Forall fun op => op.fresh = ∅ := by
  simp only [List.Forall]; repeat' constructor
theorem opsR3_fresh : (opsR3 : List (HloOp τ sig (Elt F))).Forall fun op => op.fresh = ∅ := by
  simp only [List.Forall]; repeat' constructor

/-- No operation of the line allocates: each determines its results. -/
theorem ops_fresh : ∀ op ∈ (ops : List (HloOp τ sig (Elt F))), op.fresh = ∅ :=
  List.forall_iff_forall_mem.1
    (List.forall_append.2 ⟨List.forall_append.2 ⟨List.forall_append.2 ⟨opsR0_fresh, opsR1_fresh⟩, opsR2_fresh⟩, opsR3_fresh⟩)

/-! ## The run -/

/-- On every device, for any float values, from any memory with zero counters: every weakly fair execution of @main
    terminates, and every final state has each TensorCore buffer at the fold of the 181 operations' results over the
    device's launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  run_seq scopedRefs_eq scopedSems_eq defs main (fun _ => ops) main_eq (fun _ => ops_sub) m ρ (fun _ => ops_fresh)

/-! ## The argument is kept

Each operation writes one buffer, its result, and no result is the argument's buffer: through each stretch, hence
through the line, the argument's contents stay what they were. -/

/-- The fold over two lines in a row is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem opsR0_keeps_arg0 (W : Valuation τ sig (Elt F)) :
    after opsR0 W (Proc.devRef .tc main_arg0) = W (Proc.devRef .tc main_arg0) :=
  after_of_forall_not_mem (b := Proc.devRef .tc main_arg0) _ _ (List.forall_iff_forall_mem.mp (by
    simp only [opsR0, List.Forall, nullary_writes, unary_writes, binary_writes, ternary_writes, reshape_writes,
      Finset.mem_singleton]
    repeat' apply And.intro
    all_goals exact devRef_ne_of_ne (by decide)))

theorem opsR1_keeps_arg0 (W : Valuation τ sig (Elt F)) :
    after opsR1 W (Proc.devRef .tc main_arg0) = W (Proc.devRef .tc main_arg0) :=
  after_of_forall_not_mem (b := Proc.devRef .tc main_arg0) _ _ (List.forall_iff_forall_mem.mp (by
    simp only [opsR1, List.Forall, nullary_writes, unary_writes, binary_writes, ternary_writes, reshape_writes,
      Finset.mem_singleton]
    repeat' apply And.intro
    all_goals exact devRef_ne_of_ne (by decide)))

theorem opsR2_keeps_arg0 (W : Valuation τ sig (Elt F)) :
    after opsR2 W (Proc.devRef .tc main_arg0) = W (Proc.devRef .tc main_arg0) :=
  after_of_forall_not_mem (b := Proc.devRef .tc main_arg0) _ _ (List.forall_iff_forall_mem.mp (by
    simp only [opsR2, List.Forall, nullary_writes, unary_writes, binary_writes, ternary_writes, reshape_writes,
      Finset.mem_singleton]
    repeat' apply And.intro
    all_goals exact devRef_ne_of_ne (by decide)))

theorem opsR3_keeps_arg0 (W : Valuation τ sig (Elt F)) :
    after opsR3 W (Proc.devRef .tc main_arg0) = W (Proc.devRef .tc main_arg0) :=
  after_of_forall_not_mem (b := Proc.devRef .tc main_arg0) _ _ (List.forall_iff_forall_mem.mp (by
    simp only [opsR3, List.Forall, nullary_writes, unary_writes, binary_writes, ternary_writes, reshape_writes,
      Finset.mem_singleton]
    repeat' apply And.intro
    all_goals exact devRef_ne_of_ne (by decide)))

/-- No operation of the line writes the argument. -/
theorem arg0_kept (W : Valuation τ sig (Elt F)) :
    StableHlo.after ops W (Proc.devRef .tc main_arg0) = W (Proc.devRef .tc main_arg0) := by
  show after (opsR0 ++ opsR1 ++ opsR2 ++ opsR3) W _ = _
  rw [after_app, after_app, after_app, opsR3_keeps_arg0, opsR2_keeps_arg0, opsR1_keeps_arg0, opsR0_keeps_arg0]

/-- The frame: every weakly fair execution of @main terminates with the argument's buffer, on every device, as the
    launch left it. -/
theorem frame (m : (ℓ : Loc nD τ sig) → Buf (Elt F) ℓ) (ρ : Dev nD → PrngReg) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run defs _ _).mono (fun _ h c => (h c main_arg0).trans (arg0_kept _)) (run_all m ρ)

end Cert.ReferenceIdeal.HR

end
-- ==== Proof.RKeys.lean ====
/-
  The reference's keys and cells, read back at the ideal instance.

  The first operations of the reference compute, for every point (x, y, z, ·): the three half-open range tests of its
  coordinates against the literal lower and upper ends, conjoined over the axis of three; the cell
  floor((coordinate - lower end) / step) on each axis as a signed word, clipped to [0, extent - 1]; the row-major
  linearisation (cx * 1600 + cy) * 40 + cz of the clipped triple; and the select between that key and the sentinel
  90112000 by the conjoined test. Read at an index these are exactly the one-point specification: every layout operation
  (slice, broadcast of a table of three along the rows, reshape of a column) reads one element of its operand, the
  conjunction over the axis of three is the conjunction of its three bits, and at the ideal instance the host's quotient
  and floor are the specification's.

  The operations are read in three consecutive stretches (the range tests; the cells; the key), each over an arbitrary
  valuation of the buffers, and joined.
-/
import proofs.«166804_j37915971289632_2_alg».proof.Proof.RRunOps
import proofs.«166804_j37915971289632_2_alg».proof.Proof.KeySpec
import Idealize.ShloMosaic.Lib.Pipeline.Value
import Idealize.ShloMosaic.Lib.ValueIdx
import Idealize.ShloMosaic.Lib.IdealHost

noncomputable section

namespace Cert.ReferenceIdeal.HK

open Idealize.ShloMosaic Idealize.SL.Sem Idealize.ShloMosaic.ValueIdx
open Cert.ReferenceIdeal

/-! ## The three stretches -/

section Stretches

open Cert.ReferenceIdeal.Gen Idealize.ShloMosaic.StableHlo Idealize.ShloMosaic.TcCoe

variable {F : FTy → Type} [FloatOps F]

/-- The range tests and their conjunction over the three axes: `%cst` … `%9`. -/
abbrev opsValid : List (HloOp τ sig (Elt F)) := [
  StableHlo.nullary main_cst (fun i => FloatOps.ofBits .f32 (lit0 (S3.rowMajor i))),
  StableHlo.nullary main_cst_0 (fun i => FloatOps.ofBits .f32 (lit1 (S3.rowMajor i))),
  StableHlo.nullary main_cst_1 (fun i => FloatOps.ofBits .f32 (lit2 (S3.rowMajor i))),
  StableHlo.nullary main_c (fun i => lit3 (S3.rowMajor i)),
  StableHlo.unary main_arg0 main_v0 ((extractStridedSlice S4000000x3 ![0, 0] · slices_S4000000x4_S4000000x3_0_0) : (⟨S4000000x4, .f32⟩ : BufTy).Contents (Elt F) → (⟨S4000000x3, .f32⟩ : BufTy).Contents (Elt F)),
  StableHlo.unary main_cst main_v1 (broadcastInDim S1x3 ![1] bcast_S3_S1x3_1 : (⟨S3, .f32⟩ : BufTy).Contents (Elt F) → (⟨S1x3, .f32⟩ : BufTy).Contents (Elt F)),
  StableHlo.unary main_v1 main_v2 (broadcastInDim S4000000x3 ![0, 1] bcast_S1x3_S4000000x3_0_1 : (⟨S1x3, .f32⟩ : BufTy).Contents (Elt F) → (⟨S4000000x3, .f32⟩ : BufTy).Contents (Elt F)),
  StableHlo.binary main_v0 main_v2 main_v3 (cmpf .oge : (⟨S4000000x3, .f32⟩ : BufTy).Contents (Elt F) → (⟨S4000000x3, .f32⟩ : BufTy).Contents (Elt F) → (⟨S4000000x3, .i1⟩ : BufTy).Contents (Elt F)),
  StableHlo.unary main_arg0 main_v4 ((extractStridedSlice S4000000x3 ![0, 0] · slices_S4000000x4_S4000000x3_0_0) : (⟨S4000000x4, .f32⟩ : BufTy).Contents (Elt F) → (⟨S4000000x3, .f32⟩ : BufTy).Contents (Elt F)),
  StableHlo.unary main_cst_0 main_v5 (broadcastInDim S1x3 ![1] bcast_S3_S1x3_1 : (⟨S3, .f32⟩ : BufTy).Contents (Elt F) → (⟨S1x3, .f32⟩ : BufTy).Contents (Elt F)),
  StableHlo.unary main_v5 main_v6 (broadcastInDim S4000000x3 ![0, 1] bcast_S1x3_S4000000x3_0_1 : (⟨S1x3, .f32⟩ : BufTy).Contents (Elt F) → (⟨S4000000x3, .f32⟩ : BufTy).Contents (Elt F)),
  StableHlo.binary main_v4 main_v6 main_v7 (cmpf .olt : (⟨S4000000x3, .f32⟩ : BufTy).Contents (Elt F) → (⟨S4000000x3, .f32⟩ : BufTy).Contents (Elt F) → (⟨S4000000x3, .i1⟩ : BufTy).Contents (Elt F)),
  StableHlo.binary main_v3 main_v7 main_v8 (andi : (⟨S4000000x3, .i1⟩ : BufTy).Contents (Elt F) → (⟨S4000000x3, .i1⟩ : BufTy).Contents (Elt F) → (⟨S4000000x3, .i1⟩ : BufTy).Contents (Elt F)),
  StableHlo.nullary main_c_2 (constantI S_ 1 1#1),
  StableHlo.binary main_v8 main_c_2 main_v9 ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F))
]

/-- The cell triples: `%10` … the call of `@clip` defining `%21`. -/
abbrev opsCells : List (HloOp τ sig (Elt F)) := [
  StableHlo.unary main_arg0 main_v10 ((extractStridedSlice S4000000x3 ![0, 0] · slices_S4000000x4_S4000000x3_0_0) : (⟨S4000000x4, .f32⟩ : BufTy).Contents (Elt F) → (⟨S4000000x3, .f32⟩ : BufTy).Contents (Elt F)),
  StableHlo.unary main_cst main_v11 (broadcastInDim S1x3 ![1] bcast_S3_S1x3_1 : (⟨S3, .f32⟩ : BufTy).Contents (Elt F) → (⟨S1x3, .f32⟩ : BufTy).Contents (Elt F)),
  StableHlo.unary main_v11 main_v12 (broadcastInDim S4000000x3 ![0, 1] bcast_S1x3_S4000000x3_0_1 : (⟨S1x3, .f32⟩ : BufTy).Contents (Elt F) → (⟨S4000000x3, .f32⟩ : BufTy).Contents (Elt F)),
  StableHlo.binary main_v10 main_v12 main_v13 (subf : (⟨S4000000x3, .f32⟩ : BufTy).Contents (Elt F) → (⟨S4000000x3, .f32⟩ : BufTy).Contents (Elt F) → (⟨S4000000x3, .f32⟩ : BufTy).Contents (Elt F)),
  StableHlo.unary main_cst_1 main_v14 (broadcastInDim S1x3 ![1] bcast_S3_S1x3_1 : (⟨S3, .f32⟩ : BufTy).Contents (Elt F) → (⟨S1x3, .f32⟩ : BufTy).Contents (Elt F)),
  StableHlo.unary main_v14 main_v15 (broadcastInDim S4000000x3 ![0, 1] bcast_S1x3_S4000000x3_0_1 : (⟨S1x3, .f32⟩ : BufTy).Contents (Elt F) → (⟨S4000000x3, .f32⟩ : BufTy).Contents (Elt F)),
  StableHlo.binary main_v13 main_v15 main_v16 (Host.divf : (⟨S4000000x3, .f32⟩ : BufTy).Contents (Elt F) → (⟨S4000000x3, .f32⟩ : BufTy).Contents (Elt F) → (⟨S4000000x3, .f32⟩ : BufTy).Contents (Elt F)),
  StableHlo.unary main_v16 main_v17 (Host.floor : (⟨S4000000x3, .f32⟩ : BufTy).Contents (Elt F) → (⟨S4000000x3, .f32⟩ : BufTy).Contents (Elt F)),
  StableHlo.unary main_v17 main_v18 (fptosi 32 : (⟨S4000000x3, .f32⟩ : BufTy).Contents (Elt F) → (⟨S4000000x3, .i32⟩ : BufTy).Contents (Elt F)),
  StableHlo.nullary main_c_3 (constantI S_ 32 1#32),
  StableHlo.unary main_c_3 main_v19 (broadcastInDim S3 ![] bcast_S_S3 : (⟨S_, .i32⟩ : BufTy).Contents (Elt F) → (⟨S3, .i32⟩ : BufTy).Contents (Elt F)),
  StableHlo.binary main_c main_v19 main_v20 (subi : (⟨S3, .i32⟩ : BufTy).Contents (Elt F) → (⟨S3, .i32⟩ : BufTy).Contents (Elt F) → (⟨S3, .i32⟩ : BufTy).Contents (Elt F)),
  StableHlo.nullary main_c_4 (constantI S_ 32 0#32),
  StableHlo.TRef.unary (.of main_c_4 : StableHlo.TRef sig ⟨S_, .i32⟩) main_call0.v0 id,
  StableHlo.TRef.unary main_call0.v0 main_call0.v1 (broadcastInDim S4000000x3 ![] bcast_S_S4000000x3),
  StableHlo.TRef.binary main_call0.v1 (.of main_v18 : StableHlo.TRef sig ⟨S4000000x3, .i32⟩) main_call0.v2 maxsi,
  StableHlo.TRef.unary (.of main_v20 : StableHlo.TRef sig ⟨S3, .i32⟩) main_call0.v3 (broadcastInDim S1x3 ![1] bcast_S3_S1x3_1),
  StableHlo.TRef.unary main_call0.v3 main_call0.v4 (broadcastInDim S4000000x3 ![0, 1] bcast_S1x3_S4000000x3_0_1),
  StableHlo.TRef.binary main_call0.v4 main_call0.v2 main_call0.v5 minsi
]

/-- The linearised key and the select against the sentinel: `%22` … the call of `@_where` defining `%38`. -/
abbrev opsKey : List (HloOp τ sig (Elt F)) := [
  StableHlo.unary main_v21 main_v22 ((extractStridedSlice S4000000x1 ![0, 0] · slices_S4000000x3_S4000000x1_0_0) : (⟨S4000000x3, .i32⟩ : BufTy).Contents (Elt F) → (⟨S4000000x1, .i32⟩ : BufTy).Contents (Elt F)),
  StableHlo.reshape main_v22 main_v23 rfl shapeCasts_S4000000x1_S4000000,
  StableHlo.unary main_c main_v24 ((extractStridedSlice S1 ![1] · slices_S3_S1_1) : (⟨S3, .i32⟩ : BufTy).Contents (Elt F) → (⟨S1, .i32⟩ : BufTy).Contents (Elt F)),
  StableHlo.reshape main_v24 main_v25 rfl shapeCasts_S1_S_,
  StableHlo.unary main_v25 main_v26 (broadcastInDim S4000000 ![] bcast_S_S4000000 : (⟨S_, .i32⟩ : BufTy).Contents (Elt F) → (⟨S4000000, .i32⟩ : BufTy).Contents (Elt F)),
  StableHlo.binary main_v23 main_v26 main_v27 (muli : (⟨S4000000, .i32⟩ : BufTy).Contents (Elt F) → (⟨S4000000, .i32⟩ : BufTy).Contents (Elt F) → (⟨S4000000, .i32⟩ : BufTy).Contents (Elt F)),
  StableHlo.unary main_v21 main_v28 ((extractStridedSlice S4000000x1 ![0, 1] · slices_S4000000x3_S4000000x1_0_1) : (⟨S4000000x3, .i32⟩ : BufTy).Contents (Elt F) → (⟨S4000000x1, .i32⟩ : BufTy).Contents (Elt F)),
  StableHlo.reshape main_v28 main_v29 rfl shapeCasts_S4000000x1_S4000000,
  StableHlo.binary main_v27 main_v29 main_v30 (addi : (⟨S4000000, .i32⟩ : BufTy).Contents (Elt F) → (⟨S4000000, .i32⟩ : BufTy).Contents (Elt F) → (⟨S4000000, .i32⟩ : BufTy).Contents (Elt F)),
  StableHlo.unary main_c main_v31 ((extractStridedSlice S1 ![2] · slices_S3_S1_2) : (⟨S3, .i32⟩ : BufTy).Contents (Elt F) → (⟨S1, .i32⟩ : BufTy).Contents (Elt F)),
  StableHlo.reshape main_v31 main_v32 rfl shapeCasts_S1_S_,
  StableHlo.unary main_v32 main_v33 (broadcastInDim S4000000 ![] bcast_S_S4000000 : (⟨S_, .i32⟩ : BufTy).Contents (Elt F) → (⟨S4000000, .i32⟩ : BufTy).Contents (Elt F)),
  StableHlo.binary main_v30 main_v33 main_v34 (muli : (⟨S4000000, .i32⟩ : BufTy).Contents (Elt F) → (⟨S4000000, .i32⟩ : BufTy).Contents (Elt F) → (⟨S4000000, .i32⟩ : BufTy).Contents (Elt F)),
  StableHlo.unary main_v21 main_v35 ((extractStridedSlice S4000000x1 ![0, 2] · slices_S4000000x3_S4000000x1_0_2) : (⟨S4000000x3, .i32⟩ : BufTy).Contents (Elt F) → (⟨S4000000x1, .i32⟩ : BufTy).Contents (Elt F)),
  StableHlo.reshape main_v35 main_v36 rfl shapeCasts_S4000000x1_S4000000,
  StableHlo.binary main_v34 main_v36 main_v37 (addi : (⟨S4000000, .i32⟩ : BufTy).Contents (Elt F) → (⟨S4000000, .i32⟩ : BufTy).Contents (Elt F) → (⟨S4000000, .i32⟩ : BufTy).Contents (Elt F)),
  StableHlo.nullary main_c_5 (constantI S_ 32 90112000#32),
  StableHlo.TRef.unary (.of main_c_5 : StableHlo.TRef sig ⟨S_, .i32⟩) main_call1.v0 (broadcastInDim S4000000 ![] bcast_S_S4000000),
  StableHlo.TRef.ternary (.of main_v9 : StableHlo.TRef sig ⟨S4000000, .i1⟩) (.of main_v37 : StableHlo.TRef sig ⟨S4000000, .i32⟩) main_call1.v0 main_call1.v1 select
]

/-- The first operations of the reference are the three stretches in order. -/
theorem opsR0_eq : (HR.opsR0 (F := F)) = opsValid ++ (opsCells ++ opsKey) := rfl

end Stretches

/-! ## What each stretch computes, as a function of the arrays it reads -/

section Terms

open Cert.ReferenceIdeal.Gen

/-- The tables of three as the constants hold them: a literal's words in row-major order. -/
abbrev tabF (l : Fin 3 → BitVec 32) : S3.Idx → Ideal .f32 := fun i => FloatOps.ofBits (F := Ideal) .f32 (l (S3.rowMajor i))
/-- The integer table likewise. -/
abbrev tabI (l : Fin 3 → BitVec 32) : S3.Idx → BitVec 32 := fun i => l (S3.rowMajor i)

/-- The range tests of the first three columns against the lower ends `t0` and the upper ends `t1`, conjoined over the
    axis of three from the initial bit 1. -/
def validT (A : S4000000x4.Idx → Ideal .f32) (t0 t1 : S3.Idx → Ideal .f32) : S4000000.Idx → BitVec 1 :=
  Host.reduce IntOp.andi
    (andi
      (cmpf (F := Ideal) .oge (extractStridedSlice S4000000x3 ![0, 0] A slices_S4000000x4_S4000000x3_0_0)
        (broadcastInDim S4000000x3 ![0, 1] bcast_S1x3_S4000000x3_0_1 (broadcastInDim S1x3 ![1] bcast_S3_S1x3_1 t0)))
      (cmpf (F := Ideal) .olt (extractStridedSlice S4000000x3 ![0, 0] A slices_S4000000x4_S4000000x3_0_0)
        (broadcastInDim S4000000x3 ![0, 1] bcast_S1x3_S4000000x3_0_1 (broadcastInDim S1x3 ![1] bcast_S3_S1x3_1 t1))))
    (constantI S_ 1 1#1) reducesTo_S4000000x3_S4000000_d1 h_S_

/-- The cells: floor((column - lower end) / step) as a signed word, clipped below by 0 and above by extent - 1. -/
def cellsT (A : S4000000x4.Idx → Ideal .f32) (t0 t2 : S3.Idx → Ideal .f32) (tc : S3.Idx → BitVec 32) :
    S4000000x3.Idx → BitVec 32 :=
  minsi
    (broadcastInDim S4000000x3 ![0, 1] bcast_S1x3_S4000000x3_0_1 (broadcastInDim S1x3 ![1] bcast_S3_S1x3_1
      (subi tc (broadcastInDim S3 ![] bcast_S_S3 (constantI S_ 32 1#32)))))
    (maxsi (broadcastInDim S4000000x3 ![] bcast_S_S4000000x3 (id (constantI S_ 32 0#32)))
      (fptosi (F := Ideal) 32 (Host.floor (F := Ideal) (Host.divf (F := Ideal)
        (subf (F := Ideal) (extractStridedSlice S4000000x3 ![0, 0] A slices_S4000000x4_S4000000x3_0_0)
          (broadcastInDim S4000000x3 ![0, 1] bcast_S1x3_S4000000x3_0_1 (broadcastInDim S1x3 ![1] bcast_S3_S1x3_1 t0)))
        (broadcastInDim S4000000x3 ![0, 1] bcast_S1x3_S4000000x3_0_1 (broadcastInDim S1x3 ![1] bcast_S3_S1x3_1 t2))))))

/-- The key: the cell columns linearised with the second and third extents of `tc`, selected against the sentinel by
    the bit `v`. -/
def keyT (v : S4000000.Idx → BitVec 1) (c : S4000000x3.Idx → BitVec 32) (tc : S3.Idx → BitVec 32) :
    S4000000.Idx → BitVec 32 :=
  select v
    (addi
      (muli
        (addi
          (muli
            (shapeCast S4000000 (extractStridedSlice S4000000x1 ![0, 0] c slices_S4000000x3_S4000000x1_0_0)
              shapeCasts_S4000000x1_S4000000)
            (broadcastInDim S4000000 ![] bcast_S_S4000000
              (shapeCast S_ (extractStridedSlice S1 ![1] tc slices_S3_S1_1) shapeCasts_S1_S_)))
          (shapeCast S4000000 (extractStridedSlice S4000000x1 ![0, 1] c slices_S4000000x3_S4000000x1_0_1)
            shapeCasts_S4000000x1_S4000000))
        (broadcastInDim S4000000 ![] bcast_S_S4000000
          (shapeCast S_ (extractStridedSlice S1 ![2] tc slices_S3_S1_2) shapeCasts_S1_S_)))
      (shapeCast S4000000 (extractStridedSlice S4000000x1 ![0, 2] c slices_S4000000x3_S4000000x1_0_2)
        shapeCasts_S4000000x1_S4000000))
    (broadcastInDim S4000000 ![] bcast_S_S4000000 (constantI S_ 32 90112000#32))

end Terms

/-! ## Each stretch read over an arbitrary valuation -/

section Reads

variable (W : Valuation τ sig (Elt Ideal))

theorem valid_read : (StableHlo.after (opsValid (F := Ideal)) W (Proc.devRef .tc main_v9) : S4000000.Idx → BitVec 1)
    = validT (W (Proc.devRef .tc main_arg0)) (tabF lit0) (tabF lit1) := by
  unfold opsValid
  after_results_simp <;> rfl

theorem valid_cst : (StableHlo.after (opsValid (F := Ideal)) W (Proc.devRef .tc main_cst) : S3.Idx → Ideal .f32) = tabF lit0 := by
  unfold opsValid
  after_results_simp <;> rfl

theorem valid_cst_1 : (StableHlo.after (opsValid (F := Ideal)) W (Proc.devRef .tc main_cst_1) : S3.Idx → Ideal .f32) = tabF lit2 := by
  unfold opsValid
  after_results_simp <;> rfl

theorem valid_c : (StableHlo.after (opsValid (F := Ideal)) W (Proc.devRef .tc main_c) : S3.Idx → BitVec 32) = tabI lit3 := by
  unfold opsValid
  after_results_simp <;> rfl

theorem valid_arg0 : StableHlo.after (opsValid (F := Ideal)) W (Proc.devRef .tc main_arg0) = W (Proc.devRef .tc main_arg0) := by
  unfold opsValid
  after_results_simp

theorem cells_stretch : (StableHlo.after (opsCells (F := Ideal)) W (Proc.devRef .tc main_v21) : S4000000x3.Idx → BitVec 32)
    = cellsT (W (Proc.devRef .tc main_arg0)) (W (Proc.devRef .tc main_cst)) (W (Proc.devRef .tc main_cst_1)) (W (Proc.devRef .tc main_c)) := by
  unfold opsCells
  after_results_simp <;> rfl

theorem cells_v9 : StableHlo.after (opsCells (F := Ideal)) W (Proc.devRef .tc main_v9) = W (Proc.devRef .tc main_v9) := by
  unfold opsCells
  after_results_simp

theorem cells_c : StableHlo.after (opsCells (F := Ideal)) W (Proc.devRef .tc main_c) = W (Proc.devRef .tc main_c) := by
  unfold opsCells
  after_results_simp

theorem cells_arg0 : StableHlo.after (opsCells (F := Ideal)) W (Proc.devRef .tc main_arg0) = W (Proc.devRef .tc main_arg0) := by
  unfold opsCells
  after_results_simp

theorem key_stretch : (StableHlo.after (opsKey (F := Ideal)) W (Proc.devRef .tc main_v38) : S4000000.Idx → BitVec 32)
    = keyT (W (Proc.devRef .tc main_v9)) (W (Proc.devRef .tc main_v21)) (W (Proc.devRef .tc main_c)) := by
  unfold opsKey
  after_results_simp <;> rfl

theorem key_v21 : StableHlo.after (opsKey (F := Ideal)) W (Proc.devRef .tc main_v21) = W (Proc.devRef .tc main_v21) := by
  unfold opsKey
  after_results_simp

theorem key_arg0 : StableHlo.after (opsKey (F := Ideal)) W (Proc.devRef .tc main_arg0) = W (Proc.devRef .tc main_arg0) := by
  unfold opsKey
  after_results_simp

end Reads

/-! ## The layout operations read at an index -/

section Elements

open Cert.ReferenceIdeal.Gen

variable {α : Type}

/-- The row-major position of a coordinate of the axis of three is the coordinate. -/
theorem rowMajor_S3 (q : Fin 3) : S3.rowMajor (ix1 q) = q :=
  Fin.ext (by rw [Shape.rowMajor_val_one])

/-- The slice of the first three columns reads the point's own column. -/
theorem slice3_apply (A : S4000000x4.Idx → α) (h : S4000000x4.Slices ![0, 0] S4000000x3) (p : Fin 4000000) (q : Fin 3)
    (q' : Fin 4) (hq : q'.val = q.val) : extractStridedSlice S4000000x3 ![0, 0] A h (ix2 p q) = A (ix2 p q') :=
  extractStridedSlice_apply ![0, 0] A h (ix2 p q) (ix2 p q') fun a => match a with
    | ⟨0, _⟩ => by show p.val = 0 + p.val; omega
    | ⟨1, _⟩ => by show q'.val = 0 + q.val; omega

/-- A table of three broadcast along the rows reads the entry of the column. -/
theorem table_apply (f : S3.Idx → α) (h1 : S3.BroadcastsInDim S1x3 (![1] : Fin 1 → Fin S1x3.rank))
    (h2 : S1x3.BroadcastsInDim S4000000x3 (![0, 1] : Fin 2 → Fin S4000000x3.rank)) (p : Fin 4000000) (q : Fin 3) :
    broadcastInDim S4000000x3 ![0, 1] h2 (broadcastInDim S1x3 ![1] h1 f) (ix2 p q) = f (ix1 q) :=
  (broadcastInDim_apply ![0, 1] h2 (broadcastInDim S1x3 ![1] h1 f) (ix2 p q) (ix2 (0 : Fin 1) q)
    fun a => match a with | ⟨0, _⟩ => rfl | ⟨1, _⟩ => rfl).trans
  (broadcastInDim_apply ![1] h1 f (ix2 (0 : Fin 1) q) (ix1 q) fun a => match a with | ⟨0, _⟩ => rfl)

/-- A column of the cells, reshaped to one word per point, reads the point's entry of that column. -/
theorem column_apply (c : S4000000x3.Idx → α) (o : Nat) (q : Fin 3) (ho : q.val = o) (hs : S4000000x3.Slices ![0, o] S4000000x1)
    (hc : S4000000x1.ShapeCasts S4000000) (p : Fin 4000000) :
    shapeCast S4000000 (extractStridedSlice S4000000x1 ![0, o] c hs) hc (ix1 p) = c (ix2 p q) :=
  (shapeCast_apply _ hc (ix1 p) (ix2 p (0 : Fin 1)) (by
    rw [Shape.rowMajor_val_two, Shape.rowMajor_val_one]
    show p.val * 1 + 0 = p.val
    omega)).trans
  (extractStridedSlice_apply ![0, o] c hs (ix2 p (0 : Fin 1)) (ix2 p q) fun a => match a with
    | ⟨0, _⟩ => by show p.val = 0 + p.val; omega
    | ⟨1, _⟩ => by show q.val = o + 0; omega)

/-- One entry of the table of three, sliced out, reshaped to a scalar and broadcast, reads that entry everywhere. -/
theorem entry_apply (tc : S3.Idx → α) (o : Nat) (q : Fin 3) (ho : q.val = o) (hs : S3.Slices ![o] S1) (hc : S1.ShapeCasts S_)
    (hb : S_.BroadcastsInDim S4000000 (![] : Fin 0 → Fin S4000000.rank)) (i : S4000000.Idx) :
    broadcastInDim S4000000 ![] hb (shapeCast S_ (extractStridedSlice S1 ![o] tc hs) hc) i = tc (ix1 q) :=
  (broadcastInDim_scalar_apply hb _ i).trans <|
  (shapeCast_apply _ hc ix0 (ix1 (0 : Fin 1)) (by
    rw [Shape.rowMajor_val_one]
    exact (Nat.lt_one_iff.mp (S_.rowMajor ix0).isLt).symm)).trans
  (extractStridedSlice_apply ![o] tc hs (ix1 (0 : Fin 1)) (ix1 q) fun a => match a with
    | ⟨0, _⟩ => by show q.val = o + 0; omega)

/-- A fold over the three coordinates of an axis, spelled out. -/
theorem fold_fin3 {β : Type} (op : β → β → β) [Std.Commutative op] [Std.Associative op] (b : β) (f : Fin 3 → β) :
    (Finset.univ : Finset (Fin 3)).fold op b f = op (f 0) (op (f 1) (op (f 2) b)) := by
  have h : (Finset.univ : Finset (Fin 3)) = {0, 1, 2} := by decide
  rw [h, Finset.fold_insert (by decide), Finset.fold_insert (by decide), Finset.fold_singleton]

/-- Conjoining three bits onto the initial bit 1, last first, is their conjunction. -/
theorem andi3 (a b c : BitVec 1) :
    IntOp.andi a (IntOp.andi b (IntOp.andi c 1#1)) = IntOp.andi (IntOp.andi a b) c := by
  rcases BitVec.eq_zero_or_eq_one a with rfl | rfl <;> rcases BitVec.eq_zero_or_eq_one b with rfl | rfl <;>
    rcases BitVec.eq_zero_or_eq_one c with rfl | rfl <;> rfl

/-- Over a result index of the points, the source index with coordinate `k` on the reduced axis. -/
theorem lift_rows (h : S4000000x3.Reduces [1] S4000000) (p : Fin 4000000) (k : Fin 3) :
    h.lift (ix1 p) k = ix2 p k := by
  funext a
  match a with
  | ⟨0, _⟩ => rfl
  | ⟨1, _⟩ => rfl

/-- The conjunction over the axis of three, at a point: the three bits of the point's row onto the initial bit. -/
theorem reduce_rows (x : S4000000x3.Idx → BitVec 1) (init : S_.Idx → BitVec 1) (h' : S4000000x3.ReducesTo [1] S4000000)
    (hu : 0 < S_.numel) (p : Fin 4000000) :
    Host.reduce IntOp.andi x init h' hu (ix1 p)
      = IntOp.andi (x (ix2 p (0 : Fin 3))) (IntOp.andi (x (ix2 p (1 : Fin 3))) (IntOp.andi (x (ix2 p (2 : Fin 3)))
          (init (Shape.Idx.first hu)))) := by
  have h : S4000000x3.Reduces [1] S4000000 := by decide
  rw [Host.reduce_eq_fold_single IntOp.andi x init h' h hu (ix1 p)]
  refine (fold_fin3 IntOp.andi (init (Shape.Idx.first hu)) (fun k : Fin 3 => x (h.lift (ix1 p) k))).trans ?_
  rw [lift_rows h p 0, lift_rows h p 1, lift_rows h p 2]

end Elements

/-! ## The pointwise operations read at an index -/

section Apply

variable {s : Shape} {w : Nat}

theorem addi_apply (x y : IVec s w) (i : s.Idx) : addi x y i = IntOp.addi (x i) (y i) := rfl
theorem subi_apply (x y : IVec s w) (i : s.Idx) : subi x y i = IntOp.subi (x i) (y i) := rfl
theorem muli_apply (x y : IVec s w) (i : s.Idx) : muli x y i = IntOp.muli (x i) (y i) := rfl
theorem andi_apply (x y : IVec s w) (i : s.Idx) : andi x y i = IntOp.andi (x i) (y i) := rfl
theorem minsi_apply (x y : IVec s w) (i : s.Idx) : minsi x y i = IntOp.minsi (x i) (y i) := rfl
theorem maxsi_apply (x y : IVec s w) (i : s.Idx) : maxsi x y i = IntOp.maxsi (x i) (y i) := rfl
theorem constantI_apply (b : BitVec w) (i : s.Idx) : constantI s w b i = b := rfl
theorem fptosi_apply (x : FVec Ideal s .f32) (i : s.Idx) :
    fptosi (F := Ideal) w x i = FloatOps.fptosi (F := Ideal) w (x i) := rfl
/-- At the ideal instance the host's floor is the floor. -/
theorem hostFloor_apply (x : FVec Ideal s .f32) (i : s.Idx) :
    Host.floor (F := Ideal) x i = FloatOps.floor (F := Ideal) (x i) := rfl
/-- At the ideal instance the host's quotient is the quotient. -/
theorem hostDivf_apply (x y : FVec Ideal s .f32) (i : s.Idx) :
    Host.divf (F := Ideal) x y i = FloatOps.divf (F := Ideal) (x i) (y i) := rfl
theorem subfI_apply (x y : FVec Ideal s .f32) (i : s.Idx) :
    subf (F := Ideal) x y i = FloatOps.subf (F := Ideal) (x i) (y i) := rfl

end Apply

/-! ## The three terms at a point -/

section Points

open Cert.ReferenceIdeal.Gen

/-- The conjoined range tests of a point are the specification's. -/
theorem validT_apply (A : S4000000x4.Idx → Ideal .f32) (p : Fin 4000000) :
    validT A (tabF lit0) (tabF lit1) (ix1 p)
      = Cert.Vox.inBox (A (ix2 p (0 : Fin 4))) (A (ix2 p (1 : Fin 4))) (A (ix2 p (2 : Fin 4))) := by
  unfold validT
  rw [reduce_rows]
  simp only [andi_apply, cmpf_apply]
  rw [slice3_apply A _ p 0 0 rfl, slice3_apply A _ p 1 1 rfl, slice3_apply A _ p 2 2 rfl,
    table_apply, table_apply, table_apply, table_apply, table_apply, table_apply]
  simp only [tabF, tabI, rowMajor_S3]
  exact andi3 _ _ _

/-- A cell of a point, over arbitrary tables. -/
theorem cellsT_apply (A : S4000000x4.Idx → Ideal .f32) (t0 t2 : S3.Idx → Ideal .f32) (tc : S3.Idx → BitVec 32)
    (p : Fin 4000000) (q : Fin 3) (q' : Fin 4) (hq : q'.val = q.val) :
    cellsT A t0 t2 tc (ix2 p q)
      = IntOp.minsi (IntOp.subi (tc (ix1 q)) 1#32) (IntOp.maxsi 0#32 (FloatOps.fptosi (F := Ideal) 32
          (FloatOps.floor (F := Ideal) (FloatOps.divf (F := Ideal)
            (FloatOps.subf (F := Ideal) (A (ix2 p q')) (t0 (ix1 q))) (t2 (ix1 q)))))) := by
  unfold cellsT
  simp only [minsi_apply, maxsi_apply, fptosi_apply, hostFloor_apply, hostDivf_apply, subfI_apply, id_eq]
  rw [table_apply, table_apply, table_apply, slice3_apply A _ p q q' hq, broadcastInDim_scalar_apply]
  rfl

/-- A cell of a point is the specification's cell of that axis. -/
theorem cells_point (A : S4000000x4.Idx → Ideal .f32) (p : Fin 4000000) (q : Fin 3) (q' : Fin 4) (hq : q'.val = q.val) :
    cellsT A (tabF lit0) (tabF lit2) (tabI lit3) (ix2 p q)
      = Cert.Vox.cell (lit0 q) (lit2 q) (IntOp.subi (lit3 q) 1#32) (A (ix2 p q')) := by
  rw [cellsT_apply A _ _ _ p q q' hq]
  simp only [tabF, tabI, rowMajor_S3]
  rfl

/-- The cells are the specification's. -/
theorem cells_eq (A : S4000000x4.Idx → Ideal .f32) :
    cellsT A (tabF lit0) (tabF lit2) (tabI lit3) = Cert.Vox.cells A := by
  funext j
  obtain ⟨p, q, rfl⟩ : ∃ p q, j = ix2 p q := ⟨j 0, j 1, eq_ix2 j⟩
  match q with
  | ⟨0, _⟩ => exact cells_point A p 0 0 rfl
  | ⟨1, _⟩ => exact cells_point A p 1 1 rfl
  | ⟨2, _⟩ => exact cells_point A p 2 2 rfl

/-- The key of a point, over arbitrary arrays. -/
theorem keyT_apply (v : S4000000.Idx → BitVec 1) (c : S4000000x3.Idx → BitVec 32) (tc : S3.Idx → BitVec 32)
    (p : Fin 4000000) :
    keyT v c tc (ix1 p)
      = Scalar.select (v (ix1 p))
          (IntOp.addi (IntOp.muli (IntOp.addi (IntOp.muli (c (ix2 p (0 : Fin 3))) (tc (ix1 (1 : Fin 3))))
            (c (ix2 p (1 : Fin 3)))) (tc (ix1 (2 : Fin 3)))) (c (ix2 p (2 : Fin 3))))
          90112000#32 := by
  unfold keyT
  simp only [select_apply, addi_apply, muli_apply]
  rw [column_apply c 0 0 rfl, column_apply c 1 1 rfl, column_apply c 2 2 rfl, entry_apply tc 1 1 rfl,
    entry_apply tc 2 2 rfl, broadcastInDim_scalar_apply]
  rfl

/-- The keys are the specification's. -/
theorem keys_eq (A : S4000000x4.Idx → Ideal .f32) :
    keyT (validT A (tabF lit0) (tabF lit1)) (cellsT A (tabF lit0) (tabF lit2) (tabI lit3)) (tabI lit3)
      = Cert.Vox.keys A := by
  funext i
  obtain ⟨p, rfl⟩ : ∃ p, i = ix1 p := ⟨i 0, eq_ix1 i⟩
  rw [keyT_apply, validT_apply, cells_point A p 0 0 rfl, cells_point A p 1 1 rfl, cells_point A p 2 2 rfl]
  simp only [tabF, tabI, rowMajor_S3]
  rfl

end Points

/-! ## The keys, the cells and the points after the whole stretch -/

section Final

/-- After the first operations of the reference the key buffer holds the specification's keys of the points. -/
theorem keys_read (W : Valuation τ sig (Elt Ideal)) :
    (StableHlo.after (HR.opsR0 (F := Ideal)) W (Proc.devRef .tc main_v38) : S4000000.Idx → BitVec 32)
      = Cert.Vox.keys (W (Proc.devRef .tc main_arg0)) := by
  rw [opsR0_eq, StableHlo.after_append, StableHlo.after_append, key_stretch, cells_v9, valid_read, cells_stretch, cells_c,
    valid_arg0, valid_cst, valid_cst_1, valid_c]
  exact keys_eq _

/-- … the cell buffer the specification's clipped cell triples … -/
theorem cells_read (W : Valuation τ sig (Elt Ideal)) :
    (StableHlo.after (HR.opsR0 (F := Ideal)) W (Proc.devRef .tc main_v21) : S4000000x3.Idx → BitVec 32)
      = Cert.Vox.cells (W (Proc.devRef .tc main_arg0)) := by
  rw [opsR0_eq, StableHlo.after_append, StableHlo.after_append, key_v21, cells_stretch, valid_arg0, valid_cst, valid_cst_1,
    valid_c]
  exact cells_eq _

/-- … and the points are untouched. -/
theorem arg0_read (W : Valuation τ sig (Elt Ideal)) :
    StableHlo.after (HR.opsR0 (F := Ideal)) W (Proc.devRef .tc main_arg0) = W (Proc.devRef .tc main_arg0) := by
  rw [opsR0_eq, StableHlo.after_append, StableHlo.after_append, key_arg0, cells_arg0, valid_arg0]

end Final

end Cert.ReferenceIdeal.HK

end
-- ==== Proof.RPipe1.lean ====
/-
  The second stretch of the reference's line, read against the bookkeeping functions of the keys.

  The stretch sorts the keys, wraps the sorting permutation as gather indices three times over, gathers the keys, the
  points and the cell triples along it, and computes from the sorted keys the validity bit, the first-of-run bit and
  the latter as a word. Cut into four short lines, each read over an arbitrary valuation: a buffer a line writes is
  its operation's function of the buffers it reads, a buffer it does not write is kept. Chained, the stretch's
  results are `Pipe.order`, `Pipe.skeys`, the two gathers along `Pipe.ordN`, `Pipe.sv`, `Pipe.newv` of the
  keys found in `main_v38`, and the argument, the cell triples and the keys are kept.
-/
import proofs.«166804_j37915971289632_2_alg».proof.Proof.RRun
import proofs.«166804_j37915971289632_2_alg».proof.Proof.Pipe

noncomputable section

namespace Cert.ReferenceIdeal.HP1

open Cert.ReferenceIdeal Cert.ReferenceIdeal.Gen Idealize.ShloMosaic Idealize.ShloMosaic.TcCoe Idealize.SL.Sem Idealize.ShloMosaic.StableHlo
open Cert.Vox

/-! ## The four lines -/

/-- The argsort (the positions, the two results of the stable sort), its wrap as gather indices, and the keys gathered along it. -/
abbrev r1A : List (HloOp τ sig (Elt Ideal)) :=
  [ StableHlo.TRef.nullary main_call2.v0 (iotaInDim S4000000 32 0),
    StableHlo.TRef.binary (.of main_v38 : StableHlo.TRef sig ⟨S4000000, .i32⟩) main_call2.v0 main_call2.v1_0 (fun x y => (Host.sort2 S4000000 0 comparator_i32_i32_d0 x y).1),
    StableHlo.TRef.binary (.of main_v38 : StableHlo.TRef sig ⟨S4000000, .i32⟩) main_call2.v0 main_call2.v1_1 (fun x y => (Host.sort2 S4000000 0 comparator_i32_i32_d0 x y).2),
    StableHlo.nullary main_c_6 (constantI S_ 32 0#32),
    StableHlo.unary main_c_6 main_v40 (broadcastInDim S4000000 ![] bcast_S_S4000000 : (⟨S_, .i32⟩ : BufTy).Contents (Elt Ideal) → (⟨S4000000, .i32⟩ : BufTy).Contents (Elt Ideal)),
    StableHlo.binary main_v39 main_v40 main_v41 (cmpi .slt : (⟨S4000000, .i32⟩ : BufTy).Contents (Elt Ideal) → (⟨S4000000, .i32⟩ : BufTy).Contents (Elt Ideal) → (⟨S4000000, .i1⟩ : BufTy).Contents (Elt Ideal)),
    StableHlo.nullary main_c_7 (constantI S_ 32 4000000#32),
    StableHlo.unary main_c_7 main_v42 (broadcastInDim S4000000 ![] bcast_S_S4000000 : (⟨S_, .i32⟩ : BufTy).Contents (Elt Ideal) → (⟨S4000000, .i32⟩ : BufTy).Contents (Elt Ideal)),
    StableHlo.binary main_v39 main_v42 main_v43 (addi : (⟨S4000000, .i32⟩ : BufTy).Contents (Elt Ideal) → (⟨S4000000, .i32⟩ : BufTy).Contents (Elt Ideal) → (⟨S4000000, .i32⟩ : BufTy).Contents (Elt Ideal)),
    StableHlo.ternary main_v41 main_v43 main_v39 main_v44 (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)),
    StableHlo.unary main_v44 main_v45 (broadcastInDim S4000000x1 ![0] bcast_S4000000_S4000000x1_0 : (⟨S4000000, .i32⟩ : BufTy).Contents (Elt Ideal) → (⟨S4000000x1, .i32⟩ : BufTy).Contents (Elt Ideal)),
    StableHlo.binary main_v38 main_v45 main_v46 ((fun x i => Host.gather gather_S4000000_S4000000x1_S4000000_n_0_n_n_0_1_1 x i) : (⟨S4000000, .i32⟩ : BufTy).Contents (Elt Ideal) → (⟨S4000000x1, .i32⟩ : BufTy).Contents (Elt Ideal) → (⟨S4000000, .i32⟩ : BufTy).Contents (Elt Ideal)) ]

/-- The buffers `r1A` writes. -/
abbrev r1A_W : List (Ref sig .tc) := [main_call2.v0.ref, main_call2.v1_0.ref, main_call2.v1_1.ref, main_c_6, main_v40, main_v41, main_c_7, main_v42, main_v43, main_v44, main_v45, main_v46]

theorem r1A_writes : (r1A).Forall fun op => op.writes ⊆ (r1A_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `r1A` does not write keeps its contents through it. -/
theorem r1A_keep (V : Valuation τ sig (Elt Ideal)) (r : Ref sig .tc) (h : r ∉ r1A_W) :
    after r1A V (Proc.devRef .tc r) = V (Proc.devRef .tc r) :=
  after_of_writes_sub r1A V r1A_writes h

/-- The second wrap of the argsort and the points gathered along it. -/
abbrev r1B : List (HloOp τ sig (Elt Ideal)) :=
  [ StableHlo.nullary main_c_8 (constantI S_ 32 0#32),
    StableHlo.unary main_c_8 main_v47 (broadcastInDim S4000000 ![] bcast_S_S4000000 : (⟨S_, .i32⟩ : BufTy).Contents (Elt Ideal) → (⟨S4000000, .i32⟩ : BufTy).Contents (Elt Ideal)),
    StableHlo.binary main_v39 main_v47 main_v48 (cmpi .slt : (⟨S4000000, .i32⟩ : BufTy).Contents (Elt Ideal) → (⟨S4000000, .i32⟩ : BufTy).Contents (Elt Ideal) → (⟨S4000000, .i1⟩ : BufTy).Contents (Elt Ideal)),
    StableHlo.nullary main_c_9 (constantI S_ 32 4000000#32),
    StableHlo.unary main_c_9 main_v49 (broadcastInDim S4000000 ![] bcast_S_S4000000 : (⟨S_, .i32⟩ : BufTy).Contents (Elt Ideal) → (⟨S4000000, .i32⟩ : BufTy).Contents (Elt Ideal)),
    StableHlo.binary main_v39 main_v49 main_v50 (addi : (⟨S4000000, .i32⟩ : BufTy).Contents (Elt Ideal) → (⟨S4000000, .i32⟩ : BufTy).Contents (Elt Ideal) → (⟨S4000000, .i32⟩ : BufTy).Contents (Elt Ideal)),
    StableHlo.ternary main_v48 main_v50 main_v39 main_v51 (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)),
    StableHlo.unary main_v51 main_v52 (broadcastInDim S4000000x1 ![0] bcast_S4000000_S4000000x1_0 : (⟨S4000000, .i32⟩ : BufTy).Contents (Elt Ideal) → (⟨S4000000x1, .i32⟩ : BufTy).Contents (Elt Ideal)),
    StableHlo.binary main_arg0 main_v52 main_v53 ((fun x i => Host.gather gather_S4000000x4_S4000000x1_S4000000x4_1_0_n_n_0_1_14 x i) : (⟨S4000000x4, .f32⟩ : BufTy).Contents (Elt Ideal) → (⟨S4000000x1, .i32⟩ : BufTy).Contents (Elt Ideal) → (⟨S4000000x4, .f32⟩ : BufTy).Contents (Elt Ideal)) ]

/-- The buffers `r1B` writes. -/
abbrev r1B_W : List (Ref sig .tc) := [main_c_8, main_v47, main_v48, main_c_9, main_v49, main_v50, main_v51, main_v52, main_v53]

theorem r1B_writes : (r1B).Forall fun op => op.writes ⊆ (r1B_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `r1B` does not write keeps its contents through it. -/
theorem r1B_keep (V : Valuation τ sig (Elt Ideal)) (r : Ref sig .tc) (h : r ∉ r1B_W) :
    after r1B V (Proc.devRef .tc r) = V (Proc.devRef .tc r) :=
  after_of_writes_sub r1B V r1B_writes h

/-- The third wrap of the argsort and the cell triples gathered along it. -/
abbrev r1C : List (HloOp τ sig (Elt Ideal)) :=
  [ StableHlo.nullary main_c_10 (constantI S_ 32 0#32),
    StableHlo.unary main_c_10 main_v54 (broadcastInDim S4000000 ![] bcast_S_S4000000 : (⟨S_, .i32⟩ : BufTy).Contents (Elt Ideal) → (⟨S4000000, .i32⟩ : BufTy).Contents (Elt Ideal)),
    StableHlo.binary main_v39 main_v54 main_v55 (cmpi .slt : (⟨S4000000, .i32⟩ : BufTy).Contents (Elt Ideal) → (⟨S4000000, .i32⟩ : BufTy).Contents (Elt Ideal) → (⟨S4000000, .i1⟩ : BufTy).Contents (Elt Ideal)),
    StableHlo.nullary main_c_11 (constantI S_ 32 4000000#32),
    StableHlo.unary main_c_11 main_v56 (broadcastInDim S4000000 ![] bcast_S_S4000000 : (⟨S_, .i32⟩ : BufTy).Contents (Elt Ideal) → (⟨S4000000, .i32⟩ : BufTy).Contents (Elt Ideal)),
    StableHlo.binary main_v39 main_v56 main_v57 (addi : (⟨S4000000, .i32⟩ : BufTy).Contents (Elt Ideal) → (⟨S4000000, .i32⟩ : BufTy).Contents (Elt Ideal) → (⟨S4000000, .i32⟩ : BufTy).Contents (Elt Ideal)),
    StableHlo.ternary main_v55 main_v57 main_v39 main_v58 (select : (⟨S4000000, .i1⟩ : BufTy).Contents (Elt Ideal) → (⟨S4000000, .i32⟩ : BufTy).Contents (Elt Ideal) → (⟨S4000000, .i32⟩ : BufTy).Contents (Elt Ideal) → (⟨S4000000, .i32⟩ : BufTy).Contents (Elt Ideal)),
    StableHlo.unary main_v58 main_v59 (broadcastInDim S4000000x1 ![0] bcast_S4000000_S4000000x1_0 : (⟨S4000000, .i32⟩ : BufTy).Contents (Elt Ideal) → (⟨S4000000x1, .i32⟩ : BufTy).Contents (Elt Ideal)),
    StableHlo.binary main_v21 main_v59 main_v60 ((fun x i => Host.gather gather_S4000000x3_S4000000x1_S4000000x3_1_0_n_n_0_1_13 x i) : (⟨S4000000x3, .i32⟩ : BufTy).Contents (Elt Ideal) → (⟨S4000000x1, .i32⟩ : BufTy).Contents (Elt Ideal) → (⟨S4000000x3, .i32⟩ : BufTy).Contents (Elt Ideal)) ]

/-- The buffers `r1C` writes. -/
abbrev r1C_W : List (Ref sig .tc) := [main_c_10, main_v54, main_v55, main_c_11, main_v56, main_v57, main_v58, main_v59, main_v60]

theorem r1C_writes : (r1C).Forall fun op => op.writes ⊆ (r1C_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `r1C` does not write keeps its contents through it. -/
theorem r1C_keep (V : Valuation τ sig (Elt Ideal)) (r : Ref sig .tc) (h : r ∉ r1C_W) :
    after r1C V (Proc.devRef .tc r) = V (Proc.devRef .tc r) :=
  after_of_writes_sub r1C V r1C_writes h

/-- The validity bit of each sorted key, the first-of-run bit, their conjunction and its conversion to a word. -/
abbrev r1D : List (HloOp τ sig (Elt Ideal)) :=
  [ StableHlo.nullary main_c_12 (constantI S_ 32 90112000#32),
    StableHlo.unary main_c_12 main_v61 (broadcastInDim S4000000 ![] bcast_S_S4000000 : (⟨S_, .i32⟩ : BufTy).Contents (Elt Ideal) → (⟨S4000000, .i32⟩ : BufTy).Contents (Elt Ideal)),
    StableHlo.binary main_v46 main_v61 main_v62 (cmpi .slt : (⟨S4000000, .i32⟩ : BufTy).Contents (Elt Ideal) → (⟨S4000000, .i32⟩ : BufTy).Contents (Elt Ideal) → (⟨S4000000, .i1⟩ : BufTy).Contents (Elt Ideal)),
    StableHlo.nullary main_c_13 (constantI S_ 1 1#1),
    StableHlo.unary main_c_13 main_v63 (broadcastInDim S1 ![] bcast_S_S1 : (⟨S_, .i1⟩ : BufTy).Contents (Elt Ideal) → (⟨S1, .i1⟩ : BufTy).Contents (Elt Ideal)),
    StableHlo.unary main_v46 main_v64 ((extractStridedSlice S3999999 ![1] · slices_S4000000_S3999999_1) : (⟨S4000000, .i32⟩ : BufTy).Contents (Elt Ideal) → (⟨S3999999, .i32⟩ : BufTy).Contents (Elt Ideal)),
    StableHlo.unary main_v46 main_v65 ((extractStridedSlice S3999999 ![0] · slices_S4000000_S3999999_0) : (⟨S4000000, .i32⟩ : BufTy).Contents (Elt Ideal) → (⟨S3999999, .i32⟩ : BufTy).Contents (Elt Ideal)),
    StableHlo.binary main_v64 main_v65 main_v66 (cmpi .ne : (⟨S3999999, .i32⟩ : BufTy).Contents (Elt Ideal) → (⟨S3999999, .i32⟩ : BufTy).Contents (Elt Ideal) → (⟨S3999999, .i1⟩ : BufTy).Contents (Elt Ideal)),
    StableHlo.binary main_v63 main_v66 main_v67 ((fun a b => concatenate S4000000 0 [⟨S1, a⟩, ⟨S3999999, b⟩] concatenates_S1_S3999999_S4000000_d0) : (⟨S1, .i1⟩ : BufTy).Contents (Elt Ideal) → (⟨S3999999, .i1⟩ : BufTy).Contents (Elt Ideal) → (⟨S4000000, .i1⟩ : BufTy).Contents (Elt Ideal)),
    StableHlo.binary main_v62 main_v67 main_v68 (andi : (⟨S4000000, .i1⟩ : BufTy).Contents (Elt Ideal) → (⟨S4000000, .i1⟩ : BufTy).Contents (Elt Ideal) → (⟨S4000000, .i1⟩ : BufTy).Contents (Elt Ideal)),
    StableHlo.unary main_v68 main_v69 ((extui 32 · natLt_1_32) : (⟨S4000000, .i1⟩ : BufTy).Contents (Elt Ideal) → (⟨S4000000, .i32⟩ : BufTy).Contents (Elt Ideal)) ]

/-- The buffers `r1D` writes. -/
abbrev r1D_W : List (Ref sig .tc) := [main_c_12, main_v61, main_v62, main_c_13, main_v63, main_v64, main_v65, main_v66, main_v67, main_v68, main_v69]

theorem r1D_writes : (r1D).Forall fun op => op.writes ⊆ (r1D_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer `r1D` does not write keeps its contents through it. -/
theorem r1D_keep (V : Valuation τ sig (Elt Ideal)) (r : Ref sig .tc) (h : r ∉ r1D_W) :
    after r1D V (Proc.devRef .tc r) = V (Proc.devRef .tc r) :=
  after_of_writes_sub r1D V r1D_writes h

/-- The stretch is the four lines in a row. -/
theorem opsR1_split : HR.opsR1 (F := Ideal) = r1A ++ r1B ++ r1C ++ r1D := rfl

/-- The stretch's fold is the four lines' folds in a row. -/
theorem after_opsR1 (W : Valuation τ sig (Elt Ideal)) :
    after (HR.opsR1 (F := Ideal)) W = after r1D (after r1C (after r1B (after r1A W))) := by
  rw [opsR1_split, HR.after_app, HR.after_app, HR.after_app]

/-! ## Each line's results over an arbitrary valuation -/

attribute [local irreducible] Host.sort2 Host.gather in
/-- The first line leaves the stable argsort of the keys in `main_v39`. -/
theorem r1A_order (V : Valuation τ sig (Elt Ideal)) :
    after r1A V (Proc.devRef .tc main_v39) = Pipe.order (V (Proc.devRef .tc main_v38) : Pipe.KV) := by
  after_results_simp
  rfl

attribute [local irreducible] Host.sort2 Host.gather in
/-- The first line leaves the sorted keys in `main_v46`. -/
theorem r1A_skeys (V : Valuation τ sig (Elt Ideal)) :
    after r1A V (Proc.devRef .tc main_v46) = Pipe.skeys (V (Proc.devRef .tc main_v38) : Pipe.KV) := by
  after_results_simp
  rfl

attribute [local irreducible] Host.sort2 Host.gather in
/-- The second line gathers the points along the wrapped permutation found in `main_v39`. -/
theorem r1B_spts (V : Valuation τ sig (Elt Ideal)) :
    after r1B V (Proc.devRef .tc main_v53)
      = Host.gather gather_S4000000x4_S4000000x1_S4000000x4_1_0_n_n_0_1_14 (V (Proc.devRef .tc main_arg0) : FVec Ideal S4000000x4 .f32)
          (Pipe.col (Pipe.wrap (V (Proc.devRef .tc main_v39) : Pipe.KV) 4000000#32)) := by
  after_results_simp
  rfl

attribute [local irreducible] Host.sort2 Host.gather in
/-- The third line gathers the cell triples along the wrapped permutation found in `main_v39`. -/
theorem r1C_scells (V : Valuation τ sig (Elt Ideal)) :
    after r1C V (Proc.devRef .tc main_v60)
      = Host.gather gather_S4000000x3_S4000000x1_S4000000x3_1_0_n_n_0_1_13 (V (Proc.devRef .tc main_v21) : IVec S4000000x3 32)
          (Pipe.col (Pipe.wrap (V (Proc.devRef .tc main_v39) : Pipe.KV) 4000000#32)) := by
  after_results_simp
  rfl

/-- The first-of-run bit as a function of the sorted keys: valid, and the first position or a key different from
    its left neighbour's. -/
def newvOf (s : Pipe.KV) : IVec S4000000 1 :=
  andi (cmpi .slt s (Pipe.kconst 90112000#32))
    (concatenate S4000000 0
      [⟨S1, broadcastInDim S1 ![] bcast_S_S1 (constantI S_ 1 1#1)⟩,
       ⟨S3999999, cmpi .ne (extractStridedSlice S3999999 ![1] s slices_S4000000_S3999999_1)
          (extractStridedSlice S3999999 ![0] s slices_S4000000_S3999999_0)⟩]
      concatenates_S1_S3999999_S4000000_d0)

theorem newv_eq (k : Pipe.KV) : Pipe.newv k = newvOf (Pipe.skeys k) := rfl

/-- The last line's validity bit, from the sorted keys found in `main_v46`. -/
theorem r1D_sv (V : Valuation τ sig (Elt Ideal)) :
    after r1D V (Proc.devRef .tc main_v62) = cmpi .slt (V (Proc.devRef .tc main_v46) : Pipe.KV) (Pipe.kconst 90112000#32) := by
  after_results_simp
  rfl

/-- The last line's first-of-run bit. -/
theorem r1D_newv (V : Valuation τ sig (Elt Ideal)) :
    after r1D V (Proc.devRef .tc main_v68) = newvOf (V (Proc.devRef .tc main_v46) : Pipe.KV) := by
  after_results_simp
  rfl

/-- The last line's first-of-run bit as a word. -/
theorem r1D_newv32 (V : Valuation τ sig (Elt Ideal)) :
    after r1D V (Proc.devRef .tc main_v69) = extui 32 (newvOf (V (Proc.devRef .tc main_v46) : Pipe.KV)) natLt_1_32 := by
  after_results_simp
  rfl

/-! ## The stretch -/

/-- Every buffer the stretch writes. -/
abbrev r1_W : List (Ref sig .tc) := r1A_W ++ r1B_W ++ r1C_W ++ r1D_W

/-- A buffer the stretch does not write keeps its contents through it. -/
theorem r1_keep_of (W : Valuation τ sig (Elt Ideal)) (r : Ref sig .tc) (h : r ∉ r1_W) :
    after (HR.opsR1 (F := Ideal)) W (Proc.devRef .tc r) = W (Proc.devRef .tc r) := by
  simp only [r1_W, List.mem_append, not_or] at h
  obtain ⟨⟨⟨hA, hB⟩, hC⟩, hD⟩ := h
  rw [after_opsR1, r1D_keep _ r hD, r1C_keep _ r hC, r1B_keep _ r hB, r1A_keep _ r hA]

theorem r1_order (W : Valuation τ sig (Elt Ideal)) :
    after (HR.opsR1 (F := Ideal)) W (Proc.devRef .tc main_v39) = Pipe.order (W (Proc.devRef .tc main_v38) : Pipe.KV) := by
  rw [after_opsR1, r1D_keep _ main_v39 (by decide), r1C_keep _ main_v39 (by decide), r1B_keep _ main_v39 (by decide),
    r1A_order]

theorem r1_skeys (W : Valuation τ sig (Elt Ideal)) :
    after (HR.opsR1 (F := Ideal)) W (Proc.devRef .tc main_v46) = Pipe.skeys (W (Proc.devRef .tc main_v38) : Pipe.KV) := by
  rw [after_opsR1, r1D_keep _ main_v46 (by decide), r1C_keep _ main_v46 (by decide), r1B_keep _ main_v46 (by decide),
    r1A_skeys]

theorem r1_spts (W : Valuation τ sig (Elt Ideal)) :
    after (HR.opsR1 (F := Ideal)) W (Proc.devRef .tc main_v53)
      = Host.gather gather_S4000000x4_S4000000x1_S4000000x4_1_0_n_n_0_1_14 (W (Proc.devRef .tc main_arg0) : FVec Ideal S4000000x4 .f32)
          (Pipe.col (Pipe.ordN (W (Proc.devRef .tc main_v38) : Pipe.KV))) := by
  rw [Pipe.ordN, after_opsR1, r1D_keep _ main_v53 (by decide), r1C_keep _ main_v53 (by decide), r1B_spts,
    r1A_keep _ main_arg0 (by decide), r1A_order]

theorem r1_scells (W : Valuation τ sig (Elt Ideal)) :
    after (HR.opsR1 (F := Ideal)) W (Proc.devRef .tc main_v60)
      = Host.gather gather_S4000000x3_S4000000x1_S4000000x3_1_0_n_n_0_1_13 (W (Proc.devRef .tc main_v21) : IVec S4000000x3 32)
          (Pipe.col (Pipe.ordN (W (Proc.devRef .tc main_v38) : Pipe.KV))) := by
  rw [Pipe.ordN, after_opsR1, r1D_keep _ main_v60 (by decide), r1C_scells, r1B_keep _ main_v21 (by decide),
    r1B_keep _ main_v39 (by decide), r1A_keep _ main_v21 (by decide), r1A_order]

theorem r1_sv (W : Valuation τ sig (Elt Ideal)) :
    after (HR.opsR1 (F := Ideal)) W (Proc.devRef .tc main_v62) = Pipe.sv (W (Proc.devRef .tc main_v38) : Pipe.KV) := by
  rw [Pipe.sv, after_opsR1, r1D_sv, r1C_keep _ main_v46 (by decide), r1B_keep _ main_v46 (by decide), r1A_skeys]

theorem r1_newv (W : Valuation τ sig (Elt Ideal)) :
    after (HR.opsR1 (F := Ideal)) W (Proc.devRef .tc main_v68) = Pipe.newv (W (Proc.devRef .tc main_v38) : Pipe.KV) := by
  rw [newv_eq, after_opsR1, r1D_newv, r1C_keep _ main_v46 (by decide), r1B_keep _ main_v46 (by decide), r1A_skeys]

theorem r1_newv32 (W : Valuation τ sig (Elt Ideal)) :
    after (HR.opsR1 (F := Ideal)) W (Proc.devRef .tc main_v69)
      = extui 32 (Pipe.newv (W (Proc.devRef .tc main_v38) : Pipe.KV)) natLt_1_32 := by
  rw [newv_eq, after_opsR1, r1D_newv32, r1C_keep _ main_v46 (by decide), r1B_keep _ main_v46 (by decide), r1A_skeys]

/-- The stretch writes none of the argument, the cell triples, the keys. -/
theorem r1_keep_arg0 (W : Valuation τ sig (Elt Ideal)) : after (HR.opsR1 (F := Ideal)) W (Proc.devRef .tc main_arg0) = W (Proc.devRef .tc main_arg0) :=
  r1_keep_of W main_arg0 (by decide)
theorem r1_keep_v21 (W : Valuation τ sig (Elt Ideal)) : after (HR.opsR1 (F := Ideal)) W (Proc.devRef .tc main_v21) = W (Proc.devRef .tc main_v21) :=
  r1_keep_of W main_v21 (by decide)
theorem r1_keep_v38 (W : Valuation τ sig (Elt Ideal)) : after (HR.opsR1 (F := Ideal)) W (Proc.devRef .tc main_v38) = W (Proc.devRef .tc main_v38) :=
  r1_keep_of W main_v38 (by decide)

theorem r1_keep (W : Valuation τ sig (Elt Ideal)) :
    after (HR.opsR1 (F := Ideal)) W (Proc.devRef .tc main_arg0) = W (Proc.devRef .tc main_arg0)
      ∧ after (HR.opsR1 (F := Ideal)) W (Proc.devRef .tc main_v21) = W (Proc.devRef .tc main_v21)
      ∧ after (HR.opsR1 (F := Ideal)) W (Proc.devRef .tc main_v38) = W (Proc.devRef .tc main_v38) :=
  ⟨r1_keep_arg0 W, r1_keep_v21 W, r1_keep_v38 W⟩

end Cert.ReferenceIdeal.HP1

end
-- ==== Proof.RPipe.lean ====
/- The reference program's operations after the keys, read against the bookkeeping of `Cert.Vox.Pipe`. The 128
   operations from the stable argsort of the keys to the four results are three stretches; the first is read in its
   own module. Here the second (the run numbers, the places, the kept positions and the two scatter indices) and the
   third (the three scatters and the capped count) are cut into six consecutive pieces, each read off as the host
   operations composed over the contents it finds (any valuation), a buffer a piece does not write carried across it;
   then the three stretches are chained into the four results as functions of the points, the cell triples and the
   keys. -/
import proofs.«166804_j37915971289632_2_alg».proof.Proof.RRunOps
import proofs.«166804_j37915971289632_2_alg».proof.Proof.Pipe
import proofs.«166804_j37915971289632_2_alg».proof.Proof.RPipe1
import Idealize.ShloMosaic.Lib.Pipeline.Frame

set_option maxRecDepth 16384

noncomputable section

namespace Cert.ReferenceIdeal.HP

open Cert.ReferenceIdeal Cert.ReferenceIdeal.Gen Idealize.ShloMosaic Idealize.ShloMosaic.TcCoe Idealize.SL.Sem Idealize.ShloMosaic.StableHlo
open Cert.Vox

/-- The reference program's operations after the keys: the stable argsort through the four results. -/
abbrev opsPost : List (HloOp τ sig (Elt Ideal)) := HR.opsR1 ++ HR.opsR2 ++ HR.opsR3

section Stretches

variable {F : FTy → Type} [FloatOps F]
/-- The run's number (the running count of run starts, minus one) and the place within the run (the position minus the latest run start). 15 operations. -/
def B1 : List (HloOp τ sig (Elt F)) :=
  [ StableHlo.TRef.nullary main_call3.call0.c (constantI S_ 32 0#32),
    StableHlo.TRef.unary main_call3.call0.c main_call3.call0.v0 (broadcastInDim S_ ![] bcast_S_S_),
    StableHlo.TRef.binary (.of main_v69 : StableHlo.TRef sig ⟨S4000000, .i32⟩) main_call3.call0.v0 main_call3.call0.v1 (fun x v => Host.reduceWindow IntOp.addi ![4000000] ![1] ![3999999] ![0] x v reduceWindows_S4000000_S4000000_w4000000s1p3999999_0 h_S_),
    StableHlo.nullary main_c_14 (constantI S_ 32 1#32),
    StableHlo.unary main_c_14 main_v71 (broadcastInDim S4000000 ![] bcast_S_S4000000 : (⟨S_, .i32⟩ : BufTy).Contents (Elt F) → (⟨S4000000, .i32⟩ : BufTy).Contents (Elt F)),
    StableHlo.binary main_v70 main_v71 main_v72 (subi : (⟨S4000000, .i32⟩ : BufTy).Contents (Elt F) → (⟨S4000000, .i32⟩ : BufTy).Contents (Elt F) → (⟨S4000000, .i32⟩ : BufTy).Contents (Elt F)),
    StableHlo.nullary main_v73 (iotaInDim S4000000 32 0),
    StableHlo.nullary main_c_15 (constantI S_ 32 0#32),
    StableHlo.TRef.unary (.of main_c_15 : StableHlo.TRef sig ⟨S_, .i32⟩) main_call4.v0 id,
    StableHlo.TRef.unary main_call4.v0 main_call4.v1 (broadcastInDim S4000000 ![] bcast_S_S4000000),
    StableHlo.TRef.ternary (.of main_v68 : StableHlo.TRef sig ⟨S4000000, .i1⟩) (.of main_v73 : StableHlo.TRef sig ⟨S4000000, .i32⟩) main_call4.v1 main_call4.v2 select,
    StableHlo.TRef.nullary main_call5.c (constantI S_ 32 2147483648#32),
    StableHlo.TRef.unary main_call5.c main_call5.v0 (broadcastInDim S_ ![] bcast_S_S_),
    StableHlo.TRef.binary (.of main_v74 : StableHlo.TRef sig ⟨S4000000, .i32⟩) main_call5.v0 main_call5.v1 (fun x v => Host.reduceWindow IntOp.maxsi ![4000000] ![1] ![3999999] ![0] x v reduceWindows_S4000000_S4000000_w4000000s1p3999999_0 h_S_),
    StableHlo.binary main_v73 main_v75 main_v76 (subi : (⟨S4000000, .i32⟩ : BufTy).Contents (Elt F) → (⟨S4000000, .i32⟩ : BufTy).Contents (Elt F) → (⟨S4000000, .i32⟩ : BufTy).Contents (Elt F)) ]

/-- The kept positions (valid, run number below 20000, place below 5) and the two scatter indices selected by them. 16 operations. -/
def B2 : List (HloOp τ sig (Elt F)) :=
  [ StableHlo.nullary main_c_16 (constantI S_ 32 20000#32),
    StableHlo.unary main_c_16 main_v77 (broadcastInDim S4000000 ![] bcast_S_S4000000 : (⟨S_, .i32⟩ : BufTy).Contents (Elt F) → (⟨S4000000, .i32⟩ : BufTy).Contents (Elt F)),
    StableHlo.binary main_v72 main_v77 main_v78 (cmpi .slt : (⟨S4000000, .i32⟩ : BufTy).Contents (Elt F) → (⟨S4000000, .i32⟩ : BufTy).Contents (Elt F) → (⟨S4000000, .i1⟩ : BufTy).Contents (Elt F)),
    StableHlo.binary main_v62 main_v78 main_v79 (andi : (⟨S4000000, .i1⟩ : BufTy).Contents (Elt F) → (⟨S4000000, .i1⟩ : BufTy).Contents (Elt F) → (⟨S4000000, .i1⟩ : BufTy).Contents (Elt F)),
    StableHlo.nullary main_c_17 (constantI S_ 32 5#32),
    StableHlo.unary main_c_17 main_v80 (broadcastInDim S4000000 ![] bcast_S_S4000000 : (⟨S_, .i32⟩ : BufTy).Contents (Elt F) → (⟨S4000000, .i32⟩ : BufTy).Contents (Elt F)),
    StableHlo.binary main_v76 main_v80 main_v81 (cmpi .slt : (⟨S4000000, .i32⟩ : BufTy).Contents (Elt F) → (⟨S4000000, .i32⟩ : BufTy).Contents (Elt F) → (⟨S4000000, .i1⟩ : BufTy).Contents (Elt F)),
    StableHlo.binary main_v79 main_v81 main_v82 (andi : (⟨S4000000, .i1⟩ : BufTy).Contents (Elt F) → (⟨S4000000, .i1⟩ : BufTy).Contents (Elt F) → (⟨S4000000, .i1⟩ : BufTy).Contents (Elt F)),
    StableHlo.nullary main_c_18 (constantI S_ 32 20000#32),
    StableHlo.TRef.unary (.of main_c_18 : StableHlo.TRef sig ⟨S_, .i32⟩) main_call6.v0 id,
    StableHlo.TRef.unary main_call6.v0 main_call6.v1 (broadcastInDim S4000000 ![] bcast_S_S4000000),
    StableHlo.TRef.ternary (.of main_v82 : StableHlo.TRef sig ⟨S4000000, .i1⟩) (.of main_v72 : StableHlo.TRef sig ⟨S4000000, .i32⟩) main_call6.v1 main_call6.v2 select,
    StableHlo.nullary main_c_19 (constantI S_ 32 0#32),
    StableHlo.TRef.unary (.of main_c_19 : StableHlo.TRef sig ⟨S_, .i32⟩) main_call7.v0 id,
    StableHlo.TRef.unary main_call7.v0 main_call7.v1 (broadcastInDim S4000000 ![] bcast_S_S4000000),
    StableHlo.TRef.ternary (.of main_v82 : StableHlo.TRef sig ⟨S4000000, .i1⟩) (.of main_v76 : StableHlo.TRef sig ⟨S4000000, .i32⟩) main_call7.v1 main_call7.v2 select ]

/-- The (run, place) indices wrapped and paired, and the sorted points scattered at them. 20 operations. -/
def C1 : List (HloOp τ sig (Elt F)) :=
  [ StableHlo.nullary main_cst_20 (constant S_ .f32 0x00000000#32),
    StableHlo.unary main_cst_20 main_v85 (broadcastInDim S20000x5x4 ![] bcast_S_S20000x5x4 : (⟨S_, .f32⟩ : BufTy).Contents (Elt F) → (⟨S20000x5x4, .f32⟩ : BufTy).Contents (Elt F)),
    StableHlo.nullary main_c_21 (constantI S_ 32 0#32),
    StableHlo.unary main_c_21 main_v86 (broadcastInDim S4000000 ![] bcast_S_S4000000 : (⟨S_, .i32⟩ : BufTy).Contents (Elt F) → (⟨S4000000, .i32⟩ : BufTy).Contents (Elt F)),
    StableHlo.binary main_v83 main_v86 main_v87 (cmpi .slt : (⟨S4000000, .i32⟩ : BufTy).Contents (Elt F) → (⟨S4000000, .i32⟩ : BufTy).Contents (Elt F) → (⟨S4000000, .i1⟩ : BufTy).Contents (Elt F)),
    StableHlo.nullary main_c_22 (constantI S_ 32 20000#32),
    StableHlo.unary main_c_22 main_v88 (broadcastInDim S4000000 ![] bcast_S_S4000000 : (⟨S_, .i32⟩ : BufTy).Contents (Elt F) → (⟨S4000000, .i32⟩ : BufTy).Contents (Elt F)),
    StableHlo.binary main_v83 main_v88 main_v89 (addi : (⟨S4000000, .i32⟩ : BufTy).Contents (Elt F) → (⟨S4000000, .i32⟩ : BufTy).Contents (Elt F) → (⟨S4000000, .i32⟩ : BufTy).Contents (Elt F)),
    StableHlo.ternary main_v87 main_v89 main_v83 main_v90 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.nullary main_c_23 (constantI S_ 32 0#32),
    StableHlo.unary main_c_23 main_v91 (broadcastInDim S4000000 ![] bcast_S_S4000000 : (⟨S_, .i32⟩ : BufTy).Contents (Elt F) → (⟨S4000000, .i32⟩ : BufTy).Contents (Elt F)),
    StableHlo.binary main_v84 main_v91 main_v92 (cmpi .slt : (⟨S4000000, .i32⟩ : BufTy).Contents (Elt F) → (⟨S4000000, .i32⟩ : BufTy).Contents (Elt F) → (⟨S4000000, .i1⟩ : BufTy).Contents (Elt F)),
    StableHlo.nullary main_c_24 (constantI S_ 32 5#32),
    StableHlo.unary main_c_24 main_v93 (broadcastInDim S4000000 ![] bcast_S_S4000000 : (⟨S_, .i32⟩ : BufTy).Contents (Elt F) → (⟨S4000000, .i32⟩ : BufTy).Contents (Elt F)),
    StableHlo.binary main_v84 main_v93 main_v94 (addi : (⟨S4000000, .i32⟩ : BufTy).Contents (Elt F) → (⟨S4000000, .i32⟩ : BufTy).Contents (Elt F) → (⟨S4000000, .i32⟩ : BufTy).Contents (Elt F)),
    StableHlo.ternary main_v92 main_v94 main_v84 main_v95 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v90 main_v96 (broadcastInDim S4000000x1 ![0] bcast_S4000000_S4000000x1_0 : (⟨S4000000, .i32⟩ : BufTy).Contents (Elt F) → (⟨S4000000x1, .i32⟩ : BufTy).Contents (Elt F)),
    StableHlo.unary main_v95 main_v97 (broadcastInDim S4000000x1 ![0] bcast_S4000000_S4000000x1_0 : (⟨S4000000, .i32⟩ : BufTy).Contents (Elt F) → (⟨S4000000x1, .i32⟩ : BufTy).Contents (Elt F)),
    StableHlo.binary main_v96 main_v97 main_v98 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    StableHlo.ternary main_v85 main_v98 main_v53 main_v99 ((fun x i u => Host.scatter scatter_S20000x5x4_S4000000x2_S4000000x4_1_01_01_1 (fun _ b => b) x i u) : (⟨S20000x5x4, .f32⟩ : BufTy).Contents (Elt F) → (⟨S4000000x2, .i32⟩ : BufTy).Contents (Elt F) → (⟨S4000000x4, .f32⟩ : BufTy).Contents (Elt F) → (⟨S20000x5x4, .f32⟩ : BufTy).Contents (Elt F)) ]

/-- The kept positions as words, added up per run. 12 operations. -/
def C2 : List (HloOp τ sig (Elt F)) :=
  [ StableHlo.nullary main_c_25 (constantI S_ 32 0#32),
    StableHlo.unary main_c_25 main_v100 (broadcastInDim S20000 ![] bcast_S_S20000 : (⟨S_, .i32⟩ : BufTy).Contents (Elt F) → (⟨S20000, .i32⟩ : BufTy).Contents (Elt F)),
    StableHlo.unary main_v82 main_v101 ((extui 32 · natLt_1_32) : (⟨S4000000, .i1⟩ : BufTy).Contents (Elt F) → (⟨S4000000, .i32⟩ : BufTy).Contents (Elt F)),
    StableHlo.nullary main_c_26 (constantI S_ 32 0#32),
    StableHlo.unary main_c_26 main_v102 (broadcastInDim S4000000 ![] bcast_S_S4000000 : (⟨S_, .i32⟩ : BufTy).Contents (Elt F) → (⟨S4000000, .i32⟩ : BufTy).Contents (Elt F)),
    StableHlo.binary main_v83 main_v102 main_v103 (cmpi .slt : (⟨S4000000, .i32⟩ : BufTy).Contents (Elt F) → (⟨S4000000, .i32⟩ : BufTy).Contents (Elt F) → (⟨S4000000, .i1⟩ : BufTy).Contents (Elt F)),
    StableHlo.nullary main_c_27 (constantI S_ 32 20000#32),
    StableHlo.unary main_c_27 main_v104 (broadcastInDim S4000000 ![] bcast_S_S4000000 : (⟨S_, .i32⟩ : BufTy).Contents (Elt F) → (⟨S4000000, .i32⟩ : BufTy).Contents (Elt F)),
    StableHlo.binary main_v83 main_v104 main_v105 (addi : (⟨S4000000, .i32⟩ : BufTy).Contents (Elt F) → (⟨S4000000, .i32⟩ : BufTy).Contents (Elt F) → (⟨S4000000, .i32⟩ : BufTy).Contents (Elt F)),
    StableHlo.ternary main_v103 main_v105 main_v83 main_v106 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v106 main_v107 (broadcastInDim S4000000x1 ![0] bcast_S4000000_S4000000x1_0 : (⟨S4000000, .i32⟩ : BufTy).Contents (Elt F) → (⟨S4000000x1, .i32⟩ : BufTy).Contents (Elt F)),
    StableHlo.ternary main_v100 main_v107 main_v101 main_v108 ((fun x i u => Host.scatter scatter_S20000_S4000000x1_S4000000_n_0_0_1 IntOp.addi x i u) : (⟨S20000, .i32⟩ : BufTy).Contents (Elt F) → (⟨S4000000x1, .i32⟩ : BufTy).Contents (Elt F) → (⟨S4000000, .i32⟩ : BufTy).Contents (Elt F) → (⟨S20000, .i32⟩ : BufTy).Contents (Elt F)) ]

/-- The run index of each run start, wrapped, and the sorted cell triples scattered at it. 19 operations. -/
def C3 : List (HloOp τ sig (Elt F)) :=
  [ StableHlo.nullary main_c_28 (constantI S_ 32 20000#32),
    StableHlo.unary main_c_28 main_v109 (broadcastInDim S4000000 ![] bcast_S_S4000000 : (⟨S_, .i32⟩ : BufTy).Contents (Elt F) → (⟨S4000000, .i32⟩ : BufTy).Contents (Elt F)),
    StableHlo.binary main_v72 main_v109 main_v110 (cmpi .slt : (⟨S4000000, .i32⟩ : BufTy).Contents (Elt F) → (⟨S4000000, .i32⟩ : BufTy).Contents (Elt F) → (⟨S4000000, .i1⟩ : BufTy).Contents (Elt F)),
    StableHlo.binary main_v68 main_v110 main_v111 (andi : (⟨S4000000, .i1⟩ : BufTy).Contents (Elt F) → (⟨S4000000, .i1⟩ : BufTy).Contents (Elt F) → (⟨S4000000, .i1⟩ : BufTy).Contents (Elt F)),
    StableHlo.nullary main_c_29 (constantI S_ 32 20000#32),
    StableHlo.TRef.unary (.of main_c_29 : StableHlo.TRef sig ⟨S_, .i32⟩) main_call8.v0 id,
    StableHlo.TRef.unary main_call8.v0 main_call8.v1 (broadcastInDim S4000000 ![] bcast_S_S4000000),
    StableHlo.TRef.ternary (.of main_v111 : StableHlo.TRef sig ⟨S4000000, .i1⟩) (.of main_v72 : StableHlo.TRef sig ⟨S4000000, .i32⟩) main_call8.v1 main_call8.v2 select,
    StableHlo.nullary main_c_30 (constantI S_ 32 0#32),
    StableHlo.unary main_c_30 main_v113 (broadcastInDim S20000x3 ![] bcast_S_S20000x3 : (⟨S_, .i32⟩ : BufTy).Contents (Elt F) → (⟨S20000x3, .i32⟩ : BufTy).Contents (Elt F)),
    StableHlo.nullary main_c_31 (constantI S_ 32 0#32),
    StableHlo.unary main_c_31 main_v114 (broadcastInDim S4000000 ![] bcast_S_S4000000 : (⟨S_, .i32⟩ : BufTy).Contents (Elt F) → (⟨S4000000, .i32⟩ : BufTy).Contents (Elt F)),
    StableHlo.binary main_v112 main_v114 main_v115 (cmpi .slt : (⟨S4000000, .i32⟩ : BufTy).Contents (Elt F) → (⟨S4000000, .i32⟩ : BufTy).Contents (Elt F) → (⟨S4000000, .i1⟩ : BufTy).Contents (Elt F)),
    StableHlo.nullary main_c_32 (constantI S_ 32 20000#32),
    StableHlo.unary main_c_32 main_v116 (broadcastInDim S4000000 ![] bcast_S_S4000000 : (⟨S_, .i32⟩ : BufTy).Contents (Elt F) → (⟨S4000000, .i32⟩ : BufTy).Contents (Elt F)),
    StableHlo.binary main_v112 main_v116 main_v117 (addi : (⟨S4000000, .i32⟩ : BufTy).Contents (Elt F) → (⟨S4000000, .i32⟩ : BufTy).Contents (Elt F) → (⟨S4000000, .i32⟩ : BufTy).Contents (Elt F)),
    StableHlo.ternary main_v115 main_v117 main_v112 main_v118 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    StableHlo.unary main_v118 main_v119 (broadcastInDim S4000000x1 ![0] bcast_S4000000_S4000000x1_0 : (⟨S4000000, .i32⟩ : BufTy).Contents (Elt F) → (⟨S4000000x1, .i32⟩ : BufTy).Contents (Elt F)),
    StableHlo.ternary main_v113 main_v119 main_v60 main_v120 ((fun x i u => Host.scatter scatter_S20000x3_S4000000x1_S4000000x3_1_0_0_1 (fun _ b => b) x i u) : (⟨S20000x3, .i32⟩ : BufTy).Contents (Elt F) → (⟨S4000000x1, .i32⟩ : BufTy).Contents (Elt F) → (⟨S4000000x3, .i32⟩ : BufTy).Contents (Elt F) → (⟨S20000x3, .i32⟩ : BufTy).Contents (Elt F)) ]

/-- The number of run starts, capped at 20000. 5 operations. -/
def C4 : List (HloOp τ sig (Elt F)) :=
  [ StableHlo.unary main_v68 main_v121 ((extui 32 · natLt_1_32) : (⟨S4000000, .i1⟩ : BufTy).Contents (Elt F) → (⟨S4000000, .i32⟩ : BufTy).Contents (Elt F)),
    StableHlo.nullary main_c_33 (constantI S_ 32 0#32),
    StableHlo.binary main_v121 main_c_33 main_v122 ((fun x v => Host.reduce IntOp.addi x v reducesTo_S4000000_S_d0 h_S_) : (⟨S4000000, .i32⟩ : BufTy).Contents (Elt F) → (⟨S_, .i32⟩ : BufTy).Contents (Elt F) → (⟨S_, .i32⟩ : BufTy).Contents (Elt F)),
    StableHlo.nullary main_c_34 (constantI S_ 32 20000#32),
    StableHlo.binary main_v122 main_c_34 main_v123 (minsi : (⟨S_, .i32⟩ : BufTy).Contents (Elt F) → (⟨S_, .i32⟩ : BufTy).Contents (Elt F) → (⟨S_, .i32⟩ : BufTy).Contents (Elt F)) ]

/-- The second and the third stretch of the program after the keys, cut into the six pieces above. -/
theorem opsR2_eq : (HR.opsR2 : List (HloOp τ sig (Elt F))) = B1 ++ B2 := rfl
theorem opsR3_eq : (HR.opsR3 : List (HloOp τ sig (Elt F))) = C1 ++ C2 ++ C3 ++ C4 := rfl

/-- An operation that writes one buffer, a member of the list `L`. -/
def WritesIn (L : List (Ref sig .tc)) (op : HloOp τ sig (Elt F)) : Prop :=
  ∃ y : Ref sig .tc, op.writes = {Proc.devRef .tc y} ∧ y ∈ L

/-- A buffer outside the list of those a stretch writes keeps its contents across the stretch. -/
theorem carry {L : List (Ref sig .tc)} {ops : List (HloOp τ sig (Elt F))} (h : ops.Forall (WritesIn L))
    (W : Valuation τ sig (Elt F)) (r : Ref sig .tc) (hr : r ∉ L) :
    StableHlo.after ops W (Proc.devRef .tc r) = W (Proc.devRef .tc r) :=
  StableHlo.after_of_forall_not_mem ops W fun op hop hb => by
    obtain ⟨y, hw, hy⟩ := (List.forall_iff_forall_mem.mp h) op hop
    rw [hw, Finset.mem_singleton] at hb
    exact hr (Proc.devRef_injective _ hb ▸ hy)
/-- The buffers stretch `B1` writes. -/
def wB1 : List (Ref sig .tc) := [main_call3.call0.c.ref, main_call3.call0.v0.ref, main_call3.call0.v1.ref, main_c_14, main_v71, main_v72, main_v73, main_c_15, main_call4.v0.ref, main_call4.v1.ref, main_call4.v2.ref, main_call5.c.ref, main_call5.v0.ref, main_call5.v1.ref, main_v76]
theorem B1_writes : (B1 : List (HloOp τ sig (Elt F))).Forall (WritesIn wB1) := by
  unfold B1
  repeat' apply And.intro
  all_goals exact ⟨_, rfl, by decide⟩
/-- The buffers stretch `B2` writes. -/
def wB2 : List (Ref sig .tc) := [main_c_16, main_v77, main_v78, main_v79, main_c_17, main_v80, main_v81, main_v82, main_c_18, main_call6.v0.ref, main_call6.v1.ref, main_call6.v2.ref, main_c_19, main_call7.v0.ref, main_call7.v1.ref, main_call7.v2.ref]
theorem B2_writes : (B2 : List (HloOp τ sig (Elt F))).Forall (WritesIn wB2) := by
  unfold B2
  repeat' apply And.intro
  all_goals exact ⟨_, rfl, by decide⟩
/-- The buffers stretch `C1` writes. -/
def wC1 : List (Ref sig .tc) := [main_cst_20, main_v85, main_c_21, main_v86, main_v87, main_c_22, main_v88, main_v89, main_v90, main_c_23, main_v91, main_v92, main_c_24, main_v93, main_v94, main_v95, main_v96, main_v97, main_v98, main_v99]
theorem C1_writes : (C1 : List (HloOp τ sig (Elt F))).Forall (WritesIn wC1) := by
  unfold C1
  repeat' apply And.intro
  all_goals exact ⟨_, rfl, by decide⟩
/-- The buffers stretch `C2` writes. -/
def wC2 : List (Ref sig .tc) := [main_c_25, main_v100, main_v101, main_c_26, main_v102, main_v103, main_c_27, main_v104, main_v105, main_v106, main_v107, main_v108]
theorem C2_writes : (C2 : List (HloOp τ sig (Elt F))).Forall (WritesIn wC2) := by
  unfold C2
  repeat' apply And.intro
  all_goals exact ⟨_, rfl, by decide⟩
/-- The buffers stretch `C3` writes. -/
def wC3 : List (Ref sig .tc) := [main_c_28, main_v109, main_v110, main_v111, main_c_29, main_call8.v0.ref, main_call8.v1.ref, main_call8.v2.ref, main_c_30, main_v113, main_c_31, main_v114, main_v115, main_c_32, main_v116, main_v117, main_v118, main_v119, main_v120]
theorem C3_writes : (C3 : List (HloOp τ sig (Elt F))).Forall (WritesIn wC3) := by
  unfold C3
  repeat' apply And.intro
  all_goals exact ⟨_, rfl, by decide⟩
/-- The buffers stretch `C4` writes. -/
def wC4 : List (Ref sig .tc) := [main_v121, main_c_33, main_v122, main_c_34, main_v123]
theorem C4_writes : (C4 : List (HloOp τ sig (Elt F))).Forall (WritesIn wC4) := by
  unfold C4
  repeat' apply And.intro
  all_goals exact ⟨_, rfl, by decide⟩

end Stretches

-- the host operations are compared as they are spelt, never through their definitions
attribute [local irreducible] Host.sort2 Host.gather Host.scatter Host.reduceWindow Host.reduce broadcastInDim constantI
  iotaInDim cmpi addi subi select andi extui concatenate extractStridedSlice minsi

section ReadsB

variable (W : Valuation τ sig (Elt Ideal))

/-- The run number: the running count of the run starts as words, minus one. -/
theorem B1_v72 : StableHlo.after B1 W (Proc.devRef .tc main_v72)
    = subi (Host.reduceWindow IntOp.addi ![4000000] ![1] ![3999999] ![0] (W (Proc.devRef .tc main_v69))
        (broadcastInDim S_ ![] bcast_S_S_ (constantI S_ 32 0#32)) reduceWindows_S4000000_S4000000_w4000000s1p3999999_0 h_S_) (Pipe.kconst 1#32) := by
  unfold B1
  after_results_simp
  rfl

/-- The place within the run: the position minus the running maximum of the run starts' positions. -/
theorem B1_v76 : StableHlo.after B1 W (Proc.devRef .tc main_v76)
    = subi Pipe.iota (Host.reduceWindow IntOp.maxsi ![4000000] ![1] ![3999999] ![0] (select (W (Proc.devRef .tc main_v68)) Pipe.iota (Pipe.kconst 0#32))
        (broadcastInDim S_ ![] bcast_S_S_ (constantI S_ 32 2147483648#32)) reduceWindows_S4000000_S4000000_w4000000s1p3999999_0 h_S_) := by
  unfold B1
  after_results_simp
  rfl

/-- The kept positions: valid, run number below 20000, place below 5. -/
theorem B2_v82 : StableHlo.after B2 W (Proc.devRef .tc main_v82) = (andi (andi (W (Proc.devRef .tc main_v62)) (cmpi .slt (W (Proc.devRef .tc main_v72)) (Pipe.kconst 20000#32))) (cmpi .slt (W (Proc.devRef .tc main_v76)) (Pipe.kconst 5#32))) := by
  unfold B2
  after_results_simp
  rfl

/-- The run index a kept position is written at (20000 otherwise). -/
theorem B2_v83 : StableHlo.after B2 W (Proc.devRef .tc main_v83) = select (andi (andi (W (Proc.devRef .tc main_v62)) (cmpi .slt (W (Proc.devRef .tc main_v72)) (Pipe.kconst 20000#32))) (cmpi .slt (W (Proc.devRef .tc main_v76)) (Pipe.kconst 5#32))) (W (Proc.devRef .tc main_v72)) (Pipe.kconst 20000#32) := by
  unfold B2
  after_results_simp
  rfl

/-- The place a kept position is written at (0 otherwise). -/
theorem B2_v84 : StableHlo.after B2 W (Proc.devRef .tc main_v84) = select (andi (andi (W (Proc.devRef .tc main_v62)) (cmpi .slt (W (Proc.devRef .tc main_v72)) (Pipe.kconst 20000#32))) (cmpi .slt (W (Proc.devRef .tc main_v76)) (Pipe.kconst 5#32))) (W (Proc.devRef .tc main_v76)) (Pipe.kconst 0#32) := by
  unfold B2
  after_results_simp
  rfl

variable (k : Pipe.KV)

/-! ## The second stretch, whole, from what the run-start buffers hold -/

theorem r2_vid (hsv : W (Proc.devRef .tc main_v62) = Pipe.sv k) (hnv : W (Proc.devRef .tc main_v68) = Pipe.newv k)
    (hnv32 : W (Proc.devRef .tc main_v69) = extui 32 (Pipe.newv k) natLt_1_32) :
    StableHlo.after (HR.opsR2 (F := Ideal)) W (Proc.devRef .tc main_v72) = Pipe.vid k := by
  rw [opsR2_eq]
  simp only [StableHlo.after_append]
  rw [carry B2_writes _ _ (by decide), B1_v72, hnv32]
  rfl

theorem r2_rank (hsv : W (Proc.devRef .tc main_v62) = Pipe.sv k) (hnv : W (Proc.devRef .tc main_v68) = Pipe.newv k)
    (hnv32 : W (Proc.devRef .tc main_v69) = extui 32 (Pipe.newv k) natLt_1_32) :
    StableHlo.after (HR.opsR2 (F := Ideal)) W (Proc.devRef .tc main_v76) = Pipe.rank k := by
  rw [opsR2_eq]
  simp only [StableHlo.after_append]
  rw [carry B2_writes _ _ (by decide), B1_v76, hnv]
  rfl

theorem r2_wm (hsv : W (Proc.devRef .tc main_v62) = Pipe.sv k) (hnv : W (Proc.devRef .tc main_v68) = Pipe.newv k)
    (hnv32 : W (Proc.devRef .tc main_v69) = extui 32 (Pipe.newv k) natLt_1_32) :
    StableHlo.after (HR.opsR2 (F := Ideal)) W (Proc.devRef .tc main_v82) = Pipe.wm k := by
  rw [opsR2_eq]
  simp only [StableHlo.after_append]
  rw [B2_v82, carry B1_writes _ _ (by decide), B1_v72, B1_v76, hsv, hnv, hnv32]
  rfl

theorem r2_vi (hsv : W (Proc.devRef .tc main_v62) = Pipe.sv k) (hnv : W (Proc.devRef .tc main_v68) = Pipe.newv k)
    (hnv32 : W (Proc.devRef .tc main_v69) = extui 32 (Pipe.newv k) natLt_1_32) :
    StableHlo.after (HR.opsR2 (F := Ideal)) W (Proc.devRef .tc main_v83) = Pipe.vi k := by
  rw [opsR2_eq]
  simp only [StableHlo.after_append]
  rw [B2_v83, carry B1_writes _ _ (by decide), B1_v72, B1_v76, hsv, hnv, hnv32]
  rfl

theorem r2_ri (hsv : W (Proc.devRef .tc main_v62) = Pipe.sv k) (hnv : W (Proc.devRef .tc main_v68) = Pipe.newv k)
    (hnv32 : W (Proc.devRef .tc main_v69) = extui 32 (Pipe.newv k) natLt_1_32) :
    StableHlo.after (HR.opsR2 (F := Ideal)) W (Proc.devRef .tc main_v84) = Pipe.ri k := by
  rw [opsR2_eq]
  simp only [StableHlo.after_append]
  rw [B2_v84, carry B1_writes _ _ (by decide), B1_v72, B1_v76, hsv, hnv, hnv32]
  rfl

/-- A buffer neither piece writes is carried across the stretch. -/
theorem r2_keep (r : Ref sig .tc) (h : r ∉ wB1 ++ wB2) :
    StableHlo.after (HR.opsR2 (F := Ideal)) W (Proc.devRef .tc r) = W (Proc.devRef .tc r) := by
  rw [opsR2_eq, StableHlo.after_append,
    carry B2_writes _ _ (fun h' => h (List.mem_append_right _ h')), carry B1_writes _ _ (fun h' => h (List.mem_append_left _ h'))]

end ReadsB

section Reads

variable (W : Valuation τ sig (Elt Ideal))

/-! ## The last four stretches, each over the contents it finds -/

/-- The point table: the sorted points scattered at the wrapped (run, place) indices. -/
theorem C1_v99 : StableHlo.after C1 W (Proc.devRef .tc main_v99)
    = Host.scatter scatter_S20000x5x4_S4000000x2_S4000000x4_1_01_01_1 (fun _ b => b)
        (broadcastInDim S20000x5x4 ![] bcast_S_S20000x5x4 (constant (F := Ideal) S_ .f32 0x00000000#32))
        (concatenate S4000000x2 1 [⟨S4000000x1, Pipe.col (Pipe.wrap (W (Proc.devRef .tc main_v83)) 20000#32)⟩,
            ⟨S4000000x1, Pipe.col (Pipe.wrap (W (Proc.devRef .tc main_v84)) 5#32)⟩]
          concatenates_S4000000x1_S4000000x1_S4000000x2_d1)
        (W (Proc.devRef .tc main_v53)) := by
  unfold C1
  after_results_simp
  rfl

/-- The counts: the kept positions as words, added at the wrapped run index. -/
theorem C2_v108 : StableHlo.after C2 W (Proc.devRef .tc main_v108)
    = Host.scatter scatter_S20000_S4000000x1_S4000000_n_0_0_1 IntOp.addi
        (broadcastInDim S20000 ![] bcast_S_S20000 (constantI S_ 32 0#32))
        (Pipe.col (Pipe.wrap (W (Proc.devRef .tc main_v83)) 20000#32))
        (extui 32 (W (Proc.devRef .tc main_v82)) natLt_1_32) := by
  unfold C2
  after_results_simp
  rfl

/-- The cell triples: the sorted cell triples scattered at the wrapped run index of each run start. -/
theorem C3_v120 : StableHlo.after C3 W (Proc.devRef .tc main_v120)
    = Host.scatter scatter_S20000x3_S4000000x1_S4000000x3_1_0_0_1 (fun _ b => b)
        (broadcastInDim S20000x3 ![] bcast_S_S20000x3 (constantI S_ 32 0#32))
        (Pipe.col (Pipe.wrap (select (andi (W (Proc.devRef .tc main_v68))
            (cmpi .slt (W (Proc.devRef .tc main_v72)) (Pipe.kconst 20000#32)))
          (W (Proc.devRef .tc main_v72)) (Pipe.kconst 20000#32)) 20000#32))
        (W (Proc.devRef .tc main_v60)) := by
  unfold C3
  after_results_simp
  rfl

/-- The number of runs, capped. -/
theorem C4_v123 : StableHlo.after C4 W (Proc.devRef .tc main_v123)
    = minsi (Host.reduce IntOp.addi (extui 32 (W (Proc.devRef .tc main_v68)) natLt_1_32) (constantI S_ 32 0#32)
        reducesTo_S4000000_S_d0 h_S_) (constantI S_ 32 20000#32) := by
  unfold C4
  after_results_simp

end Reads

section Last

variable (W : Valuation τ sig (Elt Ideal)) (k : Pipe.KV)

/-! ## The last stretch of the program, from what the bookkeeping buffers hold -/

/-- The point table, given the two scatter indices and the sorted points. -/
theorem r3_vox (pts : FVec Ideal S4000000x4 .f32)
    (hvi : W (Proc.devRef .tc main_v83) = Pipe.vi k) (hri : W (Proc.devRef .tc main_v84) = Pipe.ri k)
    (hsp : W (Proc.devRef .tc main_v53) = Host.gather gather_S4000000x4_S4000000x1_S4000000x4_1_0_n_n_0_1_14 pts (Pipe.col (Pipe.ordN k))) :
    StableHlo.after (HR.opsR3 (F := Ideal)) W (Proc.devRef .tc main_v99) = Pipe.vox pts k := by
  rw [opsR3_eq]
  simp only [StableHlo.after_append]
  rw [carry C4_writes _ _ (by decide), carry C3_writes _ _ (by decide), carry C2_writes _ _ (by decide), C1_v99, hvi, hri, hsp]
  rfl

/-- The counts, given the run index and the kept positions. -/
theorem r3_num (hvi : W (Proc.devRef .tc main_v83) = Pipe.vi k) (hwm : W (Proc.devRef .tc main_v82) = Pipe.wm k) :
    StableHlo.after (HR.opsR3 (F := Ideal)) W (Proc.devRef .tc main_v108) = Pipe.num k := by
  rw [opsR3_eq]
  simp only [StableHlo.after_append]
  rw [carry C4_writes _ _ (by decide), carry C3_writes _ _ (by decide), C2_v108,
    carry C1_writes _ _ (by decide), carry C1_writes _ _ (by decide), hvi, hwm]
  rfl

/-- The cell triples, given the run starts, the run numbers and the sorted cell triples. -/
theorem r3_coors (cells : IVec S4000000x3 32)
    (hnv : W (Proc.devRef .tc main_v68) = Pipe.newv k) (hvid : W (Proc.devRef .tc main_v72) = Pipe.vid k)
    (hsc : W (Proc.devRef .tc main_v60) = Host.gather gather_S4000000x3_S4000000x1_S4000000x3_1_0_n_n_0_1_13 cells (Pipe.col (Pipe.ordN k))) :
    StableHlo.after (HR.opsR3 (F := Ideal)) W (Proc.devRef .tc main_v120) = Pipe.coors cells k := by
  rw [opsR3_eq]
  simp only [StableHlo.after_append]
  rw [carry C4_writes _ _ (by decide), C3_v120,
    carry C2_writes _ _ (by decide), carry C2_writes _ _ (by decide), carry C2_writes _ _ (by decide),
    carry C1_writes _ _ (by decide), carry C1_writes _ _ (by decide), carry C1_writes _ _ (by decide), hnv, hvid, hsc]
  rfl

/-- The number of runs, given the run starts. -/
theorem r3_vnum (hnv : W (Proc.devRef .tc main_v68) = Pipe.newv k) :
    StableHlo.after (HR.opsR3 (F := Ideal)) W (Proc.devRef .tc main_v123) = Pipe.vnum k := by
  rw [opsR3_eq]
  simp only [StableHlo.after_append]
  rw [C4_v123, carry C3_writes _ _ (by decide), carry C2_writes _ _ (by decide), carry C1_writes _ _ (by decide), hnv]
  rfl

end Last

section Whole

variable (W : Valuation τ sig (Elt Ideal))

/-! ## The program after the keys, whole -/

/-- The program after the keys is its three stretches run one after the other. -/
theorem after_opsPost : StableHlo.after opsPost W
    = StableHlo.after (HR.opsR3 (F := Ideal)) (StableHlo.after (HR.opsR2 (F := Ideal)) (StableHlo.after (HR.opsR1 (F := Ideal)) W)) := by
  show StableHlo.after (HR.opsR1 ++ HR.opsR2 ++ HR.opsR3) W = _
  rw [StableHlo.after_append, StableHlo.after_append]

/-- The point table is the bookkeeping's, of the points and the keys the stretch finds. -/
theorem vox_read : StableHlo.after opsPost W (Proc.devRef .tc main_v99)
    = Cert.Vox.Pipe.vox (W (Proc.devRef .tc main_arg0)) (W (Proc.devRef .tc main_v38)) := by
  rw [after_opsPost]
  exact r3_vox _ _ _
    (r2_vi _ _ (HP1.r1_sv W) (HP1.r1_newv W) (HP1.r1_newv32 W))
    (r2_ri _ _ (HP1.r1_sv W) (HP1.r1_newv W) (HP1.r1_newv32 W))
    ((r2_keep _ main_v53 (by decide)).trans (HP1.r1_spts W))

/-- The cell triples are the bookkeeping's, of the cell triples and the keys the stretch finds. -/
theorem coors_read : StableHlo.after opsPost W (Proc.devRef .tc main_v120)
    = Cert.Vox.Pipe.coors (W (Proc.devRef .tc main_v21)) (W (Proc.devRef .tc main_v38)) := by
  rw [after_opsPost]
  exact r3_coors _ _ _
    ((r2_keep _ main_v68 (by decide)).trans (HP1.r1_newv W))
    (r2_vid _ _ (HP1.r1_sv W) (HP1.r1_newv W) (HP1.r1_newv32 W))
    ((r2_keep _ main_v60 (by decide)).trans (HP1.r1_scells W))

/-- The counts are the bookkeeping's, of the keys the stretch finds. -/
theorem num_read : StableHlo.after opsPost W (Proc.devRef .tc main_v108)
    = Cert.Vox.Pipe.num (W (Proc.devRef .tc main_v38)) := by
  rw [after_opsPost]
  exact r3_num _ _
    (r2_vi _ _ (HP1.r1_sv W) (HP1.r1_newv W) (HP1.r1_newv32 W))
    (r2_wm _ _ (HP1.r1_sv W) (HP1.r1_newv W) (HP1.r1_newv32 W))

/-- The number of runs is the bookkeeping's, of the keys the stretch finds. -/
theorem vnum_read : StableHlo.after opsPost W (Proc.devRef .tc main_v123)
    = Cert.Vox.Pipe.vnum (W (Proc.devRef .tc main_v38)) := by
  rw [after_opsPost]
  exact r3_vnum _ _ ((r2_keep _ main_v68 (by decide)).trans (HP1.r1_newv W))

end Whole

end Cert.ReferenceIdeal.HP

end
-- ==== Proof.RAll.lean ====
/-
  The reference program's four results as functions of the points, at the ideal instance: its first operations
  compute the key and the cell triple of every point, the rest is the pipeline's specification itself.
-/
import proofs.«166804_j37915971289632_2_alg».proof.Proof.RRun
import proofs.«166804_j37915971289632_2_alg».proof.Proof.RKeys
import proofs.«166804_j37915971289632_2_alg».proof.Proof.RPipe
import Idealize.ShloMosaic.Lib.Pipeline.Frame

noncomputable section

namespace Cert.ReferenceIdeal.HA

open Idealize.ShloMosaic Idealize.ShloMosaic.TcCoe Idealize.SL.Sem
open Cert.ReferenceIdeal

/-- The whole program is its key computation followed by the pipeline. -/
theorem ops_split : (HR.ops (F := Ideal)) = HR.opsR0 ++ HP.opsPost := by
  simp only [HR.ops, HP.opsPost, List.append_assoc]

/-- The four results from any starting contents. -/
theorem results (W : Valuation τ sig (Elt Ideal)) :
    StableHlo.after (HR.ops (F := Ideal)) W (Proc.devRef .tc main_v99)
        = Cert.Vox.Pipe.vox (W (Proc.devRef .tc main_arg0)) (Cert.Vox.keys (W (Proc.devRef .tc main_arg0)))
    ∧ StableHlo.after (HR.ops (F := Ideal)) W (Proc.devRef .tc main_v120)
        = Cert.Vox.Pipe.coors (Cert.Vox.cells (W (Proc.devRef .tc main_arg0))) (Cert.Vox.keys (W (Proc.devRef .tc main_arg0)))
    ∧ StableHlo.after (HR.ops (F := Ideal)) W (Proc.devRef .tc main_v108) = Cert.Vox.Pipe.num (Cert.Vox.keys (W (Proc.devRef .tc main_arg0)))
    ∧ StableHlo.after (HR.ops (F := Ideal)) W (Proc.devRef .tc main_v123) = Cert.Vox.Pipe.vnum (Cert.Vox.keys (W (Proc.devRef .tc main_arg0))) := by
  rw [ops_split, StableHlo.after_append]
  refine ⟨?_, ?_, ?_, ?_⟩
  · rw [HP.vox_read, HK.arg0_read, HK.keys_read]
  · rw [HP.coors_read, HK.cells_read, HK.keys_read]
  · rw [HP.num_read, HK.keys_read]
  · rw [HP.vnum_read, HK.keys_read]

/-- The reference program's run with its four results named. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v99) = Cert.Vox.Pipe.vox (m ((c.tc : Thread nD τ).loc main_arg0)) (Cert.Vox.keys (m ((c.tc : Thread nD τ).loc main_arg0)))
      ∧ r.2.mem ((c.tc : Thread nD τ).loc main_v120) = Cert.Vox.Pipe.coors (Cert.Vox.cells (m ((c.tc : Thread nD τ).loc main_arg0))) (Cert.Vox.keys (m ((c.tc : Thread nD τ).loc main_arg0)))
      ∧ r.2.mem ((c.tc : Thread nD τ).loc main_v108) = Cert.Vox.Pipe.num (Cert.Vox.keys (m ((c.tc : Thread nD τ).loc main_arg0)))
      ∧ r.2.mem ((c.tc : Thread nD τ).loc main_v123) = Cert.Vox.Pipe.vnum (Cert.Vox.keys (m ((c.tc : Thread nD τ).loc main_arg0)))
      ∧ r.2.mem ((c.tc : Thread nD τ).loc main_arg0) = m ((c.tc : Thread nD τ).loc main_arg0)) :=
  (θ_run defs _ _).mono (fun _ h c =>
    ⟨(h c main_v99).trans (results (StableHlo.launchContents m c)).1,
     (h c main_v120).trans (results (StableHlo.launchContents m c)).2.1,
     (h c main_v108).trans (results (StableHlo.launchContents m c)).2.2.1,
     (h c main_v123).trans (results (StableHlo.launchContents m c)).2.2.2,
     (h c main_arg0).trans (HR.arg0_kept (StableHlo.launchContents m c))⟩)
    (HR.run_all m ρ)

end Cert.ReferenceIdeal.HA

end
-- ==== Proof.lean ====
/-
  The certificate of the voxelization kernel against its reference, over the extended reals.

  Both programs compute, per point, whether it lies in the box, its cell on each axis and the cell triple's
  linearised key (the sentinel outside the box); sort the keys stably; number the voxels in sorted order and the
  points within each voxel; and fill, for at most 20000 voxels of at most 5 points each, the voxel's points, its cell
  triple, its number of kept points, and the number of voxels. The kernel program computes the keys in a Pallas
  kernel over a transposed copy of the points (25 tiles of 160000 points), decodes the cell triples from the sorted
  keys by integer division instead of gathering them, and gathers only the kept points through a table of their
  original indices masked by a table of written slots; the reference gathers all sorted points and cell triples and
  scatters them. On the extended reals the two agree element by element: the keys are one function of the points;
  a scattered row matters only where it lands, and it lands only at a voxel's first point, whose key is below the
  sentinel and therefore decodes to its own cell triple; a slot of the point table holds the point whose index the
  last landing position wrote, times one, or nothing landed and it holds zero.
-/
import proofs.«166804_j37915971289632_2_alg».proof.Defs
import proofs.«166804_j37915971289632_2_alg».proof.Proof.Gen.Kernel
import proofs.«166804_j37915971289632_2_alg».proof.Proof.Gen.KernelIdeal
import proofs.«166804_j37915971289632_2_alg».proof.Proof.Gen.ReferenceIdeal
import proofs.«166804_j37915971289632_2_alg».proof.Proof.Gen.Pre_finite_inputs
import proofs.«166804_j37915971289632_2_alg».proof.Proof.KFrame
import proofs.«166804_j37915971289632_2_alg».proof.Proof.KIFrame
import proofs.«166804_j37915971289632_2_alg».proof.Proof.KAll
import proofs.«166804_j37915971289632_2_alg».proof.Proof.RAll
import Idealize.ShloMosaic.Adequacy
import Idealize.ShloMosaic.Init

noncomputable section

namespace Cert.Proof

open Idealize.ShloMosaic Idealize.SL.Sem

/-- The word-level kernel program runs and leaves the points unchanged. -/
theorem frame_k : Cert.frame_Kernel := fun m ρ _ => Cert.Kernel.HF.frame (F := Bits) m ρ
/-- So does its reading on the extended reals. -/
theorem frame_ki : Cert.frame_KernelIdeal := fun m ρ _ => Cert.KernelIdeal.HF.frame (F := Ideal) m ρ
/-- And the reference. -/
theorem frame_ri : Cert.frame_ReferenceIdeal := fun m ρ _ => Cert.ReferenceIdeal.HR.frame (F := Ideal) m ρ

/-- From the same points both programs end with the same four results: each is the pipeline's specification at the
    specification's keys of the points. -/
theorem algebraic : Cert.algebraic_KernelIdeal_ReferenceIdeal := by
  intro m ρ m' ρ' _ hagree
  refine ⟨_, _, _, _, Cert.KernelIdeal.HA.run m ρ, ?_⟩
  refine (θ_run Cert.ReferenceIdeal.defs _ _).mono (fun r h c => ?_) (Cert.ReferenceIdeal.HA.run m' ρ')
  obtain ⟨h0, h1, h2, h3, h4⟩ := h c
  rw [hagree c] at h0 h1 h2 h3
  exact ⟨h0, h1, h2, h3, h4⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
